-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S4096x4096 : Shape := ⟨2, ![4096, 4096]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S8x4096x64 .f32) (main_arg1 : FVec F S4096x4096 .f32) (main_arg2 : FVec F S128x64 .f32) (main_arg3 : FVec F S128 .f32) (main_arg4 : FVec F S64x128 .f32) (main_arg5 : FVec F S64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8x4096x64 : Shape := ⟨3, ![8, 4096, 64]⟩
abbrev S4096x4096 : Shape := ⟨2, ![4096, 4096]⟩
abbrev S128x64 : Shape := ⟨2, ![128, 64]⟩
abbrev S128 : Shape := ⟨1, ![128]⟩
abbrev S64x128 : Shape := ⟨2, ![64, 128]⟩
abbrev S64 : Shape := ⟨1, ![64]⟩
abbrev S8x4096x128 : Shape := ⟨3, ![8, 4096, 128]⟩
abbrev S8x1024x64 : Shape := ⟨3, ![8, 1024, 64]⟩
abbrev S8x1024x128 : Shape := ⟨3, ![8, 1024, 128]⟩
abbrev S8192x64 : Shape := ⟨2, ![8192, 64]⟩
abbrev S8192x128 : Shape := ⟨2, ![8192, 128]⟩
abbrev S1x1x128 : Shape := ⟨3, ![1, 1, 128]⟩
abbrev S8x512x128 : Shape := ⟨3, ![8, 512, 128]⟩
abbrev S512x256 : Shape := ⟨2, ![512, 256]⟩
abbrev S8x512x1 : Shape := ⟨3, ![8, 512, 1]⟩
abbrev S8x256x128 : Shape := ⟨3, ![8, 256, 128]⟩
abbrev S8x512x256 : Shape := ⟨3, ![8, 512, 256]⟩
abbrev S1x512x256 : Shape := ⟨3, ![1, 512, 256]⟩
abbrev S8x512 : Shape := ⟨2, ![8, 512]⟩
abbrev S1x1x64 : Shape := ⟨3, ![1, 1, 64]⟩
abbrev S8x512x64 : Shape := ⟨3, ![8, 512, 64]⟩
abbrev S8x256x64 : Shape := ⟨3, ![8, 256, 64]⟩
abbrev S8x4096x1x64 : Shape := ⟨4, ![8, 4096, 1, 64]⟩

abbrev nBuf : Space → Nat
  | .hbm => 13
  | .vmem => 32
  | .smem => 0
  | _ => 0

abbrev bufTy : (tb : Table) → Fin (tcTables nBuf tb) → BufTy
  | .hbm, ⟨0, _⟩ => ⟨S8x4096x64, .f32⟩
  | .hbm, ⟨1, _⟩ => ⟨S4096x4096, .f32⟩
  | .hbm, ⟨2, _⟩ => ⟨S128x64, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S8x4096x128, .bf16⟩
  | .hbm, ⟨7, _⟩ => ⟨S1x1x128, .f32⟩
  | .hbm, ⟨8, _⟩ => ⟨S8x4096x128, .bf16⟩
  | .hbm, ⟨9, _⟩ => ⟨S8x4096x64, .bf16⟩
  | .hbm, ⟨10, _⟩ => ⟨S1x1x64, .f32⟩
  | .hbm, ⟨11, _⟩ => ⟨S8x4096x64, .f32⟩
  | .hbm, ⟨12, _⟩ => ⟨S8x4096x1x64, .f32⟩
  | .local _ .vmem, ⟨0, _⟩ => ⟨S8x1024x64, .f32⟩
  | .local _ .vmem, ⟨1, _⟩ => ⟨S8x1024x64, .f32⟩
  | .local _ .vmem, ⟨2, _⟩ => ⟨S128x64, .f32⟩
  | .local _ .vmem, ⟨3, _⟩ => ⟨S8x1024x128, .bf16⟩
  | .local _ .vmem, ⟨4, _⟩ => ⟨S8x1024x128, .bf16⟩
  | .local _ .vmem, ⟨5, _⟩ => ⟨S8x512x128, .bf16⟩
  | .local _ .vmem, ⟨6, _⟩ => ⟨S8x512x128, .bf16⟩
  | .local _ .vmem, ⟨7, _⟩ => ⟨S8x4096x128, .bf16⟩
  | .local _ .vmem, ⟨8, _⟩ => ⟨S512x256, .f32⟩
  | .local _ .vmem, ⟨9, _⟩ => ⟨S512x256, .f32⟩
  | .local _ .vmem, ⟨10, _⟩ => ⟨S1x1x128, .f32⟩
  | .local _ .vmem, ⟨11, _⟩ => ⟨S8x512x128, .bf16⟩
  | .local _ .vmem, ⟨12, _⟩ => ⟨S8x512x128, .bf16⟩
  | .local _ .vmem, ⟨13, _⟩ => ⟨S8x512x1, .f32⟩
  | .local _ .vmem, ⟨14, _⟩ => ⟨S8x512x1, .f32⟩
  | .local _ .vmem, ⟨15, _⟩ => ⟨S8x512x128, .f32⟩
  | .local _ .vmem, ⟨16, _⟩ => ⟨S8x1024x128, .bf16⟩
  | .local _ .vmem, ⟨17, _⟩ => ⟨S8x1024x128, .bf16⟩
  | .local _ .vmem, ⟨18, _⟩ => ⟨S64x128, .f32⟩
  | .local _ .vmem, ⟨19, _⟩ => ⟨S8x1024x64, .bf16⟩
  | .local _ .vmem, ⟨20, _⟩ => ⟨S8x1024x64, .bf16⟩
  | .local _ .vmem, ⟨21, _⟩ => ⟨S8x512x64, .bf16⟩
  | .local _ .vmem, ⟨22, _⟩ => ⟨S8x512x64, .bf16⟩
  | .local _ .vmem, ⟨23, _⟩ => ⟨S8x4096x64, .bf16⟩
  | .local _ .vmem, ⟨24, _⟩ => ⟨S512x256, .f32⟩
  | .local _ .vmem, ⟨25, _⟩ => ⟨S512x256, .f32⟩
  | .local _ .vmem, ⟨26, _⟩ => ⟨S1x1x64, .f32⟩
  | .local _ .vmem, ⟨27, _⟩ => ⟨S8x512x64, .f32⟩
  | .local _ .vmem, ⟨28, _⟩ => ⟨S8x512x64, .f32⟩
  | .local _ .vmem, ⟨29, _⟩ => ⟨S8x512x1, .f32⟩
  | .local _ .vmem, ⟨30, _⟩ => ⟨S8x512x1, .f32⟩
  | .local _ .vmem, ⟨31, _⟩ => ⟨S8x512x64, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc3_scratch0 : Ref sig .tc := ⟨.vmem, 29, rfl⟩
abbrev cc3_scratch1 : Ref sig .tc := ⟨.vmem, 30, rfl⟩
abbrev cc3_scratch2 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem4_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c256_i32 : BitVec 32 := 256#32
  let v5 : BitVec 32 := Scalar.muli arg1 c256_i32
  v5
def k1_off1 (i : grid1.Coords) : Fin 3 → Nat :=
  let c0_3 : Index := 0#32
  let arg1 : BitVec 32 := BitVec.ofNat 32 (i 1).val
  let c256_i32 : BitVec 32 := 256#32
  let v5 : BitVec 32 := Scalar.muli arg1 c256_i32
  let v6 : BitVec 32 := v5
  let v7 : Index := Scalar.indexCast v6
  let c0_4 : Index := 0#32
  ![0, v7.toNat, 0]
def k1_cond2 (i : grid1.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_33 : BitVec 32 := 0#32
  let v51 : BitVec 1 := Scalar.cmpi .ne v50 c0_i32_33
  v51

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8x4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S8x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S8x1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8x1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 16], ![false, false]⟩

def k3_mult1 (i : grid3.Coords) : BitVec 32 :=
  let arg1 : BitVec 32 := BitVec.ofNat 32 (i 1).val
  let c256_i32 : BitVec 32 := 256#32
  let v5 : BitVec 32 := Scalar.muli arg1 c256_i32
  v5
def k3_off1 (i : grid3.Coords) : Fin 3 → Nat :=
  let c0_3 : Index := 0#32
  let arg1 : BitVec 32 := BitVec.ofNat 32 (i 1).val
  let c256_i32 : BitVec 32 := 256#32
  let v5 : BitVec 32 := Scalar.muli arg1 c256_i32
  let v6 : BitVec 32 := v5
  let v7 : Index := Scalar.indexCast v6
  let c0_4 : Index := 0#32
  ![0, v7.toNat, 0]
def k3_cond2 (i : grid3.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_33 : BitVec 32 := 0#32
  let v51 : BitVec 1 := Scalar.cmpi .ne v50 c0_i32_33
  v51

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S8x4096x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S1x1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S8x512x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  inb_S8x1024x64_S8x1024x64_0_0_0 : ∀ a, (![0, 0, 0] : Fin 3 → Nat) a + S8x1024x64.size a ≤ S8x1024x64.size a
  h_S8x1024x64 : 0 < S8x1024x64.numel
  bitsLt_bf16_f32 : FTy.bits .bf16 < FTy.bits .f32
  shapeCasts_S8x1024x64_S8192x64 : S8x1024x64.ShapeCasts S8192x64
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  shapeCasts_S8192x128_S8x1024x128 : S8192x128.ShapeCasts S8x1024x128
  inb_S8x1024x128_S8x1024x128_0_0_0 : ∀ a, (![0, 0, 0] : Fin 3 → Nat) a + S8x1024x128.size a ≤ S8x1024x128.size a
  h_S8x1024x128 : 0 < S8x1024x128.numel
  packedbf16_S8x1024x128_S8x1024x128_0_0_0 : (Rect.unit (s := S8x1024x128) ![0, 0, 0] S8x1024x128.size inb_S8x1024x128_S8x1024x128_0_0_0).PackedRows (EltTy.packing .bf16)
  shapeCasts_S128_S1x1x128 : S128.ShapeCasts S1x1x128
  inb_S8x512x1_S8x512x1_0_0_0 : ∀ a, (![0, 0, 0] : Fin 3 → Nat) a + S8x512x1.size a ≤ S8x512x1.size a
  h_S8x512x1 : 0 < S8x512x1.numel
  shapeCasts_S8x512x1_S8x512x1 : S8x512x1.ShapeCasts S8x512x1
  inb_S8x512x128_S8x512x128_0_0_0 : ∀ a, (![0, 0, 0] : Fin 3 → Nat) a + S8x512x128.size a ≤ S8x512x128.size a
  h_S8x512x128 : 0 < S8x512x128.numel
  shapeCasts_S8x512x128_S8x512x128 : S8x512x128.ShapeCasts S8x512x128
  h_S8x256x128 : 0 < S8x256x128.numel
  shapeCasts_S8x256x128_S8x256x128 : S8x256x128.ShapeCasts S8x256x128
  inb_S512x256_S512x256_0_0 : ∀ a, (![0, 0] : Fin 2 → Nat) a + S512x256.size a ≤ S512x256.size a
  h_S512x256 : 0 < S512x256.numel
  shapeCasts_S512x256_S1x512x256 : S512x256.ShapeCasts S1x512x256
  broadcasts_S1x512x256_S8x512x256 : S1x512x256.Broadcasts S8x512x256
  reduces_S8x512x256_S8x512 : S8x512x256.Reduces [2] S8x512
  shapeCasts_S8x512_S8x512x1 : S8x512.ShapeCasts S8x512x1
  broadcasts_S8x512x1_S8x512x256 : S8x512x1.Broadcasts S8x512x256
  broadcasts_S8x512x1_S8x512x128 : S8x512x1.Broadcasts S8x512x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  broadcasts_S1x1x128_S8x512x128 : S1x1x128.Broadcasts S8x512x128
  packedbf16_S8x512x128_S8x512x128_0_0_0 : (Rect.unit (s := S8x512x128) ![0, 0, 0] S8x512x128.size inb_S8x512x128_S8x512x128_0_0_0).PackedRows (EltTy.packing .bf16)
  shapeCasts_S8x1024x128_S8x1024x128 : S8x1024x128.ShapeCasts S8x1024x128
  shapeCasts_S8x1024x128_S8192x128 : S8x1024x128.ShapeCasts S8192x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  shapeCasts_S8192x64_S8x1024x64 : S8192x64.ShapeCasts S8x1024x64
  packedbf16_S8x1024x64_S8x1024x64_0_0_0 : (Rect.unit (s := S8x1024x64) ![0, 0, 0] S8x1024x64.size inb_S8x1024x64_S8x1024x64_0_0_0).PackedRows (EltTy.packing .bf16)
  shapeCasts_S64_S1x1x64 : S64.ShapeCasts S1x1x64
  inb_S8x512x64_S8x512x64_0_0_0 : ∀ a, (![0, 0, 0] : Fin 3 → Nat) a + S8x512x64.size a ≤ S8x512x64.size a
  h_S8x512x64 : 0 < S8x512x64.numel
  shapeCasts_S8x512x64_S8x512x64 : S8x512x64.ShapeCasts S8x512x64
  h_S8x256x64 : 0 < S8x256x64.numel
  shapeCasts_S8x256x64_S8x256x64 : S8x256x64.ShapeCasts S8x256x64
  broadcasts_S8x512x1_S8x512x64 : S8x512x1.Broadcasts S8x512x64
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S8x512x64 : S1x1x64.Broadcasts S8x512x64
  bcast_S8x4096x64_S8x4096x1x64_0_1_3 : S8x4096x64.BroadcastsInDim S8x4096x1x64 (![0, 1, 3] : Fin 3 → Fin S8x4096x1x64.rank)
  dot_S8192x64_S64x128_S8192x128_1_0_0_1_n_n_wf : DotDims.WF S8192x64 S64x128 S8192x128 [1] [0] [0] [1] [] []
  dot_S8x512x128_S8x256x128_S8x512x256_2_2_1_1_0_0_wf : DotDims.WF S8x512x128 S8x256x128 S8x512x256 [2] [2] [1] [1] [0] [0]
  dot_S8x512x256_S8x256x128_S8x512x128_2_1_1_2_0_0_wf : DotDims.WF S8x512x256 S8x256x128 S8x512x128 [2] [1] [1] [2] [0] [0]
  dot_S8192x128_S128x64_S8192x64_1_0_0_1_n_n_wf : DotDims.WF S8192x128 S128x64 S8192x64 [1] [0] [0] [1] [] []
  dot_S8x512x64_S8x256x64_S8x512x256_2_2_1_1_0_0_wf : DotDims.WF S8x512x64 S8x256x64 S8x512x256 [2] [2] [1] [1] [0] [0]
  dot_S8x512x256_S8x256x64_S8x512x64_2_1_1_2_0_0_wf : DotDims.WF S8x512x256 S8x256x64 S8x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x64.size a ≤ S8x4096x64.size a
  hwx0_0 : ∀ i : grid0.Coords, EltTy.bits .f32 = 32 ∨ (Rect.block (s := S8x4096x64) S8x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024x128.size a ≤ S8x4096x128.size a
  hwx0_2 : ∀ i : grid0.Coords, EltTy.bits .bf16 = 32 ∨ (Rect.block (s := S8x4096x128) S8x1024x128.size (cc0_transform_2 i) (hinb0_2 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S8x256x128.size a ≤ S8x4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x128.size a ≤ S8x4096x128.size a
  hwx1_0 : ∀ i : grid1.Coords, EltTy.bits .bf16 = 32 ∨ (Rect.block (s := S8x4096x128) S8x512x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096x128.size a ≤ S8x4096x128.size a
  hwx1_1 : ∀ i : grid1.Coords, EltTy.bits .bf16 = 32 ∨ (Rect.block (s := S8x4096x128) S8x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S4096x4096.size a
  hwx1_2 : ∀ i : grid1.Coords, EltTy.bits .f32 = 32 ∨ (Rect.block (s := S4096x4096) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S1x1x128.size a
  hwx1_3 : ∀ i : grid1.Coords, EltTy.bits .f32 = 32 ∨ (Rect.block (s := S1x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x512x128.size a ≤ S8x4096x128.size a
  hwx1_4 : ∀ i : grid1.Coords, EltTy.bits .bf16 = 32 ∨ (Rect.block (s := S8x4096x128) S8x512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x1024x128.size a ≤ S8x4096x128.size a
  hwx2_0 : ∀ i : grid2.Coords, EltTy.bits .bf16 = 32 ∨ (Rect.block (s := S8x4096x128) S8x1024x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x1024x64.size a ≤ S8x4096x64.size a
  hwx2_2 : ∀ i : grid2.Coords, EltTy.bits .bf16 = 32 ∨ (Rect.block (s := S8x4096x64) S8x1024x64.size (cc2_transform_2 i) (hinb2_2 i)).WholeWords (EltTy.packing .bf16)
  hrank3 : 0 < grid3.rank
  k3_mult1_dvd : ∀ i : grid3.Coords, 256 ∣ (k3_mult1 i).toNat
  k3_off1_inb : ∀ i : grid3.Coords, ∀ a, (k3_off1 i) a + S8x256x64.size a ≤ S8x4096x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x512x64.size a ≤ S8x4096x64.size a
  hwx3_0 : ∀ i : grid3.Coords, EltTy.bits .bf16 = 32 ∨ (Rect.block (s := S8x4096x64) S8x512x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x4096x64.size a ≤ S8x4096x64.size a
  hwx3_1 : ∀ i : grid3.Coords, EltTy.bits .bf16 = 32 ∨ (Rect.block (s := S8x4096x64) S8x4096x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S4096x4096.size a
  hwx3_2 : ∀ i : grid3.Coords, EltTy.bits .f32 = 32 ∨ (Rect.block (s := S4096x4096) S512x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1x64.size a ≤ S1x1x64.size a
  hwx3_3 : ∀ i : grid3.Coords, EltTy.bits .f32 = 32 ∨ (Rect.block (s := S1x1x64) S1x1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8x512x64.size a ≤ S8x4096x64.size a
  hwx3_4 : ∀ i : grid3.Coords, EltTy.bits .f32 = 32 ∨ (Rect.block (s := S8x4096x64) S8x512x64.size (cc3_transform_4 i) (hinb3_4 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8x512x128_S8x256x128_S8x512x256_2_2_1_1_0_0 : DotDims S8x512x128 S8x256x128 S8x512x256 where
  lhsContracting := [2]
  rhsContracting := [2]
  lhsNonContracting := [1]
  rhsNonContracting := [1]
  lhsBatch := [0]
  rhsBatch := [0]
  wf := dot_S8x512x128_S8x256x128_S8x512x256_2_2_1_1_0_0_wf
def dot_S8x512x256_S8x256x128_S8x512x128_2_1_1_2_0_0 : DotDims S8x512x256 S8x256x128 S8x512x128 where
  lhsContracting := [2]
  rhsContracting := [1]
  lhsNonContracting := [1]
  rhsNonContracting := [2]
  lhsBatch := [0]
  rhsBatch := [0]
  wf := dot_S8x512x256_S8x256x128_S8x512x128_2_1_1_2_0_0_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8x512x64_S8x256x64_S8x512x256_2_2_1_1_0_0 : DotDims S8x512x64 S8x256x64 S8x512x256 where
  lhsContracting := [2]
  rhsContracting := [2]
  lhsNonContracting := [1]
  rhsNonContracting := [1]
  lhsBatch := [0]
  rhsBatch := [0]
  wf := dot_S8x512x64_S8x256x64_S8x512x256_2_2_1_1_0_0_wf
def dot_S8x512x256_S8x256x64_S8x512x64_2_1_1_2_0_0 : DotDims S8x512x256 S8x256x64 S8x512x64 where
  lhsContracting := [2]
  rhsContracting := [1]
  lhsNonContracting := [1]
  rhsNonContracting := [2]
  lhsBatch := [0]
  rhsBatch := [0]
  wf := dot_S8x512x256_S8x256x64_S8x512x64_2_1_1_2_0_0_wf

abbrev win0_0 : Pipeline.Window sig grid0 :=
  Pipeline.Window.ofSpec (Memref.whole main_arg0) S8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S8x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v2) S8x1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S8x1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3) S8x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S8x4096x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S512x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S8x512x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S8x4096x64 : Shape := ⟨3, ![8, 4096, 64]⟩
abbrev S4096x4096 : Shape := ⟨2, ![4096, 4096]⟩
abbrev S128x64 : Shape := ⟨2, ![128, 64]⟩
abbrev S128 : Shape := ⟨1, ![128]⟩
abbrev S64x128 : Shape := ⟨2, ![64, 128]⟩
abbrev S64 : Shape := ⟨1, ![64]⟩
abbrev S8x4096x128 : Shape := ⟨3, ![8, 4096, 128]⟩
abbrev S8x4096x4096 : Shape := ⟨3, ![8, 4096, 4096]⟩
abbrev S1x4096x4096 : Shape := ⟨3, ![1, 4096, 4096]⟩
abbrev S_ : Shape := ⟨0, ![]⟩
abbrev S8x4096 : Shape := ⟨2, ![8, 4096]⟩
abbrev S8x4096x1 : Shape := ⟨3, ![8, 4096, 1]⟩
abbrev S1x1x128 : Shape := ⟨3, ![1, 1, 128]⟩
abbrev S1x1x64 : Shape := ⟨3, ![1, 1, 64]⟩
abbrev S8x4096x1x64 : Shape := ⟨4, ![8, 4096, 1, 64]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S4096x4096, .f32⟩
  | .hbm, ⟨2, _⟩ => ⟨S128x64, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S8x4096x128, .f32⟩
  | .hbm, ⟨7, _⟩ => ⟨S8x4096x4096, .f32⟩
  | .hbm, ⟨8, _⟩ => ⟨S1x4096x4096, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .i1⟩
  | .hbm, ⟨14, _⟩ => ⟨S_, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x128, .f32⟩
  | .hbm, ⟨33, _⟩ => ⟨S1x1x128, .f32⟩
  | .hbm, ⟨34, _⟩ => ⟨S8x4096x128, .f32⟩
  | .hbm, ⟨35, _⟩ => ⟨S8x4096x128, .f32⟩
  | .hbm, ⟨36, _⟩ => ⟨S_, .f32⟩
  | .hbm, ⟨37, _⟩ => ⟨S8x4096x128, .f32⟩
  | .hbm, ⟨38, _⟩ => ⟨S8x4096x128, .f32⟩
  | .hbm, ⟨39, _⟩ => ⟨S8x4096x64, .f32⟩
  | .hbm, ⟨40, _⟩ => ⟨S8x4096x4096, .f32⟩
  | .hbm, ⟨41, _⟩ => ⟨S1x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096x4096, .f32⟩
  | .hbm, ⟨46, _⟩ => ⟨S8x4096x4096, .i1⟩
  | .hbm, ⟨47, _⟩ => ⟨S_, .f32⟩
  | .hbm, ⟨48, _⟩ => ⟨S_, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S_, .f32⟩
  | .hbm, ⟨54, _⟩ => ⟨S8x4096, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x64, .f32⟩
  | .hbm, ⟨66, _⟩ => ⟨S1x1x64, .f32⟩
  | .hbm, ⟨67, _⟩ => ⟨S8x4096x64, .f32⟩
  | .hbm, ⟨68, _⟩ => ⟨S8x4096x64, .f32⟩
  | .hbm, ⟨69, _⟩ => ⟨S8x4096x1x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_call2_v0 : Ref sig .tc := ⟨.hbm, 48, rfl⟩
abbrev main_call2_v1 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S128_S1x1x128_2 : S128.BroadcastsInDim S1x1x128 (![2] : Fin 1 → Fin S1x1x128.rank)
  bcast_S1x1x128_S8x4096x128_0_1_2 : S1x1x128.BroadcastsInDim S8x4096x128 (![0, 1, 2] : Fin 3 → Fin S8x4096x128.rank)
  bcast_S_S8x4096x128 : S_.BroadcastsInDim S8x4096x128 (![] : Fin 0 → Fin S8x4096x128.rank)
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S8x4096x64_S8x4096x1x64_0_1_3 : S8x4096x64.BroadcastsInDim S8x4096x1x64 (![0, 1, 3] : Fin 3 → Fin S8x4096x1x64.rank)
  dot_S8x4096x64_S128x64_S8x4096x128_2_1_01_0_n_n_wf : DotDims.WF S8x4096x64 S128x64 S8x4096x128 [2] [1] [0, 1] [0] [] []
  dot_S8x4096x128_S8x4096x128_S8x4096x4096_2_2_1_1_0_0_wf : DotDims.WF S8x4096x128 S8x4096x128 S8x4096x4096 [2] [2] [1] [1] [0] [0]
  dot_S8x4096x4096_S8x4096x128_S8x4096x128_2_1_1_2_0_0_wf : DotDims.WF S8x4096x4096 S8x4096x128 S8x4096x128 [2] [1] [1] [2] [0] [0]
  dot_S8x4096x128_S64x128_S8x4096x64_2_1_01_0_n_n_wf : DotDims.WF S8x4096x128 S64x128 S8x4096x64 [2] [1] [0, 1] [0] [] []
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x64_S128x64_S8x4096x128_2_1_01_0_n_n : DotDims S8x4096x64 S128x64 S8x4096x128 where
  lhsContracting := [2]
  rhsContracting := [1]
  lhsNonContracting := [0, 1]
  rhsNonContracting := [0]
  lhsBatch := []
  rhsBatch := []
  wf := dot_S8x4096x64_S128x64_S8x4096x128_2_1_01_0_n_n_wf
def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf
def dot_S8x4096x128_S64x128_S8x4096x64_2_1_01_0_n_n : DotDims S8x4096x128 S64x128 S8x4096x64 where
  lhsContracting := [2]
  rhsContracting := [1]
  lhsNonContracting := [0, 1]
  rhsNonContracting := [0]
  lhsBatch := []
  rhsBatch := []
  wf := dot_S8x4096x128_S64x128_S8x4096x64_2_1_01_0_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.LibRealValued.lean ====
/-
  Real-valued extended reals.

  An extended real is REAL when it is neither infinity. Finite float inputs are real entries; sums, differences,
  products, finite sums, maxima and exponentials of real entries are real, so every intermediate of a program built
  from those operations on finite inputs — a matrix product plus a bias, a score, a softmax weight — is real, and a
  whole array of real entries is the coercion of one real-valued function (`exists_real_fun`). This is what lets an
  identity proved over the reals (distributivity, cancelling a positive factor, exp of a sum) be used on the extended
  reals, where it fails at the infinities.
-/
import Idealize.ShloMosaic.PureOps.Ideal

noncomputable section

namespace Cert.Lib.RealValued

open Idealize.ShloMosaic

/-- `x` is the coercion of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Neither infinity: real. -/
theorem isReal_of_ne {x : EReal} (ht : x ≠ ⊤) (hb : x ≠ ⊥) : IsReal x :=
  ⟨x.toReal, (EReal.coe_toReal ht hb).symm⟩

/-- The element fact a "finite input" precondition states, `|x| < +∞` with `|x| = max x (-x)`: the entry is real. -/
theorem isReal_of_abs_lt_top {x : EReal} (h : max x (-x) < ⊤) : IsReal x := by
  refine isReal_of_ne (fun e => ?_) (fun e => ?_)
  · rw [e] at h; exact absurd h (by simp)
  · rw [e] at h; exact absurd h (by simp)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

theorem IsReal.exp {x : EReal} (hx : IsReal x) : IsReal (Ideal.exp x) := by
  obtain ⟨a, rfl⟩ := hx; exact ⟨Real.exp a, rfl⟩

/-- A finite sum of real entries is real. -/
theorem IsReal.sum {ι : Type*} (S : Finset ι) {f : ι → EReal} (h : ∀ i ∈ S, IsReal (f i)) :
    IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- A contraction of two arrays of real entries — one entry of a matrix product into a real accumulator — is real. -/
theorem isReal_dot {κ : Type*} [Fintype κ] {x y : κ → EReal} {acc : EReal} (hacc : IsReal acc)
    (hx : ∀ k, IsReal (x k)) (hy : ∀ k, IsReal (y k)) : IsReal (acc + ∑ k, x k * y k) :=
  hacc.add (IsReal.sum _ fun k _ => (hx k).mul (hy k))

/-- An array of real entries is the coercion of one real-valued function. -/
theorem exists_real_fun {α : Type*} {f : α → EReal} (h : ∀ a, IsReal (f a)) :
    ∃ g : α → ℝ, ∀ a, f a = ((g a : ℝ) : EReal) :=
  ⟨fun a => (h a).choose, fun a => (h a).choose_spec⟩

end Cert.Lib.RealValued

end
-- ==== Proof.IFinite.lean ====
/-
  Finite inputs are real entries: the precondition's six "every |x| < +∞" conjuncts, read element by element.
-/
import proofs.«144140_j35399120453979_2_alg».proof.Defs
import proofs.«144140_j35399120453979_2_alg».proof.Proof.LibRealValued
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

set_option maxRecDepth 16384

noncomputable section

namespace Cert.KernelIdeal.HandValue

open Cert.KernelIdeal
open Idealize.ShloMosaic Idealize.ShloMosaic.TcCoe Idealize.ShloMosaic.ValueIdx
open Idealize.SL.Sem
open Cert.Lib.RealValued

instance : Subsingleton Cert.Pre_finite_inputs.S_.Idx := ⟨fun a b => funext fun d => d.elim0⟩

/-- The f32 word of +∞ is the top of the extended reals. -/
theorem ofBits_pinf : Ideal.ofBits .f32 0x7F800000#32 = ⊤ := by simp [Ideal.ofBits, Ideal.ieee]

/-- The element fact of a finite-input precondition, "|x| < +∞" as the comparison's bit: the entry is real. -/
theorem isReal_of_olt_pinf {x : EReal} (h : Ideal.cmp .olt (max x (-x)) (Ideal.ofBits .f32 0x7F800000#32) = 1#1) : IsReal x := by
  rw [ofBits_pinf] at h
  refine isReal_of_abs_lt_top ?_
  by_contra hn
  simp [Ideal.cmp, hn] at h

/-- One conjunct of the precondition — "every |X i| < +∞", an and-reduction of the comparison against the splat of
    +∞ down to one bit — gives that every entry of X is real. -/
theorem entry_isReal {s : Shape} {axes : List (Fin s.rank)} (X : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf X) (broadcastInDim s ![] hb (constant Cert.Pre_finite_inputs.S_ .f32 0x7F800000#32)))
          (constantI Cert.Pre_finite_inputs.S_ 1 1#1) hr hu (fun a => a.elim0) = 1#1)
    (i : s.Idx) : IsReal (X i) := by
  have e1 := Host.reduce_andi_all _ _ hr hu _ e i
  rw [cmpf_apply, broadcastInDim_apply _ hb _ i (fun a => a.elim0) (fun a => a.elim0)] at e1
  exact isReal_of_olt_pinf e1

/-- Under the precondition every entry of each of the six argument arrays is a real. -/
theorem finite_args [hKernelIdeal : Cert.KernelIdeal.Facts] [hPre_finite_inputs : Cert.Pre_finite_inputs.Facts]
    (m : (ℓ : Loc nD τ sig) → Buf (Elt Ideal) ℓ) (h : Cert.Pre_KernelIdeal m) (c : Dev nD) :
    (∀ i, IsReal (m ((c.tc : Thread nD τ).loc main_arg0) i)) ∧ (∀ i, IsReal (m ((c.tc : Thread nD τ).loc main_arg1) i))
    ∧ (∀ i, IsReal (m ((c.tc : Thread nD τ).loc main_arg2) i)) ∧ (∀ i, IsReal (m ((c.tc : Thread nD τ).loc main_arg3) i))
    ∧ (∀ i, IsReal (m ((c.tc : Thread nD τ).loc main_arg4) i)) ∧ (∀ i, IsReal (m ((c.tc : Thread nD τ).loc main_arg5) i)) := by
  have h0 := congrFun (h c) (fun a => a.elim0)
  dsimp only [Cert.Pre_finite_inputs.fn, Cert.Pre_finite_inputs.fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨entry_isReal _ _ _ _ e0, entry_isReal _ _ _ _ e1, entry_isReal _ _ _ _ e2, entry_isReal _ _ _ _ e3,
    entry_isReal _ _ _ _ e4, entry_isReal _ _ _ _ e5⟩

end Cert.KernelIdeal.HandValue

end
-- ==== Proof.RefRead.lean ====
/- The reference's run and its read-at-an-index lemmas, gathered for the modules that reason about the reference. -/
import proofs.«144140_j35399120453979_2_alg».proof.Proof.RefRunP
import proofs.«144140_j35399120453979_2_alg».proof.Proof.RefReadP
-- ==== Proof.Spec.lean ====
/-
  The two-layer dense masked-attention network as ONE function of its six argument arrays, on the extended reals,
  index by index — the common value both programs are shown to compute.

  One layer, for activations x[b,n,d], weights W[j,d], mask g[n,m] and bias β[j]:
    h[b,n,j]   = Σ_d x[b,n,d] · W[j,d]
    s[b,n,m]   = (Σ_k h[b,n,k] · h[b,m,k]) · g[n,m],   an exact zero replaced by the constant −1e16
    M[b,n]     = the largest s[b,n,m] over m (a fold of max from −∞)
    out[b,n,j] = Σ_m (exp(s[b,n,m] − M[b,n]) / Σ_m' exp(s[b,n,m'] − M[b,n])) · h[b,m,j]  +  β[j]
  The network is layer 2 of max(layer 1, 0).
-/
import Idealize.ShloMosaic.PureOps.Ideal

noncomputable section

namespace Cert.Spec

open Idealize.ShloMosaic

/-- The fill both programs put where a masked score is exactly zero: the f32 word of −1e16, a finite real. -/
def fill : EReal := Ideal.ofBits .f32 0xDA0E1BCA#32

/-- The linear projection x · Wᵀ. -/
def lin {D H : ℕ} (x : Fin 8 → Fin 4096 → Fin D → EReal) (W : Fin H → Fin D → EReal)
    (b : Fin 8) (n : Fin 4096) (j : Fin H) : EReal :=
  ∑ d : Fin D, x b n d * W j d

/-- The masked score of query n against key m, an exact zero replaced by the fill. -/
def score {H : ℕ} (h : Fin 8 → Fin 4096 → Fin H → EReal) (g : Fin 4096 → Fin 4096 → EReal)
    (b : Fin 8) (n m : Fin 4096) : EReal :=
  if (∑ k : Fin H, h b n k * h b m k) * g n m = 0 then fill else (∑ k : Fin H, h b n k * h b m k) * g n m

/-- The largest score of a query's row: the fold of max from −∞ over the keys. -/
def rowMax {H : ℕ} (h : Fin 8 → Fin 4096 → Fin H → EReal) (g : Fin 4096 → Fin 4096 → EReal)
    (b : Fin 8) (n : Fin 4096) : EReal :=
  Finset.univ.fold max (⊥ : EReal) (fun m : Fin 4096 => score h g b n m)

/-- The softmax-weighted sum of the projected rows, plus the bias. -/
def attn {H : ℕ} (h : Fin 8 → Fin 4096 → Fin H → EReal) (g : Fin 4096 → Fin 4096 → EReal) (β : Fin H → EReal)
    (b : Fin 8) (n : Fin 4096) (j : Fin H) : EReal :=
  (∑ m : Fin 4096,
      Ideal.div (Ideal.exp (score h g b n m - rowMax h g b n))
        (∑ m' : Fin 4096, Ideal.exp (score h g b n m' - rowMax h g b n)) * h b m j)
    + β j

/-- One layer: project, attend, add the bias. -/
def layer {D H : ℕ} (x : Fin 8 → Fin 4096 → Fin D → EReal) (g : Fin 4096 → Fin 4096 → EReal)
    (W : Fin H → Fin D → EReal) (β : Fin H → EReal) : Fin 8 → Fin 4096 → Fin H → EReal :=
  attn (lin x W) g β

/-- The network: layer 2 of the positive part of layer 1. -/
def net (x : Fin 8 → Fin 4096 → Fin 64 → EReal) (g : Fin 4096 → Fin 4096 → EReal)
    (W1 : Fin 128 → Fin 64 → EReal) (β1 : Fin 128 → EReal) (W2 : Fin 64 → Fin 128 → EReal) (β2 : Fin 64 → EReal) :
    Fin 8 → Fin 4096 → Fin 64 → EReal :=
  layer (fun b n j => max (layer x g W1 β1 b n j) 0) g W2 β2

end Cert.Spec

end
-- ==== Proof.RefLayer1.lean ====
/-
  Layer 1 of the reference program is the specification's layer, index by index, on the extended reals.

  Each stage of the reference is read at a curried index (b, n, ·): the projection is Σ_d x[b,n,d]·W₁[j,d]; the raw score
  is the inner product of two projected rows; the masked score is that times the mask; an exact zero is replaced by the
  fill; the row maximum is the fold of max from −∞ over the keys (the maximum with −∞ taken afterwards changes nothing);
  the weights are exp(s − M) over their sum; the output is the weighted sum of the projected rows plus the bias.
-/
import proofs.«144140_j35399120453979_2_alg».proof.Proof.RefRead
import proofs.«144140_j35399120453979_2_alg».proof.Proof.Spec
import Idealize.ShloMosaic.Lib.IdealHost

noncomputable section

namespace Cert.RefSpec

open Cert.ReferenceIdeal Cert.ReferenceIdeal.ReadP Cert.ReferenceIdeal.Gen Idealize.ShloMosaic Idealize.ShloMosaic.ValueIdx

/-! Layer 1 of the reference, stage by stage, at the curried index (b, n, ·). -/

section Layer1

variable (x0 : (⟨S8x4096x64, .f32⟩ : BufTy).Contents (Elt Ideal)) (x1 : (⟨S4096x4096, .f32⟩ : BufTy).Contents (Elt Ideal))
  (x2 : (⟨S128x64, .f32⟩ : BufTy).Contents (Elt Ideal)) (x3 : (⟨S128, .f32⟩ : BufTy).Contents (Elt Ideal))

/-- The projected activations of layer 1. -/
abbrev H1 : Fin 8 → Fin 4096 → Fin 128 → EReal :=
  Cert.Spec.lin (fun b n d => x0 (ix3 b n d)) (fun j d => x2 (ix2 j d))

/-- The mask as a function of (query, key). -/
abbrev G : Fin 4096 → Fin 4096 → EReal := fun n m => x1 (ix2 n m)

/-- The projection x · W₁ᵀ. -/
theorem l1_lin (b : Fin 8) (n : Fin 4096) (j : Fin 128) :
    val_main_v0 (F := Ideal) x0 x2 (ix3 b n j) = H1 x0 x2 b n j := by
  rw [val_main_v0_apply]
  unfold H1 Cert.Spec.lin
  refine Finset.sum_congr rfl fun k _ => ?_
  have e1 : lidx_main_v0 (ix3 b n j) k = ix3 b n k := funext fun a => Fin.ext (by
    match a with | ⟨0, _⟩ => rfl | ⟨1, _⟩ => rfl | ⟨2, _⟩ => rfl)
  have e2 : ridx_main_v0 (ix3 b n j) k = ix2 j k := funext fun a => Fin.ext (by
    match a with | ⟨0, _⟩ => rfl | ⟨1, _⟩ => rfl)
  rw [e1, e2]

/-- The raw score: the inner product of the projected rows n and m. -/
theorem l1_dot (b : Fin 8) (n m : Fin 4096) :
    val_main_v1 (F := Ideal) x0 x2 (ix3 b n m) = ∑ k : Fin 128, H1 x0 x2 b n k * H1 x0 x2 b m k := by
  rw [val_main_v1_apply]
  refine Finset.sum_congr rfl fun k _ => ?_
  have e1 : lidx_main_v1 (ix3 b n m) k = ix3 b n k := funext fun a => Fin.ext (by
    match a with | ⟨0, _⟩ => rfl | ⟨1, _⟩ => rfl | ⟨2, _⟩ => rfl)
  have e2 : ridx_main_v1 (ix3 b n m) k = ix3 b m k := funext fun a => Fin.ext (by
    match a with | ⟨0, _⟩ => rfl | ⟨1, _⟩ => rfl | ⟨2, _⟩ => rfl)
  rw [e1, e2, l1_lin, l1_lin]

/-- The mask broadcast over the batch. -/
theorem l1_mask (b : Fin 8) (n m : Fin 4096) :
    val_main_v3 (F := Ideal) x1 (ix3 b n m) = G x1 n m := by
  rw [val_main_v3_apply, val_main_v2_apply]
  exact congrArg x1 (funext fun a => Fin.ext (by match a with | ⟨0, _⟩ => rfl | ⟨1, _⟩ => rfl))

/-- The masked score before the fill. -/
theorem l1_masked (b : Fin 8) (n m : Fin 4096) :
    val_main_v4 (F := Ideal) x0 x1 x2 (ix3 b n m) = (∑ k : Fin 128, H1 x0 x2 b n k * H1 x0 x2 b m k) * G x1 n m := by
  rw [val_main_v4_apply, l1_dot, l1_mask]; rfl

/-- The score: an exact zero replaced by the fill. -/
theorem l1_score (b : Fin 8) (n m : Fin 4096) :
    val_main_v7 (F := Ideal) x0 x1 x2 (ix3 b n m) = Cert.Spec.score (H1 x0 x2) (G x1) b n m := by
  rw [val_main_v7_apply, val_main_v6_apply, val_main_v5_apply, val_main_cst_apply, val_main_call0_v1_apply,
    val_main_call0_v0_apply, val_main_cst_0_apply, l1_masked]
  unfold Cert.Spec.score Cert.Spec.fill
  rw [Ideal.cmpf_def, Ideal.ofBits_def, Ideal.ofBits_def, Ideal.ofBits_zero_f32]
  unfold Ideal.cmp Scalar.select
  by_cases hz : (∑ k : Fin 128, H1 x0 x2 b n k * H1 x0 x2 b m k) * G x1 n m = 0
  · rw [if_pos hz]; simp [hz]
  · rw [if_neg hz]; simp [hz]

end Layer1

section Layer1b

variable (x0 : (⟨S8x4096x64, .f32⟩ : BufTy).Contents (Elt Ideal)) (x1 : (⟨S4096x4096, .f32⟩ : BufTy).Contents (Elt Ideal))
  (x2 : (⟨S128x64, .f32⟩ : BufTy).Contents (Elt Ideal)) (x3 : (⟨S128, .f32⟩ : BufTy).Contents (Elt Ideal))

/-- The reduced index (b, n) with the key coordinate k put back is (b, n, k). -/
theorem lift_ix3 (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  fin_cases c <;> rfl

/-- The row maximum as the reference's reduce computes it: the fold of max from −∞ over the keys. -/
theorem l1_rowMax0 (b : Fin 8) (n : Fin 4096) :
    val_main_v8 (F := Ideal) x0 x1 x2 (ix2 b n) = Cert.Spec.rowMax (H1 x0 x2) (G x1) b n := by
  unfold val_main_v8
  have h : S8x4096x4096.Reduces [2] S8x4096 := by decide
  rw [Host.reduce_eq_fold_single FloatOps.maximumf _ _ reducesTo_S8x4096x4096_S8x4096_d2 h h_S_]
  unfold Cert.Spec.rowMax
  have hb : (val_main_cst_1 (F := Ideal)) (Shape.Idx.first h_S_) = (⊥ : EReal) := by
    rw [val_main_cst_1_apply, Ideal.ofBits_def]; simp [Ideal.ofBits, Ideal.ieee]
  have hf : (val_main_v7 (F := Ideal) x0 x1 x2 ∘ h.lift (ix2 b n)) = fun m : Fin 4096 => Cert.Spec.score (H1 x0 x2) (G x1) b n m :=
    funext fun k => by
      show val_main_v7 (F := Ideal) x0 x1 x2 (h.lift (ix2 b n) k) = _
      rw [lift_ix3 h b n k, l1_score]; rfl
  rw [hb, hf]
  rfl

/-- The maximum with −∞ the reference takes afterwards changes nothing. -/
theorem l1_rowMax (b : Fin 8) (n : Fin 4096) :
    val_main_v10 (F := Ideal) x0 x1 x2 (ix2 b n) = Cert.Spec.rowMax (H1 x0 x2) (G x1) b n := by
  rw [val_main_v10_apply, val_main_v9_apply, val_main_cst_2_apply, l1_rowMax0, Ideal.maximumf_def, Ideal.ofBits_def]
  have hb : Ideal.ofBits .f32 0xFF800000#32 = (⊥ : EReal) := by simp [Ideal.ofBits, Ideal.ieee]
  rw [hb]
  exact max_eq_right bot_le

end Layer1b

section Layer1c

variable (x0 : (⟨S8x4096x64, .f32⟩ : BufTy).Contents (Elt Ideal)) (x1 : (⟨S4096x4096, .f32⟩ : BufTy).Contents (Elt Ideal))
  (x2 : (⟨S128x64, .f32⟩ : BufTy).Contents (Elt Ideal)) (x3 : (⟨S128, .f32⟩ : BufTy).Contents (Elt Ideal))

/-- The row maximum broadcast back over the keys. -/
theorem l1_rowMaxB (b : Fin 8) (n m : Fin 4096) :
    val_main_v12 (F := Ideal) x0 x1 x2 (ix3 b n m) = Cert.Spec.rowMax (H1 x0 x2) (G x1) b n := by
  rw [val_main_v12_apply, val_main_v11_apply]
  have e : idx_main_v11 (idx_main_v12 (ix3 b n m)) = ix2 b n := funext fun a => Fin.ext (by
    match a with | ⟨0, _⟩ => rfl | ⟨1, _⟩ => rfl)
  rw [e, l1_rowMax]

/-- The unnormalized softmax weight. -/
theorem l1_exp (b : Fin 8) (n m : Fin 4096) :
    val_main_v14 (F := Ideal) x0 x1 x2 (ix3 b n m)
      = Ideal.exp (Cert.Spec.score (H1 x0 x2) (G x1) b n m - Cert.Spec.rowMax (H1 x0 x2) (G x1) b n) := by
  rw [val_main_v14_apply, val_main_v13_apply, l1_score, l1_rowMaxB]; rfl

/-- The softmax denominator. -/
theorem l1_den (b : Fin 8) (n : Fin 4096) :
    val_main_v15 (F := Ideal) x0 x1 x2 (ix2 b n)
      = ∑ m' : Fin 4096, Ideal.exp (Cert.Spec.score (H1 x0 x2) (G x1) b n m' - Cert.Spec.rowMax (H1 x0 x2) (G x1) b n) := by
  rw [val_main_v15_apply, val_main_cst_3_apply, Ideal.ofBits_def, Ideal.ofBits_zero_f32, zero_add]
  refine Finset.sum_congr rfl fun k _ => ?_
  have e : idx_main_v15 (ix2 b n) k = ix3 b n k := funext fun a => Fin.ext (by
    match a with | ⟨0, _⟩ => rfl | ⟨1, _⟩ => rfl | ⟨2, _⟩ => rfl)
  rw [e, l1_exp]

/-- The denominator broadcast back over the keys. -/
theorem l1_denB (b : Fin 8) (n m : Fin 4096) :
    val_main_v17 (F := Ideal) x0 x1 x2 (ix3 b n m)
      = ∑ m' : Fin 4096, Ideal.exp (Cert.Spec.score (H1 x0 x2) (G x1) b n m' - Cert.Spec.rowMax (H1 x0 x2) (G x1) b n) := by
  rw [val_main_v17_apply, val_main_v16_apply]
  have e : idx_main_v16 (idx_main_v17 (ix3 b n m)) = ix2 b n := funext fun a => Fin.ext (by
    match a with | ⟨0, _⟩ => rfl | ⟨1, _⟩ => rfl)
  rw [e, l1_den]

/-- The softmax weight. -/
theorem l1_soft (b : Fin 8) (n m : Fin 4096) :
    val_main_v18 (F := Ideal) x0 x1 x2 (ix3 b n m)
      = Ideal.div (Ideal.exp (Cert.Spec.score (H1 x0 x2) (G x1) b n m - Cert.Spec.rowMax (H1 x0 x2) (G x1) b n))
          (∑ m' : Fin 4096, Ideal.exp (Cert.Spec.score (H1 x0 x2) (G x1) b n m' - Cert.Spec.rowMax (H1 x0 x2) (G x1) b n)) := by
  rw [val_main_v18_apply, l1_exp, l1_denB]; rfl

/-- The bias broadcast over batch and rows. -/
theorem l1_bias (b : Fin 8) (n : Fin 4096) (j : Fin 128) :
    val_main_v21 (F := Ideal) x3 (ix3 b n j) = x3 (ix1 j) := by
  rw [val_main_v21_apply, val_main_v20_apply]
  exact congrArg x3 (funext fun a => Fin.ext (by match a with | ⟨0, _⟩ => rfl))

/-- Layer 1 of the reference is the specification's layer. -/
theorem l1_layer (b : Fin 8) (n : Fin 4096) (j : Fin 128) :
    val_main_v22 (F := Ideal) x0 x1 x2 x3 (ix3 b n j)
      = Cert.Spec.layer (fun b n d => x0 (ix3 b n d)) (fun n m => x1 (ix2 n m)) (fun j d => x2 (ix2 j d)) (fun j => x3 (ix1 j)) b n j := by
  rw [val_main_v22_apply, val_main_v19_apply, l1_bias]
  unfold Cert.Spec.layer Cert.Spec.attn
  rw [Ideal.addf_def]
  congr 1
  refine Finset.sum_congr rfl fun k _ => ?_
  have e1 : lidx_main_v19 (ix3 b n j) k = ix3 b n k := funext fun a => Fin.ext (by
    match a with | ⟨0, _⟩ => rfl | ⟨1, _⟩ => rfl | ⟨2, _⟩ => rfl)
  have e2 : ridx_main_v19 (ix3 b n j) k = ix3 b k j := funext fun a => Fin.ext (by
    match a with | ⟨0, _⟩ => rfl | ⟨1, _⟩ => rfl | ⟨2, _⟩ => rfl)
  rw [e1, e2, l1_soft, l1_lin]

/-- The positive part of layer 1. -/
theorem l1_relu (b : Fin 8) (n : Fin 4096) (j : Fin 128) :
    val_main_v23 (F := Ideal) x0 x1 x2 x3 (ix3 b n j)
      = max (Cert.Spec.layer (fun b n d => x0 (ix3 b n d)) (fun n m => x1 (ix2 n m)) (fun j d => x2 (ix2 j d)) (fun j => x3 (ix1 j)) b n j) 0 := by
  rw [val_main_v23_apply, val_main_call1_v0_apply, val_main_call1_cst_apply, l1_layer, Ideal.maximumf_def, Ideal.ofBits_def,
    Ideal.ofBits_zero_f32]

end Layer1c

end Cert.RefSpec

end
-- ==== Proof.RefLayer2.lean ====
/-
  Layer 2 of the reference program is the specification's layer applied to the positive part of layer 1, index by index,
  on the extended reals. The stages are those of layer 1 with the hidden width 128 and the output width 64 exchanged.
-/
import proofs.«144140_j35399120453979_2_alg».proof.Proof.RefLayer1

noncomputable section

namespace Cert.RefSpec

open Cert.ReferenceIdeal Cert.ReferenceIdeal.ReadP Cert.ReferenceIdeal.Gen Idealize.ShloMosaic Idealize.ShloMosaic.ValueIdx

/-! Layer 2 of the reference, stage by stage, at the curried index (b, n, ·); its input is the positive part of layer 1. -/

section Layer2

variable (x0 : (⟨S8x4096x64, .f32⟩ : BufTy).Contents (Elt Ideal)) (x1 : (⟨S4096x4096, .f32⟩ : BufTy).Contents (Elt Ideal))
  (x2 : (⟨S128x64, .f32⟩ : BufTy).Contents (Elt Ideal)) (x3 : (⟨S128, .f32⟩ : BufTy).Contents (Elt Ideal))
  (x4 : (⟨S64x128, .f32⟩ : BufTy).Contents (Elt Ideal)) (x5 : (⟨S64, .f32⟩ : BufTy).Contents (Elt Ideal))

/-- The positive part of layer 1: the activations layer 2 starts from. -/
abbrev A1 : Fin 8 → Fin 4096 → Fin 128 → EReal := fun b n j =>
  max (Cert.Spec.layer (fun b n d => x0 (ix3 b n d)) (fun n m => x1 (ix2 n m)) (fun j d => x2 (ix2 j d)) (fun j => x3 (ix1 j)) b n j) 0

/-- The projected activations of layer 2. -/
abbrev H2 : Fin 8 → Fin 4096 → Fin 64 → EReal :=
  Cert.Spec.lin (A1 x0 x1 x2 x3) (fun j d => x4 (ix2 j d))

/-- The projection max(layer 1, 0) · W₂ᵀ. -/
theorem l2_lin (b : Fin 8) (n : Fin 4096) (j : Fin 64) :
    val_main_v24 (F := Ideal) x0 x1 x2 x3 x4 (ix3 b n j) = H2 x0 x1 x2 x3 x4 b n j := by
  rw [val_main_v24_apply]
  unfold H2 Cert.Spec.lin
  refine Finset.sum_congr rfl fun k _ => ?_
  have e1 : lidx_main_v24 (ix3 b n j) k = ix3 b n k := funext fun a => Fin.ext (by
    match a with | ⟨0, _⟩ => rfl | ⟨1, _⟩ => rfl | ⟨2, _⟩ => rfl)
  have e2 : ridx_main_v24 (ix3 b n j) k = ix2 j k := funext fun a => Fin.ext (by
    match a with | ⟨0, _⟩ => rfl | ⟨1, _⟩ => rfl)
  rw [e1, e2, l1_relu]

/-- The raw score: the inner product of the projected rows n and m. -/
theorem l2_dot (b : Fin 8) (n m : Fin 4096) :
    val_main_v25 (F := Ideal) x0 x1 x2 x3 x4 (ix3 b n m) = ∑ k : Fin 64, H2 x0 x1 x2 x3 x4 b n k * H2 x0 x1 x2 x3 x4 b m k := by
  rw [val_main_v25_apply]
  refine Finset.sum_congr rfl fun k _ => ?_
  have e1 : lidx_main_v25 (ix3 b n m) k = ix3 b n k := funext fun a => Fin.ext (by
    match a with | ⟨0, _⟩ => rfl | ⟨1, _⟩ => rfl | ⟨2, _⟩ => rfl)
  have e2 : ridx_main_v25 (ix3 b n m) k = ix3 b m k := funext fun a => Fin.ext (by
    match a with | ⟨0, _⟩ => rfl | ⟨1, _⟩ => rfl | ⟨2, _⟩ => rfl)
  rw [e1, e2, l2_lin, l2_lin]

/-- The mask broadcast over the batch. -/
theorem l2_mask (b : Fin 8) (n m : Fin 4096) :
    val_main_v27 (F := Ideal) x1 (ix3 b n m) = G x1 n m := by
  rw [val_main_v27_apply, val_main_v26_apply]
  exact congrArg x1 (funext fun a => Fin.ext (by match a with | ⟨0, _⟩ => rfl | ⟨1, _⟩ => rfl))

/-- The masked score before the fill. -/
theorem l2_masked (b : Fin 8) (n m : Fin 4096) :
    val_main_v28 (F := Ideal) x0 x1 x2 x3 x4 (ix3 b n m) = (∑ k : Fin 64, H2 x0 x1 x2 x3 x4 b n k * H2 x0 x1 x2 x3 x4 b m k) * G x1 n m := by
  rw [val_main_v28_apply, l2_dot, l2_mask]; rfl

/-- The score: an exact zero replaced by the fill. -/
theorem l2_score (b : Fin 8) (n m : Fin 4096) :
    val_main_v31 (F := Ideal) x0 x1 x2 x3 x4 (ix3 b n m) = Cert.Spec.score (H2 x0 x1 x2 x3 x4) (G x1) b n m := by
  rw [val_main_v31_apply, val_main_v30_apply, val_main_v29_apply, val_main_cst_4_apply, val_main_call2_v1_apply,
    val_main_call2_v0_apply, val_main_cst_5_apply, l2_masked]
  unfold Cert.Spec.score Cert.Spec.fill
  rw [Ideal.cmpf_def, Ideal.ofBits_def, Ideal.ofBits_def, Ideal.ofBits_zero_f32]
  unfold Ideal.cmp Scalar.select
  by_cases hz : (∑ k : Fin 64, H2 x0 x1 x2 x3 x4 b n k * H2 x0 x1 x2 x3 x4 b m k) * G x1 n m = 0
  · rw [if_pos hz]; simp [hz]
  · rw [if_neg hz]; simp [hz]

end Layer2

section Layer2b

variable (x0 : (⟨S8x4096x64, .f32⟩ : BufTy).Contents (Elt Ideal)) (x1 : (⟨S4096x4096, .f32⟩ : BufTy).Contents (Elt Ideal))
  (x2 : (⟨S128x64, .f32⟩ : BufTy).Contents (Elt Ideal)) (x3 : (⟨S128, .f32⟩ : BufTy).Contents (Elt Ideal))
  (x4 : (⟨S64x128, .f32⟩ : BufTy).Contents (Elt Ideal)) (x5 : (⟨S64, .f32⟩ : BufTy).Contents (Elt Ideal))

/-- The row maximum as the reference's reduce computes it: the fold of max from −∞ over the keys. -/
theorem l2_rowMax0 (b : Fin 8) (n : Fin 4096) :
    val_main_v32 (F := Ideal) x0 x1 x2 x3 x4 (ix2 b n) = Cert.Spec.rowMax (H2 x0 x1 x2 x3 x4) (G x1) b n := by
  unfold val_main_v32
  have h : S8x4096x4096.Reduces [2] S8x4096 := by decide
  rw [Host.reduce_eq_fold_single FloatOps.maximumf _ _ reducesTo_S8x4096x4096_S8x4096_d2 h h_S_]
  unfold Cert.Spec.rowMax
  have hb : (val_main_cst_6 (F := Ideal)) (Shape.Idx.first h_S_) = (⊥ : EReal) := by
    rw [val_main_cst_6_apply, Ideal.ofBits_def]; simp [Ideal.ofBits, Ideal.ieee]
  have hf : (val_main_v31 (F := Ideal) x0 x1 x2 x3 x4 ∘ h.lift (ix2 b n)) = fun m : Fin 4096 => Cert.Spec.score (H2 x0 x1 x2 x3 x4) (G x1) b n m :=
    funext fun k => by
      show val_main_v31 (F := Ideal) x0 x1 x2 x3 x4 (h.lift (ix2 b n) k) = _
      rw [lift_ix3 h b n k, l2_score]; rfl
  rw [hb, hf]
  rfl

/-- The maximum with −∞ the reference takes afterwards changes nothing. -/
theorem l2_rowMax (b : Fin 8) (n : Fin 4096) :
    val_main_v34 (F := Ideal) x0 x1 x2 x3 x4 (ix2 b n) = Cert.Spec.rowMax (H2 x0 x1 x2 x3 x4) (G x1) b n := by
  rw [val_main_v34_apply, val_main_v33_apply, val_main_cst_7_apply, l2_rowMax0, Ideal.maximumf_def, Ideal.ofBits_def]
  have hb : Ideal.ofBits .f32 0xFF800000#32 = (⊥ : EReal) := by simp [Ideal.ofBits, Ideal.ieee]
  rw [hb]
  exact max_eq_right bot_le

end Layer2b

section Layer2c

variable (x0 : (⟨S8x4096x64, .f32⟩ : BufTy).Contents (Elt Ideal)) (x1 : (⟨S4096x4096, .f32⟩ : BufTy).Contents (Elt Ideal))
  (x2 : (⟨S128x64, .f32⟩ : BufTy).Contents (Elt Ideal)) (x3 : (⟨S128, .f32⟩ : BufTy).Contents (Elt Ideal))
  (x4 : (⟨S64x128, .f32⟩ : BufTy).Contents (Elt Ideal)) (x5 : (⟨S64, .f32⟩ : BufTy).Contents (Elt Ideal))

/-- The row maximum broadcast back over the keys. -/
theorem l2_rowMaxB (b : Fin 8) (n m : Fin 4096) :
    val_main_v36 (F := Ideal) x0 x1 x2 x3 x4 (ix3 b n m) = Cert.Spec.rowMax (H2 x0 x1 x2 x3 x4) (G x1) b n := by
  rw [val_main_v36_apply, val_main_v35_apply]
  have e : idx_main_v35 (idx_main_v36 (ix3 b n m)) = ix2 b n := funext fun a => Fin.ext (by
    match a with | ⟨0, _⟩ => rfl | ⟨1, _⟩ => rfl)
  rw [e, l2_rowMax]

/-- The unnormalized softmax weight. -/
theorem l2_exp (b : Fin 8) (n m : Fin 4096) :
    val_main_v38 (F := Ideal) x0 x1 x2 x3 x4 (ix3 b n m)
      = Ideal.exp (Cert.Spec.score (H2 x0 x1 x2 x3 x4) (G x1) b n m - Cert.Spec.rowMax (H2 x0 x1 x2 x3 x4) (G x1) b n) := by
  rw [val_main_v38_apply, val_main_v37_apply, l2_score, l2_rowMaxB]; rfl

/-- The softmax denominator. -/
theorem l2_den (b : Fin 8) (n : Fin 4096) :
    val_main_v39 (F := Ideal) x0 x1 x2 x3 x4 (ix2 b n)
      = ∑ m' : Fin 4096, Ideal.exp (Cert.Spec.score (H2 x0 x1 x2 x3 x4) (G x1) b n m' - Cert.Spec.rowMax (H2 x0 x1 x2 x3 x4) (G x1) b n) := by
  rw [val_main_v39_apply, val_main_cst_8_apply, Ideal.ofBits_def, Ideal.ofBits_zero_f32, zero_add]
  refine Finset.sum_congr rfl fun k _ => ?_
  have e : idx_main_v39 (ix2 b n) k = ix3 b n k := funext fun a => Fin.ext (by
    match a with | ⟨0, _⟩ => rfl | ⟨1, _⟩ => rfl | ⟨2, _⟩ => rfl)
  rw [e, l2_exp]

/-- The denominator broadcast back over the keys. -/
theorem l2_denB (b : Fin 8) (n m : Fin 4096) :
    val_main_v41 (F := Ideal) x0 x1 x2 x3 x4 (ix3 b n m)
      = ∑ m' : Fin 4096, Ideal.exp (Cert.Spec.score (H2 x0 x1 x2 x3 x4) (G x1) b n m' - Cert.Spec.rowMax (H2 x0 x1 x2 x3 x4) (G x1) b n) := by
  rw [val_main_v41_apply, val_main_v40_apply]
  have e : idx_main_v40 (idx_main_v41 (ix3 b n m)) = ix2 b n := funext fun a => Fin.ext (by
    match a with | ⟨0, _⟩ => rfl | ⟨1, _⟩ => rfl)
  rw [e, l2_den]

/-- The softmax weight. -/
theorem l2_soft (b : Fin 8) (n m : Fin 4096) :
    val_main_v42 (F := Ideal) x0 x1 x2 x3 x4 (ix3 b n m)
      = Ideal.div (Ideal.exp (Cert.Spec.score (H2 x0 x1 x2 x3 x4) (G x1) b n m - Cert.Spec.rowMax (H2 x0 x1 x2 x3 x4) (G x1) b n))
          (∑ m' : Fin 4096, Ideal.exp (Cert.Spec.score (H2 x0 x1 x2 x3 x4) (G x1) b n m' - Cert.Spec.rowMax (H2 x0 x1 x2 x3 x4) (G x1) b n)) := by
  rw [val_main_v42_apply, l2_exp, l2_denB]; rfl

/-- The bias broadcast over batch and rows. -/
theorem l2_bias (b : Fin 8) (n : Fin 4096) (j : Fin 64) :
    val_main_v45 (F := Ideal) x5 (ix3 b n j) = x5 (ix1 j) := by
  rw [val_main_v45_apply, val_main_v44_apply]
  exact congrArg x5 (funext fun a => Fin.ext (by match a with | ⟨0, _⟩ => rfl))

/-- Layer 2 of the reference is the specification's layer applied to the positive part of layer 1. -/
theorem l2_layer (b : Fin 8) (n : Fin 4096) (j : Fin 64) :
    val_main_v46 (F := Ideal) x0 x1 x2 x3 x4 x5 (ix3 b n j)
      = Cert.Spec.layer (A1 x0 x1 x2 x3) (fun n m => x1 (ix2 n m)) (fun j d => x4 (ix2 j d)) (fun j => x5 (ix1 j)) b n j := by
  rw [val_main_v46_apply, val_main_v43_apply, l2_bias]
  unfold Cert.Spec.layer Cert.Spec.attn
  rw [Ideal.addf_def]
  congr 1
  refine Finset.sum_congr rfl fun k _ => ?_
  have e1 : lidx_main_v43 (ix3 b n j) k = ix3 b n k := funext fun a => Fin.ext (by
    match a with | ⟨0, _⟩ => rfl | ⟨1, _⟩ => rfl | ⟨2, _⟩ => rfl)
  have e2 : ridx_main_v43 (ix3 b n j) k = ix3 b k j := funext fun a => Fin.ext (by
    match a with | ⟨0, _⟩ => rfl | ⟨1, _⟩ => rfl | ⟨2, _⟩ => rfl)
  rw [e1, e2, l2_soft, l2_lin]

end Layer2c

end Cert.RefSpec

end
-- ==== Proof.RefSpec.lean ====
/-
  The reference program's result is the specification's network of its six argument arrays, index by index, on the
  extended reals: the last stage only inserts a unit axis, and below it layer 2 reads the positive part of layer 1.
-/
import proofs.«144140_j35399120453979_2_alg».proof.Proof.RefLayer2

noncomputable section

namespace Cert.RefSpec

open Cert.ReferenceIdeal Cert.ReferenceIdeal.ReadP Cert.ReferenceIdeal.Gen Idealize.ShloMosaic Idealize.ShloMosaic.ValueIdx

/-- The reference's result at (b, n, 0, j) is the network's value at (b, n, j). -/
theorem result_eq
    (x0 : (⟨Cert.ReferenceIdeal.S8x4096x64, .f32⟩ : BufTy).Contents (Elt Ideal)) (x1 : (⟨Cert.ReferenceIdeal.S4096x4096, .f32⟩ : BufTy).Contents (Elt Ideal))
    (x2 : (⟨Cert.ReferenceIdeal.S128x64, .f32⟩ : BufTy).Contents (Elt Ideal)) (x3 : (⟨Cert.ReferenceIdeal.S128, .f32⟩ : BufTy).Contents (Elt Ideal))
    (x4 : (⟨Cert.ReferenceIdeal.S64x128, .f32⟩ : BufTy).Contents (Elt Ideal)) (x5 : (⟨Cert.ReferenceIdeal.S64, .f32⟩ : BufTy).Contents (Elt Ideal))
    (b : Fin 8) (n : Fin 4096) (j : Fin 64) :
    Cert.ReferenceIdeal.ReadP.val_main_v47 x0 x1 x2 x3 x4 x5 (ValueIdx.ix4 b n 0 j)
      = Cert.Spec.net (fun b n d => x0 (ValueIdx.ix3 b n d)) (fun n m => x1 (ValueIdx.ix2 n m)) (fun j d => x2 (ValueIdx.ix2 j d)) (fun j => x3 (ValueIdx.ix1 j))
          (fun j d => x4 (ValueIdx.ix2 j d)) (fun j => x5 (ValueIdx.ix1 j)) b n j := by
  rw [val_main_v47_apply]
  have e : idx_main_v47 (ix4 b n 0 j) = ix3 b n j := funext fun a => Fin.ext (by
    match a with | ⟨0, _⟩ => rfl | ⟨1, _⟩ => rfl | ⟨2, _⟩ => rfl)
  rw [e, l2_layer]
  rfl

end Cert.RefSpec

end
-- ==== Proof.KRegion0.lean ====
/-
  Region 0: the row-tiled linear projection. At every grid point the body reads its block of the activations and the
  whole weight matrix and stores the product block whole; the proof data name each staging buffer's contents after
  the body: an input's block of its array, the output's the one store's payload of the two input blocks.
-/
import proofs.«144140_j35399120453979_2_alg».proof.Proof.Gen.Kernel.Launch
import proofs.«144140_j35399120453979_2_alg».proof.Proof.Gen.Kernel.Skeleton
import proofs.«144140_j35399120453979_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an unfetched window's
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangle of the output's staging buffer. -/
abbrev r0_o : Rect S8x1024x128 := Rect.unit (s := S8x1024x128) ![0, 0, 0] S8x1024x128.size inb_S8x1024x128_S8x1024x128_0_0_0
abbrev r0_x : Rect S8x1024x64 := Rect.unit (s := S8x1024x64) ![0, 0, 0] S8x1024x64.size inb_S8x1024x64_S8x1024x64_0_0_0
abbrev r0_w : Rect S128x64 := Rect.unit (s := S128x64) ![0, 0] S128x64.size inb_S128x64_S128x64_0_0

/-- What the body leaves in the output window's staging buffer: its one whole-block store. -/
def out0_2 (x0 : Vec F S8x1024x64 .f32) (x1 : Vec F S128x64 .f32) : Vec F S8x1024x128 .bf16 :=
  View.canon [⟨r0_o, k0_pay1 (View.ld x0 r0_x) (View.ld x1 r0_w)⟩]

theorem cover0_2 (p0 : Vec F S8x1024x128 .bf16) (y : S8x1024x128.Idx) :
    ∃ pc ∈ ([⟨r0_o, p0⟩] : List (View.Piece (Elt F) S8x1024x128 .bf16)), y ∈ pc.1.set :=
  View.cover_of_tiled [⟨r0_o, p0⟩] S8x1024x128.size (by rfl) y

set_option maxHeartbeats 1000000 in
/-- The body on whole staging memrefs, the inputs at `x0`, `x1`, the output at anything: it runs to the continuation
    with the inputs as they were and the output at `out0_2 x0 x1`. -/
theorem sound_kernel0 (c : Dev nD) (E : Set ℕ) (i : grid0.Coords) (arg1 : Memref sig .tc .vmem S8x1024x64 .f32) (harg1 : arg1.IsWhole) (arg2 : Memref sig .tc .vmem S128x64 .f32) (harg2 : arg2.IsWhole)
    (arg3 : Memref sig .tc .vmem S8x1024x128 .bf16) (harg3 : arg3.IsWhole)
    (x0 : Vec F S8x1024x64 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each input's
    buffer at its block, the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion2.lean ====
/-
  Region 2: the row-tiled linear projection. At every grid point the body reads its block of the activations and the
  whole weight matrix and stores the product block whole; the proof data name each staging buffer's contents after
  the body: an input's block of its array, the output's the one store's payload of the two input blocks.
-/
import proofs.«144140_j35399120453979_2_alg».proof.Proof.Gen.Kernel.Launch
import proofs.«144140_j35399120453979_2_alg».proof.Proof.Gen.Kernel.Skeleton
import proofs.«144140_j35399120453979_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an unfetched window's
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangle of the output's staging buffer. -/
abbrev r2_o : Rect S8x1024x64 := Rect.unit (s := S8x1024x64) ![0, 0, 0] S8x1024x64.size inb_S8x1024x64_S8x1024x64_0_0_0
abbrev r2_x : Rect S8x1024x128 := Rect.unit (s := S8x1024x128) ![0, 0, 0] S8x1024x128.size inb_S8x1024x128_S8x1024x128_0_0_0
abbrev r2_w : Rect S64x128 := Rect.unit (s := S64x128) ![0, 0] S64x128.size inb_S64x128_S64x128_0_0

/-- What the body leaves in the output window's staging buffer: its one whole-block store. -/
def out2_2 (x0 : Vec F S8x1024x128 .bf16) (x1 : Vec F S64x128 .f32) : Vec F S8x1024x64 .bf16 :=
  View.canon [⟨r2_o, k2_pay1 (View.ld x0 r2_x) (View.ld x1 r2_w)⟩]

theorem cover2_2 (p0 : Vec F S8x1024x64 .bf16) (y : S8x1024x64.Idx) :
    ∃ pc ∈ ([⟨r2_o, p0⟩] : List (View.Piece (Elt F) S8x1024x64 .bf16)), y ∈ pc.1.set :=
  View.cover_of_tiled [⟨r2_o, p0⟩] S8x1024x64.size (by rfl) y

set_option maxHeartbeats 1000000 in
/-- The body on whole staging memrefs, the inputs at `x0`, `x1`, the output at anything: it runs to the continuation
    with the inputs as they were and the output at `out2_2 x0 x1`. -/
theorem sound_kernel2 (c : Dev nD) (E : Set ℕ) (i : grid2.Coords) (arg1 : Memref sig .tc .vmem S8x1024x128 .bf16) (harg1 : arg1.IsWhole) (arg2 : Memref sig .tc .vmem S64x128 .f32) (harg2 : arg2.IsWhole)
    (arg3 : Memref sig .tc .vmem S8x1024x64 .bf16) (harg3 : arg3.IsWhole)
    (x0 : Vec F S8x1024x128 .bf16) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body each input's
    buffer at its block, the output's at `out2_2` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRuns1.lean ====
/-
  Attention region 1, shared vocabulary. The grid is 8 query tiles by 16 key steps, walked row-major: point t is
  key step t % 16 of query tile t / 16. Three kinds of point: the first key step of a tile (the running maximum, the
  running denominator and the accumulator are reset before use), a middle step (they are updated from what the step
  before left), and the last step (updated, then the tile's output block is normalised and stored). This module
  fixes the two branch conditions as predicates of the grid coordinates and decides them over the 128 points, says
  where the output window rests, names the buffers the body is called with, and restates the region invariant with
  the three carried buffers singled out.
-/
import proofs.«144140_j35399120453979_2_alg».proof.Proof.Gen.Kernel.Launch
import proofs.«144140_j35399120453979_2_alg».proof.Proof.Gen.Kernel.Skeleton
import proofs.«144140_j35399120453979_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

/-- The block of window `w`'s array that point `t` works on, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0: whenever the body runs, its staging buffer holds the block of the point — a point that does not fetch
    works on the block the point before worked on, and the body never writes an input. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input 1: whenever the body runs, its staging buffer holds the block of the point — a point that does not fetch
    works on the block the point before worked on, and the body never writes an input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input 2: whenever the body runs, its staging buffer holds the block of the point — a point that does not fetch
    works on the block the point before worked on, and the body never writes an input. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input 3: whenever the body runs, its staging buffer holds the block of the point — a point that does not fetch
    works on the block the point before worked on, and the body never writes an input. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- "This is the first key step of its query tile" as the body tests it: the key coordinate compared with 0, the
    comparison widened and compared with 0 again. -/
abbrev cond1_0 (i : grid1.Coords) : Prop := (Scalar.cmpi .ne (Scalar.extui (Scalar.cmpi .eq (BitVec.ofNat 32 (i 1).val) 0#32)) 0#32) = 1#1
/-- Row-major, the key coordinate of point t is t % 16: the test holds exactly at the multiples of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key step of its query tile" as the body tests it. -/
abbrev cond1_1 (i : grid1.Coords) : Prop := k1_cond2 i = 1#1
/-- It holds exactly at the points 15 mod 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows rest -/
/-- Input 0 never rests. -/
theorem liveAt1_0 : ∀ t : Fin cfg1.N, cfg1.idle 0 (grid1.coords t) = false := by decide +kernel
/-- Input 1 never rests. -/
theorem liveAt1_1 : ∀ t : Fin cfg1.N, cfg1.idle 1 (grid1.coords t) = false := by decide +kernel
/-- Input 2 never rests. -/
theorem liveAt1_2 : ∀ t : Fin cfg1.N, cfg1.idle 2 (grid1.coords t) = false := by decide +kernel
/-- Input 3 never rests. -/
theorem liveAt1_3 : ∀ t : Fin cfg1.N, cfg1.idle 3 (grid1.coords t) = false := by decide +kernel
/-- At a first key step the output window rests: nothing is stored into it, -/
theorem idleAt1_4_A : ∀ t : Fin cfg1.N, cond1_0 (grid1.coords t) → ¬cond1_1 (grid1.coords t) → cfg1.idle 4 (grid1.coords t) = true := by decide +kernel
/-- and its block is not written back there. -/
theorem noFlush1_4_A : ∀ t : Fin cfg1.N, cond1_0 (grid1.coords t) → ¬cond1_1 (grid1.coords t) → (cfg1.win 4).flush t = false := by decide +kernel
/-- The same at a middle step: the window rests, -/
theorem idleAt1_4_B : ∀ t : Fin cfg1.N, ¬cond1_0 (grid1.coords t) → ¬cond1_1 (grid1.coords t) → cfg1.idle 4 (grid1.coords t) = true := by decide +kernel
/-- and is not written back. -/
theorem noFlush1_4_B : ∀ t : Fin cfg1.N, ¬cond1_0 (grid1.coords t) → ¬cond1_1 (grid1.coords t) → (cfg1.win 4).flush t = false := by decide +kernel
/-- At a last key step the output window is live: the tile's block is stored there. -/
theorem liveAt1_4_C : ∀ t : Fin cfg1.N, ¬cond1_0 (grid1.coords t) → cond1_1 (grid1.coords t) → cfg1.idle 4 (grid1.coords t) = false := by decide +kernel

/-! ## The buffers the body is called with -/

/-- One staging buffer of the output window, as a view: the block stored there is stated through it (any whole view of
    the shape reads the same pieces the same way). -/
abbrev VO1_4 : View sig .tc .vmem S8x512x128 .bf16 := (Memref.whole cc1_stg4_0 : Memref sig .tc .vmem S8x512x128 .bf16).view
/-- Window 0's current staging buffer at point `t`, and that it is a whole buffer. -/
abbrev ms1_0 (t : Fin cfg1.N) : Memref sig .tc .vmem S8x512x128 .bf16 := win1_0.stage (cfg1.slots t 0)
abbrev hs1_0 (t : Fin cfg1.N) : (ms1_0 t).IsWhole := hstage1_0 ((cfg1.slots t 0).cast nbuf1_0)
/-- Window 1's current staging buffer at point `t`, and that it is a whole buffer. -/
abbrev ms1_1 (t : Fin cfg1.N) : Memref sig .tc .vmem S8x4096x128 .bf16 := win1_1.stage (cfg1.slots t 1)
abbrev hs1_1 (t : Fin cfg1.N) : (ms1_1 t).IsWhole := hstage1_1 ((cfg1.slots t 1).cast nbuf1_1)
/-- Window 2's current staging buffer at point `t`, and that it is a whole buffer. -/
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
/-- Window 3's current staging buffer at point `t`, and that it is a whole buffer. -/
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
/-- Window 4's current staging buffer at point `t`, and that it is a whole buffer. -/
abbrev ms1_4 (t : Fin cfg1.N) : Memref sig .tc .vmem S8x512x128 .bf16 := win1_4.stage (cfg1.slots t 4)
abbrev hs1_4 (t : Fin cfg1.N) : (ms1_4 t).IsWhole := hstage1_4 ((cfg1.slots t 4).cast nbuf1_4)
/-- The running row maximum: a buffer of the kernel's own, passed whole beside the windows and carried from key step to key step; -/
abbrev scM1_0 : Memref sig .tc .vmem S8x512x1 .f32 := Memref.whole cc1_scratch0
/-- and the view through which its contents are stated. -/
abbrev VS1_0 : View sig .tc .vmem S8x512x1 .f32 := scM1_0.view
/-- The running denominator: a buffer of the kernel's own, passed whole beside the windows and carried from key step to key step; -/
abbrev scM1_1 : Memref sig .tc .vmem S8x512x1 .f32 := Memref.whole cc1_scratch1
/-- and the view through which its contents are stated. -/
abbrev VS1_1 : View sig .tc .vmem S8x512x1 .f32 := scM1_1.view
/-- The accumulator: a buffer of the kernel's own, passed whole beside the windows and carried from key step to key step; -/
abbrev scM1_2 : Memref sig .tc .vmem S8x512x128 .f32 := Memref.whole cc1_scratch2
/-- and the view through which its contents are stated. -/
abbrev VS1_2 : View sig .tc .vmem S8x512x128 .f32 := scM1_2.view

/-! ## The region invariant, the carried buffers singled out -/

/-- What the launch hands the region beside the windows: every scoped buffer that is no staging buffer of this call, at
    some contents, and the generator register. The three carried buffers are restated as whole memrefs owned at some
    contents — the form in which the body takes them and gives them back; the others are never touched here. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f)) ∗ (∃ r, prngReg c r)) := by
  unfold Pipeline.ΦA; rw [scopedRest1_eq]; simp only [scM1_0, scM1_1, scM1_2, owns_whole]; try rfl

/-! ## What one run of the body stores -/

/-- The stores one run of the body leaves behind, buffer by buffer, each list latest store first: into the output
    window's staging buffer, into the running maximum, the running denominator and the accumulator. -/
structure Stores1 (F : FTy → Type) where
  out : List (View.Piece (Elt F) S8x512x128 .bf16)
  m : List (View.Piece (Elt F) S8x512x1 .f32)
  l : List (View.Piece (Elt F) S8x512x1 .f32)
  acc : List (View.Piece (Elt F) S8x512x128 .f32)

end Cert.Kernel.Hand

end
-- ==== Proof.KRun1A.lean ====
/-
  Attention region 1, the body at the FIRST key step of a query tile. The three carried buffers arrive at anything:
  each is reset (maximum to −∞, denominator and accumulator to 0) and then updated from this step's scores, so each
  ends with two whole stores, the update over the reset. The output window rests: its buffer goes back as it came.
-/
import proofs.«144140_j35399120453979_2_alg».proof.Proof.KRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a first key step, on whole buffers: the four inputs at `x0 … x3`, the output's buffer at any `xo` (given
    back untouched), the carried buffers at anything. It runs to a continuation that holds the inputs and the output's
    buffer as they were and each carried buffer with the run's stores written — the lists of stores are the witness,
    found as the run hands each buffer back. -/
noncomputable def kernelRun1_A (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) :
    { L : Stores1 F //
      ∀ (xo : Vec F S8x512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨⟨[], ?_, ?_, ?_⟩, fun xo E K => ?run⟩
  case run =>
    dsimp only
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KRun1B.lean ====
/-
  Attention region 1, the body at a MIDDLE key step of a query tile. The three carried buffers arrive at what the step
  before left; each is read and then stored whole once (denominator, accumulator, maximum, in that order). The output
  window rests: its buffer goes back as it came.
-/
import proofs.«144140_j35399120453979_2_alg».proof.Proof.KRun1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a middle key step, on whole buffers: the four inputs at `x0 … x3`, the output's buffer at any `xo` (given
    back untouched), the carried buffers at `xs0`, `xs1`, `xs2` — what the step before left. It runs to a continuation
    that holds the inputs and the output's buffer as they were and each carried buffer with the run's stores written —
    the lists of stores are the witness, found as the run hands each buffer back. -/
noncomputable def kernelRun1_B (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    { L : Stores1 F //
      ∀ (xo : Vec F S8x512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨⟨[], ?_, ?_, ?_⟩, fun xo E K => ?run⟩
  case run =>
    dsimp only
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KRun1C.lean ====
/-
  Attention region 1, the body at the LAST key step of a query tile. As at a middle step the three carried buffers
  arrive at what the step before left and are each stored whole once; then the accumulator is divided by the denominator, the bias added, negative entries
  replaced by 0 and the result rounded to bf16: that block is stored whole into the output window's staging buffer.
-/
import proofs.«144140_j35399120453979_2_alg».proof.Proof.KRun1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a last key step, on whole buffers: the four inputs at `x0 … x3`, the output's buffer at anything, the
    carried buffers at `xs0`, `xs1`, `xs2` — what the step before left. It runs to a continuation that holds the inputs
    as they were and the output's buffer and each carried buffer with the run's stores written — the lists of stores
    are the witness, found as the run hands each buffer back. -/
noncomputable def kernelRun1_C (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    { L : Stores1 F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.out) ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨⟨?_, ?_, ?_, ?_⟩, fun E K => ?run⟩
  case run =>
    dsimp only
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.KRegion1.lean ====
/-
  Attention region 1: the proof data of the pipeline and its body obligation. After the body at point t the staging
  buffer of an input holds the point's block of its array; the three carried buffers hold what the run of the point's
  kind (first, middle or last key step of its query tile) stored, computed from the point's blocks and — except at a
  first key step — from what the point before left in them; the output window's buffer holds the tile's block after
  a last key step and rests elsewhere. `outsAt1` is that recursion over the points; the region invariant carries the
  three buffers from point to point.
-/
import proofs.«144140_j35399120453979_2_alg».proof.Proof.KRun1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading a list of stores back -/

/-- What a buffer of the output window's shape holds once stores that cover it are written: the stores read back over
    unspecified contents (which covering stores hide). -/
def left1_out (L : List (View.Piece (Elt F) S8x512x128 .bf16)) : Vec F S8x512x128 .bf16 :=
  VO1_4.read (Elt F) (VO1_4.writes (Elt F) VO1_4.junk L)
/-- The same for the running maximum. -/
def left1_m (L : List (View.Piece (Elt F) S8x512x1 .f32)) : Vec F S8x512x1 .f32 :=
  VS1_0.read (Elt F) (VS1_0.writes (Elt F) VS1_0.junk L)
/-- The same for the running denominator. -/
def left1_l (L : List (View.Piece (Elt F) S8x512x1 .f32)) : Vec F S8x512x1 .f32 :=
  VS1_1.read (Elt F) (VS1_1.writes (Elt F) VS1_1.junk L)
/-- The same for the accumulator. -/
def left1_acc (L : List (View.Piece (Elt F) S8x512x128 .f32)) : Vec F S8x512x128 .f32 :=
  VS1_2.read (Elt F) (VS1_2.writes (Elt F) VS1_2.junk L)

/-! ## Each kind of point: what it leaves, and that its stores cover -/

/-- What the body leaves at a first key step: the output block (none is stored: a placeholder nothing consults), the maximum, the denominator, the accumulator. -/
def step1_A (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) : Vec F S8x512x128 .bf16 × Vec F S8x512x1 .f32 × Vec F S8x512x1 .f32 × Vec F S8x512x128 .f32 :=
  (left1_out (kernelRun1_A c i arg2 harg2 arg3 harg3 arg4 harg4 arg5 harg5 arg6 harg6 arg7 harg7 arg8 harg8 arg9 harg9 hc0 hc1 x0 x1 x2 x3).1.out, left1_m (kernelRun1_A c i arg2 harg2 arg3 harg3 arg4 harg4 arg5 harg5 arg6 harg6 arg7 harg7 arg8 harg8 arg9 harg9 hc0 hc1 x0 x1 x2 x3).1.m, left1_l (kernelRun1_A c i arg2 harg2 arg3 harg3 arg4 harg4 arg5 harg5 arg6 harg6 arg7 harg7 arg8 harg8 arg9 harg9 hc0 hc1 x0 x1 x2 x3).1.l, left1_acc (kernelRun1_A c i arg2 harg2 arg3 harg3 arg4 harg4 arg5 harg5 arg6 harg6 arg7 harg7 arg8 harg8 arg9 harg9 hc0 hc1 x0 x1 x2 x3).1.acc)

/-- At a first key step the stores into the maximum cover it (two whole stores: the tiling is evaluated). -/
theorem cover1_A_m (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) (y : S8x512x1.Idx) :
    ∃ pc ∈ (kernelRun1_A c i arg2 harg2 arg3 harg3 arg4 harg4 arg5 harg5 arg6 harg6 arg7 harg7 arg8 harg8 arg9 harg9 hc0 hc1 x0 x1 x2 x3).1.m, y ∈ pc.1.set :=
  View.cover_of_tiledL (kernelRun1_A c i arg2 harg2 arg3 harg3 arg4 harg4 arg5 harg5 arg6 harg6 arg7 harg7 arg8 harg8 arg9 harg9 hc0 hc1 x0 x1 x2 x3).1.m S8x512x1.size (by sl_kernel_rfl) y

/-- At a first key step the stores into the denominator cover it (two whole stores: the tiling is evaluated). -/
theorem cover1_A_l (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) (y : S8x512x1.Idx) :
    ∃ pc ∈ (kernelRun1_A c i arg2 harg2 arg3 harg3 arg4 harg4 arg5 harg5 arg6 harg6 arg7 harg7 arg8 harg8 arg9 harg9 hc0 hc1 x0 x1 x2 x3).1.l, y ∈ pc.1.set :=
  View.cover_of_tiledL (kernelRun1_A c i arg2 harg2 arg3 harg3 arg4 harg4 arg5 harg5 arg6 harg6 arg7 harg7 arg8 harg8 arg9 harg9 hc0 hc1 x0 x1 x2 x3).1.l S8x512x1.size (by sl_kernel_rfl) y

/-- At a first key step the stores into the accumulator cover it (two whole stores: the tiling is evaluated). -/
theorem cover1_A_acc (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) (y : S8x512x128.Idx) :
    ∃ pc ∈ (kernelRun1_A c i arg2 harg2 arg3 harg3 arg4 harg4 arg5 harg5 arg6 harg6 arg7 harg7 arg8 harg8 arg9 harg9 hc0 hc1 x0 x1 x2 x3).1.acc, y ∈ pc.1.set :=
  View.cover_of_tiledL (kernelRun1_A c i arg2 harg2 arg3 harg3 arg4 harg4 arg5 harg5 arg6 harg6 arg7 harg7 arg8 harg8 arg9 harg9 hc0 hc1 x0 x1 x2 x3).1.acc S8x512x128.size (by sl_kernel_rfl) y

/-- What the body leaves at a middle key step: the output block (none is stored: a placeholder nothing consults), the maximum, the denominator, the accumulator. -/
def step1_B (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) : Vec F S8x512x128 .bf16 × Vec F S8x512x1 .f32 × Vec F S8x512x1 .f32 × Vec F S8x512x128 .f32 :=
  (left1_out (kernelRun1_B c i arg2 harg2 arg3 harg3 arg4 harg4 arg5 harg5 arg6 harg6 arg7 harg7 arg8 harg8 arg9 harg9 hc0 hc1 x0 x1 x2 x3 xs0 xs1 xs2).1.out, left1_m (kernelRun1_B c i arg2 harg2 arg3 harg3 arg4 harg4 arg5 harg5 arg6 harg6 arg7 harg7 arg8 harg8 arg9 harg9 hc0 hc1 x0 x1 x2 x3 xs0 xs1 xs2).1.m, left1_l (kernelRun1_B c i arg2 harg2 arg3 harg3 arg4 harg4 arg5 harg5 arg6 harg6 arg7 harg7 arg8 harg8 arg9 harg9 hc0 hc1 x0 x1 x2 x3 xs0 xs1 xs2).1.l, left1_acc (kernelRun1_B c i arg2 harg2 arg3 harg3 arg4 harg4 arg5 harg5 arg6 harg6 arg7 harg7 arg8 harg8 arg9 harg9 hc0 hc1 x0 x1 x2 x3 xs0 xs1 xs2).1.acc)

/-- At a middle key step the stores into the maximum cover it (one whole store: the tiling is evaluated). -/
theorem cover1_B_m (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).1.m, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).1.m S8x512x1.size (by sl_kernel_rfl) y

/-- At a middle key step the stores into the denominator cover it (one whole store: the tiling is evaluated). -/
theorem cover1_B_l (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).1.l, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).1.l S8x512x1.size (by sl_kernel_rfl) y

/-- At a middle key step the stores into the accumulator cover it (one whole store: the tiling is evaluated). -/
theorem cover1_B_acc (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x128.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).1.acc, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).1.acc S8x512x128.size (by sl_kernel_rfl) y

/-- What the body leaves at a last key step: the output block, the maximum, the denominator, the accumulator. -/
def step1_C (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) : Vec F S8x512x128 .bf16 × Vec F S8x512x1 .f32 × Vec F S8x512x1 .f32 × Vec F S8x512x128 .f32 :=
  (left1_out (kernelRun1_C c i arg2 harg2 arg3 harg3 arg4 harg4 arg5 harg5 arg6 harg6 arg7 harg7 arg8 harg8 arg9 harg9 hc0 hc1 x0 x1 x2 x3 xs0 xs1 xs2).1.out, left1_m (kernelRun1_C c i arg2 harg2 arg3 harg3 arg4 harg4 arg5 harg5 arg6 harg6 arg7 harg7 arg8 harg8 arg9 harg9 hc0 hc1 x0 x1 x2 x3 xs0 xs1 xs2).1.m, left1_l (kernelRun1_C c i arg2 harg2 arg3 harg3 arg4 harg4 arg5 harg5 arg6 harg6 arg7 harg7 arg8 harg8 arg9 harg9 hc0 hc1 x0 x1 x2 x3 xs0 xs1 xs2).1.l, left1_acc (kernelRun1_C c i arg2 harg2 arg3 harg3 arg4 harg4 arg5 harg5 arg6 harg6 arg7 harg7 arg8 harg8 arg9 harg9 hc0 hc1 x0 x1 x2 x3 xs0 xs1 xs2).1.acc)

/-- At a last key step the stores into the maximum cover it (one whole store: the tiling is evaluated). -/
theorem cover1_C_m (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1.m, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1.m S8x512x1.size (by sl_kernel_rfl) y

/-- At a last key step the stores into the denominator cover it (one whole store: the tiling is evaluated). -/
theorem cover1_C_l (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1.l, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1.l S8x512x1.size (by sl_kernel_rfl) y

/-- At a last key step the stores into the accumulator cover it (one whole store: the tiling is evaluated). -/
theorem cover1_C_acc (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1.acc, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1.acc S8x512x128.size (by sl_kernel_rfl) y

/-- At a last key step the one whole store into the output window's buffer covers it. -/
theorem cover1_C_out (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1.out, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1.out S8x512x128.size (by sl_kernel_rfl) y

/-! ## The recursion over the points -/

/-- Nothing: what stands for "the point before" at the grid's first point, where no case reads it. -/
def none1 : Vec F S8x512x128 .bf16 × Vec F S8x512x1 .f32 × Vec F S8x512x1 .f32 × Vec F S8x512x128 .f32 := (left1_out [], left1_m [], left1_l [], left1_acc [])

/-- One point: the run of the point's kind — by the key coordinate t % 16 — at the point's buffers and input blocks,
    over what the point before left in the carried buffers (`prev`; a first key step ignores it). -/
def stepAt1 (c : Dev nD) (t : Fin cfg1.N) (prev : Vec F S8x512x128 .bf16 × Vec F S8x512x1 .f32 × Vec F S8x512x1 .f32 × Vec F S8x512x128 .f32) : Vec F S8x512x128 .bf16 × Vec F S8x512x1 .f32 × Vec F S8x512x1 .f32 × Vec F S8x512x128 .f32 :=
  if h0 : t.val % 16 = 0 then
    step1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t)
  else if h1 : t.val % 16 = 15 then
    step1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2
  else
    step1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2

/-- THE ACCUMULATION: what the output window's buffer and the three carried buffers hold after the body at position
    `n` (output block, maximum, denominator, accumulator). -/
def outsAt1 (c : Dev nD) : (n : ℕ) → n < cfg1.N → Vec F S8x512x128 .bf16 × Vec F S8x512x1 .f32 × Vec F S8x512x1 .f32 × Vec F S8x512x128 .f32
  | 0, hn => stepAt1 V c ⟨0, hn⟩ none1
  | n + 1, hn => stepAt1 V c ⟨n + 1, hn⟩ (outsAt1 c n (Nat.lt_of_succ_lt hn))

/-- At a first key step: the reset-and-update run at the point's blocks. -/
theorem outsAt1_A (c : Dev nD) (t : Fin cfg1.N) (h0 : t.val % 16 = 0) :
    outsAt1 V c t.val t.isLt = step1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) := by
  obtain ⟨n, hn⟩ := t
  cases n with
  | zero => show stepAt1 V c ⟨0, hn⟩ none1 = _; unfold stepAt1; exact dif_pos h0
  | succ n => show stepAt1 V c ⟨n + 1, hn⟩ (outsAt1 V c n _) = _; unfold stepAt1; exact dif_pos h0

/-- At a middle key step: the update run over what the point before left. -/
theorem outsAt1_B (c : Dev nD) (t : Fin cfg1.N) (h0 : ¬t.val % 16 = 0) (h1 : ¬t.val % 16 = 15) :
    outsAt1 V c t.val t.isLt = step1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => show stepAt1 V c ⟨n + 1, hn⟩ (outsAt1 V c n _) = _; unfold stepAt1; exact (dif_neg h0).trans (dif_neg h1)

/-- At a last key step: the update-and-store run over what the point before left. -/
theorem outsAt1_C (c : Dev nD) (t : Fin cfg1.N) (h0 : ¬t.val % 16 = 0) (h1 : t.val % 16 = 15) :
    outsAt1 V c t.val t.isLt = step1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => show stepAt1 V c ⟨n + 1, hn⟩ (outsAt1 V c n _) = _; unfold stepAt1; exact (dif_neg h0).trans (dif_pos h1)

/-! ## The region invariant -/

/-- The scoped buffers this region never touches (other calls' staging buffers and scratch), each at some contents, and
    the generator register at some state. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f) ∗ (∃ r, prngReg c r))

/-- What the launch hands the region, taken apart: the three carried buffers at some contents, and the rest. -/
theorem PhiA1_open (c : Dev nD) :
    (Pipeline.ΦA spec1 c : sProp 𝕄) ⊢ iprop((∃ d, owns (c : Thread nD τ) scM1_0 fullShare d) ∗ (∃ d, owns (c : Thread nD τ) scM1_1 fullShare d) ∗ (∃ d, owns (c : Thread nD τ) scM1_2 fullShare d) ∗ others1 c) := by
  rw [PhiA1_eq]; unfold others1
  iintro ⟨⟨HR0, HR1, HR2, HR3, HR4, HS0, HS1, HS2, HR8, HR9, HR10, HR11, HR12, HR13, HR14, HR15, HR16, HR17, HR18, HR19, HR20, HR21, HR22, HR23⟩, Hg⟩
  isplitl [HS0]; · iexact HS0
  isplitl [HS1]; · iexact HS1
  isplitl [HS2]; · iexact HS2
  isplitl [HR0]; · iexact HR0
  isplitl [HR1]; · iexact HR1
  isplitl [HR2]; · iexact HR2
  isplitl [HR3]; · iexact HR3
  isplitl [HR4]; · iexact HR4
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HR18]; · iexact HR18
  isplitl [HR19]; · iexact HR19
  isplitl [HR20]; · iexact HR20
  isplitl [HR21]; · iexact HR21
  isplitl [HR22]; · iexact HR22
  isplitl [HR23]; · iexact HR23
  iexact Hg

/-- And put together again. -/
theorem PhiA1_close (c : Dev nD) :
    iprop((∃ d, owns (c : Thread nD τ) scM1_0 fullShare d) ∗ (∃ d, owns (c : Thread nD τ) scM1_1 fullShare d) ∗ (∃ d, owns (c : Thread nD τ) scM1_2 fullShare d) ∗ others1 c) ⊢ (Pipeline.ΦA spec1 c : sProp 𝕄) := by
  rw [PhiA1_eq]; unfold others1
  iintro ⟨HS0, HS1, HS2, HR0, HR1, HR2, HR3, HR4, HR8, HR9, HR10, HR11, HR12, HR13, HR14, HR15, HR16, HR17, HR18, HR19, HR20, HR21, HR22, HR23, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HS0]; · iexact HS0
  isplitl [HS1]; · iexact HS1
  isplitl [HS2]; · iexact HS2
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HR18]; · iexact HR18
  isplitl [HR19]; · iexact HR19
  isplitl [HR20]; · iexact HR20
  isplitl [HR21]; · iexact HR21
  isplitl [HR22]; · iexact HR22
  iexact HR23

/-- The invariant between two points: the carried buffers at given contents `s` (its maximum, denominator and
    accumulator components), and the rest. -/
def carried1 (c : Dev nD) (s : Vec F S8x512x128 .bf16 × Vec F S8x512x1 .f32 × Vec F S8x512x1 .f32 × Vec F S8x512x128 .f32) : sProp 𝕄 :=
  iprop(owns (c : Thread nD τ) scM1_0 fullShare s.2.1 ∗ owns (c : Thread nD τ) scM1_1 fullShare s.2.2.1 ∗ owns (c : Thread nD τ) scM1_2 fullShare s.2.2.2 ∗ others1 c)

/-- The region invariant before position `n`: what the launch hands over before the first point; afterwards the
    carried buffers at what the point before left. -/
def PhiS1 (c : Dev nD) : (n : ℕ) → n ≤ cfg1.N → sProp 𝕄
  | 0, _ => Pipeline.ΦA spec1 c
  | n + 1, hn => carried1 c (outsAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = carried1 c (outsAt1 V c n hn) := rfl

theorem PhiS1_pos (c : Dev nD) (n : ℕ) (h : n ≤ cfg1.N) (hz : n ≠ 0) :
    PhiS1 V c n h = carried1 c (outsAt1 V c (n - 1) (by omega)) := by
  cases n with
  | zero => exact absurd rfl hz
  | succ n => rfl

/-- Forgetting what the carried buffers hold gives back what the launch handed over. -/
theorem carried1_forget (c : Dev nD) (s : Vec F S8x512x128 .bf16 × Vec F S8x512x1 .f32 × Vec F S8x512x1 .f32 × Vec F S8x512x128 .f32) : carried1 (F := F) c s ⊢ Pipeline.ΦA spec1 c := by
  refine BIBase.Entails.trans ?_ (PhiA1_close c)
  unfold carried1
  iintro ⟨HS0, HS1, HS2, Hr⟩
  isplitl [HS0]; · iexists _; iexact HS0
  isplitl [HS1]; · iexists _; iexact HS1
  isplitl [HS2]; · iexists _; iexact HS2
  iexact Hr

/-! ## The proof data -/

/-- The proof data of the pipeline on core `c`, for any shares `q` of the input arrays: the arrays as the region finds
    them; after the body at point `t` each input's buffer at its block, the output's at `outsAt1`'s first component;
    the invariant `PhiS1`; nothing owed. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q := q
  owed _ := 0

theorem A_eq1 (q : Fin cfg1.W → PosShare TreeShare) (c : Dev nD) (w : Fin cfg1.W) : (dat1 V q c).A w = V c (Pipeline.arrRef spec1 w) := by
  dsimp only [dat1]

theorem PhiS1_castSucc (q : Fin cfg1.W → PosShare TreeShare) (c : Dev nD) (t : Fin cfg1.N) :
    (dat1 V q c).Φ t.castSucc = PhiS1 V c t.val (Nat.le_of_lt t.isLt) := by
  dsimp only [dat1]; simp only [Fin.coe_castSucc]

theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = (outsAt1 V c t.val t.isLt).1 := by dsimp only [dat1]

theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d

/-! ## The body obligation -/

/-- What the body is called with at point `t`: the invariant, the core's dues, each window's current buffer. -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d)))

/-- What it gives back. -/
def bodyPost1 (q : Fin cfg1.W → PosShare TreeShare) (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t)

set_option maxHeartbeats 1600000 in
/-- The body at a first key step. At the grid's first point the carried buffers come from the launch's invariant, at
    anything; at a later tile's first step from the point before — either way the run asks nothing of their contents. -/
theorem sound_body1_A (q : Fin cfg1.W → PosShare TreeShare) (c : Dev nD) (t : Fin cfg1.N) (h0 : t.val % 16 = 0) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).owesAt () t.succ = (dat1 V q c).owesAt () t.castSucc from rfl]
  rw [show (dat1 V q c).Φ t.succ = PhiS1 V c (t.val + 1) t.isLt from rfl, PhiS1_succ]
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  rw [show (dat1 V q c).leavesExact 2 t = owns (c : Thread nD τ) (ms1_2 t) fullShare ((dat1 V q c).after 2 t) from by
    unfold Dat.leavesExact; rw [liveAt1_2 t], after1_2]
  rw [show (dat1 V q c).leavesExact 3 t = owns (c : Thread nD τ) (ms1_3 t) fullShare ((dat1 V q c).after 3 t) from by
    unfold Dat.leavesExact; rw [liveAt1_3 t], after1_3]
  rw [Dat.leavesExact_idle (dat1 V q c) 4 t (idleAt1_4_A t ((hcond1_0 t).mpr h0) (fun h => by have := (hcond1_1 t).mp h; omega)) (noFlush1_4_A t ((hcond1_0 t).mpr h0) (fun h => by have := (hcond1_1 t).mp h; omega))]
  rw [outsAt1_A V c t h0]
  unfold carried1 step1_A; dsimp only
  have hstart : (dat1 V q c).Φ t.castSucc ⊢ iprop((∃ d, owns (c : Thread nD τ) scM1_0 fullShare d) ∗ (∃ d, owns (c : Thread nD τ) scM1_1 fullShare d) ∗ (∃ d, owns (c : Thread nD τ) scM1_2 fullShare d) ∗ others1 c) := by
    rw [PhiS1_castSucc V q c t]
    by_cases hz : t.val = 0
    · rw [PhiS1_zero V c _ _ hz]; exact PhiA1_open c
    · rw [PhiS1_pos V c _ _ hz]; unfold carried1
      iintro ⟨HS0, HS1, HS2, Hr⟩
      isplitl [HS0]; · iexists _; iexact HS0
      isplitl [HS1]; · iexists _; iexact HS1
      isplitl [HS2]; · iexists _; iexact HS2
      iexact Hr
  iintro ⟨HΦ, Ho, ⟨%d0, H0⟩, ⟨%d1, H1⟩, ⟨%d2, H2⟩, ⟨%d3, H3⟩, ⟨%d4, H4⟩⟩
  ihave HΦ' := hstart $$ HΦ
  icases HΦ' with ⟨HS0, HS1, HS2, Hr⟩
  iapply ((kernelRun1_A c (grid1.coords t) _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t)).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%e0, HS0⟩, ⟨%e1, HS1⟩, ⟨%e2, HS2⟩⟩
  isplitl [HS0 HS1 HS2 Hr]
  · unfold left1_m left1_l left1_acc
    isplitl [HS0]
    · unfold owns; iexists _; isplitr
      swap; · iexact HS0
      ipureintro; exact View.read_writes_of_cover _ _ _ _ _ (cover1_A_m c _ _ _ _ _ _ _ _ _ _ _ _ _ _ _ _ _ _ _ _ _ _ _)
    isplitl [HS1]
    · unfold owns; iexists _; isplitr
      swap; · iexact HS1
      ipureintro; exact View.read_writes_of_cover _ _ _ _ _ (cover1_A_l c _ _ _ _ _ _ _ _ _ _ _ _ _ _ _ _ _ _ _ _ _ _ _)
    isplitl [HS2]
    · unfold owns; iexists _; isplitr
      swap; · iexact HS2
      ipureintro; exact View.read_writes_of_cover _ _ _ _ _ (cover1_A_acc c _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a middle key step: the invariant hands the carried buffers over at what the point before left. -/
theorem sound_body1_B (q : Fin cfg1.W → PosShare TreeShare) (c : Dev nD) (t : Fin cfg1.N) (h0 : ¬t.val % 16 = 0) (h1 : ¬t.val % 16 = 15) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).owesAt () t.succ = (dat1 V q c).owesAt () t.castSucc from rfl]
  rw [show (dat1 V q c).Φ t.succ = PhiS1 V c (t.val + 1) t.isLt from rfl, PhiS1_succ]
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  rw [show (dat1 V q c).leavesExact 2 t = owns (c : Thread nD τ) (ms1_2 t) fullShare ((dat1 V q c).after 2 t) from by
    unfold Dat.leavesExact; rw [liveAt1_2 t], after1_2]
  rw [show (dat1 V q c).leavesExact 3 t = owns (c : Thread nD τ) (ms1_3 t) fullShare ((dat1 V q c).after 3 t) from by
    unfold Dat.leavesExact; rw [liveAt1_3 t], after1_3]
  rw [Dat.leavesExact_idle (dat1 V q c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
  rw [outsAt1_B V c t h0 h1]
  have hz : t.val ≠ 0 := fun e => h0 (by rw [e])
  rw [PhiS1_castSucc V q c t, PhiS1_pos V c _ _ hz]
  unfold carried1 step1_B; dsimp only
  iintro ⟨HΦ, Ho, ⟨%d0, H0⟩, ⟨%d1, H1⟩, ⟨%d2, H2⟩, ⟨%d3, H3⟩, ⟨%d4, H4⟩⟩
  icases HΦ with ⟨HS0, HS1, HS2, Hr⟩
  iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%e0, HS0⟩, ⟨%e1, HS1⟩, ⟨%e2, HS2⟩⟩
  isplitl [HS0 HS1 HS2 Hr]
  · unfold left1_m left1_l left1_acc
    isplitl [HS0]
    · unfold owns; iexists _; isplitr
      swap; · iexact HS0
      ipureintro; exact View.read_writes_of_cover _ _ _ _ _ (cover1_B_m c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (cover1_B_l c _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (cover1_B_acc c _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a last key step: as at a middle step, and the output window's buffer comes back at the tile's block. -/
theorem sound_body1_C (q : Fin cfg1.W → PosShare TreeShare) (c : Dev nD) (t : Fin cfg1.N) (h0 : ¬t.val % 16 = 0) (h1 : t.val % 16 = 15) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).owesAt () t.succ = (dat1 V q c).owesAt () t.castSucc from rfl]
  rw [show (dat1 V q c).Φ t.succ = PhiS1 V c (t.val + 1) t.isLt from rfl, PhiS1_succ]
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  rw [show (dat1 V q c).leavesExact 2 t = owns (c : Thread nD τ) (ms1_2 t) fullShare ((dat1 V q c).after 2 t) from by
    unfold Dat.leavesExact; rw [liveAt1_2 t], after1_2]
  rw [show (dat1 V q c).leavesExact 3 t = owns (c : Thread nD τ) (ms1_3 t) fullShare ((dat1 V q c).after 3 t) from by
    unfold Dat.leavesExact; rw [liveAt1_3 t], after1_3]
  rw [show (dat1 V q c).leavesExact 4 t = owns (c : Thread nD τ) (ms1_4 t) fullShare ((dat1 V q c).after 4 t) from by
    unfold Dat.leavesExact; rw [liveAt1_4_C t (fun h => h0 ((hcond1_0 t).mp h)) ((hcond1_1 t).mpr h1)], after1_4]
  rw [outsAt1_C V c t h0 h1]
  have hz : t.val ≠ 0 := fun e => h0 (by rw [e])
  rw [PhiS1_castSucc V q c t, PhiS1_pos V c _ _ hz]
  unfold carried1 step1_C; dsimp only
  iintro ⟨HΦ, Ho, ⟨%d0, H0⟩, ⟨%d1, H1⟩, ⟨%d2, H2⟩, ⟨%d3, H3⟩, ⟨%d4, H4⟩⟩
  icases HΦ with ⟨HS0, HS1, HS2, Hr⟩
  iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%e4, H4⟩, ⟨%e0, HS0⟩, ⟨%e1, HS1⟩, ⟨%e2, HS2⟩⟩
  isplitl [HS0 HS1 HS2 Hr]
  · unfold left1_m left1_l left1_acc
    isplitl [HS0]
    · unfold owns; iexists _; isplitr
      swap; · iexact HS0
      ipureintro; exact View.read_writes_of_cover _ _ _ _ _ (cover1_C_m c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (cover1_C_l c _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (cover1_C_acc c _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  unfold owns left1_out; iexists _; isplitr
  swap; · iexact H4
  ipureintro; exact View.read_writes_of_cover _ _ _ _ _ (cover1_C_out c _ _ _ _ _ _ _ _ _ _ _ _ _ _ _ _ _ _ _ _ _ _ _ _ _ _)

/-- The body at any point: by the key coordinate, one of the three. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  by_cases h0 : t.val % 16 = 0
  · exact sound_body1_A V q c t h0
  · by_cases h1 : t.val % 16 = 15
    · exact sound_body1_C V q c t h0 h1
    · exact sound_body1_B V q c t h0 h1

/-- The library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (q : Fin cfg1.W → PosShare TreeShare) (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After any point the invariant gives it back, the carried buffers' contents forgotten. -/
theorem Phi_out1 (q : Fin cfg1.W → PosShare TreeShare) (c : Dev nD) (t : Fin (cfg1.N + 1)) (ht : t.val ≠ 0) : (dat1 V q c).Φ t ⊢ Pipeline.ΦA spec1 c := by
  rw [show (dat1 V q c).Φ t = PhiS1 V c t.val (Nat.le_of_lt_succ t.isLt) from rfl, PhiS1_pos V c _ _ ht]
  exact carried1_forget c _

/-- In particular after the last. -/
theorem hout1 (q : Fin cfg1.W → PosShare TreeShare) (c : Dev nD) : (dat1 V q c).Φ (Fin.last cfg1.N) ⊢ Pipeline.ΦA spec1 c :=
  Phi_out1 V q c _ (by rw [Fin.val_last]; have : cfg1.N = 128 := N_1; omega)

end Cert.Kernel.Hand

end
-- ==== Proof.KRuns3.lean ====
/-
  Attention region 3, shared vocabulary. The grid is 8 query tiles by 16 key steps, walked row-major: point t is
  key step t % 16 of query tile t / 16. Three kinds of point: the first key step of a tile (the running maximum, the
  running denominator and the accumulator are reset before use), a middle step (they are updated from what the step
  before left), and the last step (updated, then the tile's output block is normalised and stored). This module
  fixes the two branch conditions as predicates of the grid coordinates and decides them over the 128 points, says
  where the output window rests, names the buffers the body is called with, and restates the region invariant with
  the three carried buffers singled out.
-/
import proofs.«144140_j35399120453979_2_alg».proof.Proof.Gen.Kernel.Launch
import proofs.«144140_j35399120453979_2_alg».proof.Proof.Gen.Kernel.Skeleton
import proofs.«144140_j35399120453979_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

/-- The block of window `w`'s array that point `t` works on, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input 0: whenever the body runs, its staging buffer holds the block of the point — a point that does not fetch
    works on the block the point before worked on, and the body never writes an input. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input 1: whenever the body runs, its staging buffer holds the block of the point — a point that does not fetch
    works on the block the point before worked on, and the body never writes an input. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input 2: whenever the body runs, its staging buffer holds the block of the point — a point that does not fetch
    works on the block the point before worked on, and the body never writes an input. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input 3: whenever the body runs, its staging buffer holds the block of the point — a point that does not fetch
    works on the block the point before worked on, and the body never writes an input. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions -/

/-- "This is the first key step of its query tile" as the body tests it: the key coordinate compared with 0, the
    comparison widened and compared with 0 again. -/
abbrev cond3_0 (i : grid3.Coords) : Prop := (Scalar.cmpi .ne (Scalar.extui (Scalar.cmpi .eq (BitVec.ofNat 32 (i 1).val) 0#32)) 0#32) = 1#1
/-- Row-major, the key coordinate of point t is t % 16: the test holds exactly at the multiples of 16. -/
theorem hcond3_0 : ∀ t : Fin cfg3.N, cond3_0 (grid3.coords t) ↔ t.val % 16 = 0 :=
  (by decide +kernel : ∀ t : Fin grid3.N, cond3_0 (grid3.coords t) ↔ t.val % 16 = 0)

/-- "This is the last key step of its query tile" as the body tests it. -/
abbrev cond3_1 (i : grid3.Coords) : Prop := k3_cond2 i = 1#1
/-- It holds exactly at the points 15 mod 16. -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows rest -/
/-- Input 0 never rests. -/
theorem liveAt3_0 : ∀ t : Fin cfg3.N, cfg3.idle 0 (grid3.coords t) = false := by decide +kernel
/-- Input 1 never rests. -/
theorem liveAt3_1 : ∀ t : Fin cfg3.N, cfg3.idle 1 (grid3.coords t) = false := by decide +kernel
/-- Input 2 never rests. -/
theorem liveAt3_2 : ∀ t : Fin cfg3.N, cfg3.idle 2 (grid3.coords t) = false := by decide +kernel
/-- Input 3 never rests. -/
theorem liveAt3_3 : ∀ t : Fin cfg3.N, cfg3.idle 3 (grid3.coords t) = false := by decide +kernel
/-- At a first key step the output window rests: nothing is stored into it, -/
theorem idleAt3_4_A : ∀ t : Fin cfg3.N, cond3_0 (grid3.coords t) → ¬cond3_1 (grid3.coords t) → cfg3.idle 4 (grid3.coords t) = true := by decide +kernel
/-- and its block is not written back there. -/
theorem noFlush3_4_A : ∀ t : Fin cfg3.N, cond3_0 (grid3.coords t) → ¬cond3_1 (grid3.coords t) → (cfg3.win 4).flush t = false := by decide +kernel
/-- The same at a middle step: the window rests, -/
theorem idleAt3_4_B : ∀ t : Fin cfg3.N, ¬cond3_0 (grid3.coords t) → ¬cond3_1 (grid3.coords t) → cfg3.idle 4 (grid3.coords t) = true := by decide +kernel
/-- and is not written back. -/
theorem noFlush3_4_B : ∀ t : Fin cfg3.N, ¬cond3_0 (grid3.coords t) → ¬cond3_1 (grid3.coords t) → (cfg3.win 4).flush t = false := by decide +kernel
/-- At a last key step the output window is live: the tile's block is stored there. -/
theorem liveAt3_4_C : ∀ t : Fin cfg3.N, ¬cond3_0 (grid3.coords t) → cond3_1 (grid3.coords t) → cfg3.idle 4 (grid3.coords t) = false := by decide +kernel

/-! ## The buffers the body is called with -/

/-- One staging buffer of the output window, as a view: the block stored there is stated through it (any whole view of
    the shape reads the same pieces the same way). -/
abbrev VO3_4 : View sig .tc .vmem S8x512x64 .f32 := (Memref.whole cc3_stg4_0 : Memref sig .tc .vmem S8x512x64 .f32).view
/-- Window 0's current staging buffer at point `t`, and that it is a whole buffer. -/
abbrev ms3_0 (t : Fin cfg3.N) : Memref sig .tc .vmem S8x512x64 .bf16 := win3_0.stage (cfg3.slots t 0)
abbrev hs3_0 (t : Fin cfg3.N) : (ms3_0 t).IsWhole := hstage3_0 ((cfg3.slots t 0).cast nbuf3_0)
/-- Window 1's current staging buffer at point `t`, and that it is a whole buffer. -/
abbrev ms3_1 (t : Fin cfg3.N) : Memref sig .tc .vmem S8x4096x64 .bf16 := win3_1.stage (cfg3.slots t 1)
abbrev hs3_1 (t : Fin cfg3.N) : (ms3_1 t).IsWhole := hstage3_1 ((cfg3.slots t 1).cast nbuf3_1)
/-- Window 2's current staging buffer at point `t`, and that it is a whole buffer. -/
abbrev ms3_2 (t : Fin cfg3.N) : Memref sig .tc .vmem S512x256 .f32 := win3_2.stage (cfg3.slots t 2)
abbrev hs3_2 (t : Fin cfg3.N) : (ms3_2 t).IsWhole := hstage3_2 ((cfg3.slots t 2).cast nbuf3_2)
/-- Window 3's current staging buffer at point `t`, and that it is a whole buffer. -/
abbrev ms3_3 (t : Fin cfg3.N) : Memref sig .tc .vmem S1x1x64 .f32 := win3_3.stage (cfg3.slots t 3)
abbrev hs3_3 (t : Fin cfg3.N) : (ms3_3 t).IsWhole := hstage3_3 ((cfg3.slots t 3).cast nbuf3_3)
/-- Window 4's current staging buffer at point `t`, and that it is a whole buffer. -/
abbrev ms3_4 (t : Fin cfg3.N) : Memref sig .tc .vmem S8x512x64 .f32 := win3_4.stage (cfg3.slots t 4)
abbrev hs3_4 (t : Fin cfg3.N) : (ms3_4 t).IsWhole := hstage3_4 ((cfg3.slots t 4).cast nbuf3_4)
/-- The running row maximum: a buffer of the kernel's own, passed whole beside the windows and carried from key step to key step; -/
abbrev scM3_0 : Memref sig .tc .vmem S8x512x1 .f32 := Memref.whole cc3_scratch0
/-- and the view through which its contents are stated. -/
abbrev VS3_0 : View sig .tc .vmem S8x512x1 .f32 := scM3_0.view
/-- The running denominator: a buffer of the kernel's own, passed whole beside the windows and carried from key step to key step; -/
abbrev scM3_1 : Memref sig .tc .vmem S8x512x1 .f32 := Memref.whole cc3_scratch1
/-- and the view through which its contents are stated. -/
abbrev VS3_1 : View sig .tc .vmem S8x512x1 .f32 := scM3_1.view
/-- The accumulator: a buffer of the kernel's own, passed whole beside the windows and carried from key step to key step; -/
abbrev scM3_2 : Memref sig .tc .vmem S8x512x64 .f32 := Memref.whole cc3_scratch2
/-- and the view through which its contents are stated. -/
abbrev VS3_2 : View sig .tc .vmem S8x512x64 .f32 := scM3_2.view

/-! ## The region invariant, the carried buffers singled out -/

/-- What the launch hands the region beside the windows: every scoped buffer that is no staging buffer of this call, at
    some contents, and the generator register. The three carried buffers are restated as whole memrefs owned at some
    contents — the form in which the body takes them and gives them back; the others are never touched here. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ d, owns (c : Thread nD τ) scM3_0 fullShare d) ∗ (∃ d, owns (c : Thread nD τ) scM3_1 fullShare d) ∗ (∃ d, owns (c : Thread nD τ) scM3_2 fullShare d)) ∗ (∃ r, prngReg c r)) := by
  unfold Pipeline.ΦA; rw [scopedRest3_eq]; simp only [scM3_0, scM3_1, scM3_2, owns_whole]; try rfl

/-! ## What one run of the body stores -/

/-- The stores one run of the body leaves behind, buffer by buffer, each list latest store first: into the output
    window's staging buffer, into the running maximum, the running denominator and the accumulator. -/
structure Stores3 (F : FTy → Type) where
  out : List (View.Piece (Elt F) S8x512x64 .f32)
  m : List (View.Piece (Elt F) S8x512x1 .f32)
  l : List (View.Piece (Elt F) S8x512x1 .f32)
  acc : List (View.Piece (Elt F) S8x512x64 .f32)

end Cert.Kernel.Hand

end
-- ==== Proof.KRun3A.lean ====
/-
  Attention region 3, the body at the FIRST key step of a query tile. The three carried buffers arrive at anything:
  each is reset (maximum to −∞, denominator and accumulator to 0) and then updated from this step's scores, so each
  ends with two whole stores, the update over the reset. The output window rests: its buffer goes back as it came.
-/
import proofs.«144140_j35399120453979_2_alg».proof.Proof.KRuns3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a first key step, on whole buffers: the four inputs at `x0 … x3`, the output's buffer at any `xo` (given
    back untouched), the carried buffers at anything. It runs to a continuation that holds the inputs and the output's
    buffer as they were and each carried buffer with the run's stores written — the lists of stores are the witness,
    found as the run hands each buffer back. -/
noncomputable def kernelRun3_A (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) :
    { L : Stores3 F //
      ∀ (xo : Vec F S8x512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨⟨[], ?_, ?_, ?_⟩, fun xo E K => ?run⟩
  case run =>
    dsimp only
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KRun3B.lean ====
/-
  Attention region 3, the body at a MIDDLE key step of a query tile. The three carried buffers arrive at what the step
  before left; each is read and then stored whole once (denominator, accumulator, maximum, in that order). The output
  window rests: its buffer goes back as it came.
-/
import proofs.«144140_j35399120453979_2_alg».proof.Proof.KRun3A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a middle key step, on whole buffers: the four inputs at `x0 … x3`, the output's buffer at any `xo` (given
    back untouched), the carried buffers at `xs0`, `xs1`, `xs2` — what the step before left. It runs to a continuation
    that holds the inputs and the output's buffer as they were and each carried buffer with the run's stores written —
    the lists of stores are the witness, found as the run hands each buffer back. -/
noncomputable def kernelRun3_B (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    { L : Stores3 F //
      ∀ (xo : Vec F S8x512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨⟨[], ?_, ?_, ?_⟩, fun xo E K => ?run⟩
  case run =>
    dsimp only
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KRun3C.lean ====
/-
  Attention region 3, the body at the LAST key step of a query tile. As at a middle step the three carried buffers
  arrive at what the step before left and are each stored whole once; then the accumulator is divided by the denominator and the bias added: that block is stored
  whole into the output window's staging buffer.
-/
import proofs.«144140_j35399120453979_2_alg».proof.Proof.KRun3B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a last key step, on whole buffers: the four inputs at `x0 … x3`, the output's buffer at anything, the
    carried buffers at `xs0`, `xs1`, `xs2` — what the step before left. It runs to a continuation that holds the inputs
    as they were and the output's buffer and each carried buffer with the run's stores written — the lists of stores
    are the witness, found as the run hands each buffer back. -/
noncomputable def kernelRun3_C (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    { L : Stores3 F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.out) ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨⟨?_, ?_, ?_, ?_⟩, fun E K => ?run⟩
  case run =>
    dsimp only
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.KRegion3.lean ====
/-
  Attention region 3: the proof data of the pipeline and its body obligation. After the body at point t the staging
  buffer of an input holds the point's block of its array; the three carried buffers hold what the run of the point's
  kind (first, middle or last key step of its query tile) stored, computed from the point's blocks and — except at a
  first key step — from what the point before left in them; the output window's buffer holds the tile's block after
  a last key step and rests elsewhere. `outsAt3` is that recursion over the points; the region invariant carries the
  three buffers from point to point.
-/
import proofs.«144140_j35399120453979_2_alg».proof.Proof.KRun3C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading a list of stores back -/

/-- What a buffer of the output window's shape holds once stores that cover it are written: the stores read back over
    unspecified contents (which covering stores hide). -/
def left3_out (L : List (View.Piece (Elt F) S8x512x64 .f32)) : Vec F S8x512x64 .f32 :=
  VO3_4.read (Elt F) (VO3_4.writes (Elt F) VO3_4.junk L)
/-- The same for the running maximum. -/
def left3_m (L : List (View.Piece (Elt F) S8x512x1 .f32)) : Vec F S8x512x1 .f32 :=
  VS3_0.read (Elt F) (VS3_0.writes (Elt F) VS3_0.junk L)
/-- The same for the running denominator. -/
def left3_l (L : List (View.Piece (Elt F) S8x512x1 .f32)) : Vec F S8x512x1 .f32 :=
  VS3_1.read (Elt F) (VS3_1.writes (Elt F) VS3_1.junk L)
/-- The same for the accumulator. -/
def left3_acc (L : List (View.Piece (Elt F) S8x512x64 .f32)) : Vec F S8x512x64 .f32 :=
  VS3_2.read (Elt F) (VS3_2.writes (Elt F) VS3_2.junk L)

/-! ## Each kind of point: what it leaves, and that its stores cover -/

/-- What the body leaves at a first key step: the output block (none is stored: a placeholder nothing consults), the maximum, the denominator, the accumulator. -/
def step3_A (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) : Vec F S8x512x64 .f32 × Vec F S8x512x1 .f32 × Vec F S8x512x1 .f32 × Vec F S8x512x64 .f32 :=
  (left3_out (kernelRun3_A c i arg2 harg2 arg3 harg3 arg4 harg4 arg5 harg5 arg6 harg6 arg7 harg7 arg8 harg8 arg9 harg9 hc0 hc1 x0 x1 x2 x3).1.out, left3_m (kernelRun3_A c i arg2 harg2 arg3 harg3 arg4 harg4 arg5 harg5 arg6 harg6 arg7 harg7 arg8 harg8 arg9 harg9 hc0 hc1 x0 x1 x2 x3).1.m, left3_l (kernelRun3_A c i arg2 harg2 arg3 harg3 arg4 harg4 arg5 harg5 arg6 harg6 arg7 harg7 arg8 harg8 arg9 harg9 hc0 hc1 x0 x1 x2 x3).1.l, left3_acc (kernelRun3_A c i arg2 harg2 arg3 harg3 arg4 harg4 arg5 harg5 arg6 harg6 arg7 harg7 arg8 harg8 arg9 harg9 hc0 hc1 x0 x1 x2 x3).1.acc)

/-- At a first key step the stores into the maximum cover it (two whole stores: the tiling is evaluated). -/
theorem cover3_A_m (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) (y : S8x512x1.Idx) :
    ∃ pc ∈ (kernelRun3_A c i arg2 harg2 arg3 harg3 arg4 harg4 arg5 harg5 arg6 harg6 arg7 harg7 arg8 harg8 arg9 harg9 hc0 hc1 x0 x1 x2 x3).1.m, y ∈ pc.1.set :=
  View.cover_of_tiledL (kernelRun3_A c i arg2 harg2 arg3 harg3 arg4 harg4 arg5 harg5 arg6 harg6 arg7 harg7 arg8 harg8 arg9 harg9 hc0 hc1 x0 x1 x2 x3).1.m S8x512x1.size (by sl_kernel_rfl) y

/-- At a first key step the stores into the denominator cover it (two whole stores: the tiling is evaluated). -/
theorem cover3_A_l (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) (y : S8x512x1.Idx) :
    ∃ pc ∈ (kernelRun3_A c i arg2 harg2 arg3 harg3 arg4 harg4 arg5 harg5 arg6 harg6 arg7 harg7 arg8 harg8 arg9 harg9 hc0 hc1 x0 x1 x2 x3).1.l, y ∈ pc.1.set :=
  View.cover_of_tiledL (kernelRun3_A c i arg2 harg2 arg3 harg3 arg4 harg4 arg5 harg5 arg6 harg6 arg7 harg7 arg8 harg8 arg9 harg9 hc0 hc1 x0 x1 x2 x3).1.l S8x512x1.size (by sl_kernel_rfl) y

/-- At a first key step the stores into the accumulator cover it (two whole stores: the tiling is evaluated). -/
theorem cover3_A_acc (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) (y : S8x512x64.Idx) :
    ∃ pc ∈ (kernelRun3_A c i arg2 harg2 arg3 harg3 arg4 harg4 arg5 harg5 arg6 harg6 arg7 harg7 arg8 harg8 arg9 harg9 hc0 hc1 x0 x1 x2 x3).1.acc, y ∈ pc.1.set :=
  View.cover_of_tiledL (kernelRun3_A c i arg2 harg2 arg3 harg3 arg4 harg4 arg5 harg5 arg6 harg6 arg7 harg7 arg8 harg8 arg9 harg9 hc0 hc1 x0 x1 x2 x3).1.acc S8x512x64.size (by sl_kernel_rfl) y

/-- What the body leaves at a middle key step: the output block (none is stored: a placeholder nothing consults), the maximum, the denominator, the accumulator. -/
def step3_B (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) : Vec F S8x512x64 .f32 × Vec F S8x512x1 .f32 × Vec F S8x512x1 .f32 × Vec F S8x512x64 .f32 :=
  (left3_out (kernelRun3_B c i arg2 harg2 arg3 harg3 arg4 harg4 arg5 harg5 arg6 harg6 arg7 harg7 arg8 harg8 arg9 harg9 hc0 hc1 x0 x1 x2 x3 xs0 xs1 xs2).1.out, left3_m (kernelRun3_B c i arg2 harg2 arg3 harg3 arg4 harg4 arg5 harg5 arg6 harg6 arg7 harg7 arg8 harg8 arg9 harg9 hc0 hc1 x0 x1 x2 x3 xs0 xs1 xs2).1.m, left3_l (kernelRun3_B c i arg2 harg2 arg3 harg3 arg4 harg4 arg5 harg5 arg6 harg6 arg7 harg7 arg8 harg8 arg9 harg9 hc0 hc1 x0 x1 x2 x3 xs0 xs1 xs2).1.l, left3_acc (kernelRun3_B c i arg2 harg2 arg3 harg3 arg4 harg4 arg5 harg5 arg6 harg6 arg7 harg7 arg8 harg8 arg9 harg9 hc0 hc1 x0 x1 x2 x3 xs0 xs1 xs2).1.acc)

/-- At a middle key step the stores into the maximum cover it (one whole store: the tiling is evaluated). -/
theorem cover3_B_m (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x1.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).1.m, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).1.m S8x512x1.size (by sl_kernel_rfl) y

/-- At a middle key step the stores into the denominator cover it (one whole store: the tiling is evaluated). -/
theorem cover3_B_l (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x1.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).1.l, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).1.l S8x512x1.size (by sl_kernel_rfl) y

/-- At a middle key step the stores into the accumulator cover it (one whole store: the tiling is evaluated). -/
theorem cover3_B_acc (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x64.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).1.acc, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).1.acc S8x512x64.size (by sl_kernel_rfl) y

/-- What the body leaves at a last key step: the output block, the maximum, the denominator, the accumulator. -/
def step3_C (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) : Vec F S8x512x64 .f32 × Vec F S8x512x1 .f32 × Vec F S8x512x1 .f32 × Vec F S8x512x64 .f32 :=
  (left3_out (kernelRun3_C c i arg2 harg2 arg3 harg3 arg4 harg4 arg5 harg5 arg6 harg6 arg7 harg7 arg8 harg8 arg9 harg9 hc0 hc1 x0 x1 x2 x3 xs0 xs1 xs2).1.out, left3_m (kernelRun3_C c i arg2 harg2 arg3 harg3 arg4 harg4 arg5 harg5 arg6 harg6 arg7 harg7 arg8 harg8 arg9 harg9 hc0 hc1 x0 x1 x2 x3 xs0 xs1 xs2).1.m, left3_l (kernelRun3_C c i arg2 harg2 arg3 harg3 arg4 harg4 arg5 harg5 arg6 harg6 arg7 harg7 arg8 harg8 arg9 harg9 hc0 hc1 x0 x1 x2 x3 xs0 xs1 xs2).1.l, left3_acc (kernelRun3_C c i arg2 harg2 arg3 harg3 arg4 harg4 arg5 harg5 arg6 harg6 arg7 harg7 arg8 harg8 arg9 harg9 hc0 hc1 x0 x1 x2 x3 xs0 xs1 xs2).1.acc)

/-- At a last key step the stores into the maximum cover it (one whole store: the tiling is evaluated). -/
theorem cover3_C_m (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x1.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).1.m, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).1.m S8x512x1.size (by sl_kernel_rfl) y

/-- At a last key step the stores into the denominator cover it (one whole store: the tiling is evaluated). -/
theorem cover3_C_l (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x1.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).1.l, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).1.l S8x512x1.size (by sl_kernel_rfl) y

/-- At a last key step the stores into the accumulator cover it (one whole store: the tiling is evaluated). -/
theorem cover3_C_acc (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x64.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).1.acc, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).1.acc S8x512x64.size (by sl_kernel_rfl) y

/-- At a last key step the one whole store into the output window's buffer covers it. -/
theorem cover3_C_out (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x64.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).1.out, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).1.out S8x512x64.size (by sl_kernel_rfl) y

/-! ## The recursion over the points -/

/-- Nothing: what stands for "the point before" at the grid's first point, where no case reads it. -/
def none3 : Vec F S8x512x64 .f32 × Vec F S8x512x1 .f32 × Vec F S8x512x1 .f32 × Vec F S8x512x64 .f32 := (left3_out [], left3_m [], left3_l [], left3_acc [])

/-- One point: the run of the point's kind — by the key coordinate t % 16 — at the point's buffers and input blocks,
    over what the point before left in the carried buffers (`prev`; a first key step ignores it). -/
def stepAt3 (c : Dev nD) (t : Fin cfg3.N) (prev : Vec F S8x512x64 .f32 × Vec F S8x512x1 .f32 × Vec F S8x512x1 .f32 × Vec F S8x512x64 .f32) : Vec F S8x512x64 .f32 × Vec F S8x512x1 .f32 × Vec F S8x512x1 .f32 × Vec F S8x512x64 .f32 :=
  if h0 : t.val % 16 = 0 then
    step3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => by have := (hcond3_1 t).mp h; omega) (iblk3 V c 0 t) (iblk3 V c 1 t) (iblk3 V c 2 t) (iblk3 V c 3 t)
  else if h1 : t.val % 16 = 15 then
    step3_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) prev.2.1 prev.2.2.1 prev.2.2.2
  else
    step3_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) prev.2.1 prev.2.2.1 prev.2.2.2

/-- THE ACCUMULATION: what the output window's buffer and the three carried buffers hold after the body at position
    `n` (output block, maximum, denominator, accumulator). -/
def outsAt3 (c : Dev nD) : (n : ℕ) → n < cfg3.N → Vec F S8x512x64 .f32 × Vec F S8x512x1 .f32 × Vec F S8x512x1 .f32 × Vec F S8x512x64 .f32
  | 0, hn => stepAt3 V c ⟨0, hn⟩ none3
  | n + 1, hn => stepAt3 V c ⟨n + 1, hn⟩ (outsAt3 c n (Nat.lt_of_succ_lt hn))

/-- At a first key step: the reset-and-update run at the point's blocks. -/
theorem outsAt3_A (c : Dev nD) (t : Fin cfg3.N) (h0 : t.val % 16 = 0) :
    outsAt3 V c t.val t.isLt = step3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => by have := (hcond3_1 t).mp h; omega) (iblk3 V c 0 t) (iblk3 V c 1 t) (iblk3 V c 2 t) (iblk3 V c 3 t) := by
  obtain ⟨n, hn⟩ := t
  cases n with
  | zero => show stepAt3 V c ⟨0, hn⟩ none3 = _; unfold stepAt3; exact dif_pos h0
  | succ n => show stepAt3 V c ⟨n + 1, hn⟩ (outsAt3 V c n _) = _; unfold stepAt3; exact dif_pos h0

/-- At a middle key step: the update run over what the point before left. -/
theorem outsAt3_B (c : Dev nD) (t : Fin cfg3.N) (h0 : ¬t.val % 16 = 0) (h1 : ¬t.val % 16 = 15) :
    outsAt3 V c t.val t.isLt = step3_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd (Nat.zero_mod _) h0
  | succ n => show stepAt3 V c ⟨n + 1, hn⟩ (outsAt3 V c n _) = _; unfold stepAt3; exact (dif_neg h0).trans (dif_neg h1)

/-- At a last key step: the update-and-store run over what the point before left. -/
theorem outsAt3_C (c : Dev nD) (t : Fin cfg3.N) (h0 : ¬t.val % 16 = 0) (h1 : t.val % 16 = 15) :
    outsAt3 V c t.val t.isLt = step3_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd (Nat.zero_mod _) h0
  | succ n => show stepAt3 V c ⟨n + 1, hn⟩ (outsAt3 V c n _) = _; unfold stepAt3; exact (dif_neg h0).trans (dif_pos h1)

/-! ## The region invariant -/

/-- The scoped buffers this region never touches (other calls' staging buffers and scratch), each at some contents, and
    the generator register at some state. -/
def others3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ r, prngReg c r))

/-- What the launch hands the region, taken apart: the three carried buffers at some contents, and the rest. -/
theorem PhiA3_open (c : Dev nD) :
    (Pipeline.ΦA spec3 c : sProp 𝕄) ⊢ iprop((∃ d, owns (c : Thread nD τ) scM3_0 fullShare d) ∗ (∃ d, owns (c : Thread nD τ) scM3_1 fullShare d) ∗ (∃ d, owns (c : Thread nD τ) scM3_2 fullShare d) ∗ others3 c) := by
  rw [PhiA3_eq]; unfold others3
  iintro ⟨⟨HR0, HR1, HR2, HR3, HR4, HR5, HR6, HR7, HR8, HR9, HR10, HR11, HR12, HR13, HR14, HR15, HR16, HR17, HR18, HR19, HR20, HS0, HS1, HS2⟩, Hg⟩
  isplitl [HS0]; · iexact HS0
  isplitl [HS1]; · iexact HS1
  isplitl [HS2]; · iexact HS2
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HR18]; · iexact HR18
  isplitl [HR19]; · iexact HR19
  isplitl [HR20]; · iexact HR20
  iexact Hg

/-- And put together again. -/
theorem PhiA3_close (c : Dev nD) :
    iprop((∃ d, owns (c : Thread nD τ) scM3_0 fullShare d) ∗ (∃ d, owns (c : Thread nD τ) scM3_1 fullShare d) ∗ (∃ d, owns (c : Thread nD τ) scM3_2 fullShare d) ∗ others3 c) ⊢ (Pipeline.ΦA spec3 c : sProp 𝕄) := by
  rw [PhiA3_eq]; unfold others3
  iintro ⟨HS0, HS1, HS2, HR0, HR1, HR2, HR3, HR4, HR5, HR6, HR7, HR8, HR9, HR10, HR11, HR12, HR13, HR14, HR15, HR16, HR17, HR18, HR19, HR20, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HR18]; · iexact HR18
  isplitl [HR19]; · iexact HR19
  isplitl [HR20]; · iexact HR20
  isplitl [HS0]; · iexact HS0
  isplitl [HS1]; · iexact HS1
  iexact HS2

/-- The invariant between two points: the carried buffers at given contents `s` (its maximum, denominator and
    accumulator components), and the rest. -/
def carried3 (c : Dev nD) (s : Vec F S8x512x64 .f32 × Vec F S8x512x1 .f32 × Vec F S8x512x1 .f32 × Vec F S8x512x64 .f32) : sProp 𝕄 :=
  iprop(owns (c : Thread nD τ) scM3_0 fullShare s.2.1 ∗ owns (c : Thread nD τ) scM3_1 fullShare s.2.2.1 ∗ owns (c : Thread nD τ) scM3_2 fullShare s.2.2.2 ∗ others3 c)

/-- The region invariant before position `n`: what the launch hands over before the first point; afterwards the
    carried buffers at what the point before left. -/
def PhiS3 (c : Dev nD) : (n : ℕ) → n ≤ cfg3.N → sProp 𝕄
  | 0, _ => Pipeline.ΦA spec3 c
  | n + 1, hn => carried3 c (outsAt3 V c n hn)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = carried3 c (outsAt3 V c n hn) := rfl

theorem PhiS3_pos (c : Dev nD) (n : ℕ) (h : n ≤ cfg3.N) (hz : n ≠ 0) :
    PhiS3 V c n h = carried3 c (outsAt3 V c (n - 1) (by omega)) := by
  cases n with
  | zero => exact absurd rfl hz
  | succ n => rfl

/-- Forgetting what the carried buffers hold gives back what the launch handed over. -/
theorem carried3_forget (c : Dev nD) (s : Vec F S8x512x64 .f32 × Vec F S8x512x1 .f32 × Vec F S8x512x1 .f32 × Vec F S8x512x64 .f32) : carried3 (F := F) c s ⊢ Pipeline.ΦA spec3 c := by
  refine BIBase.Entails.trans ?_ (PhiA3_close c)
  unfold carried3
  iintro ⟨HS0, HS1, HS2, Hr⟩
  isplitl [HS0]; · iexists _; iexact HS0
  isplitl [HS1]; · iexists _; iexact HS1
  isplitl [HS2]; · iexists _; iexact HS2
  iexact Hr

/-! ## The proof data -/

/-- The proof data of the pipeline on core `c`, for any shares `q` of the input arrays: the arrays as the region finds
    them; after the body at point `t` each input's buffer at its block, the output's at `outsAt3`'s first component;
    the invariant `PhiS3`; nothing owed. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q := q
  owed _ := 0

theorem A_eq3 (q : Fin cfg3.W → PosShare TreeShare) (c : Dev nD) (w : Fin cfg3.W) : (dat3 V q c).A w = V c (Pipeline.arrRef spec3 w) := by
  dsimp only [dat3]

theorem PhiS3_castSucc (q : Fin cfg3.W → PosShare TreeShare) (c : Dev nD) (t : Fin cfg3.N) :
    (dat3 V q c).Φ t.castSucc = PhiS3 V c t.val (Nat.le_of_lt t.isLt) := by
  dsimp only [dat3]; simp only [Fin.coe_castSucc]

theorem after3_0 (q : Fin cfg3.W → PosShare TreeShare) (c : Dev nD) (t : Fin cfg3.N) : (dat3 V q c).after 0 t = iblk3 V c 0 t := by dsimp only [dat3]
theorem after3_1 (q : Fin cfg3.W → PosShare TreeShare) (c : Dev nD) (t : Fin cfg3.N) : (dat3 V q c).after 1 t = iblk3 V c 1 t := by dsimp only [dat3]
theorem after3_2 (q : Fin cfg3.W → PosShare TreeShare) (c : Dev nD) (t : Fin cfg3.N) : (dat3 V q c).after 2 t = iblk3 V c 2 t := by dsimp only [dat3]
theorem after3_3 (q : Fin cfg3.W → PosShare TreeShare) (c : Dev nD) (t : Fin cfg3.N) : (dat3 V q c).after 3 t = iblk3 V c 3 t := by dsimp only [dat3]
theorem after3_4 (q : Fin cfg3.W → PosShare TreeShare) (c : Dev nD) (t : Fin cfg3.N) : (dat3 V q c).after 4 t = (outsAt3 V c t.val t.isLt).1 := by dsimp only [dat3]

theorem before3_0 (q : Fin cfg3.W → PosShare TreeShare) (c : Dev nD) (t : Fin cfg3.N) (d) : (dat3 V q c).before 0 t d = iblk3 V c 0 t :=
  before3_0_of V (dat3 V q c) (A_eq3 V q c 0) (after3_0 V q c) t d
theorem before3_1 (q : Fin cfg3.W → PosShare TreeShare) (c : Dev nD) (t : Fin cfg3.N) (d) : (dat3 V q c).before 1 t d = iblk3 V c 1 t :=
  before3_1_of V (dat3 V q c) (A_eq3 V q c 1) (after3_1 V q c) t d
theorem before3_2 (q : Fin cfg3.W → PosShare TreeShare) (c : Dev nD) (t : Fin cfg3.N) (d) : (dat3 V q c).before 2 t d = iblk3 V c 2 t :=
  before3_2_of V (dat3 V q c) (A_eq3 V q c 2) (after3_2 V q c) t d
theorem before3_3 (q : Fin cfg3.W → PosShare TreeShare) (c : Dev nD) (t : Fin cfg3.N) (d) : (dat3 V q c).before 3 t d = iblk3 V c 3 t :=
  before3_3_of V (dat3 V q c) (A_eq3 V q c 3) (after3_3 V q c) t d

/-! ## The body obligation -/

/-- What the body is called with at point `t`: the invariant, the core's dues, each window's current buffer. -/
def bodyPre3 (q : Fin cfg3.W → PosShare TreeShare) (c : Dev nD) (t : Fin cfg3.N) : sProp 𝕄 :=
  iprop((dat3 V q c).Φ t.castSucc ∗ (dat3 V q c).owesAt () t.castSucc
    ∗ (∃ d, owns (c : Thread nD τ) (ms3_0 t) fullShare ((dat3 V q c).before 0 t d))
    ∗ (∃ d, owns (c : Thread nD τ) (ms3_1 t) fullShare ((dat3 V q c).before 1 t d))
    ∗ (∃ d, owns (c : Thread nD τ) (ms3_2 t) fullShare ((dat3 V q c).before 2 t d))
    ∗ (∃ d, owns (c : Thread nD τ) (ms3_3 t) fullShare ((dat3 V q c).before 3 t d))
    ∗ (∃ d, owns (c : Thread nD τ) (ms3_4 t) fullShare ((dat3 V q c).before 4 t d)))

/-- What it gives back. -/
def bodyPost3 (q : Fin cfg3.W → PosShare TreeShare) (c : Dev nD) (t : Fin cfg3.N) : sProp 𝕄 :=
  iprop((dat3 V q c).Φ t.succ ∗ (dat3 V q c).owesAt () t.succ
    ∗ (dat3 V q c).leavesExact 0 t
    ∗ (dat3 V q c).leavesExact 1 t
    ∗ (dat3 V q c).leavesExact 2 t
    ∗ (dat3 V q c).leavesExact 3 t
    ∗ (dat3 V q c).leavesExact 4 t)

set_option maxHeartbeats 1600000 in
/-- The body at a first key step. At the grid's first point the carried buffers come from the launch's invariant, at
    anything; at a later tile's first step from the point before — either way the run asks nothing of their contents. -/
theorem sound_body3_A (q : Fin cfg3.W → PosShare TreeShare) (c : Dev nD) (t : Fin cfg3.N) (h0 : t.val % 16 = 0) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3]
  rw [show (dat3 V q c).owesAt () t.succ = (dat3 V q c).owesAt () t.castSucc from rfl]
  rw [show (dat3 V q c).Φ t.succ = PhiS3 V c (t.val + 1) t.isLt from rfl, PhiS3_succ]
  rw [show (dat3 V q c).leavesExact 0 t = owns (c : Thread nD τ) (ms3_0 t) fullShare ((dat3 V q c).after 0 t) from by
    unfold Dat.leavesExact; rw [liveAt3_0 t], after3_0]
  rw [show (dat3 V q c).leavesExact 1 t = owns (c : Thread nD τ) (ms3_1 t) fullShare ((dat3 V q c).after 1 t) from by
    unfold Dat.leavesExact; rw [liveAt3_1 t], after3_1]
  rw [show (dat3 V q c).leavesExact 2 t = owns (c : Thread nD τ) (ms3_2 t) fullShare ((dat3 V q c).after 2 t) from by
    unfold Dat.leavesExact; rw [liveAt3_2 t], after3_2]
  rw [show (dat3 V q c).leavesExact 3 t = owns (c : Thread nD τ) (ms3_3 t) fullShare ((dat3 V q c).after 3 t) from by
    unfold Dat.leavesExact; rw [liveAt3_3 t], after3_3]
  rw [Dat.leavesExact_idle (dat3 V q c) 4 t (idleAt3_4_A t ((hcond3_0 t).mpr h0) (fun h => by have := (hcond3_1 t).mp h; omega)) (noFlush3_4_A t ((hcond3_0 t).mpr h0) (fun h => by have := (hcond3_1 t).mp h; omega))]
  rw [outsAt3_A V c t h0]
  unfold carried3 step3_A; dsimp only
  have hstart : (dat3 V q c).Φ t.castSucc ⊢ iprop((∃ d, owns (c : Thread nD τ) scM3_0 fullShare d) ∗ (∃ d, owns (c : Thread nD τ) scM3_1 fullShare d) ∗ (∃ d, owns (c : Thread nD τ) scM3_2 fullShare d) ∗ others3 c) := by
    rw [PhiS3_castSucc V q c t]
    by_cases hz : t.val = 0
    · rw [PhiS3_zero V c _ _ hz]; exact PhiA3_open c
    · rw [PhiS3_pos V c _ _ hz]; unfold carried3
      iintro ⟨HS0, HS1, HS2, Hr⟩
      isplitl [HS0]; · iexists _; iexact HS0
      isplitl [HS1]; · iexists _; iexact HS1
      isplitl [HS2]; · iexists _; iexact HS2
      iexact Hr
  iintro ⟨HΦ, Ho, ⟨%d0, H0⟩, ⟨%d1, H1⟩, ⟨%d2, H2⟩, ⟨%d3, H3⟩, ⟨%d4, H4⟩⟩
  ihave HΦ' := hstart $$ HΦ
  icases HΦ' with ⟨HS0, HS1, HS2, Hr⟩
  iapply ((kernelRun3_A c (grid3.coords t) _ _ _ _ _ _ _ _ _ _ _ _ _ _ _ _ ((hcond3_0 t).mpr h0) (fun h => by have := (hcond3_1 t).mp h; omega) (iblk3 V c 0 t) (iblk3 V c 1 t) (iblk3 V c 2 t) (iblk3 V c 3 t)).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%e0, HS0⟩, ⟨%e1, HS1⟩, ⟨%e2, HS2⟩⟩
  isplitl [HS0 HS1 HS2 Hr]
  · unfold left3_m left3_l left3_acc
    isplitl [HS0]
    · unfold owns; iexists _; isplitr
      swap; · iexact HS0
      ipureintro; exact View.read_writes_of_cover _ _ _ _ _ (cover3_A_m c _ _ _ _ _ _ _ _ _ _ _ _ _ _ _ _ _ _ _ _ _ _ _)
    isplitl [HS1]
    · unfold owns; iexists _; isplitr
      swap; · iexact HS1
      ipureintro; exact View.read_writes_of_cover _ _ _ _ _ (cover3_A_l c _ _ _ _ _ _ _ _ _ _ _ _ _ _ _ _ _ _ _ _ _ _ _)
    isplitl [HS2]
    · unfold owns; iexists _; isplitr
      swap; · iexact HS2
      ipureintro; exact View.read_writes_of_cover _ _ _ _ _ (cover3_A_acc c _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a middle key step: the invariant hands the carried buffers over at what the point before left. -/
theorem sound_body3_B (q : Fin cfg3.W → PosShare TreeShare) (c : Dev nD) (t : Fin cfg3.N) (h0 : ¬t.val % 16 = 0) (h1 : ¬t.val % 16 = 15) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3]
  rw [show (dat3 V q c).owesAt () t.succ = (dat3 V q c).owesAt () t.castSucc from rfl]
  rw [show (dat3 V q c).Φ t.succ = PhiS3 V c (t.val + 1) t.isLt from rfl, PhiS3_succ]
  rw [show (dat3 V q c).leavesExact 0 t = owns (c : Thread nD τ) (ms3_0 t) fullShare ((dat3 V q c).after 0 t) from by
    unfold Dat.leavesExact; rw [liveAt3_0 t], after3_0]
  rw [show (dat3 V q c).leavesExact 1 t = owns (c : Thread nD τ) (ms3_1 t) fullShare ((dat3 V q c).after 1 t) from by
    unfold Dat.leavesExact; rw [liveAt3_1 t], after3_1]
  rw [show (dat3 V q c).leavesExact 2 t = owns (c : Thread nD τ) (ms3_2 t) fullShare ((dat3 V q c).after 2 t) from by
    unfold Dat.leavesExact; rw [liveAt3_2 t], after3_2]
  rw [show (dat3 V q c).leavesExact 3 t = owns (c : Thread nD τ) (ms3_3 t) fullShare ((dat3 V q c).after 3 t) from by
    unfold Dat.leavesExact; rw [liveAt3_3 t], after3_3]
  rw [Dat.leavesExact_idle (dat3 V q c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
  rw [outsAt3_B V c t h0 h1]
  have hz : t.val ≠ 0 := fun e => h0 (by rw [e])
  rw [PhiS3_castSucc V q c t, PhiS3_pos V c _ _ hz]
  unfold carried3 step3_B; dsimp only
  iintro ⟨HΦ, Ho, ⟨%d0, H0⟩, ⟨%d1, H1⟩, ⟨%d2, H2⟩, ⟨%d3, H3⟩, ⟨%d4, H4⟩⟩
  icases HΦ with ⟨HS0, HS1, HS2, Hr⟩
  iapply ((kernelRun3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _ _).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%e0, HS0⟩, ⟨%e1, HS1⟩, ⟨%e2, HS2⟩⟩
  isplitl [HS0 HS1 HS2 Hr]
  · unfold left3_m left3_l left3_acc
    isplitl [HS0]
    · unfold owns; iexists _; isplitr
      swap; · iexact HS0
      ipureintro; exact View.read_writes_of_cover _ _ _ _ _ (cover3_B_m c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (cover3_B_l c _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (cover3_B_acc c _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a last key step: as at a middle step, and the output window's buffer comes back at the tile's block. -/
theorem sound_body3_C (q : Fin cfg3.W → PosShare TreeShare) (c : Dev nD) (t : Fin cfg3.N) (h0 : ¬t.val % 16 = 0) (h1 : t.val % 16 = 15) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3]
  rw [show (dat3 V q c).owesAt () t.succ = (dat3 V q c).owesAt () t.castSucc from rfl]
  rw [show (dat3 V q c).Φ t.succ = PhiS3 V c (t.val + 1) t.isLt from rfl, PhiS3_succ]
  rw [show (dat3 V q c).leavesExact 0 t = owns (c : Thread nD τ) (ms3_0 t) fullShare ((dat3 V q c).after 0 t) from by
    unfold Dat.leavesExact; rw [liveAt3_0 t], after3_0]
  rw [show (dat3 V q c).leavesExact 1 t = owns (c : Thread nD τ) (ms3_1 t) fullShare ((dat3 V q c).after 1 t) from by
    unfold Dat.leavesExact; rw [liveAt3_1 t], after3_1]
  rw [show (dat3 V q c).leavesExact 2 t = owns (c : Thread nD τ) (ms3_2 t) fullShare ((dat3 V q c).after 2 t) from by
    unfold Dat.leavesExact; rw [liveAt3_2 t], after3_2]
  rw [show (dat3 V q c).leavesExact 3 t = owns (c : Thread nD τ) (ms3_3 t) fullShare ((dat3 V q c).after 3 t) from by
    unfold Dat.leavesExact; rw [liveAt3_3 t], after3_3]
  rw [show (dat3 V q c).leavesExact 4 t = owns (c : Thread nD τ) (ms3_4 t) fullShare ((dat3 V q c).after 4 t) from by
    unfold Dat.leavesExact; rw [liveAt3_4_C t (fun h => h0 ((hcond3_0 t).mp h)) ((hcond3_1 t).mpr h1)], after3_4]
  rw [outsAt3_C V c t h0 h1]
  have hz : t.val ≠ 0 := fun e => h0 (by rw [e])
  rw [PhiS3_castSucc V q c t, PhiS3_pos V c _ _ hz]
  unfold carried3 step3_C; dsimp only
  iintro ⟨HΦ, Ho, ⟨%d0, H0⟩, ⟨%d1, H1⟩, ⟨%d2, H2⟩, ⟨%d3, H3⟩, ⟨%d4, H4⟩⟩
  icases HΦ with ⟨HS0, HS1, HS2, Hr⟩
  iapply ((kernelRun3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) _ _ _).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%e4, H4⟩, ⟨%e0, HS0⟩, ⟨%e1, HS1⟩, ⟨%e2, HS2⟩⟩
  isplitl [HS0 HS1 HS2 Hr]
  · unfold left3_m left3_l left3_acc
    isplitl [HS0]
    · unfold owns; iexists _; isplitr
      swap; · iexact HS0
      ipureintro; exact View.read_writes_of_cover _ _ _ _ _ (cover3_C_m c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (cover3_C_l c _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (cover3_C_acc c _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  unfold owns left3_out; iexists _; isplitr
  swap; · iexact H4
  ipureintro; exact View.read_writes_of_cover _ _ _ _ _ (cover3_C_out c _ _ _ _ _ _ _ _ _ _ _ _ _ _ _ _ _ _ _ _ _ _ _ _ _ _)

/-- The body at any point: by the key coordinate, one of the three. -/
theorem sound_body3 (q : Fin cfg3.W → PosShare TreeShare) (c : Dev nD) (t : Fin cfg3.N) :
    bodyPre3 V q c t ⊢ wp frame (wpE (defs₀ (F := F)) Variants.none c none) Set.univ (bodyAt3 t) (fun _ => bodyPost3 V q c t) := by
  by_cases h0 : t.val % 16 = 0
  · exact sound_body3_A V q c t h0
  · by_cases h1 : t.val % 16 = 15
    · exact sound_body3_C V q c t h0 h1
    · exact sound_body3_B V q c t h0 h1

/-- The library's body obligation, at every point. -/
theorem body_obligation3 (q : Fin cfg3.W → PosShare TreeShare) (c : Dev nD) : BodyObligation (dat3 (F := F) V q c) (defs₀ (F := F)) Variants.none () Set.univ := fun t => by
  rw [bigSep_W3, bigSep_W3]
  exact sound_body3 V q c t

/-- What the launch hands the region is the invariant before the first point. -/
theorem hin3 (q : Fin cfg3.W → PosShare TreeShare) (c : Dev nD) : Pipeline.ΦA spec3 c ⊢ (dat3 V q c).Φ 0 := by
  rw [show (dat3 V q c).Φ 0 = PhiS3 V c 0 (Nat.zero_le _) from rfl, PhiS3_zero V c 0 _ rfl]
  try exact Idealize.SL.BI.Entails.refl _

/-- After any point the invariant gives it back, the carried buffers' contents forgotten. -/
theorem Phi_out3 (q : Fin cfg3.W → PosShare TreeShare) (c : Dev nD) (t : Fin (cfg3.N + 1)) (ht : t.val ≠ 0) : (dat3 V q c).Φ t ⊢ Pipeline.ΦA spec3 c := by
  rw [show (dat3 V q c).Φ t = PhiS3 V c t.val (Nat.le_of_lt_succ t.isLt) from rfl, PhiS3_pos V c _ _ ht]
  exact carried3_forget c _

/-- In particular after the last. -/
theorem hout3 (q : Fin cfg3.W → PosShare TreeShare) (c : Dev nD) : (dat3 V q c).Φ (Fin.last cfg3.N) ⊢ Pipeline.ΦA spec3 c :=
  Phi_out3 V q c _ (by rw [Fin.val_last]; have : cfg3.N = 128 := N_3; omega)

end Cert.Kernel.Hand

end
-- ==== Proof.KShare1.lean ====
/-
  Region 1 hands ONE array — the projected activations — to two input windows: the query tile and the whole key/value
  array. The buffers behind the region's arrays, each held whole, therefore split into the five windows' arrays with the
  shared buffer's ownership halved between its two readers, and the halves join again when the region ends, both readers
  having left the buffer as they found it. The result window's array, held whole throughout, comes back at the contents
  the region's write-backs leave.
-/
import proofs.«144140_j35399120453979_2_alg».proof.Proof.Gen.Kernel.Launch
import proofs.«144140_j35399120453979_2_alg».proof.Proof.Gen.Kernel.Skeleton
import proofs.«144140_j35399120453979_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the region's windows hold their arrays at: the two readers of the shared buffer a half each, every other
    window its whole array. -/
def q1 : Fin cfg1.W → PosShare TreeShare := fun
  | ⟨0, _⟩ => fullShare.left
  | ⟨1, _⟩ => fullShare.right
  | _ => fullShare

variable {c : Dev nD} (dat : Dat τ (Elt F) Unit ℕ (UR sig nD τ) ℕ cfg1 c)

theorem share1_0 (hq : dat.q = q1) : dat.share 0 = fullShare.left := by unfold Dat.share; rw [hq]; rfl
theorem share1_1 (hq : dat.q = q1) : dat.share 1 = fullShare.right := by unfold Dat.share; rw [hq]; rfl
theorem share1_2 (hq : dat.q = q1) : dat.share 2 = fullShare := by unfold Dat.share; rw [hq]; rfl
theorem share1_3 (hq : dat.q = q1) : dat.share 3 = fullShare := by unfold Dat.share; rw [hq]; rfl
theorem share1_4 : dat.share 4 = fullShare := by unfold Dat.share; rfl

/-- The four distinct buffers behind the five windows' arrays, one by one. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_arg1) ↦{fullShare} V main_arg1)
          ∗ (((c : Thread nD τ).loc main_v1) ↦{fullShare} V main_v1) ∗ (((c : Thread nD τ).loc main_v2) ↦{fullShare} V main_v2)) := by
  unfold Pipeline.arrBufs
  exact bigSep_eq_bigSepL_of_eq [main_v0, main_arg1, main_v1, main_v2] (by decide) (by decide) _

/-- The windows' arrays at contents `G`, one by one, each a whole buffer at its window's share. -/
theorem arrays1_eq (hq : dat.q = q1) (G : (w : Fin cfg1.W) → Buf (Elt F) ((cfg1.win w).arr.view.loc (c : Thread nD τ))) :
    (dat.arrays G : sProp 𝕄)
      = iprop((((c : Thread nD τ).loc main_v0) ↦{fullShare.left} G 0) ∗ (((c : Thread nD τ).loc main_v0) ↦{fullShare.right} G 1)
          ∗ (((c : Thread nD τ).loc main_arg1) ↦{fullShare} G 2) ∗ (((c : Thread nD τ).loc main_v1) ↦{fullShare} G 3)
          ∗ (((c : Thread nD τ).loc main_v2) ↦{fullShare} G 4)) := by
  unfold Dat.arrays
  rw [bigSep_W1, share1_0 dat hq, share1_1 dat hq, share1_2 dat hq, share1_3 dat hq, share1_4 dat,
    (arr_whole1 0).set_eq_univ, (arr_whole1 2).set_eq_univ, (arr_whole1 3).set_eq_univ, (arr_whole1 4).set_eq_univ]
  all_goals (try rw [(arr_whole1 1).set_eq_univ])
  all_goals rfl

/-- ENTRY: the buffers behind the arrays, whole at `V`, make the windows' arrays at contents that are `V`'s. -/
theorem arrays1_of_bufs (hq : dat.q = q1) (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ dat.arrays G := by
  rw [arrBufs1_eq, arrays1_eq dat hq, hG 0, hG 1, hG 2, hG 3, hG 4]
  iintro ⟨Hh, Hg, Hb, Ho⟩
  ihave Hh2 := (pointsTo_share (PosShare.mem_left_op_right fullShare)).1 $$ Hh
  icases Hh2 with ⟨Hl, Hr⟩
  isplitl [Hl]; · iexact Hl
  isplitl [Hr]; · iexact Hr
  isplitl [Hg]; · iexact Hg
  isplitl [Hb]; · iexact Hb
  iexact Ho

/-- EXIT: the windows' arrays, the two readers' at ONE contents `V`'s and the others at `V'`'s, make the buffers behind
    them whole at `V'` — given that `V'` agrees with `V` on the shared buffer. -/
theorem bufs_of_arrays1 (hq : dat.q = q1) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (dat.arrays G : sProp 𝕄) ⊢ Pipeline.arrBufs (Ix := Unit) (Name := ℕ) (U := UR sig nD τ) (Lvl := ℕ) spec1 c V' := by
  rw [arrBufs1_eq, arrays1_eq dat hq, hG 0, hG 1, hG 2, hG 3, hG 4]
  iintro ⟨Hl, Hr, Hg, Hb, Ho⟩
  isplitl [Hl Hr]
  · ihave Hj := (pointsTo_share (PosShare.mem_left_op_right fullShare)).2 $$ [Hl Hr]
    · isplitl [Hl]; · iexact Hl
      iexact Hr
    iexact Hj
  isplitl [Hg]; · iexact Hg
  isplitl [Hb]; · iexact Hb
  iexact Ho

end Cert.Kernel.Hand

end
-- ==== Proof.KShare3.lean ====
/-
  Region 3 hands ONE array — the projected activations — to two input windows: the query tile and the whole key/value
  array. The buffers behind the region's arrays, each held whole, therefore split into the five windows' arrays with the
  shared buffer's ownership halved between its two readers, and the halves join again when the region ends, both readers
  having left the buffer as they found it. The result window's array, held whole throughout, comes back at the contents
  the region's write-backs leave.
-/
import proofs.«144140_j35399120453979_2_alg».proof.Proof.Gen.Kernel.Launch
import proofs.«144140_j35399120453979_2_alg».proof.Proof.Gen.Kernel.Skeleton
import proofs.«144140_j35399120453979_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the region's windows hold their arrays at: the two readers of the shared buffer a half each, every other
    window its whole array. -/
def q3 : Fin cfg3.W → PosShare TreeShare := fun
  | ⟨0, _⟩ => fullShare.left
  | ⟨1, _⟩ => fullShare.right
  | _ => fullShare

variable {c : Dev nD} (dat : Dat τ (Elt F) Unit ℕ (UR sig nD τ) ℕ cfg3 c)

theorem share3_0 (hq : dat.q = q3) : dat.share 0 = fullShare.left := by unfold Dat.share; rw [hq]; rfl
theorem share3_1 (hq : dat.q = q3) : dat.share 1 = fullShare.right := by unfold Dat.share; rw [hq]; rfl
theorem share3_2 (hq : dat.q = q3) : dat.share 2 = fullShare := by unfold Dat.share; rw [hq]; rfl
theorem share3_3 (hq : dat.q = q3) : dat.share 3 = fullShare := by unfold Dat.share; rw [hq]; rfl
theorem share3_4 : dat.share 4 = fullShare := by unfold Dat.share; rfl

/-- The four distinct buffers behind the five windows' arrays, one by one. -/
theorem arrBufs3_eq (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v3) ↦{fullShare} V main_v3) ∗ (((c : Thread nD τ).loc main_arg1) ↦{fullShare} V main_arg1)
          ∗ (((c : Thread nD τ).loc main_v4) ↦{fullShare} V main_v4) ∗ (((c : Thread nD τ).loc main_v5) ↦{fullShare} V main_v5)) := by
  unfold Pipeline.arrBufs
  exact bigSep_eq_bigSepL_of_eq [main_v3, main_arg1, main_v4, main_v5] (by decide) (by decide) _

/-- The windows' arrays at contents `G`, one by one, each a whole buffer at its window's share. -/
theorem arrays3_eq (hq : dat.q = q3) (G : (w : Fin cfg3.W) → Buf (Elt F) ((cfg3.win w).arr.view.loc (c : Thread nD τ))) :
    (dat.arrays G : sProp 𝕄)
      = iprop((((c : Thread nD τ).loc main_v3) ↦{fullShare.left} G 0) ∗ (((c : Thread nD τ).loc main_v3) ↦{fullShare.right} G 1)
          ∗ (((c : Thread nD τ).loc main_arg1) ↦{fullShare} G 2) ∗ (((c : Thread nD τ).loc main_v4) ↦{fullShare} G 3)
          ∗ (((c : Thread nD τ).loc main_v5) ↦{fullShare} G 4)) := by
  unfold Dat.arrays
  rw [bigSep_W3, share3_0 dat hq, share3_1 dat hq, share3_2 dat hq, share3_3 dat hq, share3_4 dat,
    (arr_whole3 0).set_eq_univ, (arr_whole3 2).set_eq_univ, (arr_whole3 3).set_eq_univ, (arr_whole3 4).set_eq_univ]
  all_goals (try rw [(arr_whole3 1).set_eq_univ])
  all_goals rfl

/-- ENTRY: the buffers behind the arrays, whole at `V`, make the windows' arrays at contents that are `V`'s. -/
theorem arrays3_of_bufs (hq : dat.q = q3) (V : (b : Ref sig .tc) → Buf (Elt F) ((c : Thread nD τ).loc b))
    (G : (w : Fin cfg3.W) → Buf (Elt F) ((cfg3.win w).arr.view.loc (c : Thread nD τ))) (hG : ∀ w, G w = V (Pipeline.arrRef spec3 w)) :
    (Pipeline.arrBufs (Ix := Unit) (Name := ℕ) (U := UR sig nD τ) (Lvl := ℕ) spec3 c V : sProp 𝕄) ⊢ dat.arrays G := by
  rw [arrBufs3_eq, arrays3_eq dat hq, hG 0, hG 1, hG 2, hG 3, hG 4]
  iintro ⟨Hh, Hg, Hb, Ho⟩
  ihave Hh2 := (pointsTo_share (PosShare.mem_left_op_right fullShare)).1 $$ Hh
  icases Hh2 with ⟨Hl, Hr⟩
  isplitl [Hl]; · iexact Hl
  isplitl [Hr]; · iexact Hr
  isplitl [Hg]; · iexact Hg
  isplitl [Hb]; · iexact Hb
  iexact Ho

/-- EXIT: the windows' arrays, the two readers' at ONE contents `V`'s and the others at `V'`'s, make the buffers behind
    them whole at `V'` — given that `V'` agrees with `V` on the shared buffer. -/
theorem bufs_of_arrays3 (hq : dat.q = q3) (V' : (b : Ref sig .tc) → Buf (Elt F) ((c : Thread nD τ).loc b))
    (G : (w : Fin cfg3.W) → Buf (Elt F) ((cfg3.win w).arr.view.loc (c : Thread nD τ))) (hG : ∀ w, G w = V' (Pipeline.arrRef spec3 w)) :
    (dat.arrays G : sProp 𝕄) ⊢ Pipeline.arrBufs (Ix := Unit) (Name := ℕ) (U := UR sig nD τ) (Lvl := ℕ) spec3 c V' := by
  rw [arrBufs3_eq, arrays3_eq dat hq, hG 0, hG 1, hG 2, hG 3, hG 4]
  iintro ⟨Hl, Hr, Hg, Hb, Ho⟩
  isplitl [Hl Hr]
  · ihave Hj := (pointsTo_share (PosShare.mem_left_op_right fullShare)).2 $$ [Hl Hr]
    · isplitl [Hl]; · iexact Hl
      iexact Hr
    iexact Hj
  isplitl [Hg]; · iexact Hg
  isplitl [Hb]; · iexact Hb
  iexact Ho

end Cert.Kernel.Hand

end
-- ==== Proof.KRun.lean ====
/-
  The whole program's run. The four kernel regions are entered one after the other from a thread state that holds every
  unscoped buffer at a named valuation: the launch memory, then each region's result array replaced by what the region's
  write-backs leave, each host stretch applied in between. Each region's record says how its arrays are taken out of that
  state at entry and put back at exit — for the two attention regions the projected activations, read by two windows,
  split into two half ownerships and joined again — and how the generator register rides through the region's invariant.
-/
import proofs.«144140_j35399120453979_2_alg».proof.Proof.KRegion0
import proofs.«144140_j35399120453979_2_alg».proof.Proof.KRegion2
import proofs.«144140_j35399120453979_2_alg».proof.Proof.KRegion1
import proofs.«144140_j35399120453979_2_alg».proof.Proof.KRegion3
import proofs.«144140_j35399120453979_2_alg».proof.Proof.KShare1
import proofs.«144140_j35399120453979_2_alg».proof.Proof.KShare3
import proofs.«144140_j35399120453979_2_alg».proof.Proof.KRunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations between the items -/

/-- A valuation read at the TensorCore's references: what a region's proof data take as the entry contents. -/
abbrev atRefs (W : Dev nD → Valuation τ sig (Elt F)) (c : Dev nD) (b : Ref sig .tc) : Buf (Elt F) ((c : Thread nD τ).loc b) := W c b

/-- The launch memory. -/
abbrev U0 (c : Dev nD) : Valuation τ sig (Elt F) := fun b => m (c, b)
/-- What the first projection leaves in its result array. -/
def o1 (c : Dev nD) : Buf (Elt F) ((c : Thread nD τ).loc main_v0) := (dat0 (atRefs (U0 m)) c).arrAt 2 cfg0.N
def U1 (c : Dev nD) : Valuation τ sig (Elt F) := Function.update (U0 m c) main_v0 (o1 m c)
def U2 (c : Dev nD) : Valuation τ sig (Elt F) := StableHlo.after hostOps1 (U1 m c)
/-- What the first attention leaves in its result array. -/
def o3 (c : Dev nD) : Buf (Elt F) ((c : Thread nD τ).loc main_v2) := (dat1 (atRefs (U2 m)) q1 c).arrAt 4 cfg1.N
def U3 (c : Dev nD) : Valuation τ sig (Elt F) := Function.update (U2 m c) main_v2 (o3 m c)
/-- What the second projection leaves in its result array. -/
def o4 (c : Dev nD) : Buf (Elt F) ((c : Thread nD τ).loc main_v3) := (dat2 (atRefs (U3 m)) c).arrAt 2 cfg2.N
def U4 (c : Dev nD) : Valuation τ sig (Elt F) := Function.update (U3 m c) main_v3 (o4 m c)
def U5 (c : Dev nD) : Valuation τ sig (Elt F) := StableHlo.after hostOps3 (U4 m c)
/-- What the second attention leaves in its result array. -/
def o6 (c : Dev nD) : Buf (Elt F) ((c : Thread nD τ).loc main_v5) := (dat3 (atRefs (U5 m)) q3 c).arrAt 4 cfg3.N
def U6 (c : Dev nD) : Valuation τ sig (Elt F) := Function.update (U5 m c) main_v5 (o6 m c)
def U7 (c : Dev nD) : Valuation τ sig (Elt F) := StableHlo.after hostOps4 (U6 m c)

/-- The regions' results as the generated valuations read them: each item's valuation at the buffer asked for. -/
def outs : Outs (F := F) := fun J r c =>
  match J with
  | 1 => U1 m c r
  | 3 => U3 m c r
  | 4 => U4 m c r
  | 6 => U6 m c r
  | _ => U0 m c r

theorem V1_eq (c : Dev nD) : V1 m (outs m) c = U1 m c := by
  show Function.update (U0 m c) main_v0 (U1 m c main_v0) = U1 m c
  unfold U1; rw [Function.update_self]
theorem V2_eq (c : Dev nD) : V2 m (outs m) c = U2 m c := by
  show StableHlo.after hostOps1 (V1 m (outs m) c) = U2 m c
  rw [V1_eq]; rfl
theorem V3_eq (c : Dev nD) : V3 m (outs m) c = U3 m c := by
  show Function.update (V2 m (outs m) c) main_v2 (U3 m c main_v2) = U3 m c
  rw [V2_eq]; unfold U3; rw [Function.update_self]
theorem V4_eq (c : Dev nD) : V4 m (outs m) c = U4 m c := by
  show Function.update (V3 m (outs m) c) main_v3 (U4 m c main_v3) = U4 m c
  rw [V3_eq]; unfold U4; rw [Function.update_self]
theorem V5_eq (c : Dev nD) : V5 m (outs m) c = U5 m c := by
  show StableHlo.after hostOps3 (V4 m (outs m) c) = U5 m c
  rw [V4_eq]; rfl
theorem V6_eq (c : Dev nD) : V6 m (outs m) c = U6 m c := by
  show Function.update (V5 m (outs m) c) main_v5 (U6 m c main_v5) = U6 m c
  rw [V5_eq]; unfold U6; rw [Function.update_self]
theorem V7_eq (c : Dev nD) : V7 m (outs m) c = U7 m c := by
  show StableHlo.after hostOps4 (V6 m (outs m) c) = U7 m c
  rw [V6_eq]; rfl

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (atRefs (U0 m)) c
  | ⟨1, _⟩ => fun c => dat1 (atRefs (U2 m)) q1 c
  | ⟨2, _⟩ => fun c => dat2 (atRefs (U3 m)) c
  | ⟨3, _⟩ => fun c => dat3 (atRefs (U5 m)) q3 c

/-- No core owes another anything: no level is assigned. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-! ## The two projection regions -/

theorem hF0 (c : Dev nD) (w : Fin cfg0.W) : (pdats m 0 c).arrAt w cfg0.N = atRefs (U1 m) c (Pipeline.arrRef spec0 w) :=
  match w with
  | ⟨0, _⟩ => by
      refine ((pdats m 0 c).arrAt_in 0 rfl _).trans ?_
      show U0 m c (Proc.devRef .tc main_arg0) = U1 m c (Proc.devRef .tc main_arg0)
      unfold U1
      exact (Function.update_of_ne (StableHlo.devRef_ne_of_ne (by decide) : (Proc.devRef .tc main_arg0 : DevRef τ sig) ≠ Proc.devRef .tc main_v0) _ _).symm
  | ⟨1, _⟩ => by
      refine ((pdats m 0 c).arrAt_in 1 rfl _).trans ?_
      show U0 m c (Proc.devRef .tc main_arg2) = U1 m c (Proc.devRef .tc main_arg2)
      unfold U1
      exact (Function.update_of_ne (StableHlo.devRef_ne_of_ne (by decide) : (Proc.devRef .tc main_arg2 : DevRef τ sig) ≠ Proc.devRef .tc main_v0) _ _).symm
  | ⟨2, _⟩ => by
      show o1 m c = U1 m c (Proc.devRef .tc main_v0)
      unfold U1
      exact (Function.update_self (Proc.devRef .tc main_v0 : DevRef τ sig) (o1 m c) (U0 m c)).symm
theorem hrest0 (c : Dev nD) : ∀ b, b ∉ Finset.univ.image (Pipeline.arrRef spec0) → atRefs (U1 m) c b = atRefs (U0 m) c b :=
  fun b hb => by
    show U1 m c (Proc.devRef .tc b) = U0 m c (Proc.devRef .tc b)
    unfold U1
    exact Function.update_of_ne (StableHlo.devRef_ne_of_ne (fun e => hb (Finset.mem_image.mpr ⟨2, Finset.mem_univ _, e.symm⟩)) : (Proc.devRef .tc b : DevRef τ sig) ≠ Proc.devRef .tc main_v0) _ _

set_option backward.isDefEq.respectTransparency.types false in
/-- Region 0 (a linear projection): its three arrays are distinct buffers, split out of the unscoped buffers whole and put
    back with the result array at what the write-backs leave; the generator register goes through the invariant. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (atRefs (U0 m)) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (atRefs (U0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (U0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (U0 m) c) (atRefs (U1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (pdats m 2 c).arrAt w cfg2.N = atRefs (U4 m) c (Pipeline.arrRef spec2 w) :=
  match w with
  | ⟨0, _⟩ => by
      refine ((pdats m 2 c).arrAt_in 0 rfl _).trans ?_
      show U3 m c (Proc.devRef .tc main_v2) = U4 m c (Proc.devRef .tc main_v2)
      unfold U4
      exact (Function.update_of_ne (StableHlo.devRef_ne_of_ne (by decide) : (Proc.devRef .tc main_v2 : DevRef τ sig) ≠ Proc.devRef .tc main_v3) _ _).symm
  | ⟨1, _⟩ => by
      refine ((pdats m 2 c).arrAt_in 1 rfl _).trans ?_
      show U3 m c (Proc.devRef .tc main_arg4) = U4 m c (Proc.devRef .tc main_arg4)
      unfold U4
      exact (Function.update_of_ne (StableHlo.devRef_ne_of_ne (by decide) : (Proc.devRef .tc main_arg4 : DevRef τ sig) ≠ Proc.devRef .tc main_v3) _ _).symm
  | ⟨2, _⟩ => by
      show o4 m c = U4 m c (Proc.devRef .tc main_v3)
      unfold U4
      exact (Function.update_self (Proc.devRef .tc main_v3 : DevRef τ sig) (o4 m c) (U3 m c)).symm
theorem hrest2 (c : Dev nD) : ∀ b, b ∉ Finset.univ.image (Pipeline.arrRef spec2) → atRefs (U4 m) c b = atRefs (U3 m) c b :=
  fun b hb => by
    show U4 m c (Proc.devRef .tc b) = U3 m c (Proc.devRef .tc b)
    unfold U4
    exact Function.update_of_ne (StableHlo.devRef_ne_of_ne (fun e => hb (Finset.mem_image.mpr ⟨2, Finset.mem_univ _, e.symm⟩)) : (Proc.devRef .tc b : DevRef τ sig) ≠ Proc.devRef .tc main_v3) _ _

set_option backward.isDefEq.respectTransparency.types false in
/-- Region 2 (a linear projection): its three arrays are distinct buffers, split out of the unscoped buffers whole and put
    back with the result array at what the write-backs leave; the generator register goes through the invariant. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (atRefs (U3 m)) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (atRefs (U3 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (U3 m) c) (atRefs (U4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The two attention regions -/

/-- A core's unscoped buffers are the four buffers behind region 1's arrays and the rest. -/
theorem bufs1_split (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec1 c V : sProp 𝕄) ∗ Pipeline.unscopedRest spec1 c V) :=
  Pipeline.unscopedBufs_split₀ cfgs 1 (by decide) c V

theorem hF1 (c : Dev nD) (w : Fin cfg1.W) : (pdats m 1 c).arrAt w cfg1.N = atRefs (U3 m) c (Pipeline.arrRef spec1 w) :=
  match w with
  | ⟨0, _⟩ => by
      refine ((pdats m 1 c).arrAt_in 0 rfl _).trans ?_
      show U2 m c (Proc.devRef .tc main_v0) = U3 m c (Proc.devRef .tc main_v0)
      unfold U3
      exact (Function.update_of_ne (StableHlo.devRef_ne_of_ne (by decide) : (Proc.devRef .tc main_v0 : DevRef τ sig) ≠ Proc.devRef .tc main_v2) _ _).symm
  | ⟨1, _⟩ => by
      refine ((pdats m 1 c).arrAt_in 1 rfl _).trans ?_
      show U2 m c (Proc.devRef .tc main_v0) = U3 m c (Proc.devRef .tc main_v0)
      unfold U3
      exact (Function.update_of_ne (StableHlo.devRef_ne_of_ne (by decide) : (Proc.devRef .tc main_v0 : DevRef τ sig) ≠ Proc.devRef .tc main_v2) _ _).symm
  | ⟨2, _⟩ => by
      refine ((pdats m 1 c).arrAt_in 2 rfl _).trans ?_
      show U2 m c (Proc.devRef .tc main_arg1) = U3 m c (Proc.devRef .tc main_arg1)
      unfold U3
      exact (Function.update_of_ne (StableHlo.devRef_ne_of_ne (by decide) : (Proc.devRef .tc main_arg1 : DevRef τ sig) ≠ Proc.devRef .tc main_v2) _ _).symm
  | ⟨3, _⟩ => by
      refine ((pdats m 1 c).arrAt_in 3 rfl _).trans ?_
      show U2 m c (Proc.devRef .tc main_v1) = U3 m c (Proc.devRef .tc main_v1)
      unfold U3
      exact (Function.update_of_ne (StableHlo.devRef_ne_of_ne (by decide) : (Proc.devRef .tc main_v1 : DevRef τ sig) ≠ Proc.devRef .tc main_v2) _ _).symm
  | ⟨4, _⟩ => by
      show o3 m c = U3 m c (Proc.devRef .tc main_v2)
      unfold U3
      exact (Function.update_self (Proc.devRef .tc main_v2 : DevRef τ sig) (o3 m c) (U2 m c)).symm
theorem hrest1 (c : Dev nD) : ∀ b, b ∉ Finset.univ.image (Pipeline.arrRef spec1) → atRefs (U3 m) c b = atRefs (U2 m) c b :=
  fun b hb => by
    show U3 m c (Proc.devRef .tc b) = U2 m c (Proc.devRef .tc b)
    unfold U3
    exact Function.update_of_ne (StableHlo.devRef_ne_of_ne (fun e => hb (Finset.mem_image.mpr ⟨4, Finset.mem_univ _, e.symm⟩)) : (Proc.devRef .tc b : DevRef τ sig) ≠ Proc.devRef .tc main_v2) _ _

/-- ENTRY of region 1: every unscoped buffer at the entry valuation is the five windows' arrays at the proof data's entry
    contents (the shared buffer halved between its two readers) and the rest. -/
theorem entry1 (c : Dev nD) :
    (StableHlo.held (c : Thread nD τ) (Pipeline.ucRefs τ sig) (U2 m c) : sProp 𝕄)
      ⊢ iprop((pdats m 1 c).arrays ((pdats m 1 c).arrAt · 0) ∗ Pipeline.unscopedRest spec1 c (atRefs (U2 m) c)) := by
  rw [← Pipeline.unscopedBufs_held (Ix := Unit) (Name := ℕ) (U := UR sig nD τ) (Lvl := ℕ) c (U2 m c), bufs1_split c (atRefs (U2 m) c)]
  exact sep_mono (arrays1_of_bufs (pdats m 1 c) rfl (atRefs (U2 m) c) _ (fun _ => rfl)) .rfl

/-- EXIT of region 1: the windows' arrays as the write-backs leave them and the rest are every unscoped buffer at the next
    valuation. -/
theorem exit1 (c : Dev nD) :
    iprop((pdats m 1 c).arrays ((pdats m 1 c).arrAt · cfg1.N) ∗ Pipeline.unscopedRest spec1 c (atRefs (U2 m) c))
      ⊢ (StableHlo.held (c : Thread nD τ) (Pipeline.ucRefs τ sig) (U3 m c) : sProp 𝕄) := by
  rw [← Pipeline.unscopedBufs_held (Ix := Unit) (Name := ℕ) (U := UR sig nD τ) (Lvl := ℕ) c (U3 m c), bufs1_split c (atRefs (U3 m) c)]
  refine sep_mono (bufs_of_arrays1 (pdats m 1 c) rfl (atRefs (U3 m) c) _ (hF1 m c)) (Entails.of_eq ?_)
  unfold Pipeline.unscopedRest
  exact bigSep_congr fun b hb => by rw [hrest1 m c b (Finset.mem_sdiff.mp hb).2]

set_option backward.isDefEq.respectTransparency.types false in
/-- Region 1 (an attention): entered from every unscoped buffer at the valuation before it, left at the one after it;
    the generator register goes through the invariant; nothing owed; no semaphore of the kernel's own. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body_obligation1 (atRefs (U2 m)) q1 c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (atRefs (U2 m) c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (atRefs (U2 m)) q1 c)
    unfold Pipeline.ΦA
    iintro ⟨Hp, -, Hr⟩
    isplitl [Hr]; · iexact Hr
    iexact Hp
  hout c := by
    rw [Pipeline.ownSems0_none]
    refine (hout1 (atRefs (U2 m)) q1 c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-- A core's unscoped buffers are the four buffers behind region 3's arrays and the rest. -/
theorem bufs3_split (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec3 c V : sProp 𝕄) ∗ Pipeline.unscopedRest spec3 c V) :=
  Pipeline.unscopedBufs_split₀ cfgs 3 (by decide) c V

theorem hF3 (c : Dev nD) (w : Fin cfg3.W) : (pdats m 3 c).arrAt w cfg3.N = atRefs (U6 m) c (Pipeline.arrRef spec3 w) :=
  match w with
  | ⟨0, _⟩ => by
      refine ((pdats m 3 c).arrAt_in 0 rfl _).trans ?_
      show U5 m c (Proc.devRef .tc main_v3) = U6 m c (Proc.devRef .tc main_v3)
      unfold U6
      exact (Function.update_of_ne (StableHlo.devRef_ne_of_ne (by decide) : (Proc.devRef .tc main_v3 : DevRef τ sig) ≠ Proc.devRef .tc main_v5) _ _).symm
  | ⟨1, _⟩ => by
      refine ((pdats m 3 c).arrAt_in 1 rfl _).trans ?_
      show U5 m c (Proc.devRef .tc main_v3) = U6 m c (Proc.devRef .tc main_v3)
      unfold U6
      exact (Function.update_of_ne (StableHlo.devRef_ne_of_ne (by decide) : (Proc.devRef .tc main_v3 : DevRef τ sig) ≠ Proc.devRef .tc main_v5) _ _).symm
  | ⟨2, _⟩ => by
      refine ((pdats m 3 c).arrAt_in 2 rfl _).trans ?_
      show U5 m c (Proc.devRef .tc main_arg1) = U6 m c (Proc.devRef .tc main_arg1)
      unfold U6
      exact (Function.update_of_ne (StableHlo.devRef_ne_of_ne (by decide) : (Proc.devRef .tc main_arg1 : DevRef τ sig) ≠ Proc.devRef .tc main_v5) _ _).symm
  | ⟨3, _⟩ => by
      refine ((pdats m 3 c).arrAt_in 3 rfl _).trans ?_
      show U5 m c (Proc.devRef .tc main_v4) = U6 m c (Proc.devRef .tc main_v4)
      unfold U6
      exact (Function.update_of_ne (StableHlo.devRef_ne_of_ne (by decide) : (Proc.devRef .tc main_v4 : DevRef τ sig) ≠ Proc.devRef .tc main_v5) _ _).symm
  | ⟨4, _⟩ => by
      show o6 m c = U6 m c (Proc.devRef .tc main_v5)
      unfold U6
      exact (Function.update_self (Proc.devRef .tc main_v5 : DevRef τ sig) (o6 m c) (U5 m c)).symm
theorem hrest3 (c : Dev nD) : ∀ b, b ∉ Finset.univ.image (Pipeline.arrRef spec3) → atRefs (U6 m) c b = atRefs (U5 m) c b :=
  fun b hb => by
    show U6 m c (Proc.devRef .tc b) = U5 m c (Proc.devRef .tc b)
    unfold U6
    exact Function.update_of_ne (StableHlo.devRef_ne_of_ne (fun e => hb (Finset.mem_image.mpr ⟨4, Finset.mem_univ _, e.symm⟩)) : (Proc.devRef .tc b : DevRef τ sig) ≠ Proc.devRef .tc main_v5) _ _

/-- ENTRY of region 3: every unscoped buffer at the entry valuation is the five windows' arrays at the proof data's entry
    contents (the shared buffer halved between its two readers) and the rest. -/
theorem entry3 (c : Dev nD) :
    (StableHlo.held (c : Thread nD τ) (Pipeline.ucRefs τ sig) (U5 m c) : sProp 𝕄)
      ⊢ iprop((pdats m 3 c).arrays ((pdats m 3 c).arrAt · 0) ∗ Pipeline.unscopedRest spec3 c (atRefs (U5 m) c)) := by
  rw [← Pipeline.unscopedBufs_held (Ix := Unit) (Name := ℕ) (U := UR sig nD τ) (Lvl := ℕ) c (U5 m c), bufs3_split c (atRefs (U5 m) c)]
  exact sep_mono (arrays3_of_bufs (pdats m 3 c) rfl (atRefs (U5 m) c) _ (fun _ => rfl)) .rfl

/-- EXIT of region 3: the windows' arrays as the write-backs leave them and the rest are every unscoped buffer at the next
    valuation. -/
theorem exit3 (c : Dev nD) :
    iprop((pdats m 3 c).arrays ((pdats m 3 c).arrAt · cfg3.N) ∗ Pipeline.unscopedRest spec3 c (atRefs (U5 m) c))
      ⊢ (StableHlo.held (c : Thread nD τ) (Pipeline.ucRefs τ sig) (U6 m c) : sProp 𝕄) := by
  rw [← Pipeline.unscopedBufs_held (Ix := Unit) (Name := ℕ) (U := UR sig nD τ) (Lvl := ℕ) c (U6 m c), bufs3_split c (atRefs (U6 m) c)]
  refine sep_mono (bufs_of_arrays3 (pdats m 3 c) rfl (atRefs (U6 m) c) _ (hF3 m c)) (Entails.of_eq ?_)
  unfold Pipeline.unscopedRest
  exact bigSep_congr fun b hb => by rw [hrest3 m c b (Finset.mem_sdiff.mp hb).2]

set_option backward.isDefEq.respectTransparency.types false in
/-- Region 3 (an attention): entered from every unscoped buffer at the valuation before it, left at the one after it;
    the generator register goes through the invariant; nothing owed; no semaphore of the kernel's own. -/
def reg3 : Pipeline.RegionSeg (pcfgs (F := F)) adm (pdats m) () defs₀ Variants.none L lv 3 where
  win := winFacts₀3
  block_pos := block_pos3
  stage_whole := stage_whole3
  K := PEmpty
  osem k := k.elim
  ho := Pipeline.OwnSemFacts.none _
  hbody c := (body_obligation3 (atRefs (U5 m)) q3 c).loose
  hwaits := Pipeline.hwaits_of_owed_zero _ _ _ _ L lv 3 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec3 c (atRefs (U5 m) c)
  hentry c := by
    rw [Pipeline.ownSems0_none]
    iintro ⟨⟨Hub, Hp, HO⟩, -, -⟩
    ihave H := (entry3 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (atRefs (U5 m)) q3 c)
    unfold Pipeline.ΦA
    iintro ⟨Hp, -, Hr⟩
    isplitl [Hr]; · iexact Hr
    iexact Hp
  hout c := by
    rw [Pipeline.ownSems0_none]
    refine (hout3 (atRefs (U5 m)) q3 c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit3 m c); isplitl [Ha] <;> iassumption
    isplitl [HY]; · iexact HY
    unfold Pipeline.Dat.owesAt Pipeline.owesWithin
    icases HO with ⟨%W, -, HO⟩; iexists W; iexact HO

/-! ## The run -/

/-- What the launch leaves beside the buffers is the rest the regions carry: the generator register, nothing owed. -/
theorem rest_of_launch (ρ : Dev nD → PrngReg) (c : Dev nD) :
    (iprop(unscopedSems0 c ∗ owes (c : Thread nD τ) ((fun _ : Dev nD => (0 : CellTallies nD τ sig Unit)) c) ∅ ∗ Pipeline.launchCred (fun _ : Dev nD => (0 : CellTallies nD τ sig Unit)) c ∗ prngReg c (ρ c) ∗ (BI.emp : sProp 𝕄)) : sProp 𝕄)
      ⊢ R c := by
  iintro ⟨-, HO, -, Hp, -⟩
  isplitl [Hp]; · iexists _; iexact Hp
  iexists ∅; iexact HO

theorem rest_of_launch_all (ρ : Dev nD → PrngReg) :
    (bigSep Finset.univ fun c : Dev nD => (iprop(unscopedSems0 c ∗ owes (c : Thread nD τ) ((fun _ : Dev nD => (0 : CellTallies nD τ sig Unit)) c) ∅ ∗ Pipeline.launchCred (fun _ : Dev nD => (0 : CellTallies nD τ sig Unit)) c ∗ prngReg c (ρ c) ∗ (BI.emp : sProp 𝕄)) : sProp 𝕄))
      ⊢ bigSep Finset.univ fun c : Dev nD => (R c : sProp 𝕄) :=
  bigSep_mono fun c _ => rest_of_launch ρ c

set_option backward.isDefEq.respectTransparency.types false in
/-- Every weakly fair execution of the program from memory `m` with zero counters terminates, nothing faulting; the result
    buffer ends at the last valuation's contents and each argument array as launched. -/
theorem run_main (ρ : Dev nD → PrngReg) :
    θ_run defs (onTc (τ := τ) (main (F := F))) ⟨m, fun _ => 0, ρ⟩ (fun r => ∀ c : Dev nD,
      r.2.mem ((c.tc : Thread nD τ).loc main_v6) = U7 m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h := run_cond m (Ix := Unit) (U := UR sig nD τ) (Lvl := ℕ) emb₁ () Variants.none L lv (fun _ _ => rfl) ρ (outs m) (pdats m)
    (fun _ => 0) (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      iintro ⟨H, -⟩
      imodintro
      iapply (rest_of_launch_all ρ)
      iexact H)
    (fun c => by iintro ⟨-, HO⟩; iexact HO)
    (reg0 m) (fun c => .rfl) (fun c => by rw [V1_eq]; exact .rfl)
    (reg1 m) (fun c => by rw [V2_eq]; exact .rfl) (fun c => by rw [V3_eq]; exact .rfl)
    (reg2 m) (fun c => by rw [V3_eq]; exact .rfl) (fun c => by rw [V4_eq]; exact .rfl)
    (reg3 m) (fun c => by rw [V5_eq]; exact .rfl) (fun c => by rw [V6_eq]; exact .rfl)
  refine (θ_run defs _ _).mono (fun r hr c => ?_) h
  rw [← V7_eq]; exact hr c

end Cert.Kernel.Hand

end
-- ==== Proof.IRegion0.lean ====
/-
  Region 0: the row-tiled linear projection. At every grid point the body reads its block of the activations and the
  whole weight matrix and stores the product block whole; the proof data name each staging buffer's contents after
  the body: an input's block of its array, the output's the one store's payload of the two input blocks.
-/
import proofs.«144140_j35399120453979_2_alg».proof.Proof.Gen.KernelIdeal.Launch
import proofs.«144140_j35399120453979_2_alg».proof.Proof.Gen.KernelIdeal.Skeleton
import proofs.«144140_j35399120453979_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an unfetched window's
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangle of the output's staging buffer. -/
abbrev r0_o : Rect S8x1024x128 := Rect.unit (s := S8x1024x128) ![0, 0, 0] S8x1024x128.size inb_S8x1024x128_S8x1024x128_0_0_0
abbrev r0_x : Rect S8x1024x64 := Rect.unit (s := S8x1024x64) ![0, 0, 0] S8x1024x64.size inb_S8x1024x64_S8x1024x64_0_0_0
abbrev r0_w : Rect S128x64 := Rect.unit (s := S128x64) ![0, 0] S128x64.size inb_S128x64_S128x64_0_0

/-- What the body leaves in the output window's staging buffer: its one whole-block store. -/
def out0_2 (x0 : Vec F S8x1024x64 .f32) (x1 : Vec F S128x64 .f32) : Vec F S8x1024x128 .bf16 :=
  View.canon [⟨r0_o, k0_pay1 (View.ld x0 r0_x) (View.ld x1 r0_w)⟩]

theorem cover0_2 (p0 : Vec F S8x1024x128 .bf16) (y : S8x1024x128.Idx) :
    ∃ pc ∈ ([⟨r0_o, p0⟩] : List (View.Piece (Elt F) S8x1024x128 .bf16)), y ∈ pc.1.set :=
  View.cover_of_tiled [⟨r0_o, p0⟩] S8x1024x128.size (by rfl) y

set_option maxHeartbeats 1000000 in
/-- The body on whole staging memrefs, the inputs at `x0`, `x1`, the output at anything: it runs to the continuation
    with the inputs as they were and the output at `out0_2 x0 x1`. -/
theorem sound_kernel0 (c : Dev nD) (E : Set ℕ) (i : grid0.Coords) (arg1 : Memref sig .tc .vmem S8x1024x64 .f32) (harg1 : arg1.IsWhole) (arg2 : Memref sig .tc .vmem S128x64 .f32) (harg2 : arg2.IsWhole)
    (arg3 : Memref sig .tc .vmem S8x1024x128 .bf16) (harg3 : arg3.IsWhole)
    (x0 : Vec F S8x1024x64 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each input's
    buffer at its block, the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IRegion2.lean ====
/-
  Region 2: the row-tiled linear projection. At every grid point the body reads its block of the activations and the
  whole weight matrix and stores the product block whole; the proof data name each staging buffer's contents after
  the body: an input's block of its array, the output's the one store's payload of the two input blocks.
-/
import proofs.«144140_j35399120453979_2_alg».proof.Proof.Gen.KernelIdeal.Launch
import proofs.«144140_j35399120453979_2_alg».proof.Proof.Gen.KernelIdeal.Skeleton
import proofs.«144140_j35399120453979_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an unfetched window's
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangle of the output's staging buffer. -/
abbrev r2_o : Rect S8x1024x64 := Rect.unit (s := S8x1024x64) ![0, 0, 0] S8x1024x64.size inb_S8x1024x64_S8x1024x64_0_0_0
abbrev r2_x : Rect S8x1024x128 := Rect.unit (s := S8x1024x128) ![0, 0, 0] S8x1024x128.size inb_S8x1024x128_S8x1024x128_0_0_0
abbrev r2_w : Rect S64x128 := Rect.unit (s := S64x128) ![0, 0] S64x128.size inb_S64x128_S64x128_0_0

/-- What the body leaves in the output window's staging buffer: its one whole-block store. -/
def out2_2 (x0 : Vec F S8x1024x128 .bf16) (x1 : Vec F S64x128 .f32) : Vec F S8x1024x64 .bf16 :=
  View.canon [⟨r2_o, k2_pay1 (View.ld x0 r2_x) (View.ld x1 r2_w)⟩]

theorem cover2_2 (p0 : Vec F S8x1024x64 .bf16) (y : S8x1024x64.Idx) :
    ∃ pc ∈ ([⟨r2_o, p0⟩] : List (View.Piece (Elt F) S8x1024x64 .bf16)), y ∈ pc.1.set :=
  View.cover_of_tiled [⟨r2_o, p0⟩] S8x1024x64.size (by rfl) y

set_option maxHeartbeats 1000000 in
/-- The body on whole staging memrefs, the inputs at `x0`, `x1`, the output at anything: it runs to the continuation
    with the inputs as they were and the output at `out2_2 x0 x1`. -/
theorem sound_kernel2 (c : Dev nD) (E : Set ℕ) (i : grid2.Coords) (arg1 : Memref sig .tc .vmem S8x1024x128 .bf16) (harg1 : arg1.IsWhole) (arg2 : Memref sig .tc .vmem S64x128 .f32) (harg2 : arg2.IsWhole)
    (arg3 : Memref sig .tc .vmem S8x1024x64 .bf16) (harg3 : arg3.IsWhole)
    (x0 : Vec F S8x1024x128 .bf16) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body each input's
    buffer at its block, the output's at `out2_2` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IRuns1.lean ====
/-
  Attention region 1, shared vocabulary. The grid is 8 query tiles by 16 key steps, walked row-major: point t is
  key step t % 16 of query tile t / 16. Three kinds of point: the first key step of a tile (the running maximum, the
  running denominator and the accumulator are reset before use), a middle step (they are updated from what the step
  before left), and the last step (updated, then the tile's output block is normalised and stored). This module
  fixes the two branch conditions as predicates of the grid coordinates and decides them over the 128 points, says
  where the output window rests, names the buffers the body is called with, and restates the region invariant with
  the three carried buffers singled out.
-/
import proofs.«144140_j35399120453979_2_alg».proof.Proof.Gen.KernelIdeal.Launch
import proofs.«144140_j35399120453979_2_alg».proof.Proof.Gen.KernelIdeal.Skeleton
import proofs.«144140_j35399120453979_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

/-- The block of window `w`'s array that point `t` works on, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0: whenever the body runs, its staging buffer holds the block of the point — a point that does not fetch
    works on the block the point before worked on, and the body never writes an input. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input 1: whenever the body runs, its staging buffer holds the block of the point — a point that does not fetch
    works on the block the point before worked on, and the body never writes an input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input 2: whenever the body runs, its staging buffer holds the block of the point — a point that does not fetch
    works on the block the point before worked on, and the body never writes an input. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input 3: whenever the body runs, its staging buffer holds the block of the point — a point that does not fetch
    works on the block the point before worked on, and the body never writes an input. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- "This is the first key step of its query tile" as the body tests it: the key coordinate compared with 0, the
    comparison widened and compared with 0 again. -/
abbrev cond1_0 (i : grid1.Coords) : Prop := (Scalar.cmpi .ne (Scalar.extui (Scalar.cmpi .eq (BitVec.ofNat 32 (i 1).val) 0#32)) 0#32) = 1#1
/-- Row-major, the key coordinate of point t is t % 16: the test holds exactly at the multiples of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key step of its query tile" as the body tests it. -/
abbrev cond1_1 (i : grid1.Coords) : Prop := k1_cond2 i = 1#1
/-- It holds exactly at the points 15 mod 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows rest -/
/-- Input 0 never rests. -/
theorem liveAt1_0 : ∀ t : Fin cfg1.N, cfg1.idle 0 (grid1.coords t) = false := by decide +kernel
/-- Input 1 never rests. -/
theorem liveAt1_1 : ∀ t : Fin cfg1.N, cfg1.idle 1 (grid1.coords t) = false := by decide +kernel
/-- Input 2 never rests. -/
theorem liveAt1_2 : ∀ t : Fin cfg1.N, cfg1.idle 2 (grid1.coords t) = false := by decide +kernel
/-- Input 3 never rests. -/
theorem liveAt1_3 : ∀ t : Fin cfg1.N, cfg1.idle 3 (grid1.coords t) = false := by decide +kernel
/-- At a first key step the output window rests: nothing is stored into it, -/
theorem idleAt1_4_A : ∀ t : Fin cfg1.N, cond1_0 (grid1.coords t) → ¬cond1_1 (grid1.coords t) → cfg1.idle 4 (grid1.coords t) = true := by decide +kernel
/-- and its block is not written back there. -/
theorem noFlush1_4_A : ∀ t : Fin cfg1.N, cond1_0 (grid1.coords t) → ¬cond1_1 (grid1.coords t) → (cfg1.win 4).flush t = false := by decide +kernel
/-- The same at a middle step: the window rests, -/
theorem idleAt1_4_B : ∀ t : Fin cfg1.N, ¬cond1_0 (grid1.coords t) → ¬cond1_1 (grid1.coords t) → cfg1.idle 4 (grid1.coords t) = true := by decide +kernel
/-- and is not written back. -/
theorem noFlush1_4_B : ∀ t : Fin cfg1.N, ¬cond1_0 (grid1.coords t) → ¬cond1_1 (grid1.coords t) → (cfg1.win 4).flush t = false := by decide +kernel
/-- At a last key step the output window is live: the tile's block is stored there. -/
theorem liveAt1_4_C : ∀ t : Fin cfg1.N, ¬cond1_0 (grid1.coords t) → cond1_1 (grid1.coords t) → cfg1.idle 4 (grid1.coords t) = false := by decide +kernel

/-! ## The buffers the body is called with -/

/-- One staging buffer of the output window, as a view: the block stored there is stated through it (any whole view of
    the shape reads the same pieces the same way). -/
abbrev VO1_4 : View sig .tc .vmem S8x512x128 .bf16 := (Memref.whole cc1_stg4_0 : Memref sig .tc .vmem S8x512x128 .bf16).view
/-- Window 0's current staging buffer at point `t`, and that it is a whole buffer. -/
abbrev ms1_0 (t : Fin cfg1.N) : Memref sig .tc .vmem S8x512x128 .bf16 := win1_0.stage (cfg1.slots t 0)
abbrev hs1_0 (t : Fin cfg1.N) : (ms1_0 t).IsWhole := hstage1_0 ((cfg1.slots t 0).cast nbuf1_0)
/-- Window 1's current staging buffer at point `t`, and that it is a whole buffer. -/
abbrev ms1_1 (t : Fin cfg1.N) : Memref sig .tc .vmem S8x4096x128 .bf16 := win1_1.stage (cfg1.slots t 1)
abbrev hs1_1 (t : Fin cfg1.N) : (ms1_1 t).IsWhole := hstage1_1 ((cfg1.slots t 1).cast nbuf1_1)
/-- Window 2's current staging buffer at point `t`, and that it is a whole buffer. -/
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
/-- Window 3's current staging buffer at point `t`, and that it is a whole buffer. -/
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
/-- Window 4's current staging buffer at point `t`, and that it is a whole buffer. -/
abbrev ms1_4 (t : Fin cfg1.N) : Memref sig .tc .vmem S8x512x128 .bf16 := win1_4.stage (cfg1.slots t 4)
abbrev hs1_4 (t : Fin cfg1.N) : (ms1_4 t).IsWhole := hstage1_4 ((cfg1.slots t 4).cast nbuf1_4)
/-- The running row maximum: a buffer of the kernel's own, passed whole beside the windows and carried from key step to key step; -/
abbrev scM1_0 : Memref sig .tc .vmem S8x512x1 .f32 := Memref.whole cc1_scratch0
/-- and the view through which its contents are stated. -/
abbrev VS1_0 : View sig .tc .vmem S8x512x1 .f32 := scM1_0.view
/-- The running denominator: a buffer of the kernel's own, passed whole beside the windows and carried from key step to key step; -/
abbrev scM1_1 : Memref sig .tc .vmem S8x512x1 .f32 := Memref.whole cc1_scratch1
/-- and the view through which its contents are stated. -/
abbrev VS1_1 : View sig .tc .vmem S8x512x1 .f32 := scM1_1.view
/-- The accumulator: a buffer of the kernel's own, passed whole beside the windows and carried from key step to key step; -/
abbrev scM1_2 : Memref sig .tc .vmem S8x512x128 .f32 := Memref.whole cc1_scratch2
/-- and the view through which its contents are stated. -/
abbrev VS1_2 : View sig .tc .vmem S8x512x128 .f32 := scM1_2.view

/-! ## The region invariant, the carried buffers singled out -/

/-- What the launch hands the region beside the windows: every scoped buffer that is no staging buffer of this call, at
    some contents, and the generator register. The three carried buffers are restated as whole memrefs owned at some
    contents — the form in which the body takes them and gives them back; the others are never touched here. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f)) ∗ (∃ r, prngReg c r)) := by
  unfold Pipeline.ΦA; rw [scopedRest1_eq]; simp only [scM1_0, scM1_1, scM1_2, owns_whole]; try rfl

/-! ## What one run of the body stores -/

/-- The stores one run of the body leaves behind, buffer by buffer, each list latest store first: into the output
    window's staging buffer, into the running maximum, the running denominator and the accumulator. -/
structure Stores1 (F : FTy → Type) where
  out : List (View.Piece (Elt F) S8x512x128 .bf16)
  m : List (View.Piece (Elt F) S8x512x1 .f32)
  l : List (View.Piece (Elt F) S8x512x1 .f32)
  acc : List (View.Piece (Elt F) S8x512x128 .f32)

end Cert.KernelIdeal.Hand

end
-- ==== Proof.IRun1A.lean ====
/-
  Attention region 1, the body at the FIRST key step of a query tile. The three carried buffers arrive at anything:
  each is reset (maximum to −∞, denominator and accumulator to 0) and then updated from this step's scores, so each
  ends with two whole stores, the update over the reset. The output window rests: its buffer goes back as it came.
-/
import proofs.«144140_j35399120453979_2_alg».proof.Proof.IRuns1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a first key step, on whole buffers: the four inputs at `x0 … x3`, the output's buffer at any `xo` (given
    back untouched), the carried buffers at anything. It runs to a continuation that holds the inputs and the output's
    buffer as they were and each carried buffer with the run's stores written — the lists of stores are the witness,
    found as the run hands each buffer back. -/
noncomputable def kernelRun1_A (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) :
    { L : Stores1 F //
      ∀ (xo : Vec F S8x512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨⟨[], ?_, ?_, ?_⟩, fun xo E K => ?run⟩
  case run =>
    dsimp only
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.IRun1B.lean ====
/-
  Attention region 1, the body at a MIDDLE key step of a query tile. The three carried buffers arrive at what the step
  before left; each is read and then stored whole once (denominator, accumulator, maximum, in that order). The output
  window rests: its buffer goes back as it came.
-/
import proofs.«144140_j35399120453979_2_alg».proof.Proof.IRun1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a middle key step, on whole buffers: the four inputs at `x0 … x3`, the output's buffer at any `xo` (given
    back untouched), the carried buffers at `xs0`, `xs1`, `xs2` — what the step before left. It runs to a continuation
    that holds the inputs and the output's buffer as they were and each carried buffer with the run's stores written —
    the lists of stores are the witness, found as the run hands each buffer back. -/
noncomputable def kernelRun1_B (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    { L : Stores1 F //
      ∀ (xo : Vec F S8x512x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨⟨[], ?_, ?_, ?_⟩, fun xo E K => ?run⟩
  case run =>
    dsimp only
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.IRun1C.lean ====
/-
  Attention region 1, the body at the LAST key step of a query tile. As at a middle step the three carried buffers
  arrive at what the step before left and are each stored whole once; then the accumulator is divided by the denominator, the bias added, negative entries
  replaced by 0 and the result rounded to bf16: that block is stored whole into the output window's staging buffer.
-/
import proofs.«144140_j35399120453979_2_alg».proof.Proof.IRun1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a last key step, on whole buffers: the four inputs at `x0 … x3`, the output's buffer at anything, the
    carried buffers at `xs0`, `xs1`, `xs2` — what the step before left. It runs to a continuation that holds the inputs
    as they were and the output's buffer and each carried buffer with the run's stores written — the lists of stores
    are the witness, found as the run hands each buffer back. -/
noncomputable def kernelRun1_C (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    { L : Stores1 F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.out) ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨⟨?_, ?_, ?_, ?_⟩, fun E K => ?run⟩
  case run =>
    dsimp only
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.IRegion1.lean ====
/-
  Attention region 1: the proof data of the pipeline and its body obligation. After the body at point t the staging
  buffer of an input holds the point's block of its array; the three carried buffers hold what the run of the point's
  kind (first, middle or last key step of its query tile) stored, computed from the point's blocks and — except at a
  first key step — from what the point before left in them; the output window's buffer holds the tile's block after
  a last key step and rests elsewhere. `outsAt1` is that recursion over the points; the region invariant carries the
  three buffers from point to point.
-/
import proofs.«144140_j35399120453979_2_alg».proof.Proof.IRun1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading a list of stores back -/

/-- What a buffer of the output window's shape holds once stores that cover it are written: the stores read back over
    unspecified contents (which covering stores hide). -/
def left1_out (L : List (View.Piece (Elt F) S8x512x128 .bf16)) : Vec F S8x512x128 .bf16 :=
  VO1_4.read (Elt F) (VO1_4.writes (Elt F) VO1_4.junk L)
/-- The same for the running maximum. -/
def left1_m (L : List (View.Piece (Elt F) S8x512x1 .f32)) : Vec F S8x512x1 .f32 :=
  VS1_0.read (Elt F) (VS1_0.writes (Elt F) VS1_0.junk L)
/-- The same for the running denominator. -/
def left1_l (L : List (View.Piece (Elt F) S8x512x1 .f32)) : Vec F S8x512x1 .f32 :=
  VS1_1.read (Elt F) (VS1_1.writes (Elt F) VS1_1.junk L)
/-- The same for the accumulator. -/
def left1_acc (L : List (View.Piece (Elt F) S8x512x128 .f32)) : Vec F S8x512x128 .f32 :=
  VS1_2.read (Elt F) (VS1_2.writes (Elt F) VS1_2.junk L)

/-! ## Each kind of point: what it leaves, and that its stores cover -/

/-- What the body leaves at a first key step: the output block (none is stored: a placeholder nothing consults), the maximum, the denominator, the accumulator. -/
def step1_A (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) : Vec F S8x512x128 .bf16 × Vec F S8x512x1 .f32 × Vec F S8x512x1 .f32 × Vec F S8x512x128 .f32 :=
  (left1_out (kernelRun1_A c i arg2 harg2 arg3 harg3 arg4 harg4 arg5 harg5 arg6 harg6 arg7 harg7 arg8 harg8 arg9 harg9 hc0 hc1 x0 x1 x2 x3).1.out, left1_m (kernelRun1_A c i arg2 harg2 arg3 harg3 arg4 harg4 arg5 harg5 arg6 harg6 arg7 harg7 arg8 harg8 arg9 harg9 hc0 hc1 x0 x1 x2 x3).1.m, left1_l (kernelRun1_A c i arg2 harg2 arg3 harg3 arg4 harg4 arg5 harg5 arg6 harg6 arg7 harg7 arg8 harg8 arg9 harg9 hc0 hc1 x0 x1 x2 x3).1.l, left1_acc (kernelRun1_A c i arg2 harg2 arg3 harg3 arg4 harg4 arg5 harg5 arg6 harg6 arg7 harg7 arg8 harg8 arg9 harg9 hc0 hc1 x0 x1 x2 x3).1.acc)

/-- At a first key step the stores into the maximum cover it (two whole stores: the tiling is evaluated). -/
theorem cover1_A_m (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) (y : S8x512x1.Idx) :
    ∃ pc ∈ (kernelRun1_A c i arg2 harg2 arg3 harg3 arg4 harg4 arg5 harg5 arg6 harg6 arg7 harg7 arg8 harg8 arg9 harg9 hc0 hc1 x0 x1 x2 x3).1.m, y ∈ pc.1.set :=
  View.cover_of_tiledL (kernelRun1_A c i arg2 harg2 arg3 harg3 arg4 harg4 arg5 harg5 arg6 harg6 arg7 harg7 arg8 harg8 arg9 harg9 hc0 hc1 x0 x1 x2 x3).1.m S8x512x1.size (by sl_kernel_rfl) y

/-- At a first key step the stores into the denominator cover it (two whole stores: the tiling is evaluated). -/
theorem cover1_A_l (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) (y : S8x512x1.Idx) :
    ∃ pc ∈ (kernelRun1_A c i arg2 harg2 arg3 harg3 arg4 harg4 arg5 harg5 arg6 harg6 arg7 harg7 arg8 harg8 arg9 harg9 hc0 hc1 x0 x1 x2 x3).1.l, y ∈ pc.1.set :=
  View.cover_of_tiledL (kernelRun1_A c i arg2 harg2 arg3 harg3 arg4 harg4 arg5 harg5 arg6 harg6 arg7 harg7 arg8 harg8 arg9 harg9 hc0 hc1 x0 x1 x2 x3).1.l S8x512x1.size (by sl_kernel_rfl) y

/-- At a first key step the stores into the accumulator cover it (two whole stores: the tiling is evaluated). -/
theorem cover1_A_acc (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) (y : S8x512x128.Idx) :
    ∃ pc ∈ (kernelRun1_A c i arg2 harg2 arg3 harg3 arg4 harg4 arg5 harg5 arg6 harg6 arg7 harg7 arg8 harg8 arg9 harg9 hc0 hc1 x0 x1 x2 x3).1.acc, y ∈ pc.1.set :=
  View.cover_of_tiledL (kernelRun1_A c i arg2 harg2 arg3 harg3 arg4 harg4 arg5 harg5 arg6 harg6 arg7 harg7 arg8 harg8 arg9 harg9 hc0 hc1 x0 x1 x2 x3).1.acc S8x512x128.size (by sl_kernel_rfl) y

/-- What the body leaves at a middle key step: the output block (none is stored: a placeholder nothing consults), the maximum, the denominator, the accumulator. -/
def step1_B (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) : Vec F S8x512x128 .bf16 × Vec F S8x512x1 .f32 × Vec F S8x512x1 .f32 × Vec F S8x512x128 .f32 :=
  (left1_out (kernelRun1_B c i arg2 harg2 arg3 harg3 arg4 harg4 arg5 harg5 arg6 harg6 arg7 harg7 arg8 harg8 arg9 harg9 hc0 hc1 x0 x1 x2 x3 xs0 xs1 xs2).1.out, left1_m (kernelRun1_B c i arg2 harg2 arg3 harg3 arg4 harg4 arg5 harg5 arg6 harg6 arg7 harg7 arg8 harg8 arg9 harg9 hc0 hc1 x0 x1 x2 x3 xs0 xs1 xs2).1.m, left1_l (kernelRun1_B c i arg2 harg2 arg3 harg3 arg4 harg4 arg5 harg5 arg6 harg6 arg7 harg7 arg8 harg8 arg9 harg9 hc0 hc1 x0 x1 x2 x3 xs0 xs1 xs2).1.l, left1_acc (kernelRun1_B c i arg2 harg2 arg3 harg3 arg4 harg4 arg5 harg5 arg6 harg6 arg7 harg7 arg8 harg8 arg9 harg9 hc0 hc1 x0 x1 x2 x3 xs0 xs1 xs2).1.acc)

/-- At a middle key step the stores into the maximum cover it (one whole store: the tiling is evaluated). -/
theorem cover1_B_m (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).1.m, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).1.m S8x512x1.size (by sl_kernel_rfl) y

/-- At a middle key step the stores into the denominator cover it (one whole store: the tiling is evaluated). -/
theorem cover1_B_l (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).1.l, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).1.l S8x512x1.size (by sl_kernel_rfl) y

/-- At a middle key step the stores into the accumulator cover it (one whole store: the tiling is evaluated). -/
theorem cover1_B_acc (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x128.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).1.acc, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).1.acc S8x512x128.size (by sl_kernel_rfl) y

/-- What the body leaves at a last key step: the output block, the maximum, the denominator, the accumulator. -/
def step1_C (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) : Vec F S8x512x128 .bf16 × Vec F S8x512x1 .f32 × Vec F S8x512x1 .f32 × Vec F S8x512x128 .f32 :=
  (left1_out (kernelRun1_C c i arg2 harg2 arg3 harg3 arg4 harg4 arg5 harg5 arg6 harg6 arg7 harg7 arg8 harg8 arg9 harg9 hc0 hc1 x0 x1 x2 x3 xs0 xs1 xs2).1.out, left1_m (kernelRun1_C c i arg2 harg2 arg3 harg3 arg4 harg4 arg5 harg5 arg6 harg6 arg7 harg7 arg8 harg8 arg9 harg9 hc0 hc1 x0 x1 x2 x3 xs0 xs1 xs2).1.m, left1_l (kernelRun1_C c i arg2 harg2 arg3 harg3 arg4 harg4 arg5 harg5 arg6 harg6 arg7 harg7 arg8 harg8 arg9 harg9 hc0 hc1 x0 x1 x2 x3 xs0 xs1 xs2).1.l, left1_acc (kernelRun1_C c i arg2 harg2 arg3 harg3 arg4 harg4 arg5 harg5 arg6 harg6 arg7 harg7 arg8 harg8 arg9 harg9 hc0 hc1 x0 x1 x2 x3 xs0 xs1 xs2).1.acc)

/-- At a last key step the stores into the maximum cover it (one whole store: the tiling is evaluated). -/
theorem cover1_C_m (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1.m, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1.m S8x512x1.size (by sl_kernel_rfl) y

/-- At a last key step the stores into the denominator cover it (one whole store: the tiling is evaluated). -/
theorem cover1_C_l (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1.l, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1.l S8x512x1.size (by sl_kernel_rfl) y

/-- At a last key step the stores into the accumulator cover it (one whole store: the tiling is evaluated). -/
theorem cover1_C_acc (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1.acc, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1.acc S8x512x128.size (by sl_kernel_rfl) y

/-- At a last key step the one whole store into the output window's buffer covers it. -/
theorem cover1_C_out (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) (y : S8x512x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1.out, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1.out S8x512x128.size (by sl_kernel_rfl) y

/-! ## The recursion over the points -/

/-- Nothing: what stands for "the point before" at the grid's first point, where no case reads it. -/
def none1 : Vec F S8x512x128 .bf16 × Vec F S8x512x1 .f32 × Vec F S8x512x1 .f32 × Vec F S8x512x128 .f32 := (left1_out [], left1_m [], left1_l [], left1_acc [])

/-- One point: the run of the point's kind — by the key coordinate t % 16 — at the point's buffers and input blocks,
    over what the point before left in the carried buffers (`prev`; a first key step ignores it). -/
def stepAt1 (c : Dev nD) (t : Fin cfg1.N) (prev : Vec F S8x512x128 .bf16 × Vec F S8x512x1 .f32 × Vec F S8x512x1 .f32 × Vec F S8x512x128 .f32) : Vec F S8x512x128 .bf16 × Vec F S8x512x1 .f32 × Vec F S8x512x1 .f32 × Vec F S8x512x128 .f32 :=
  if h0 : t.val % 16 = 0 then
    step1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t)
  else if h1 : t.val % 16 = 15 then
    step1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2
  else
    step1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2

/-- THE ACCUMULATION: what the output window's buffer and the three carried buffers hold after the body at position
    `n` (output block, maximum, denominator, accumulator). -/
def outsAt1 (c : Dev nD) : (n : ℕ) → n < cfg1.N → Vec F S8x512x128 .bf16 × Vec F S8x512x1 .f32 × Vec F S8x512x1 .f32 × Vec F S8x512x128 .f32
  | 0, hn => stepAt1 V c ⟨0, hn⟩ none1
  | n + 1, hn => stepAt1 V c ⟨n + 1, hn⟩ (outsAt1 c n (Nat.lt_of_succ_lt hn))

/-- At a first key step: the reset-and-update run at the point's blocks. -/
theorem outsAt1_A (c : Dev nD) (t : Fin cfg1.N) (h0 : t.val % 16 = 0) :
    outsAt1 V c t.val t.isLt = step1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) := by
  obtain ⟨n, hn⟩ := t
  cases n with
  | zero => show stepAt1 V c ⟨0, hn⟩ none1 = _; unfold stepAt1; exact dif_pos h0
  | succ n => show stepAt1 V c ⟨n + 1, hn⟩ (outsAt1 V c n _) = _; unfold stepAt1; exact dif_pos h0

/-- At a middle key step: the update run over what the point before left. -/
theorem outsAt1_B (c : Dev nD) (t : Fin cfg1.N) (h0 : ¬t.val % 16 = 0) (h1 : ¬t.val % 16 = 15) :
    outsAt1 V c t.val t.isLt = step1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => show stepAt1 V c ⟨n + 1, hn⟩ (outsAt1 V c n _) = _; unfold stepAt1; exact (dif_neg h0).trans (dif_neg h1)

/-- At a last key step: the update-and-store run over what the point before left. -/
theorem outsAt1_C (c : Dev nD) (t : Fin cfg1.N) (h0 : ¬t.val % 16 = 0) (h1 : t.val % 16 = 15) :
    outsAt1 V c t.val t.isLt = step1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => show stepAt1 V c ⟨n + 1, hn⟩ (outsAt1 V c n _) = _; unfold stepAt1; exact (dif_neg h0).trans (dif_pos h1)

/-! ## The region invariant -/

/-- The scoped buffers this region never touches (other calls' staging buffers and scratch), each at some contents, and
    the generator register at some state. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f) ∗ (∃ r, prngReg c r))

/-- What the launch hands the region, taken apart: the three carried buffers at some contents, and the rest. -/
theorem PhiA1_open (c : Dev nD) :
    (Pipeline.ΦA spec1 c : sProp 𝕄) ⊢ iprop((∃ d, owns (c : Thread nD τ) scM1_0 fullShare d) ∗ (∃ d, owns (c : Thread nD τ) scM1_1 fullShare d) ∗ (∃ d, owns (c : Thread nD τ) scM1_2 fullShare d) ∗ others1 c) := by
  rw [PhiA1_eq]; unfold others1
  iintro ⟨⟨HR0, HR1, HR2, HR3, HR4, HS0, HS1, HS2, HR8, HR9, HR10, HR11, HR12, HR13, HR14, HR15, HR16, HR17, HR18, HR19, HR20, HR21, HR22, HR23⟩, Hg⟩
  isplitl [HS0]; · iexact HS0
  isplitl [HS1]; · iexact HS1
  isplitl [HS2]; · iexact HS2
  isplitl [HR0]; · iexact HR0
  isplitl [HR1]; · iexact HR1
  isplitl [HR2]; · iexact HR2
  isplitl [HR3]; · iexact HR3
  isplitl [HR4]; · iexact HR4
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HR18]; · iexact HR18
  isplitl [HR19]; · iexact HR19
  isplitl [HR20]; · iexact HR20
  isplitl [HR21]; · iexact HR21
  isplitl [HR22]; · iexact HR22
  isplitl [HR23]; · iexact HR23
  iexact Hg

/-- And put together again. -/
theorem PhiA1_close (c : Dev nD) :
    iprop((∃ d, owns (c : Thread nD τ) scM1_0 fullShare d) ∗ (∃ d, owns (c : Thread nD τ) scM1_1 fullShare d) ∗ (∃ d, owns (c : Thread nD τ) scM1_2 fullShare d) ∗ others1 c) ⊢ (Pipeline.ΦA spec1 c : sProp 𝕄) := by
  rw [PhiA1_eq]; unfold others1
  iintro ⟨HS0, HS1, HS2, HR0, HR1, HR2, HR3, HR4, HR8, HR9, HR10, HR11, HR12, HR13, HR14, HR15, HR16, HR17, HR18, HR19, HR20, HR21, HR22, HR23, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HS0]; · iexact HS0
  isplitl [HS1]; · iexact HS1
  isplitl [HS2]; · iexact HS2
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HR18]; · iexact HR18
  isplitl [HR19]; · iexact HR19
  isplitl [HR20]; · iexact HR20
  isplitl [HR21]; · iexact HR21
  isplitl [HR22]; · iexact HR22
  iexact HR23

/-- The invariant between two points: the carried buffers at given contents `s` (its maximum, denominator and
    accumulator components), and the rest. -/
def carried1 (c : Dev nD) (s : Vec F S8x512x128 .bf16 × Vec F S8x512x1 .f32 × Vec F S8x512x1 .f32 × Vec F S8x512x128 .f32) : sProp 𝕄 :=
  iprop(owns (c : Thread nD τ) scM1_0 fullShare s.2.1 ∗ owns (c : Thread nD τ) scM1_1 fullShare s.2.2.1 ∗ owns (c : Thread nD τ) scM1_2 fullShare s.2.2.2 ∗ others1 c)

/-- The region invariant before position `n`: what the launch hands over before the first point; afterwards the
    carried buffers at what the point before left. -/
def PhiS1 (c : Dev nD) : (n : ℕ) → n ≤ cfg1.N → sProp 𝕄
  | 0, _ => Pipeline.ΦA spec1 c
  | n + 1, hn => carried1 c (outsAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = carried1 c (outsAt1 V c n hn) := rfl

theorem PhiS1_pos (c : Dev nD) (n : ℕ) (h : n ≤ cfg1.N) (hz : n ≠ 0) :
    PhiS1 V c n h = carried1 c (outsAt1 V c (n - 1) (by omega)) := by
  cases n with
  | zero => exact absurd rfl hz
  | succ n => rfl

/-- Forgetting what the carried buffers hold gives back what the launch handed over. -/
theorem carried1_forget (c : Dev nD) (s : Vec F S8x512x128 .bf16 × Vec F S8x512x1 .f32 × Vec F S8x512x1 .f32 × Vec F S8x512x128 .f32) : carried1 (F := F) c s ⊢ Pipeline.ΦA spec1 c := by
  refine BIBase.Entails.trans ?_ (PhiA1_close c)
  unfold carried1
  iintro ⟨HS0, HS1, HS2, Hr⟩
  isplitl [HS0]; · iexists _; iexact HS0
  isplitl [HS1]; · iexists _; iexact HS1
  isplitl [HS2]; · iexists _; iexact HS2
  iexact Hr

/-! ## The proof data -/

/-- The proof data of the pipeline on core `c`, for any shares `q` of the input arrays: the arrays as the region finds
    them; after the body at point `t` each input's buffer at its block, the output's at `outsAt1`'s first component;
    the invariant `PhiS1`; nothing owed. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q := q
  owed _ := 0

theorem A_eq1 (q : Fin cfg1.W → PosShare TreeShare) (c : Dev nD) (w : Fin cfg1.W) : (dat1 V q c).A w = V c (Pipeline.arrRef spec1 w) := by
  dsimp only [dat1]

theorem PhiS1_castSucc (q : Fin cfg1.W → PosShare TreeShare) (c : Dev nD) (t : Fin cfg1.N) :
    (dat1 V q c).Φ t.castSucc = PhiS1 V c t.val (Nat.le_of_lt t.isLt) := by
  dsimp only [dat1]; simp only [Fin.coe_castSucc]

theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = (outsAt1 V c t.val t.isLt).1 := by dsimp only [dat1]

theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d

/-! ## The body obligation -/

/-- What the body is called with at point `t`: the invariant, the core's dues, each window's current buffer. -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d)))

/-- What it gives back. -/
def bodyPost1 (q : Fin cfg1.W → PosShare TreeShare) (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t)

set_option maxHeartbeats 1600000 in
/-- The body at a first key step. At the grid's first point the carried buffers come from the launch's invariant, at
    anything; at a later tile's first step from the point before — either way the run asks nothing of their contents. -/
theorem sound_body1_A (q : Fin cfg1.W → PosShare TreeShare) (c : Dev nD) (t : Fin cfg1.N) (h0 : t.val % 16 = 0) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).owesAt () t.succ = (dat1 V q c).owesAt () t.castSucc from rfl]
  rw [show (dat1 V q c).Φ t.succ = PhiS1 V c (t.val + 1) t.isLt from rfl, PhiS1_succ]
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  rw [show (dat1 V q c).leavesExact 2 t = owns (c : Thread nD τ) (ms1_2 t) fullShare ((dat1 V q c).after 2 t) from by
    unfold Dat.leavesExact; rw [liveAt1_2 t], after1_2]
  rw [show (dat1 V q c).leavesExact 3 t = owns (c : Thread nD τ) (ms1_3 t) fullShare ((dat1 V q c).after 3 t) from by
    unfold Dat.leavesExact; rw [liveAt1_3 t], after1_3]
  rw [Dat.leavesExact_idle (dat1 V q c) 4 t (idleAt1_4_A t ((hcond1_0 t).mpr h0) (fun h => by have := (hcond1_1 t).mp h; omega)) (noFlush1_4_A t ((hcond1_0 t).mpr h0) (fun h => by have := (hcond1_1 t).mp h; omega))]
  rw [outsAt1_A V c t h0]
  unfold carried1 step1_A; dsimp only
  have hstart : (dat1 V q c).Φ t.castSucc ⊢ iprop((∃ d, owns (c : Thread nD τ) scM1_0 fullShare d) ∗ (∃ d, owns (c : Thread nD τ) scM1_1 fullShare d) ∗ (∃ d, owns (c : Thread nD τ) scM1_2 fullShare d) ∗ others1 c) := by
    rw [PhiS1_castSucc V q c t]
    by_cases hz : t.val = 0
    · rw [PhiS1_zero V c _ _ hz]; exact PhiA1_open c
    · rw [PhiS1_pos V c _ _ hz]; unfold carried1
      iintro ⟨HS0, HS1, HS2, Hr⟩
      isplitl [HS0]; · iexists _; iexact HS0
      isplitl [HS1]; · iexists _; iexact HS1
      isplitl [HS2]; · iexists _; iexact HS2
      iexact Hr
  iintro ⟨HΦ, Ho, ⟨%d0, H0⟩, ⟨%d1, H1⟩, ⟨%d2, H2⟩, ⟨%d3, H3⟩, ⟨%d4, H4⟩⟩
  ihave HΦ' := hstart $$ HΦ
  icases HΦ' with ⟨HS0, HS1, HS2, Hr⟩
  iapply ((kernelRun1_A c (grid1.coords t) _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t)).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%e0, HS0⟩, ⟨%e1, HS1⟩, ⟨%e2, HS2⟩⟩
  isplitl [HS0 HS1 HS2 Hr]
  · unfold left1_m left1_l left1_acc
    isplitl [HS0]
    · unfold owns; iexists _; isplitr
      swap; · iexact HS0
      ipureintro; exact View.read_writes_of_cover _ _ _ _ _ (cover1_A_m c _ _ _ _ _ _ _ _ _ _ _ _ _ _ _ _ _ _ _ _ _ _ _)
    isplitl [HS1]
    · unfold owns; iexists _; isplitr
      swap; · iexact HS1
      ipureintro; exact View.read_writes_of_cover _ _ _ _ _ (cover1_A_l c _ _ _ _ _ _ _ _ _ _ _ _ _ _ _ _ _ _ _ _ _ _ _)
    isplitl [HS2]
    · unfold owns; iexists _; isplitr
      swap; · iexact HS2
      ipureintro; exact View.read_writes_of_cover _ _ _ _ _ (cover1_A_acc c _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a middle key step: the invariant hands the carried buffers over at what the point before left. -/
theorem sound_body1_B (q : Fin cfg1.W → PosShare TreeShare) (c : Dev nD) (t : Fin cfg1.N) (h0 : ¬t.val % 16 = 0) (h1 : ¬t.val % 16 = 15) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).owesAt () t.succ = (dat1 V q c).owesAt () t.castSucc from rfl]
  rw [show (dat1 V q c).Φ t.succ = PhiS1 V c (t.val + 1) t.isLt from rfl, PhiS1_succ]
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  rw [show (dat1 V q c).leavesExact 2 t = owns (c : Thread nD τ) (ms1_2 t) fullShare ((dat1 V q c).after 2 t) from by
    unfold Dat.leavesExact; rw [liveAt1_2 t], after1_2]
  rw [show (dat1 V q c).leavesExact 3 t = owns (c : Thread nD τ) (ms1_3 t) fullShare ((dat1 V q c).after 3 t) from by
    unfold Dat.leavesExact; rw [liveAt1_3 t], after1_3]
  rw [Dat.leavesExact_idle (dat1 V q c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
  rw [outsAt1_B V c t h0 h1]
  have hz : t.val ≠ 0 := fun e => h0 (by rw [e])
  rw [PhiS1_castSucc V q c t, PhiS1_pos V c _ _ hz]
  unfold carried1 step1_B; dsimp only
  iintro ⟨HΦ, Ho, ⟨%d0, H0⟩, ⟨%d1, H1⟩, ⟨%d2, H2⟩, ⟨%d3, H3⟩, ⟨%d4, H4⟩⟩
  icases HΦ with ⟨HS0, HS1, HS2, Hr⟩
  iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%e0, HS0⟩, ⟨%e1, HS1⟩, ⟨%e2, HS2⟩⟩
  isplitl [HS0 HS1 HS2 Hr]
  · unfold left1_m left1_l left1_acc
    isplitl [HS0]
    · unfold owns; iexists _; isplitr
      swap; · iexact HS0
      ipureintro; exact View.read_writes_of_cover _ _ _ _ _ (cover1_B_m c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (cover1_B_l c _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (cover1_B_acc c _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a last key step: as at a middle step, and the output window's buffer comes back at the tile's block. -/
theorem sound_body1_C (q : Fin cfg1.W → PosShare TreeShare) (c : Dev nD) (t : Fin cfg1.N) (h0 : ¬t.val % 16 = 0) (h1 : t.val % 16 = 15) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).owesAt () t.succ = (dat1 V q c).owesAt () t.castSucc from rfl]
  rw [show (dat1 V q c).Φ t.succ = PhiS1 V c (t.val + 1) t.isLt from rfl, PhiS1_succ]
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  rw [show (dat1 V q c).leavesExact 2 t = owns (c : Thread nD τ) (ms1_2 t) fullShare ((dat1 V q c).after 2 t) from by
    unfold Dat.leavesExact; rw [liveAt1_2 t], after1_2]
  rw [show (dat1 V q c).leavesExact 3 t = owns (c : Thread nD τ) (ms1_3 t) fullShare ((dat1 V q c).after 3 t) from by
    unfold Dat.leavesExact; rw [liveAt1_3 t], after1_3]
  rw [show (dat1 V q c).leavesExact 4 t = owns (c : Thread nD τ) (ms1_4 t) fullShare ((dat1 V q c).after 4 t) from by
    unfold Dat.leavesExact; rw [liveAt1_4_C t (fun h => h0 ((hcond1_0 t).mp h)) ((hcond1_1 t).mpr h1)], after1_4]
  rw [outsAt1_C V c t h0 h1]
  have hz : t.val ≠ 0 := fun e => h0 (by rw [e])
  rw [PhiS1_castSucc V q c t, PhiS1_pos V c _ _ hz]
  unfold carried1 step1_C; dsimp only
  iintro ⟨HΦ, Ho, ⟨%d0, H0⟩, ⟨%d1, H1⟩, ⟨%d2, H2⟩, ⟨%d3, H3⟩, ⟨%d4, H4⟩⟩
  icases HΦ with ⟨HS0, HS1, HS2, Hr⟩
  iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%e4, H4⟩, ⟨%e0, HS0⟩, ⟨%e1, HS1⟩, ⟨%e2, HS2⟩⟩
  isplitl [HS0 HS1 HS2 Hr]
  · unfold left1_m left1_l left1_acc
    isplitl [HS0]
    · unfold owns; iexists _; isplitr
      swap; · iexact HS0
      ipureintro; exact View.read_writes_of_cover _ _ _ _ _ (cover1_C_m c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (cover1_C_l c _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (cover1_C_acc c _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  unfold owns left1_out; iexists _; isplitr
  swap; · iexact H4
  ipureintro; exact View.read_writes_of_cover _ _ _ _ _ (cover1_C_out c _ _ _ _ _ _ _ _ _ _ _ _ _ _ _ _ _ _ _ _ _ _ _ _ _ _)

/-- The body at any point: by the key coordinate, one of the three. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  by_cases h0 : t.val % 16 = 0
  · exact sound_body1_A V q c t h0
  · by_cases h1 : t.val % 16 = 15
    · exact sound_body1_C V q c t h0 h1
    · exact sound_body1_B V q c t h0 h1

/-- The library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (q : Fin cfg1.W → PosShare TreeShare) (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After any point the invariant gives it back, the carried buffers' contents forgotten. -/
theorem Phi_out1 (q : Fin cfg1.W → PosShare TreeShare) (c : Dev nD) (t : Fin (cfg1.N + 1)) (ht : t.val ≠ 0) : (dat1 V q c).Φ t ⊢ Pipeline.ΦA spec1 c := by
  rw [show (dat1 V q c).Φ t = PhiS1 V c t.val (Nat.le_of_lt_succ t.isLt) from rfl, PhiS1_pos V c _ _ ht]
  exact carried1_forget c _

/-- In particular after the last. -/
theorem hout1 (q : Fin cfg1.W → PosShare TreeShare) (c : Dev nD) : (dat1 V q c).Φ (Fin.last cfg1.N) ⊢ Pipeline.ΦA spec1 c :=
  Phi_out1 V q c _ (by rw [Fin.val_last]; have : cfg1.N = 128 := N_1; omega)

end Cert.KernelIdeal.Hand

end
-- ==== Proof.IRuns3.lean ====
/-
  Attention region 3, shared vocabulary. The grid is 8 query tiles by 16 key steps, walked row-major: point t is
  key step t % 16 of query tile t / 16. Three kinds of point: the first key step of a tile (the running maximum, the
  running denominator and the accumulator are reset before use), a middle step (they are updated from what the step
  before left), and the last step (updated, then the tile's output block is normalised and stored). This module
  fixes the two branch conditions as predicates of the grid coordinates and decides them over the 128 points, says
  where the output window rests, names the buffers the body is called with, and restates the region invariant with
  the three carried buffers singled out.
-/
import proofs.«144140_j35399120453979_2_alg».proof.Proof.Gen.KernelIdeal.Launch
import proofs.«144140_j35399120453979_2_alg».proof.Proof.Gen.KernelIdeal.Skeleton
import proofs.«144140_j35399120453979_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

/-- The block of window `w`'s array that point `t` works on, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input 0: whenever the body runs, its staging buffer holds the block of the point — a point that does not fetch
    works on the block the point before worked on, and the body never writes an input. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input 1: whenever the body runs, its staging buffer holds the block of the point — a point that does not fetch
    works on the block the point before worked on, and the body never writes an input. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input 2: whenever the body runs, its staging buffer holds the block of the point — a point that does not fetch
    works on the block the point before worked on, and the body never writes an input. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input 3: whenever the body runs, its staging buffer holds the block of the point — a point that does not fetch
    works on the block the point before worked on, and the body never writes an input. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions -/

/-- "This is the first key step of its query tile" as the body tests it: the key coordinate compared with 0, the
    comparison widened and compared with 0 again. -/
abbrev cond3_0 (i : grid3.Coords) : Prop := (Scalar.cmpi .ne (Scalar.extui (Scalar.cmpi .eq (BitVec.ofNat 32 (i 1).val) 0#32)) 0#32) = 1#1
/-- Row-major, the key coordinate of point t is t % 16: the test holds exactly at the multiples of 16. -/
theorem hcond3_0 : ∀ t : Fin cfg3.N, cond3_0 (grid3.coords t) ↔ t.val % 16 = 0 :=
  (by decide +kernel : ∀ t : Fin grid3.N, cond3_0 (grid3.coords t) ↔ t.val % 16 = 0)

/-- "This is the last key step of its query tile" as the body tests it. -/
abbrev cond3_1 (i : grid3.Coords) : Prop := k3_cond2 i = 1#1
/-- It holds exactly at the points 15 mod 16. -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows rest -/
/-- Input 0 never rests. -/
theorem liveAt3_0 : ∀ t : Fin cfg3.N, cfg3.idle 0 (grid3.coords t) = false := by decide +kernel
/-- Input 1 never rests. -/
theorem liveAt3_1 : ∀ t : Fin cfg3.N, cfg3.idle 1 (grid3.coords t) = false := by decide +kernel
/-- Input 2 never rests. -/
theorem liveAt3_2 : ∀ t : Fin cfg3.N, cfg3.idle 2 (grid3.coords t) = false := by decide +kernel
/-- Input 3 never rests. -/
theorem liveAt3_3 : ∀ t : Fin cfg3.N, cfg3.idle 3 (grid3.coords t) = false := by decide +kernel
/-- At a first key step the output window rests: nothing is stored into it, -/
theorem idleAt3_4_A : ∀ t : Fin cfg3.N, cond3_0 (grid3.coords t) → ¬cond3_1 (grid3.coords t) → cfg3.idle 4 (grid3.coords t) = true := by decide +kernel
/-- and its block is not written back there. -/
theorem noFlush3_4_A : ∀ t : Fin cfg3.N, cond3_0 (grid3.coords t) → ¬cond3_1 (grid3.coords t) → (cfg3.win 4).flush t = false := by decide +kernel
/-- The same at a middle step: the window rests, -/
theorem idleAt3_4_B : ∀ t : Fin cfg3.N, ¬cond3_0 (grid3.coords t) → ¬cond3_1 (grid3.coords t) → cfg3.idle 4 (grid3.coords t) = true := by decide +kernel
/-- and is not written back. -/
theorem noFlush3_4_B : ∀ t : Fin cfg3.N, ¬cond3_0 (grid3.coords t) → ¬cond3_1 (grid3.coords t) → (cfg3.win 4).flush t = false := by decide +kernel
/-- At a last key step the output window is live: the tile's block is stored there. -/
theorem liveAt3_4_C : ∀ t : Fin cfg3.N, ¬cond3_0 (grid3.coords t) → cond3_1 (grid3.coords t) → cfg3.idle 4 (grid3.coords t) = false := by decide +kernel

/-! ## The buffers the body is called with -/

/-- One staging buffer of the output window, as a view: the block stored there is stated through it (any whole view of
    the shape reads the same pieces the same way). -/
abbrev VO3_4 : View sig .tc .vmem S8x512x64 .f32 := (Memref.whole cc3_stg4_0 : Memref sig .tc .vmem S8x512x64 .f32).view
/-- Window 0's current staging buffer at point `t`, and that it is a whole buffer. -/
abbrev ms3_0 (t : Fin cfg3.N) : Memref sig .tc .vmem S8x512x64 .bf16 := win3_0.stage (cfg3.slots t 0)
abbrev hs3_0 (t : Fin cfg3.N) : (ms3_0 t).IsWhole := hstage3_0 ((cfg3.slots t 0).cast nbuf3_0)
/-- Window 1's current staging buffer at point `t`, and that it is a whole buffer. -/
abbrev ms3_1 (t : Fin cfg3.N) : Memref sig .tc .vmem S8x4096x64 .bf16 := win3_1.stage (cfg3.slots t 1)
abbrev hs3_1 (t : Fin cfg3.N) : (ms3_1 t).IsWhole := hstage3_1 ((cfg3.slots t 1).cast nbuf3_1)
/-- Window 2's current staging buffer at point `t`, and that it is a whole buffer. -/
abbrev ms3_2 (t : Fin cfg3.N) : Memref sig .tc .vmem S512x256 .f32 := win3_2.stage (cfg3.slots t 2)
abbrev hs3_2 (t : Fin cfg3.N) : (ms3_2 t).IsWhole := hstage3_2 ((cfg3.slots t 2).cast nbuf3_2)
/-- Window 3's current staging buffer at point `t`, and that it is a whole buffer. -/
abbrev ms3_3 (t : Fin cfg3.N) : Memref sig .tc .vmem S1x1x64 .f32 := win3_3.stage (cfg3.slots t 3)
abbrev hs3_3 (t : Fin cfg3.N) : (ms3_3 t).IsWhole := hstage3_3 ((cfg3.slots t 3).cast nbuf3_3)
/-- Window 4's current staging buffer at point `t`, and that it is a whole buffer. -/
abbrev ms3_4 (t : Fin cfg3.N) : Memref sig .tc .vmem S8x512x64 .f32 := win3_4.stage (cfg3.slots t 4)
abbrev hs3_4 (t : Fin cfg3.N) : (ms3_4 t).IsWhole := hstage3_4 ((cfg3.slots t 4).cast nbuf3_4)
/-- The running row maximum: a buffer of the kernel's own, passed whole beside the windows and carried from key step to key step; -/
abbrev scM3_0 : Memref sig .tc .vmem S8x512x1 .f32 := Memref.whole cc3_scratch0
/-- and the view through which its contents are stated. -/
abbrev VS3_0 : View sig .tc .vmem S8x512x1 .f32 := scM3_0.view
/-- The running denominator: a buffer of the kernel's own, passed whole beside the windows and carried from key step to key step; -/
abbrev scM3_1 : Memref sig .tc .vmem S8x512x1 .f32 := Memref.whole cc3_scratch1
/-- and the view through which its contents are stated. -/
abbrev VS3_1 : View sig .tc .vmem S8x512x1 .f32 := scM3_1.view
/-- The accumulator: a buffer of the kernel's own, passed whole beside the windows and carried from key step to key step; -/
abbrev scM3_2 : Memref sig .tc .vmem S8x512x64 .f32 := Memref.whole cc3_scratch2
/-- and the view through which its contents are stated. -/
abbrev VS3_2 : View sig .tc .vmem S8x512x64 .f32 := scM3_2.view

/-! ## The region invariant, the carried buffers singled out -/

/-- What the launch hands the region beside the windows: every scoped buffer that is no staging buffer of this call, at
    some contents, and the generator register. The three carried buffers are restated as whole memrefs owned at some
    contents — the form in which the body takes them and gives them back; the others are never touched here. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ d, owns (c : Thread nD τ) scM3_0 fullShare d) ∗ (∃ d, owns (c : Thread nD τ) scM3_1 fullShare d) ∗ (∃ d, owns (c : Thread nD τ) scM3_2 fullShare d)) ∗ (∃ r, prngReg c r)) := by
  unfold Pipeline.ΦA; rw [scopedRest3_eq]; simp only [scM3_0, scM3_1, scM3_2, owns_whole]; try rfl

/-! ## What one run of the body stores -/

/-- The stores one run of the body leaves behind, buffer by buffer, each list latest store first: into the output
    window's staging buffer, into the running maximum, the running denominator and the accumulator. -/
structure Stores3 (F : FTy → Type) where
  out : List (View.Piece (Elt F) S8x512x64 .f32)
  m : List (View.Piece (Elt F) S8x512x1 .f32)
  l : List (View.Piece (Elt F) S8x512x1 .f32)
  acc : List (View.Piece (Elt F) S8x512x64 .f32)

end Cert.KernelIdeal.Hand

end
-- ==== Proof.IRun3A.lean ====
/-
  Attention region 3, the body at the FIRST key step of a query tile. The three carried buffers arrive at anything:
  each is reset (maximum to −∞, denominator and accumulator to 0) and then updated from this step's scores, so each
  ends with two whole stores, the update over the reset. The output window rests: its buffer goes back as it came.
-/
import proofs.«144140_j35399120453979_2_alg».proof.Proof.IRuns3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a first key step, on whole buffers: the four inputs at `x0 … x3`, the output's buffer at any `xo` (given
    back untouched), the carried buffers at anything. It runs to a continuation that holds the inputs and the output's
    buffer as they were and each carried buffer with the run's stores written — the lists of stores are the witness,
    found as the run hands each buffer back. -/
noncomputable def kernelRun3_A (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) :
    { L : Stores3 F //
      ∀ (xo : Vec F S8x512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨⟨[], ?_, ?_, ?_⟩, fun xo E K => ?run⟩
  case run =>
    dsimp only
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.IRun3B.lean ====
/-
  Attention region 3, the body at a MIDDLE key step of a query tile. The three carried buffers arrive at what the step
  before left; each is read and then stored whole once (denominator, accumulator, maximum, in that order). The output
  window rests: its buffer goes back as it came.
-/
import proofs.«144140_j35399120453979_2_alg».proof.Proof.IRun3A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a middle key step, on whole buffers: the four inputs at `x0 … x3`, the output's buffer at any `xo` (given
    back untouched), the carried buffers at `xs0`, `xs1`, `xs2` — what the step before left. It runs to a continuation
    that holds the inputs and the output's buffer as they were and each carried buffer with the run's stores written —
    the lists of stores are the witness, found as the run hands each buffer back. -/
noncomputable def kernelRun3_B (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    { L : Stores3 F //
      ∀ (xo : Vec F S8x512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨⟨[], ?_, ?_, ?_⟩, fun xo E K => ?run⟩
  case run =>
    dsimp only
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.IRun3C.lean ====
/-
  Attention region 3, the body at the LAST key step of a query tile. As at a middle step the three carried buffers
  arrive at what the step before left and are each stored whole once; then the accumulator is divided by the denominator and the bias added: that block is stored
  whole into the output window's staging buffer.
-/
import proofs.«144140_j35399120453979_2_alg».proof.Proof.IRun3B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a last key step, on whole buffers: the four inputs at `x0 … x3`, the output's buffer at anything, the
    carried buffers at `xs0`, `xs1`, `xs2` — what the step before left. It runs to a continuation that holds the inputs
    as they were and the output's buffer and each carried buffer with the run's stores written — the lists of stores
    are the witness, found as the run hands each buffer back. -/
noncomputable def kernelRun3_C (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    { L : Stores3 F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.out) ∗ (∃ f, arg7.view.loc (c : Thread nD τ) ↦[arg7.view.set]{fullShare} arg7.view.writes (Elt F) f L.m) ∗ (∃ f, arg8.view.loc (c : Thread nD τ) ↦[arg8.view.set]{fullShare} arg8.view.writes (Elt F) f L.l) ∗ (∃ f, arg9.view.loc (c : Thread nD τ) ↦[arg9.view.set]{fullShare} arg9.view.writes (Elt F) f L.acc)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨⟨?_, ?_, ?_, ?_⟩, fun E K => ?run⟩
  case run =>
    dsimp only
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.IRegion3.lean ====
/-
  Attention region 3: the proof data of the pipeline and its body obligation. After the body at point t the staging
  buffer of an input holds the point's block of its array; the three carried buffers hold what the run of the point's
  kind (first, middle or last key step of its query tile) stored, computed from the point's blocks and — except at a
  first key step — from what the point before left in them; the output window's buffer holds the tile's block after
  a last key step and rests elsewhere. `outsAt3` is that recursion over the points; the region invariant carries the
  three buffers from point to point.
-/
import proofs.«144140_j35399120453979_2_alg».proof.Proof.IRun3C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading a list of stores back -/

/-- What a buffer of the output window's shape holds once stores that cover it are written: the stores read back over
    unspecified contents (which covering stores hide). -/
def left3_out (L : List (View.Piece (Elt F) S8x512x64 .f32)) : Vec F S8x512x64 .f32 :=
  VO3_4.read (Elt F) (VO3_4.writes (Elt F) VO3_4.junk L)
/-- The same for the running maximum. -/
def left3_m (L : List (View.Piece (Elt F) S8x512x1 .f32)) : Vec F S8x512x1 .f32 :=
  VS3_0.read (Elt F) (VS3_0.writes (Elt F) VS3_0.junk L)
/-- The same for the running denominator. -/
def left3_l (L : List (View.Piece (Elt F) S8x512x1 .f32)) : Vec F S8x512x1 .f32 :=
  VS3_1.read (Elt F) (VS3_1.writes (Elt F) VS3_1.junk L)
/-- The same for the accumulator. -/
def left3_acc (L : List (View.Piece (Elt F) S8x512x64 .f32)) : Vec F S8x512x64 .f32 :=
  VS3_2.read (Elt F) (VS3_2.writes (Elt F) VS3_2.junk L)

/-! ## Each kind of point: what it leaves, and that its stores cover -/

/-- What the body leaves at a first key step: the output block (none is stored: a placeholder nothing consults), the maximum, the denominator, the accumulator. -/
def step3_A (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) : Vec F S8x512x64 .f32 × Vec F S8x512x1 .f32 × Vec F S8x512x1 .f32 × Vec F S8x512x64 .f32 :=
  (left3_out (kernelRun3_A c i arg2 harg2 arg3 harg3 arg4 harg4 arg5 harg5 arg6 harg6 arg7 harg7 arg8 harg8 arg9 harg9 hc0 hc1 x0 x1 x2 x3).1.out, left3_m (kernelRun3_A c i arg2 harg2 arg3 harg3 arg4 harg4 arg5 harg5 arg6 harg6 arg7 harg7 arg8 harg8 arg9 harg9 hc0 hc1 x0 x1 x2 x3).1.m, left3_l (kernelRun3_A c i arg2 harg2 arg3 harg3 arg4 harg4 arg5 harg5 arg6 harg6 arg7 harg7 arg8 harg8 arg9 harg9 hc0 hc1 x0 x1 x2 x3).1.l, left3_acc (kernelRun3_A c i arg2 harg2 arg3 harg3 arg4 harg4 arg5 harg5 arg6 harg6 arg7 harg7 arg8 harg8 arg9 harg9 hc0 hc1 x0 x1 x2 x3).1.acc)

/-- At a first key step the stores into the maximum cover it (two whole stores: the tiling is evaluated). -/
theorem cover3_A_m (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) (y : S8x512x1.Idx) :
    ∃ pc ∈ (kernelRun3_A c i arg2 harg2 arg3 harg3 arg4 harg4 arg5 harg5 arg6 harg6 arg7 harg7 arg8 harg8 arg9 harg9 hc0 hc1 x0 x1 x2 x3).1.m, y ∈ pc.1.set :=
  View.cover_of_tiledL (kernelRun3_A c i arg2 harg2 arg3 harg3 arg4 harg4 arg5 harg5 arg6 harg6 arg7 harg7 arg8 harg8 arg9 harg9 hc0 hc1 x0 x1 x2 x3).1.m S8x512x1.size (by sl_kernel_rfl) y

/-- At a first key step the stores into the denominator cover it (two whole stores: the tiling is evaluated). -/
theorem cover3_A_l (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) (y : S8x512x1.Idx) :
    ∃ pc ∈ (kernelRun3_A c i arg2 harg2 arg3 harg3 arg4 harg4 arg5 harg5 arg6 harg6 arg7 harg7 arg8 harg8 arg9 harg9 hc0 hc1 x0 x1 x2 x3).1.l, y ∈ pc.1.set :=
  View.cover_of_tiledL (kernelRun3_A c i arg2 harg2 arg3 harg3 arg4 harg4 arg5 harg5 arg6 harg6 arg7 harg7 arg8 harg8 arg9 harg9 hc0 hc1 x0 x1 x2 x3).1.l S8x512x1.size (by sl_kernel_rfl) y

/-- At a first key step the stores into the accumulator cover it (two whole stores: the tiling is evaluated). -/
theorem cover3_A_acc (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) (y : S8x512x64.Idx) :
    ∃ pc ∈ (kernelRun3_A c i arg2 harg2 arg3 harg3 arg4 harg4 arg5 harg5 arg6 harg6 arg7 harg7 arg8 harg8 arg9 harg9 hc0 hc1 x0 x1 x2 x3).1.acc, y ∈ pc.1.set :=
  View.cover_of_tiledL (kernelRun3_A c i arg2 harg2 arg3 harg3 arg4 harg4 arg5 harg5 arg6 harg6 arg7 harg7 arg8 harg8 arg9 harg9 hc0 hc1 x0 x1 x2 x3).1.acc S8x512x64.size (by sl_kernel_rfl) y

/-- What the body leaves at a middle key step: the output block (none is stored: a placeholder nothing consults), the maximum, the denominator, the accumulator. -/
def step3_B (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) : Vec F S8x512x64 .f32 × Vec F S8x512x1 .f32 × Vec F S8x512x1 .f32 × Vec F S8x512x64 .f32 :=
  (left3_out (kernelRun3_B c i arg2 harg2 arg3 harg3 arg4 harg4 arg5 harg5 arg6 harg6 arg7 harg7 arg8 harg8 arg9 harg9 hc0 hc1 x0 x1 x2 x3 xs0 xs1 xs2).1.out, left3_m (kernelRun3_B c i arg2 harg2 arg3 harg3 arg4 harg4 arg5 harg5 arg6 harg6 arg7 harg7 arg8 harg8 arg9 harg9 hc0 hc1 x0 x1 x2 x3 xs0 xs1 xs2).1.m, left3_l (kernelRun3_B c i arg2 harg2 arg3 harg3 arg4 harg4 arg5 harg5 arg6 harg6 arg7 harg7 arg8 harg8 arg9 harg9 hc0 hc1 x0 x1 x2 x3 xs0 xs1 xs2).1.l, left3_acc (kernelRun3_B c i arg2 harg2 arg3 harg3 arg4 harg4 arg5 harg5 arg6 harg6 arg7 harg7 arg8 harg8 arg9 harg9 hc0 hc1 x0 x1 x2 x3 xs0 xs1 xs2).1.acc)

/-- At a middle key step the stores into the maximum cover it (one whole store: the tiling is evaluated). -/
theorem cover3_B_m (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x1.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).1.m, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).1.m S8x512x1.size (by sl_kernel_rfl) y

/-- At a middle key step the stores into the denominator cover it (one whole store: the tiling is evaluated). -/
theorem cover3_B_l (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x1.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).1.l, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).1.l S8x512x1.size (by sl_kernel_rfl) y

/-- At a middle key step the stores into the accumulator cover it (one whole store: the tiling is evaluated). -/
theorem cover3_B_acc (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x64.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).1.acc, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).1.acc S8x512x64.size (by sl_kernel_rfl) y

/-- What the body leaves at a last key step: the output block, the maximum, the denominator, the accumulator. -/
def step3_C (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) : Vec F S8x512x64 .f32 × Vec F S8x512x1 .f32 × Vec F S8x512x1 .f32 × Vec F S8x512x64 .f32 :=
  (left3_out (kernelRun3_C c i arg2 harg2 arg3 harg3 arg4 harg4 arg5 harg5 arg6 harg6 arg7 harg7 arg8 harg8 arg9 harg9 hc0 hc1 x0 x1 x2 x3 xs0 xs1 xs2).1.out, left3_m (kernelRun3_C c i arg2 harg2 arg3 harg3 arg4 harg4 arg5 harg5 arg6 harg6 arg7 harg7 arg8 harg8 arg9 harg9 hc0 hc1 x0 x1 x2 x3 xs0 xs1 xs2).1.m, left3_l (kernelRun3_C c i arg2 harg2 arg3 harg3 arg4 harg4 arg5 harg5 arg6 harg6 arg7 harg7 arg8 harg8 arg9 harg9 hc0 hc1 x0 x1 x2 x3 xs0 xs1 xs2).1.l, left3_acc (kernelRun3_C c i arg2 harg2 arg3 harg3 arg4 harg4 arg5 harg5 arg6 harg6 arg7 harg7 arg8 harg8 arg9 harg9 hc0 hc1 x0 x1 x2 x3 xs0 xs1 xs2).1.acc)

/-- At a last key step the stores into the maximum cover it (one whole store: the tiling is evaluated). -/
theorem cover3_C_m (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x1.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).1.m, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).1.m S8x512x1.size (by sl_kernel_rfl) y

/-- At a last key step the stores into the denominator cover it (one whole store: the tiling is evaluated). -/
theorem cover3_C_l (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x1.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).1.l, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).1.l S8x512x1.size (by sl_kernel_rfl) y

/-- At a last key step the stores into the accumulator cover it (one whole store: the tiling is evaluated). -/
theorem cover3_C_acc (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x64.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).1.acc, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).1.acc S8x512x64.size (by sl_kernel_rfl) y

/-- At a last key step the one whole store into the output window's buffer covers it. -/
theorem cover3_C_out (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) (y : S8x512x64.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).1.out, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).1.out S8x512x64.size (by sl_kernel_rfl) y

/-! ## The recursion over the points -/

/-- Nothing: what stands for "the point before" at the grid's first point, where no case reads it. -/
def none3 : Vec F S8x512x64 .f32 × Vec F S8x512x1 .f32 × Vec F S8x512x1 .f32 × Vec F S8x512x64 .f32 := (left3_out [], left3_m [], left3_l [], left3_acc [])

/-- One point: the run of the point's kind — by the key coordinate t % 16 — at the point's buffers and input blocks,
    over what the point before left in the carried buffers (`prev`; a first key step ignores it). -/
def stepAt3 (c : Dev nD) (t : Fin cfg3.N) (prev : Vec F S8x512x64 .f32 × Vec F S8x512x1 .f32 × Vec F S8x512x1 .f32 × Vec F S8x512x64 .f32) : Vec F S8x512x64 .f32 × Vec F S8x512x1 .f32 × Vec F S8x512x1 .f32 × Vec F S8x512x64 .f32 :=
  if h0 : t.val % 16 = 0 then
    step3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => by have := (hcond3_1 t).mp h; omega) (iblk3 V c 0 t) (iblk3 V c 1 t) (iblk3 V c 2 t) (iblk3 V c 3 t)
  else if h1 : t.val % 16 = 15 then
    step3_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) prev.2.1 prev.2.2.1 prev.2.2.2
  else
    step3_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) prev.2.1 prev.2.2.1 prev.2.2.2

/-- THE ACCUMULATION: what the output window's buffer and the three carried buffers hold after the body at position
    `n` (output block, maximum, denominator, accumulator). -/
def outsAt3 (c : Dev nD) : (n : ℕ) → n < cfg3.N → Vec F S8x512x64 .f32 × Vec F S8x512x1 .f32 × Vec F S8x512x1 .f32 × Vec F S8x512x64 .f32
  | 0, hn => stepAt3 V c ⟨0, hn⟩ none3
  | n + 1, hn => stepAt3 V c ⟨n + 1, hn⟩ (outsAt3 c n (Nat.lt_of_succ_lt hn))

/-- At a first key step: the reset-and-update run at the point's blocks. -/
theorem outsAt3_A (c : Dev nD) (t : Fin cfg3.N) (h0 : t.val % 16 = 0) :
    outsAt3 V c t.val t.isLt = step3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => by have := (hcond3_1 t).mp h; omega) (iblk3 V c 0 t) (iblk3 V c 1 t) (iblk3 V c 2 t) (iblk3 V c 3 t) := by
  obtain ⟨n, hn⟩ := t
  cases n with
  | zero => show stepAt3 V c ⟨0, hn⟩ none3 = _; unfold stepAt3; exact dif_pos h0
  | succ n => show stepAt3 V c ⟨n + 1, hn⟩ (outsAt3 V c n _) = _; unfold stepAt3; exact dif_pos h0

/-- At a middle key step: the update run over what the point before left. -/
theorem outsAt3_B (c : Dev nD) (t : Fin cfg3.N) (h0 : ¬t.val % 16 = 0) (h1 : ¬t.val % 16 = 15) :
    outsAt3 V c t.val t.isLt = step3_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd (Nat.zero_mod _) h0
  | succ n => show stepAt3 V c ⟨n + 1, hn⟩ (outsAt3 V c n _) = _; unfold stepAt3; exact (dif_neg h0).trans (dif_neg h1)

/-- At a last key step: the update-and-store run over what the point before left. -/
theorem outsAt3_C (c : Dev nD) (t : Fin cfg3.N) (h0 : ¬t.val % 16 = 0) (h1 : t.val % 16 = 15) :
    outsAt3 V c t.val t.isLt = step3_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd (Nat.zero_mod _) h0
  | succ n => show stepAt3 V c ⟨n + 1, hn⟩ (outsAt3 V c n _) = _; unfold stepAt3; exact (dif_neg h0).trans (dif_pos h1)

/-! ## The region invariant -/

/-- The scoped buffers this region never touches (other calls' staging buffers and scratch), each at some contents, and
    the generator register at some state. -/
def others3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ r, prngReg c r))

/-- What the launch hands the region, taken apart: the three carried buffers at some contents, and the rest. -/
theorem PhiA3_open (c : Dev nD) :
    (Pipeline.ΦA spec3 c : sProp 𝕄) ⊢ iprop((∃ d, owns (c : Thread nD τ) scM3_0 fullShare d) ∗ (∃ d, owns (c : Thread nD τ) scM3_1 fullShare d) ∗ (∃ d, owns (c : Thread nD τ) scM3_2 fullShare d) ∗ others3 c) := by
  rw [PhiA3_eq]; unfold others3
  iintro ⟨⟨HR0, HR1, HR2, HR3, HR4, HR5, HR6, HR7, HR8, HR9, HR10, HR11, HR12, HR13, HR14, HR15, HR16, HR17, HR18, HR19, HR20, HS0, HS1, HS2⟩, Hg⟩
  isplitl [HS0]; · iexact HS0
  isplitl [HS1]; · iexact HS1
  isplitl [HS2]; · iexact HS2
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HR18]; · iexact HR18
  isplitl [HR19]; · iexact HR19
  isplitl [HR20]; · iexact HR20
  iexact Hg

/-- And put together again. -/
theorem PhiA3_close (c : Dev nD) :
    iprop((∃ d, owns (c : Thread nD τ) scM3_0 fullShare d) ∗ (∃ d, owns (c : Thread nD τ) scM3_1 fullShare d) ∗ (∃ d, owns (c : Thread nD τ) scM3_2 fullShare d) ∗ others3 c) ⊢ (Pipeline.ΦA spec3 c : sProp 𝕄) := by
  rw [PhiA3_eq]; unfold others3
  iintro ⟨HS0, HS1, HS2, HR0, HR1, HR2, HR3, HR4, HR5, HR6, HR7, HR8, HR9, HR10, HR11, HR12, HR13, HR14, HR15, HR16, HR17, HR18, HR19, HR20, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  isplitl [HR17]; · iexact HR17
  isplitl [HR18]; · iexact HR18
  isplitl [HR19]; · iexact HR19
  isplitl [HR20]; · iexact HR20
  isplitl [HS0]; · iexact HS0
  isplitl [HS1]; · iexact HS1
  iexact HS2

/-- The invariant between two points: the carried buffers at given contents `s` (its maximum, denominator and
    accumulator components), and the rest. -/
def carried3 (c : Dev nD) (s : Vec F S8x512x64 .f32 × Vec F S8x512x1 .f32 × Vec F S8x512x1 .f32 × Vec F S8x512x64 .f32) : sProp 𝕄 :=
  iprop(owns (c : Thread nD τ) scM3_0 fullShare s.2.1 ∗ owns (c : Thread nD τ) scM3_1 fullShare s.2.2.1 ∗ owns (c : Thread nD τ) scM3_2 fullShare s.2.2.2 ∗ others3 c)

/-- The region invariant before position `n`: what the launch hands over before the first point; afterwards the
    carried buffers at what the point before left. -/
def PhiS3 (c : Dev nD) : (n : ℕ) → n ≤ cfg3.N → sProp 𝕄
  | 0, _ => Pipeline.ΦA spec3 c
  | n + 1, hn => carried3 c (outsAt3 V c n hn)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = carried3 c (outsAt3 V c n hn) := rfl

theorem PhiS3_pos (c : Dev nD) (n : ℕ) (h : n ≤ cfg3.N) (hz : n ≠ 0) :
    PhiS3 V c n h = carried3 c (outsAt3 V c (n - 1) (by omega)) := by
  cases n with
  | zero => exact absurd rfl hz
  | succ n => rfl

/-- Forgetting what the carried buffers hold gives back what the launch handed over. -/
theorem carried3_forget (c : Dev nD) (s : Vec F S8x512x64 .f32 × Vec F S8x512x1 .f32 × Vec F S8x512x1 .f32 × Vec F S8x512x64 .f32) : carried3 (F := F) c s ⊢ Pipeline.ΦA spec3 c := by
  refine BIBase.Entails.trans ?_ (PhiA3_close c)
  unfold carried3
  iintro ⟨HS0, HS1, HS2, Hr⟩
  isplitl [HS0]; · iexists _; iexact HS0
  isplitl [HS1]; · iexists _; iexact HS1
  isplitl [HS2]; · iexists _; iexact HS2
  iexact Hr

/-! ## The proof data -/

/-- The proof data of the pipeline on core `c`, for any shares `q` of the input arrays: the arrays as the region finds
    them; after the body at point `t` each input's buffer at its block, the output's at `outsAt3`'s first component;
    the invariant `PhiS3`; nothing owed. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q := q
  owed _ := 0

theorem A_eq3 (q : Fin cfg3.W → PosShare TreeShare) (c : Dev nD) (w : Fin cfg3.W) : (dat3 V q c).A w = V c (Pipeline.arrRef spec3 w) := by
  dsimp only [dat3]

theorem PhiS3_castSucc (q : Fin cfg3.W → PosShare TreeShare) (c : Dev nD) (t : Fin cfg3.N) :
    (dat3 V q c).Φ t.castSucc = PhiS3 V c t.val (Nat.le_of_lt t.isLt) := by
  dsimp only [dat3]; simp only [Fin.coe_castSucc]

theorem after3_0 (q : Fin cfg3.W → PosShare TreeShare) (c : Dev nD) (t : Fin cfg3.N) : (dat3 V q c).after 0 t = iblk3 V c 0 t := by dsimp only [dat3]
theorem after3_1 (q : Fin cfg3.W → PosShare TreeShare) (c : Dev nD) (t : Fin cfg3.N) : (dat3 V q c).after 1 t = iblk3 V c 1 t := by dsimp only [dat3]
theorem after3_2 (q : Fin cfg3.W → PosShare TreeShare) (c : Dev nD) (t : Fin cfg3.N) : (dat3 V q c).after 2 t = iblk3 V c 2 t := by dsimp only [dat3]
theorem after3_3 (q : Fin cfg3.W → PosShare TreeShare) (c : Dev nD) (t : Fin cfg3.N) : (dat3 V q c).after 3 t = iblk3 V c 3 t := by dsimp only [dat3]
theorem after3_4 (q : Fin cfg3.W → PosShare TreeShare) (c : Dev nD) (t : Fin cfg3.N) : (dat3 V q c).after 4 t = (outsAt3 V c t.val t.isLt).1 := by dsimp only [dat3]

theorem before3_0 (q : Fin cfg3.W → PosShare TreeShare) (c : Dev nD) (t : Fin cfg3.N) (d) : (dat3 V q c).before 0 t d = iblk3 V c 0 t :=
  before3_0_of V (dat3 V q c) (A_eq3 V q c 0) (after3_0 V q c) t d
theorem before3_1 (q : Fin cfg3.W → PosShare TreeShare) (c : Dev nD) (t : Fin cfg3.N) (d) : (dat3 V q c).before 1 t d = iblk3 V c 1 t :=
  before3_1_of V (dat3 V q c) (A_eq3 V q c 1) (after3_1 V q c) t d
theorem before3_2 (q : Fin cfg3.W → PosShare TreeShare) (c : Dev nD) (t : Fin cfg3.N) (d) : (dat3 V q c).before 2 t d = iblk3 V c 2 t :=
  before3_2_of V (dat3 V q c) (A_eq3 V q c 2) (after3_2 V q c) t d
theorem before3_3 (q : Fin cfg3.W → PosShare TreeShare) (c : Dev nD) (t : Fin cfg3.N) (d) : (dat3 V q c).before 3 t d = iblk3 V c 3 t :=
  before3_3_of V (dat3 V q c) (A_eq3 V q c 3) (after3_3 V q c) t d

/-! ## The body obligation -/

/-- What the body is called with at point `t`: the invariant, the core's dues, each window's current buffer. -/
def bodyPre3 (q : Fin cfg3.W → PosShare TreeShare) (c : Dev nD) (t : Fin cfg3.N) : sProp 𝕄 :=
  iprop((dat3 V q c).Φ t.castSucc ∗ (dat3 V q c).owesAt () t.castSucc
    ∗ (∃ d, owns (c : Thread nD τ) (ms3_0 t) fullShare ((dat3 V q c).before 0 t d))
    ∗ (∃ d, owns (c : Thread nD τ) (ms3_1 t) fullShare ((dat3 V q c).before 1 t d))
    ∗ (∃ d, owns (c : Thread nD τ) (ms3_2 t) fullShare ((dat3 V q c).before 2 t d))
    ∗ (∃ d, owns (c : Thread nD τ) (ms3_3 t) fullShare ((dat3 V q c).before 3 t d))
    ∗ (∃ d, owns (c : Thread nD τ) (ms3_4 t) fullShare ((dat3 V q c).before 4 t d)))

/-- What it gives back. -/
def bodyPost3 (q : Fin cfg3.W → PosShare TreeShare) (c : Dev nD) (t : Fin cfg3.N) : sProp 𝕄 :=
  iprop((dat3 V q c).Φ t.succ ∗ (dat3 V q c).owesAt () t.succ
    ∗ (dat3 V q c).leavesExact 0 t
    ∗ (dat3 V q c).leavesExact 1 t
    ∗ (dat3 V q c).leavesExact 2 t
    ∗ (dat3 V q c).leavesExact 3 t
    ∗ (dat3 V q c).leavesExact 4 t)

set_option maxHeartbeats 1600000 in
/-- The body at a first key step. At the grid's first point the carried buffers come from the launch's invariant, at
    anything; at a later tile's first step from the point before — either way the run asks nothing of their contents. -/
theorem sound_body3_A (q : Fin cfg3.W → PosShare TreeShare) (c : Dev nD) (t : Fin cfg3.N) (h0 : t.val % 16 = 0) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3]
  rw [show (dat3 V q c).owesAt () t.succ = (dat3 V q c).owesAt () t.castSucc from rfl]
  rw [show (dat3 V q c).Φ t.succ = PhiS3 V c (t.val + 1) t.isLt from rfl, PhiS3_succ]
  rw [show (dat3 V q c).leavesExact 0 t = owns (c : Thread nD τ) (ms3_0 t) fullShare ((dat3 V q c).after 0 t) from by
    unfold Dat.leavesExact; rw [liveAt3_0 t], after3_0]
  rw [show (dat3 V q c).leavesExact 1 t = owns (c : Thread nD τ) (ms3_1 t) fullShare ((dat3 V q c).after 1 t) from by
    unfold Dat.leavesExact; rw [liveAt3_1 t], after3_1]
  rw [show (dat3 V q c).leavesExact 2 t = owns (c : Thread nD τ) (ms3_2 t) fullShare ((dat3 V q c).after 2 t) from by
    unfold Dat.leavesExact; rw [liveAt3_2 t], after3_2]
  rw [show (dat3 V q c).leavesExact 3 t = owns (c : Thread nD τ) (ms3_3 t) fullShare ((dat3 V q c).after 3 t) from by
    unfold Dat.leavesExact; rw [liveAt3_3 t], after3_3]
  rw [Dat.leavesExact_idle (dat3 V q c) 4 t (idleAt3_4_A t ((hcond3_0 t).mpr h0) (fun h => by have := (hcond3_1 t).mp h; omega)) (noFlush3_4_A t ((hcond3_0 t).mpr h0) (fun h => by have := (hcond3_1 t).mp h; omega))]
  rw [outsAt3_A V c t h0]
  unfold carried3 step3_A; dsimp only
  have hstart : (dat3 V q c).Φ t.castSucc ⊢ iprop((∃ d, owns (c : Thread nD τ) scM3_0 fullShare d) ∗ (∃ d, owns (c : Thread nD τ) scM3_1 fullShare d) ∗ (∃ d, owns (c : Thread nD τ) scM3_2 fullShare d) ∗ others3 c) := by
    rw [PhiS3_castSucc V q c t]
    by_cases hz : t.val = 0
    · rw [PhiS3_zero V c _ _ hz]; exact PhiA3_open c
    · rw [PhiS3_pos V c _ _ hz]; unfold carried3
      iintro ⟨HS0, HS1, HS2, Hr⟩
      isplitl [HS0]; · iexists _; iexact HS0
      isplitl [HS1]; · iexists _; iexact HS1
      isplitl [HS2]; · iexists _; iexact HS2
      iexact Hr
  iintro ⟨HΦ, Ho, ⟨%d0, H0⟩, ⟨%d1, H1⟩, ⟨%d2, H2⟩, ⟨%d3, H3⟩, ⟨%d4, H4⟩⟩
  ihave HΦ' := hstart $$ HΦ
  icases HΦ' with ⟨HS0, HS1, HS2, Hr⟩
  iapply ((kernelRun3_A c (grid3.coords t) _ _ _ _ _ _ _ _ _ _ _ _ _ _ _ _ ((hcond3_0 t).mpr h0) (fun h => by have := (hcond3_1 t).mp h; omega) (iblk3 V c 0 t) (iblk3 V c 1 t) (iblk3 V c 2 t) (iblk3 V c 3 t)).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%e0, HS0⟩, ⟨%e1, HS1⟩, ⟨%e2, HS2⟩⟩
  isplitl [HS0 HS1 HS2 Hr]
  · unfold left3_m left3_l left3_acc
    isplitl [HS0]
    · unfold owns; iexists _; isplitr
      swap; · iexact HS0
      ipureintro; exact View.read_writes_of_cover _ _ _ _ _ (cover3_A_m c _ _ _ _ _ _ _ _ _ _ _ _ _ _ _ _ _ _ _ _ _ _ _)
    isplitl [HS1]
    · unfold owns; iexists _; isplitr
      swap; · iexact HS1
      ipureintro; exact View.read_writes_of_cover _ _ _ _ _ (cover3_A_l c _ _ _ _ _ _ _ _ _ _ _ _ _ _ _ _ _ _ _ _ _ _ _)
    isplitl [HS2]
    · unfold owns; iexists _; isplitr
      swap; · iexact HS2
      ipureintro; exact View.read_writes_of_cover _ _ _ _ _ (cover3_A_acc c _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a middle key step: the invariant hands the carried buffers over at what the point before left. -/
theorem sound_body3_B (q : Fin cfg3.W → PosShare TreeShare) (c : Dev nD) (t : Fin cfg3.N) (h0 : ¬t.val % 16 = 0) (h1 : ¬t.val % 16 = 15) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3]
  rw [show (dat3 V q c).owesAt () t.succ = (dat3 V q c).owesAt () t.castSucc from rfl]
  rw [show (dat3 V q c).Φ t.succ = PhiS3 V c (t.val + 1) t.isLt from rfl, PhiS3_succ]
  rw [show (dat3 V q c).leavesExact 0 t = owns (c : Thread nD τ) (ms3_0 t) fullShare ((dat3 V q c).after 0 t) from by
    unfold Dat.leavesExact; rw [liveAt3_0 t], after3_0]
  rw [show (dat3 V q c).leavesExact 1 t = owns (c : Thread nD τ) (ms3_1 t) fullShare ((dat3 V q c).after 1 t) from by
    unfold Dat.leavesExact; rw [liveAt3_1 t], after3_1]
  rw [show (dat3 V q c).leavesExact 2 t = owns (c : Thread nD τ) (ms3_2 t) fullShare ((dat3 V q c).after 2 t) from by
    unfold Dat.leavesExact; rw [liveAt3_2 t], after3_2]
  rw [show (dat3 V q c).leavesExact 3 t = owns (c : Thread nD τ) (ms3_3 t) fullShare ((dat3 V q c).after 3 t) from by
    unfold Dat.leavesExact; rw [liveAt3_3 t], after3_3]
  rw [Dat.leavesExact_idle (dat3 V q c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
  rw [outsAt3_B V c t h0 h1]
  have hz : t.val ≠ 0 := fun e => h0 (by rw [e])
  rw [PhiS3_castSucc V q c t, PhiS3_pos V c _ _ hz]
  unfold carried3 step3_B; dsimp only
  iintro ⟨HΦ, Ho, ⟨%d0, H0⟩, ⟨%d1, H1⟩, ⟨%d2, H2⟩, ⟨%d3, H3⟩, ⟨%d4, H4⟩⟩
  icases HΦ with ⟨HS0, HS1, HS2, Hr⟩
  iapply ((kernelRun3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _ _).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%e0, HS0⟩, ⟨%e1, HS1⟩, ⟨%e2, HS2⟩⟩
  isplitl [HS0 HS1 HS2 Hr]
  · unfold left3_m left3_l left3_acc
    isplitl [HS0]
    · unfold owns; iexists _; isplitr
      swap; · iexact HS0
      ipureintro; exact View.read_writes_of_cover _ _ _ _ _ (cover3_B_m c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (cover3_B_l c _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (cover3_B_acc c _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  iexists _; iexact H4

set_option maxHeartbeats 1600000 in
/-- The body at a last key step: as at a middle step, and the output window's buffer comes back at the tile's block. -/
theorem sound_body3_C (q : Fin cfg3.W → PosShare TreeShare) (c : Dev nD) (t : Fin cfg3.N) (h0 : ¬t.val % 16 = 0) (h1 : t.val % 16 = 15) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3]
  rw [show (dat3 V q c).owesAt () t.succ = (dat3 V q c).owesAt () t.castSucc from rfl]
  rw [show (dat3 V q c).Φ t.succ = PhiS3 V c (t.val + 1) t.isLt from rfl, PhiS3_succ]
  rw [show (dat3 V q c).leavesExact 0 t = owns (c : Thread nD τ) (ms3_0 t) fullShare ((dat3 V q c).after 0 t) from by
    unfold Dat.leavesExact; rw [liveAt3_0 t], after3_0]
  rw [show (dat3 V q c).leavesExact 1 t = owns (c : Thread nD τ) (ms3_1 t) fullShare ((dat3 V q c).after 1 t) from by
    unfold Dat.leavesExact; rw [liveAt3_1 t], after3_1]
  rw [show (dat3 V q c).leavesExact 2 t = owns (c : Thread nD τ) (ms3_2 t) fullShare ((dat3 V q c).after 2 t) from by
    unfold Dat.leavesExact; rw [liveAt3_2 t], after3_2]
  rw [show (dat3 V q c).leavesExact 3 t = owns (c : Thread nD τ) (ms3_3 t) fullShare ((dat3 V q c).after 3 t) from by
    unfold Dat.leavesExact; rw [liveAt3_3 t], after3_3]
  rw [show (dat3 V q c).leavesExact 4 t = owns (c : Thread nD τ) (ms3_4 t) fullShare ((dat3 V q c).after 4 t) from by
    unfold Dat.leavesExact; rw [liveAt3_4_C t (fun h => h0 ((hcond3_0 t).mp h)) ((hcond3_1 t).mpr h1)], after3_4]
  rw [outsAt3_C V c t h0 h1]
  have hz : t.val ≠ 0 := fun e => h0 (by rw [e])
  rw [PhiS3_castSucc V q c t, PhiS3_pos V c _ _ hz]
  unfold carried3 step3_C; dsimp only
  iintro ⟨HΦ, Ho, ⟨%d0, H0⟩, ⟨%d1, H1⟩, ⟨%d2, H2⟩, ⟨%d3, H3⟩, ⟨%d4, H4⟩⟩
  icases HΦ with ⟨HS0, HS1, HS2, Hr⟩
  iapply ((kernelRun3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) _ _ _).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%e4, H4⟩, ⟨%e0, HS0⟩, ⟨%e1, HS1⟩, ⟨%e2, HS2⟩⟩
  isplitl [HS0 HS1 HS2 Hr]
  · unfold left3_m left3_l left3_acc
    isplitl [HS0]
    · unfold owns; iexists _; isplitr
      swap; · iexact HS0
      ipureintro; exact View.read_writes_of_cover _ _ _ _ _ (cover3_C_m c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (cover3_C_l c _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (cover3_C_acc c _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  unfold owns left3_out; iexists _; isplitr
  swap; · iexact H4
  ipureintro; exact View.read_writes_of_cover _ _ _ _ _ (cover3_C_out c _ _ _ _ _ _ _ _ _ _ _ _ _ _ _ _ _ _ _ _ _ _ _ _ _ _)

/-- The body at any point: by the key coordinate, one of the three. -/
theorem sound_body3 (q : Fin cfg3.W → PosShare TreeShare) (c : Dev nD) (t : Fin cfg3.N) :
    bodyPre3 V q c t ⊢ wp frame (wpE (defs₀ (F := F)) Variants.none c none) Set.univ (bodyAt3 t) (fun _ => bodyPost3 V q c t) := by
  by_cases h0 : t.val % 16 = 0
  · exact sound_body3_A V q c t h0
  · by_cases h1 : t.val % 16 = 15
    · exact sound_body3_C V q c t h0 h1
    · exact sound_body3_B V q c t h0 h1

/-- The library's body obligation, at every point. -/
theorem body_obligation3 (q : Fin cfg3.W → PosShare TreeShare) (c : Dev nD) : BodyObligation (dat3 (F := F) V q c) (defs₀ (F := F)) Variants.none () Set.univ := fun t => by
  rw [bigSep_W3, bigSep_W3]
  exact sound_body3 V q c t

/-- What the launch hands the region is the invariant before the first point. -/
theorem hin3 (q : Fin cfg3.W → PosShare TreeShare) (c : Dev nD) : Pipeline.ΦA spec3 c ⊢ (dat3 V q c).Φ 0 := by
  rw [show (dat3 V q c).Φ 0 = PhiS3 V c 0 (Nat.zero_le _) from rfl, PhiS3_zero V c 0 _ rfl]
  try exact Idealize.SL.BI.Entails.refl _

/-- After any point the invariant gives it back, the carried buffers' contents forgotten. -/
theorem Phi_out3 (q : Fin cfg3.W → PosShare TreeShare) (c : Dev nD) (t : Fin (cfg3.N + 1)) (ht : t.val ≠ 0) : (dat3 V q c).Φ t ⊢ Pipeline.ΦA spec3 c := by
  rw [show (dat3 V q c).Φ t = PhiS3 V c t.val (Nat.le_of_lt_succ t.isLt) from rfl, PhiS3_pos V c _ _ ht]
  exact carried3_forget c _

/-- In particular after the last. -/
theorem hout3 (q : Fin cfg3.W → PosShare TreeShare) (c : Dev nD) : (dat3 V q c).Φ (Fin.last cfg3.N) ⊢ Pipeline.ΦA spec3 c :=
  Phi_out3 V q c _ (by rw [Fin.val_last]; have : cfg3.N = 128 := N_3; omega)

end Cert.KernelIdeal.Hand

end
-- ==== Proof.IShare1.lean ====
/-
  Region 1 hands ONE array — the projected activations — to two input windows: the query tile and the whole key/value
  array. The buffers behind the region's arrays, each held whole, therefore split into the five windows' arrays with the
  shared buffer's ownership halved between its two readers, and the halves join again when the region ends, both readers
  having left the buffer as they found it. The result window's array, held whole throughout, comes back at the contents
  the region's write-backs leave.
-/
import proofs.«144140_j35399120453979_2_alg».proof.Proof.Gen.KernelIdeal.Launch
import proofs.«144140_j35399120453979_2_alg».proof.Proof.Gen.KernelIdeal.Skeleton
import proofs.«144140_j35399120453979_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the region's windows hold their arrays at: the two readers of the shared buffer a half each, every other
    window its whole array. -/
def q1 : Fin cfg1.W → PosShare TreeShare := fun
  | ⟨0, _⟩ => fullShare.left
  | ⟨1, _⟩ => fullShare.right
  | _ => fullShare

variable {c : Dev nD} (dat : Dat τ (Elt F) Unit ℕ (UR sig nD τ) ℕ cfg1 c)

theorem share1_0 (hq : dat.q = q1) : dat.share 0 = fullShare.left := by unfold Dat.share; rw [hq]; rfl
theorem share1_1 (hq : dat.q = q1) : dat.share 1 = fullShare.right := by unfold Dat.share; rw [hq]; rfl
theorem share1_2 (hq : dat.q = q1) : dat.share 2 = fullShare := by unfold Dat.share; rw [hq]; rfl
theorem share1_3 (hq : dat.q = q1) : dat.share 3 = fullShare := by unfold Dat.share; rw [hq]; rfl
theorem share1_4 : dat.share 4 = fullShare := by unfold Dat.share; rfl

/-- The four distinct buffers behind the five windows' arrays, one by one. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_arg1) ↦{fullShare} V main_arg1)
          ∗ (((c : Thread nD τ).loc main_v1) ↦{fullShare} V main_v1) ∗ (((c : Thread nD τ).loc main_v2) ↦{fullShare} V main_v2)) := by
  unfold Pipeline.arrBufs
  exact bigSep_eq_bigSepL_of_eq [main_v0, main_arg1, main_v1, main_v2] (by decide) (by decide) _

/-- The windows' arrays at contents `G`, one by one, each a whole buffer at its window's share. -/
theorem arrays1_eq (hq : dat.q = q1) (G : (w : Fin cfg1.W) → Buf (Elt F) ((cfg1.win w).arr.view.loc (c : Thread nD τ))) :
    (dat.arrays G : sProp 𝕄)
      = iprop((((c : Thread nD τ).loc main_v0) ↦{fullShare.left} G 0) ∗ (((c : Thread nD τ).loc main_v0) ↦{fullShare.right} G 1)
          ∗ (((c : Thread nD τ).loc main_arg1) ↦{fullShare} G 2) ∗ (((c : Thread nD τ).loc main_v1) ↦{fullShare} G 3)
          ∗ (((c : Thread nD τ).loc main_v2) ↦{fullShare} G 4)) := by
  unfold Dat.arrays
  rw [bigSep_W1, share1_0 dat hq, share1_1 dat hq, share1_2 dat hq, share1_3 dat hq, share1_4 dat,
    (arr_whole1 0).set_eq_univ, (arr_whole1 2).set_eq_univ, (arr_whole1 3).set_eq_univ, (arr_whole1 4).set_eq_univ]
  all_goals (try rw [(arr_whole1 1).set_eq_univ])
  all_goals rfl

/-- ENTRY: the buffers behind the arrays, whole at `V`, make the windows' arrays at contents that are `V`'s. -/
theorem arrays1_of_bufs (hq : dat.q = q1) (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ dat.arrays G := by
  rw [arrBufs1_eq, arrays1_eq dat hq, hG 0, hG 1, hG 2, hG 3, hG 4]
  iintro ⟨Hh, Hg, Hb, Ho⟩
  ihave Hh2 := (pointsTo_share (PosShare.mem_left_op_right fullShare)).1 $$ Hh
  icases Hh2 with ⟨Hl, Hr⟩
  isplitl [Hl]; · iexact Hl
  isplitl [Hr]; · iexact Hr
  isplitl [Hg]; · iexact Hg
  isplitl [Hb]; · iexact Hb
  iexact Ho

/-- EXIT: the windows' arrays, the two readers' at ONE contents `V`'s and the others at `V'`'s, make the buffers behind
    them whole at `V'` — given that `V'` agrees with `V` on the shared buffer. -/
theorem bufs_of_arrays1 (hq : dat.q = q1) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (dat.arrays G : sProp 𝕄) ⊢ Pipeline.arrBufs (Ix := Unit) (Name := ℕ) (U := UR sig nD τ) (Lvl := ℕ) spec1 c V' := by
  rw [arrBufs1_eq, arrays1_eq dat hq, hG 0, hG 1, hG 2, hG 3, hG 4]
  iintro ⟨Hl, Hr, Hg, Hb, Ho⟩
  isplitl [Hl Hr]
  · ihave Hj := (pointsTo_share (PosShare.mem_left_op_right fullShare)).2 $$ [Hl Hr]
    · isplitl [Hl]; · iexact Hl
      iexact Hr
    iexact Hj
  isplitl [Hg]; · iexact Hg
  isplitl [Hb]; · iexact Hb
  iexact Ho

end Cert.KernelIdeal.Hand

end
-- ==== Proof.IShare3.lean ====
/-
  Region 3 hands ONE array — the projected activations — to two input windows: the query tile and the whole key/value
  array. The buffers behind the region's arrays, each held whole, therefore split into the five windows' arrays with the
  shared buffer's ownership halved between its two readers, and the halves join again when the region ends, both readers
  having left the buffer as they found it. The result window's array, held whole throughout, comes back at the contents
  the region's write-backs leave.
-/
import proofs.«144140_j35399120453979_2_alg».proof.Proof.Gen.KernelIdeal.Launch
import proofs.«144140_j35399120453979_2_alg».proof.Proof.Gen.KernelIdeal.Skeleton
import proofs.«144140_j35399120453979_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the region's windows hold their arrays at: the two readers of the shared buffer a half each, every other
    window its whole array. -/
def q3 : Fin cfg3.W → PosShare TreeShare := fun
  | ⟨0, _⟩ => fullShare.left
  | ⟨1, _⟩ => fullShare.right
  | _ => fullShare

variable {c : Dev nD} (dat : Dat τ (Elt F) Unit ℕ (UR sig nD τ) ℕ cfg3 c)

theorem share3_0 (hq : dat.q = q3) : dat.share 0 = fullShare.left := by unfold Dat.share; rw [hq]; rfl
theorem share3_1 (hq : dat.q = q3) : dat.share 1 = fullShare.right := by unfold Dat.share; rw [hq]; rfl
theorem share3_2 (hq : dat.q = q3) : dat.share 2 = fullShare := by unfold Dat.share; rw [hq]; rfl
theorem share3_3 (hq : dat.q = q3) : dat.share 3 = fullShare := by unfold Dat.share; rw [hq]; rfl
theorem share3_4 : dat.share 4 = fullShare := by unfold Dat.share; rfl

/-- The four distinct buffers behind the five windows' arrays, one by one. -/
theorem arrBufs3_eq (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v3) ↦{fullShare} V main_v3) ∗ (((c : Thread nD τ).loc main_arg1) ↦{fullShare} V main_arg1)
          ∗ (((c : Thread nD τ).loc main_v4) ↦{fullShare} V main_v4) ∗ (((c : Thread nD τ).loc main_v5) ↦{fullShare} V main_v5)) := by
  unfold Pipeline.arrBufs
  exact bigSep_eq_bigSepL_of_eq [main_v3, main_arg1, main_v4, main_v5] (by decide) (by decide) _

/-- The windows' arrays at contents `G`, one by one, each a whole buffer at its window's share. -/
theorem arrays3_eq (hq : dat.q = q3) (G : (w : Fin cfg3.W) → Buf (Elt F) ((cfg3.win w).arr.view.loc (c : Thread nD τ))) :
    (dat.arrays G : sProp 𝕄)
      = iprop((((c : Thread nD τ).loc main_v3) ↦{fullShare.left} G 0) ∗ (((c : Thread nD τ).loc main_v3) ↦{fullShare.right} G 1)
          ∗ (((c : Thread nD τ).loc main_arg1) ↦{fullShare} G 2) ∗ (((c : Thread nD τ).loc main_v4) ↦{fullShare} G 3)
          ∗ (((c : Thread nD τ).loc main_v5) ↦{fullShare} G 4)) := by
  unfold Dat.arrays
  rw [bigSep_W3, share3_0 dat hq, share3_1 dat hq, share3_2 dat hq, share3_3 dat hq, share3_4 dat,
    (arr_whole3 0).set_eq_univ, (arr_whole3 2).set_eq_univ, (arr_whole3 3).set_eq_univ, (arr_whole3 4).set_eq_univ]
  all_goals (try rw [(arr_whole3 1).set_eq_univ])
  all_goals rfl

/-- ENTRY: the buffers behind the arrays, whole at `V`, make the windows' arrays at contents that are `V`'s. -/
theorem arrays3_of_bufs (hq : dat.q = q3) (V : (b : Ref sig .tc) → Buf (Elt F) ((c : Thread nD τ).loc b))
    (G : (w : Fin cfg3.W) → Buf (Elt F) ((cfg3.win w).arr.view.loc (c : Thread nD τ))) (hG : ∀ w, G w = V (Pipeline.arrRef spec3 w)) :
    (Pipeline.arrBufs (Ix := Unit) (Name := ℕ) (U := UR sig nD τ) (Lvl := ℕ) spec3 c V : sProp 𝕄) ⊢ dat.arrays G := by
  rw [arrBufs3_eq, arrays3_eq dat hq, hG 0, hG 1, hG 2, hG 3, hG 4]
  iintro ⟨Hh, Hg, Hb, Ho⟩
  ihave Hh2 := (pointsTo_share (PosShare.mem_left_op_right fullShare)).1 $$ Hh
  icases Hh2 with ⟨Hl, Hr⟩
  isplitl [Hl]; · iexact Hl
  isplitl [Hr]; · iexact Hr
  isplitl [Hg]; · iexact Hg
  isplitl [Hb]; · iexact Hb
  iexact Ho

/-- EXIT: the windows' arrays, the two readers' at ONE contents `V`'s and the others at `V'`'s, make the buffers behind
    them whole at `V'` — given that `V'` agrees with `V` on the shared buffer. -/
theorem bufs_of_arrays3 (hq : dat.q = q3) (V' : (b : Ref sig .tc) → Buf (Elt F) ((c : Thread nD τ).loc b))
    (G : (w : Fin cfg3.W) → Buf (Elt F) ((cfg3.win w).arr.view.loc (c : Thread nD τ))) (hG : ∀ w, G w = V' (Pipeline.arrRef spec3 w)) :
    (dat.arrays G : sProp 𝕄) ⊢ Pipeline.arrBufs (Ix := Unit) (Name := ℕ) (U := UR sig nD τ) (Lvl := ℕ) spec3 c V' := by
  rw [arrBufs3_eq, arrays3_eq dat hq, hG 0, hG 1, hG 2, hG 3, hG 4]
  iintro ⟨Hl, Hr, Hg, Hb, Ho⟩
  isplitl [Hl Hr]
  · ihave Hj := (pointsTo_share (PosShare.mem_left_op_right fullShare)).2 $$ [Hl Hr]
    · isplitl [Hl]; · iexact Hl
      iexact Hr
    iexact Hj
  isplitl [Hg]; · iexact Hg
  isplitl [Hb]; · iexact Hb
  iexact Ho

end Cert.KernelIdeal.Hand

end
-- ==== Proof.IRun.lean ====
/-
  The whole program's run. The four kernel regions are entered one after the other from a thread state that holds every
  unscoped buffer at a named valuation: the launch memory, then each region's result array replaced by what the region's
  write-backs leave, each host stretch applied in between. Each region's record says how its arrays are taken out of that
  state at entry and put back at exit — for the two attention regions the projected activations, read by two windows,
  split into two half ownerships and joined again — and how the generator register rides through the region's invariant.
-/
import proofs.«144140_j35399120453979_2_alg».proof.Proof.IRegion0
import proofs.«144140_j35399120453979_2_alg».proof.Proof.IRegion2
import proofs.«144140_j35399120453979_2_alg».proof.Proof.IRegion1
import proofs.«144140_j35399120453979_2_alg».proof.Proof.IRegion3
import proofs.«144140_j35399120453979_2_alg».proof.Proof.IShare1
import proofs.«144140_j35399120453979_2_alg».proof.Proof.IShare3
import proofs.«144140_j35399120453979_2_alg».proof.Proof.IRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations between the items -/

/-- A valuation read at the TensorCore's references: what a region's proof data take as the entry contents. -/
abbrev atRefs (W : Dev nD → Valuation τ sig (Elt F)) (c : Dev nD) (b : Ref sig .tc) : Buf (Elt F) ((c : Thread nD τ).loc b) := W c b

/-- The launch memory. -/
abbrev U0 (c : Dev nD) : Valuation τ sig (Elt F) := fun b => m (c, b)
/-- What the first projection leaves in its result array. -/
def o1 (c : Dev nD) : Buf (Elt F) ((c : Thread nD τ).loc main_v0) := (dat0 (atRefs (U0 m)) c).arrAt 2 cfg0.N
def U1 (c : Dev nD) : Valuation τ sig (Elt F) := Function.update (U0 m c) main_v0 (o1 m c)
def U2 (c : Dev nD) : Valuation τ sig (Elt F) := StableHlo.after hostOps1 (U1 m c)
/-- What the first attention leaves in its result array. -/
def o3 (c : Dev nD) : Buf (Elt F) ((c : Thread nD τ).loc main_v2) := (dat1 (atRefs (U2 m)) q1 c).arrAt 4 cfg1.N
def U3 (c : Dev nD) : Valuation τ sig (Elt F) := Function.update (U2 m c) main_v2 (o3 m c)
/-- What the second projection leaves in its result array. -/
def o4 (c : Dev nD) : Buf (Elt F) ((c : Thread nD τ).loc main_v3) := (dat2 (atRefs (U3 m)) c).arrAt 2 cfg2.N
def U4 (c : Dev nD) : Valuation τ sig (Elt F) := Function.update (U3 m c) main_v3 (o4 m c)
def U5 (c : Dev nD) : Valuation τ sig (Elt F) := StableHlo.after hostOps3 (U4 m c)
/-- What the second attention leaves in its result array. -/
def o6 (c : Dev nD) : Buf (Elt F) ((c : Thread nD τ).loc main_v5) := (dat3 (atRefs (U5 m)) q3 c).arrAt 4 cfg3.N
def U6 (c : Dev nD) : Valuation τ sig (Elt F) := Function.update (U5 m c) main_v5 (o6 m c)
def U7 (c : Dev nD) : Valuation τ sig (Elt F) := StableHlo.after hostOps4 (U6 m c)

/-- The regions' results as the generated valuations read them: each item's valuation at the buffer asked for. -/
def outs : Outs (F := F) := fun J r c =>
  match J with
  | 1 => U1 m c r
  | 3 => U3 m c r
  | 4 => U4 m c r
  | 6 => U6 m c r
  | _ => U0 m c r

theorem V1_eq (c : Dev nD) : V1 m (outs m) c = U1 m c := by
  show Function.update (U0 m c) main_v0 (U1 m c main_v0) = U1 m c
  unfold U1; rw [Function.update_self]
theorem V2_eq (c : Dev nD) : V2 m (outs m) c = U2 m c := by
  show StableHlo.after hostOps1 (V1 m (outs m) c) = U2 m c
  rw [V1_eq]; rfl
theorem V3_eq (c : Dev nD) : V3 m (outs m) c = U3 m c := by
  show Function.update (V2 m (outs m) c) main_v2 (U3 m c main_v2) = U3 m c
  rw [V2_eq]; unfold U3; rw [Function.update_self]
theorem V4_eq (c : Dev nD) : V4 m (outs m) c = U4 m c := by
  show Function.update (V3 m (outs m) c) main_v3 (U4 m c main_v3) = U4 m c
  rw [V3_eq]; unfold U4; rw [Function.update_self]
theorem V5_eq (c : Dev nD) : V5 m (outs m) c = U5 m c := by
  show StableHlo.after hostOps3 (V4 m (outs m) c) = U5 m c
  rw [V4_eq]; rfl
theorem V6_eq (c : Dev nD) : V6 m (outs m) c = U6 m c := by
  show Function.update (V5 m (outs m) c) main_v5 (U6 m c main_v5) = U6 m c
  rw [V5_eq]; unfold U6; rw [Function.update_self]
theorem V7_eq (c : Dev nD) : V7 m (outs m) c = U7 m c := by
  show StableHlo.after hostOps4 (V6 m (outs m) c) = U7 m c
  rw [V6_eq]; rfl

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (atRefs (U0 m)) c
  | ⟨1, _⟩ => fun c => dat1 (atRefs (U2 m)) q1 c
  | ⟨2, _⟩ => fun c => dat2 (atRefs (U3 m)) c
  | ⟨3, _⟩ => fun c => dat3 (atRefs (U5 m)) q3 c

/-- No core owes another anything: no level is assigned. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-! ## The two projection regions -/

theorem hF0 (c : Dev nD) (w : Fin cfg0.W) : (pdats m 0 c).arrAt w cfg0.N = atRefs (U1 m) c (Pipeline.arrRef spec0 w) :=
  match w with
  | ⟨0, _⟩ => by
      refine ((pdats m 0 c).arrAt_in 0 rfl _).trans ?_
      show U0 m c (Proc.devRef .tc main_arg0) = U1 m c (Proc.devRef .tc main_arg0)
      unfold U1
      exact (Function.update_of_ne (StableHlo.devRef_ne_of_ne (by decide) : (Proc.devRef .tc main_arg0 : DevRef τ sig) ≠ Proc.devRef .tc main_v0) _ _).symm
  | ⟨1, _⟩ => by
      refine ((pdats m 0 c).arrAt_in 1 rfl _).trans ?_
      show U0 m c (Proc.devRef .tc main_arg2) = U1 m c (Proc.devRef .tc main_arg2)
      unfold U1
      exact (Function.update_of_ne (StableHlo.devRef_ne_of_ne (by decide) : (Proc.devRef .tc main_arg2 : DevRef τ sig) ≠ Proc.devRef .tc main_v0) _ _).symm
  | ⟨2, _⟩ => by
      show o1 m c = U1 m c (Proc.devRef .tc main_v0)
      unfold U1
      exact (Function.update_self (Proc.devRef .tc main_v0 : DevRef τ sig) (o1 m c) (U0 m c)).symm
theorem hrest0 (c : Dev nD) : ∀ b, b ∉ Finset.univ.image (Pipeline.arrRef spec0) → atRefs (U1 m) c b = atRefs (U0 m) c b :=
  fun b hb => by
    show U1 m c (Proc.devRef .tc b) = U0 m c (Proc.devRef .tc b)
    unfold U1
    exact Function.update_of_ne (StableHlo.devRef_ne_of_ne (fun e => hb (Finset.mem_image.mpr ⟨2, Finset.mem_univ _, e.symm⟩)) : (Proc.devRef .tc b : DevRef τ sig) ≠ Proc.devRef .tc main_v0) _ _

set_option backward.isDefEq.respectTransparency.types false in
/-- Region 0 (a linear projection): its three arrays are distinct buffers, split out of the unscoped buffers whole and put
    back with the result array at what the write-backs leave; the generator register goes through the invariant. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (atRefs (U0 m)) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (atRefs (U0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (U0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (U0 m) c) (atRefs (U1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (pdats m 2 c).arrAt w cfg2.N = atRefs (U4 m) c (Pipeline.arrRef spec2 w) :=
  match w with
  | ⟨0, _⟩ => by
      refine ((pdats m 2 c).arrAt_in 0 rfl _).trans ?_
      show U3 m c (Proc.devRef .tc main_v2) = U4 m c (Proc.devRef .tc main_v2)
      unfold U4
      exact (Function.update_of_ne (StableHlo.devRef_ne_of_ne (by decide) : (Proc.devRef .tc main_v2 : DevRef τ sig) ≠ Proc.devRef .tc main_v3) _ _).symm
  | ⟨1, _⟩ => by
      refine ((pdats m 2 c).arrAt_in 1 rfl _).trans ?_
      show U3 m c (Proc.devRef .tc main_arg4) = U4 m c (Proc.devRef .tc main_arg4)
      unfold U4
      exact (Function.update_of_ne (StableHlo.devRef_ne_of_ne (by decide) : (Proc.devRef .tc main_arg4 : DevRef τ sig) ≠ Proc.devRef .tc main_v3) _ _).symm
  | ⟨2, _⟩ => by
      show o4 m c = U4 m c (Proc.devRef .tc main_v3)
      unfold U4
      exact (Function.update_self (Proc.devRef .tc main_v3 : DevRef τ sig) (o4 m c) (U3 m c)).symm
theorem hrest2 (c : Dev nD) : ∀ b, b ∉ Finset.univ.image (Pipeline.arrRef spec2) → atRefs (U4 m) c b = atRefs (U3 m) c b :=
  fun b hb => by
    show U4 m c (Proc.devRef .tc b) = U3 m c (Proc.devRef .tc b)
    unfold U4
    exact Function.update_of_ne (StableHlo.devRef_ne_of_ne (fun e => hb (Finset.mem_image.mpr ⟨2, Finset.mem_univ _, e.symm⟩)) : (Proc.devRef .tc b : DevRef τ sig) ≠ Proc.devRef .tc main_v3) _ _

set_option backward.isDefEq.respectTransparency.types false in
/-- Region 2 (a linear projection): its three arrays are distinct buffers, split out of the unscoped buffers whole and put
    back with the result array at what the write-backs leave; the generator register goes through the invariant. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (atRefs (U3 m)) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (atRefs (U3 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (U3 m) c) (atRefs (U4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The two attention regions -/

/-- A core's unscoped buffers are the four buffers behind region 1's arrays and the rest. -/
theorem bufs1_split (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec1 c V : sProp 𝕄) ∗ Pipeline.unscopedRest spec1 c V) :=
  Pipeline.unscopedBufs_split₀ cfgs 1 (by decide) c V

theorem hF1 (c : Dev nD) (w : Fin cfg1.W) : (pdats m 1 c).arrAt w cfg1.N = atRefs (U3 m) c (Pipeline.arrRef spec1 w) :=
  match w with
  | ⟨0, _⟩ => by
      refine ((pdats m 1 c).arrAt_in 0 rfl _).trans ?_
      show U2 m c (Proc.devRef .tc main_v0) = U3 m c (Proc.devRef .tc main_v0)
      unfold U3
      exact (Function.update_of_ne (StableHlo.devRef_ne_of_ne (by decide) : (Proc.devRef .tc main_v0 : DevRef τ sig) ≠ Proc.devRef .tc main_v2) _ _).symm
  | ⟨1, _⟩ => by
      refine ((pdats m 1 c).arrAt_in 1 rfl _).trans ?_
      show U2 m c (Proc.devRef .tc main_v0) = U3 m c (Proc.devRef .tc main_v0)
      unfold U3
      exact (Function.update_of_ne (StableHlo.devRef_ne_of_ne (by decide) : (Proc.devRef .tc main_v0 : DevRef τ sig) ≠ Proc.devRef .tc main_v2) _ _).symm
  | ⟨2, _⟩ => by
      refine ((pdats m 1 c).arrAt_in 2 rfl _).trans ?_
      show U2 m c (Proc.devRef .tc main_arg1) = U3 m c (Proc.devRef .tc main_arg1)
      unfold U3
      exact (Function.update_of_ne (StableHlo.devRef_ne_of_ne (by decide) : (Proc.devRef .tc main_arg1 : DevRef τ sig) ≠ Proc.devRef .tc main_v2) _ _).symm
  | ⟨3, _⟩ => by
      refine ((pdats m 1 c).arrAt_in 3 rfl _).trans ?_
      show U2 m c (Proc.devRef .tc main_v1) = U3 m c (Proc.devRef .tc main_v1)
      unfold U3
      exact (Function.update_of_ne (StableHlo.devRef_ne_of_ne (by decide) : (Proc.devRef .tc main_v1 : DevRef τ sig) ≠ Proc.devRef .tc main_v2) _ _).symm
  | ⟨4, _⟩ => by
      show o3 m c = U3 m c (Proc.devRef .tc main_v2)
      unfold U3
      exact (Function.update_self (Proc.devRef .tc main_v2 : DevRef τ sig) (o3 m c) (U2 m c)).symm
theorem hrest1 (c : Dev nD) : ∀ b, b ∉ Finset.univ.image (Pipeline.arrRef spec1) → atRefs (U3 m) c b = atRefs (U2 m) c b :=
  fun b hb => by
    show U3 m c (Proc.devRef .tc b) = U2 m c (Proc.devRef .tc b)
    unfold U3
    exact Function.update_of_ne (StableHlo.devRef_ne_of_ne (fun e => hb (Finset.mem_image.mpr ⟨4, Finset.mem_univ _, e.symm⟩)) : (Proc.devRef .tc b : DevRef τ sig) ≠ Proc.devRef .tc main_v2) _ _

/-- ENTRY of region 1: every unscoped buffer at the entry valuation is the five windows' arrays at the proof data's entry
    contents (the shared buffer halved between its two readers) and the rest. -/
theorem entry1 (c : Dev nD) :
    (StableHlo.held (c : Thread nD τ) (Pipeline.ucRefs τ sig) (U2 m c) : sProp 𝕄)
      ⊢ iprop((pdats m 1 c).arrays ((pdats m 1 c).arrAt · 0) ∗ Pipeline.unscopedRest spec1 c (atRefs (U2 m) c)) := by
  rw [← Pipeline.unscopedBufs_held (Ix := Unit) (Name := ℕ) (U := UR sig nD τ) (Lvl := ℕ) c (U2 m c), bufs1_split c (atRefs (U2 m) c)]
  exact sep_mono (arrays1_of_bufs (pdats m 1 c) rfl (atRefs (U2 m) c) _ (fun _ => rfl)) .rfl

/-- EXIT of region 1: the windows' arrays as the write-backs leave them and the rest are every unscoped buffer at the next
    valuation. -/
theorem exit1 (c : Dev nD) :
    iprop((pdats m 1 c).arrays ((pdats m 1 c).arrAt · cfg1.N) ∗ Pipeline.unscopedRest spec1 c (atRefs (U2 m) c))
      ⊢ (StableHlo.held (c : Thread nD τ) (Pipeline.ucRefs τ sig) (U3 m c) : sProp 𝕄) := by
  rw [← Pipeline.unscopedBufs_held (Ix := Unit) (Name := ℕ) (U := UR sig nD τ) (Lvl := ℕ) c (U3 m c), bufs1_split c (atRefs (U3 m) c)]
  refine sep_mono (bufs_of_arrays1 (pdats m 1 c) rfl (atRefs (U3 m) c) _ (hF1 m c)) (Entails.of_eq ?_)
  unfold Pipeline.unscopedRest
  exact bigSep_congr fun b hb => by rw [hrest1 m c b (Finset.mem_sdiff.mp hb).2]

set_option backward.isDefEq.respectTransparency.types false in
/-- Region 1 (an attention): entered from every unscoped buffer at the valuation before it, left at the one after it;
    the generator register goes through the invariant; nothing owed; no semaphore of the kernel's own. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body_obligation1 (atRefs (U2 m)) q1 c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (atRefs (U2 m) c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (atRefs (U2 m)) q1 c)
    unfold Pipeline.ΦA
    iintro ⟨Hp, -, Hr⟩
    isplitl [Hr]; · iexact Hr
    iexact Hp
  hout c := by
    rw [Pipeline.ownSems0_none]
    refine (hout1 (atRefs (U2 m)) q1 c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-- A core's unscoped buffers are the four buffers behind region 3's arrays and the rest. -/
theorem bufs3_split (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec3 c V : sProp 𝕄) ∗ Pipeline.unscopedRest spec3 c V) :=
  Pipeline.unscopedBufs_split₀ cfgs 3 (by decide) c V

theorem hF3 (c : Dev nD) (w : Fin cfg3.W) : (pdats m 3 c).arrAt w cfg3.N = atRefs (U6 m) c (Pipeline.arrRef spec3 w) :=
  match w with
  | ⟨0, _⟩ => by
      refine ((pdats m 3 c).arrAt_in 0 rfl _).trans ?_
      show U5 m c (Proc.devRef .tc main_v3) = U6 m c (Proc.devRef .tc main_v3)
      unfold U6
      exact (Function.update_of_ne (StableHlo.devRef_ne_of_ne (by decide) : (Proc.devRef .tc main_v3 : DevRef τ sig) ≠ Proc.devRef .tc main_v5) _ _).symm
  | ⟨1, _⟩ => by
      refine ((pdats m 3 c).arrAt_in 1 rfl _).trans ?_
      show U5 m c (Proc.devRef .tc main_v3) = U6 m c (Proc.devRef .tc main_v3)
      unfold U6
      exact (Function.update_of_ne (StableHlo.devRef_ne_of_ne (by decide) : (Proc.devRef .tc main_v3 : DevRef τ sig) ≠ Proc.devRef .tc main_v5) _ _).symm
  | ⟨2, _⟩ => by
      refine ((pdats m 3 c).arrAt_in 2 rfl _).trans ?_
      show U5 m c (Proc.devRef .tc main_arg1) = U6 m c (Proc.devRef .tc main_arg1)
      unfold U6
      exact (Function.update_of_ne (StableHlo.devRef_ne_of_ne (by decide) : (Proc.devRef .tc main_arg1 : DevRef τ sig) ≠ Proc.devRef .tc main_v5) _ _).symm
  | ⟨3, _⟩ => by
      refine ((pdats m 3 c).arrAt_in 3 rfl _).trans ?_
      show U5 m c (Proc.devRef .tc main_v4) = U6 m c (Proc.devRef .tc main_v4)
      unfold U6
      exact (Function.update_of_ne (StableHlo.devRef_ne_of_ne (by decide) : (Proc.devRef .tc main_v4 : DevRef τ sig) ≠ Proc.devRef .tc main_v5) _ _).symm
  | ⟨4, _⟩ => by
      show o6 m c = U6 m c (Proc.devRef .tc main_v5)
      unfold U6
      exact (Function.update_self (Proc.devRef .tc main_v5 : DevRef τ sig) (o6 m c) (U5 m c)).symm
theorem hrest3 (c : Dev nD) : ∀ b, b ∉ Finset.univ.image (Pipeline.arrRef spec3) → atRefs (U6 m) c b = atRefs (U5 m) c b :=
  fun b hb => by
    show U6 m c (Proc.devRef .tc b) = U5 m c (Proc.devRef .tc b)
    unfold U6
    exact Function.update_of_ne (StableHlo.devRef_ne_of_ne (fun e => hb (Finset.mem_image.mpr ⟨4, Finset.mem_univ _, e.symm⟩)) : (Proc.devRef .tc b : DevRef τ sig) ≠ Proc.devRef .tc main_v5) _ _

/-- ENTRY of region 3: every unscoped buffer at the entry valuation is the five windows' arrays at the proof data's entry
    contents (the shared buffer halved between its two readers) and the rest. -/
theorem entry3 (c : Dev nD) :
    (StableHlo.held (c : Thread nD τ) (Pipeline.ucRefs τ sig) (U5 m c) : sProp 𝕄)
      ⊢ iprop((pdats m 3 c).arrays ((pdats m 3 c).arrAt · 0) ∗ Pipeline.unscopedRest spec3 c (atRefs (U5 m) c)) := by
  rw [← Pipeline.unscopedBufs_held (Ix := Unit) (Name := ℕ) (U := UR sig nD τ) (Lvl := ℕ) c (U5 m c), bufs3_split c (atRefs (U5 m) c)]
  exact sep_mono (arrays3_of_bufs (pdats m 3 c) rfl (atRefs (U5 m) c) _ (fun _ => rfl)) .rfl

/-- EXIT of region 3: the windows' arrays as the write-backs leave them and the rest are every unscoped buffer at the next
    valuation. -/
theorem exit3 (c : Dev nD) :
    iprop((pdats m 3 c).arrays ((pdats m 3 c).arrAt · cfg3.N) ∗ Pipeline.unscopedRest spec3 c (atRefs (U5 m) c))
      ⊢ (StableHlo.held (c : Thread nD τ) (Pipeline.ucRefs τ sig) (U6 m c) : sProp 𝕄) := by
  rw [← Pipeline.unscopedBufs_held (Ix := Unit) (Name := ℕ) (U := UR sig nD τ) (Lvl := ℕ) c (U6 m c), bufs3_split c (atRefs (U6 m) c)]
  refine sep_mono (bufs_of_arrays3 (pdats m 3 c) rfl (atRefs (U6 m) c) _ (hF3 m c)) (Entails.of_eq ?_)
  unfold Pipeline.unscopedRest
  exact bigSep_congr fun b hb => by rw [hrest3 m c b (Finset.mem_sdiff.mp hb).2]

set_option backward.isDefEq.respectTransparency.types false in
/-- Region 3 (an attention): entered from every unscoped buffer at the valuation before it, left at the one after it;
    the generator register goes through the invariant; nothing owed; no semaphore of the kernel's own. -/
def reg3 : Pipeline.RegionSeg (pcfgs (F := F)) adm (pdats m) () defs₀ Variants.none L lv 3 where
  win := winFacts₀3
  block_pos := block_pos3
  stage_whole := stage_whole3
  K := PEmpty
  osem k := k.elim
  ho := Pipeline.OwnSemFacts.none _
  hbody c := (body_obligation3 (atRefs (U5 m)) q3 c).loose
  hwaits := Pipeline.hwaits_of_owed_zero _ _ _ _ L lv 3 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec3 c (atRefs (U5 m) c)
  hentry c := by
    rw [Pipeline.ownSems0_none]
    iintro ⟨⟨Hub, Hp, HO⟩, -, -⟩
    ihave H := (entry3 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (atRefs (U5 m)) q3 c)
    unfold Pipeline.ΦA
    iintro ⟨Hp, -, Hr⟩
    isplitl [Hr]; · iexact Hr
    iexact Hp
  hout c := by
    rw [Pipeline.ownSems0_none]
    refine (hout3 (atRefs (U5 m)) q3 c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit3 m c); isplitl [Ha] <;> iassumption
    isplitl [HY]; · iexact HY
    unfold Pipeline.Dat.owesAt Pipeline.owesWithin
    icases HO with ⟨%W, -, HO⟩; iexists W; iexact HO

/-! ## The run -/

/-- What the launch leaves beside the buffers is the rest the regions carry: the generator register, nothing owed. -/
theorem rest_of_launch (ρ : Dev nD → PrngReg) (c : Dev nD) :
    (iprop(unscopedSems0 c ∗ owes (c : Thread nD τ) ((fun _ : Dev nD => (0 : CellTallies nD τ sig Unit)) c) ∅ ∗ Pipeline.launchCred (fun _ : Dev nD => (0 : CellTallies nD τ sig Unit)) c ∗ prngReg c (ρ c) ∗ (BI.emp : sProp 𝕄)) : sProp 𝕄)
      ⊢ R c := by
  iintro ⟨-, HO, -, Hp, -⟩
  isplitl [Hp]; · iexists _; iexact Hp
  iexists ∅; iexact HO

theorem rest_of_launch_all (ρ : Dev nD → PrngReg) :
    (bigSep Finset.univ fun c : Dev nD => (iprop(unscopedSems0 c ∗ owes (c : Thread nD τ) ((fun _ : Dev nD => (0 : CellTallies nD τ sig Unit)) c) ∅ ∗ Pipeline.launchCred (fun _ : Dev nD => (0 : CellTallies nD τ sig Unit)) c ∗ prngReg c (ρ c) ∗ (BI.emp : sProp 𝕄)) : sProp 𝕄))
      ⊢ bigSep Finset.univ fun c : Dev nD => (R c : sProp 𝕄) :=
  bigSep_mono fun c _ => rest_of_launch ρ c

set_option backward.isDefEq.respectTransparency.types false in
/-- Every weakly fair execution of the program from memory `m` with zero counters terminates, nothing faulting; the result
    buffer ends at the last valuation's contents and each argument array as launched. -/
theorem run_main (ρ : Dev nD → PrngReg) :
    θ_run defs (onTc (τ := τ) (main (F := F))) ⟨m, fun _ => 0, ρ⟩ (fun r => ∀ c : Dev nD,
      r.2.mem ((c.tc : Thread nD τ).loc main_v6) = U7 m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h := run_cond m (Ix := Unit) (U := UR sig nD τ) (Lvl := ℕ) emb₁ () Variants.none L lv (fun _ _ => rfl) ρ (outs m) (pdats m)
    (fun _ => 0) (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      iintro ⟨H, -⟩
      imodintro
      iapply (rest_of_launch_all ρ)
      iexact H)
    (fun c => by iintro ⟨-, HO⟩; iexact HO)
    (reg0 m) (fun c => .rfl) (fun c => by rw [V1_eq]; exact .rfl)
    (reg1 m) (fun c => by rw [V2_eq]; exact .rfl) (fun c => by rw [V3_eq]; exact .rfl)
    (reg2 m) (fun c => by rw [V3_eq]; exact .rfl) (fun c => by rw [V4_eq]; exact .rfl)
    (reg3 m) (fun c => by rw [V5_eq]; exact .rfl) (fun c => by rw [V6_eq]; exact .rfl)
  refine (θ_run defs _ _).mono (fun r hr c => ?_) h
  rw [← V7_eq]; exact hr c

end Cert.KernelIdeal.Hand

end
-- ==== Proof.IValueLinPay.lean ====
/-
  The linear-projection body's stored value, read at an index, on the extended reals: the block of activations times
  the transposed weights, contracted over the feature axis. Format changes are the identity there, the two shape
  casts merge and split the leading axes row-major, and the matmul into the zero accumulator is the plain sum.
-/
import proofs.«144140_j35399120453979_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

/-- The row of the merged [8192, ·] matrix that holds row r of batch b. -/
abbrev mrow (b : Fin 8) (r : Fin 1024) : Fin 8192 := ⟨b.val * 1024 + r.val, by have := b.isLt; have := r.isLt; omega⟩

/-! ## Region 0 -/

/-- The matmul's operand indices at an output index and a contraction index, coordinate by coordinate. -/
theorem k0_lhs_0 (i : S8192x128.Idx) (q : dot_S8192x64_S64x128_S8192x128_1_0_0_1_n_n.contr.Idx) : (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem k0_lhs_1 (i : S8192x128.Idx) (q : dot_S8192x64_S64x128_S8192x128_1_0_0_1_n_n.contr.Idx) : (dot_S8192x64_S64x128_S8192x128_1_0_0_1_n_n.lhsIdx i q 1).val = (q ⟨0, by decide⟩).val :=
  dot_S8192x64_S64x128_S8192x128_1_0_0_1_n_n.lhsIdx_val_of_single rfl i q
theorem k0_rhs_0 (i : S8192x128.Idx) (q : dot_S8192x64_S64x128_S8192x128_1_0_0_1_n_n.contr.Idx) : (dot_S8192x64_S64x128_S8192x128_1_0_0_1_n_n.rhsIdx i q 0).val = (q ⟨0, by decide⟩).val :=
  dot_S8192x64_S64x128_S8192x128_1_0_0_1_n_n.rhsIdx_val_of_single rfl i q
theorem k0_rhs_1 (i : S8192x128.Idx) (q : dot_S8192x64_S64x128_S8192x128_1_0_0_1_n_n.contr.Idx) : (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- The stored payload at (b, r, j): the sum over the 64 input features of activation times weight. -/
theorem k0_pay1_apply (x0 : Vec Ideal S8x1024x64 .f32) (x1 : Vec Ideal S128x64 .f32) (b : Fin 8) (r : Fin 1024) (j : Fin 128) :
    k0_pay1 (F := Ideal) x0 x1 (ix3 b r j) = ∑ d : Fin 64, x0 (ix3 b r d) * x1 (ix2 j d) := by
  unfold k0_pay1
  simp only [truncf_apply]
  rw [shapeCast_apply _ _ (ix3 b r j) (ix2 (mrow b r) j) (by
    rw [Shape.rowMajor_val_two, Shape.rowMajor_val_three]; rfl)]
  simp only [matmul]
  rw [Ideal.matmul_constant_zero_apply, ← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 (mrow b r) j) ((contrEquiv1 dot_S8192x64_S64x128_S8192x128_1_0_0_1_n_n 64 rfl rfl).symm k) = ix2 (mrow b r) k := funext fun a => Fin.ext (by
    match a with
    | ⟨0, _⟩ => exact k0_lhs_0 _ _
    | ⟨1, _⟩ => exact (k0_lhs_1 _ _).trans hk)
  have er : dot_S8192x64_S64x128_S8192x128_1_0_0_1_n_n.rhsIdx (ix2 (mrow b r) j) ((contrEquiv1 dot_S8192x64_S64x128_S8192x128_1_0_0_1_n_n 64 rfl rfl).symm k) = ix2 k j := funext fun a => Fin.ext (by
    match a with
    | ⟨0, _⟩ => exact (k0_rhs_0 _ _).trans hk
    | ⟨1, _⟩ => exact k0_rhs_1 _ _)
  rw [el, er]
  rw [shapeCast_apply _ _ (ix2 (mrow b r) k) (ix3 b r k) (by
    rw [Shape.rowMajor_val_two, Shape.rowMajor_val_three]; rfl)]
  rw [transpose_apply _ _ _ (ix2 k j) (ix2 j k) (by
    intro a; match a with
    | ⟨0, _⟩ => rfl
    | ⟨1, _⟩ => rfl)]
  rfl

/-! ## Region 2 -/

/-- The matmul's operand indices at an output index and a contraction index, coordinate by coordinate. -/
theorem k2_lhs_0 (i : S8192x64.Idx) (q : dot_S8192x128_S128x64_S8192x64_1_0_0_1_n_n.contr.Idx) : (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem k2_lhs_1 (i : S8192x64.Idx) (q : dot_S8192x128_S128x64_S8192x64_1_0_0_1_n_n.contr.Idx) : (dot_S8192x128_S128x64_S8192x64_1_0_0_1_n_n.lhsIdx i q 1).val = (q ⟨0, by decide⟩).val :=
  dot_S8192x128_S128x64_S8192x64_1_0_0_1_n_n.lhsIdx_val_of_single rfl i q
theorem k2_rhs_0 (i : S8192x64.Idx) (q : dot_S8192x128_S128x64_S8192x64_1_0_0_1_n_n.contr.Idx) : (dot_S8192x128_S128x64_S8192x64_1_0_0_1_n_n.rhsIdx i q 0).val = (q ⟨0, by decide⟩).val :=
  dot_S8192x128_S128x64_S8192x64_1_0_0_1_n_n.rhsIdx_val_of_single rfl i q
theorem k2_rhs_1 (i : S8192x64.Idx) (q : dot_S8192x128_S128x64_S8192x64_1_0_0_1_n_n.contr.Idx) : (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- The stored payload at (b, r, j): the sum over the 128 input features of activation times weight. -/
theorem k2_pay1_apply (x0 : Vec Ideal S8x1024x128 .bf16) (x1 : Vec Ideal S64x128 .f32) (b : Fin 8) (r : Fin 1024) (j : Fin 64) :
    k2_pay1 (F := Ideal) x0 x1 (ix3 b r j) = ∑ d : Fin 128, x0 (ix3 b r d) * x1 (ix2 j d) := by
  unfold k2_pay1
  simp only [truncf_apply]
  rw [shapeCast_apply _ _ (ix3 b r j) (ix2 (mrow b r) j) (by
    rw [Shape.rowMajor_val_two, Shape.rowMajor_val_three]; rfl)]
  simp only [matmul]
  rw [Ideal.matmul_constant_zero_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 (mrow b r) j) ((contrEquiv1 dot_S8192x128_S128x64_S8192x64_1_0_0_1_n_n 128 rfl rfl).symm k) = ix2 (mrow b r) k := funext fun a => Fin.ext (by
    match a with
    | ⟨0, _⟩ => exact k2_lhs_0 _ _
    | ⟨1, _⟩ => exact (k2_lhs_1 _ _).trans hk)
  have er : dot_S8192x128_S128x64_S8192x64_1_0_0_1_n_n.rhsIdx (ix2 (mrow b r) j) ((contrEquiv1 dot_S8192x128_S128x64_S8192x64_1_0_0_1_n_n 128 rfl rfl).symm k) = ix2 k j := funext fun a => Fin.ext (by
    match a with
    | ⟨0, _⟩ => exact (k2_rhs_0 _ _).trans hk
    | ⟨1, _⟩ => exact k2_rhs_1 _ _)
  rw [el, er]
  rw [shapeCast_apply _ _ (ix2 (mrow b r) k) (ix3 b r k) (by
    rw [Shape.rowMajor_val_two, Shape.rowMajor_val_three]; rfl)]
  rw [shapeCast_apply _ _ (ix3 b r k) (ix3 b r k) rfl]
  rw [transpose_apply _ _ _ (ix2 k j) (ix2 j k) (by
    intro a; match a with
    | ⟨0, _⟩ => rfl
    | ⟨1, _⟩ => rfl)]
  rfl

end Cert.KernelIdeal.HandValue

end
-- ==== Proof.IValueLin0.lean ====
/-
  Region 0 as a whole-array function, on the extended reals: after the four row blocks are written back the result
  array holds, at every index, the linear projection of the activations by the weights — each point's stored block
  is the payload of the point's input blocks, the input blocks are the arrays read through the point's rectangle, and
  the four result blocks tile the array.
-/
import proofs.«144140_j35399120453979_2_alg».proof.Proof.IRegion0
import proofs.«144140_j35399120453979_2_alg».proof.Proof.IValueLinPay
import proofs.«144140_j35399120453979_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz3_0 : (![0, 0, 0] : Fin 3 → Nat) = fun _ => 0 := funext fun a => by fin_cases a <;> rfl
theorem hz2_0 : (![0, 0] : Fin 2 → Nat) = fun _ => 0 := funext fun a => by fin_cases a <;> rfl

/-- Row r of the grid's block t is row 1024·t + r of the array. -/
abbrev arow0 (t : Fin cfg0.N) (r : Fin 1024) : Fin 4096 :=
  ⟨t.val * 1024 + r.val, by have := Nat.lt_of_lt_of_eq t.isLt (N_0 : cfg0.N = 4); have := r.isLt; omega⟩

/-- What the result array ends holding: the projection of the two arrays the region reads, index by index. -/
def G0 (a0 : S8x4096x64.Idx → EReal) (a1 : S128x64.Idx → EReal) : S8x4096x128.Idx → EReal :=
  fun i => ∑ d : Fin 64, a0 (ix3 ⟨(i 0).val, (i 0).isLt⟩ ⟨(i 1).val, (i 1).isLt⟩ d) * a1 (ix2 ⟨(i 2).val, (i 2).isLt⟩ d)

/-- The printed index maps, decided over the grid: the activations' and the result's blocks move down the rows with the
    point, the weights' block is the whole matrix. -/
theorem idx_facts0 : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- The activations' block at point t, read at (b, r, d), is the array at (b, 1024·t + r, d). -/
theorem iblk0_0_apply (c : Dev nD) (t : Fin cfg0.N) (b : Fin 8) (r : Fin 1024) (d : Fin 64) :
    (iblk0 V c 0 t : Vec Ideal S8x1024x64 .f32) (ix3 b r d) = (V c main_arg0 : S8x4096x64.Idx → EReal) (ix3 b (arow0 t r) d) := by
  obtain ⟨e0, e1, e2, -⟩ := idx_facts0 t
  unfold iblk0
  rw [View.read_apply]
  show V c main_arg0 _ = V c main_arg0 _
  congr 1
  funext a
  apply Fin.ext
  match a with
  | ⟨0, _⟩ => show win0_0.index t (0 : Fin 3) * 8 + 1 * b.val = b.val; rw [e0]; omega
  | ⟨1, _⟩ => show win0_0.index t (1 : Fin 3) * 1024 + 1 * r.val = t.val * 1024 + r.val; rw [e1]; omega
  | ⟨2, _⟩ => show win0_0.index t (2 : Fin 3) * 64 + 1 * d.val = d.val; rw [e2]; omega

/-- The weights' block at every point is the whole matrix. -/
theorem iblk0_1_apply (c : Dev nD) (t : Fin cfg0.N) (j : Fin 128) (d : Fin 64) :
    (iblk0 V c 1 t : Vec Ideal S128x64 .f32) (ix2 j d) = (V c main_arg2 : S128x64.Idx → EReal) (ix2 j d) := by
  obtain ⟨-, -, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * j.val = j.val; rw [e0]; omega
  | ⟨1, _⟩ => show win0_1.index t (1 : Fin 2) * 64 + 1 * d.val = d.val; rw [e1]; omega

/-- Two functions on a result block agree when they agree coordinate by coordinate. -/
theorem blk_ext0 {f g : S8x1024x128.Idx → EReal} (h : ∀ (b : Fin 8) (r : Fin 1024) (j : Fin 128), f (ix3 b r j) = g (ix3 b r j)) : f = g :=
  funext fun i => by rw [eq_ix3 i]; exact h _ _ _

/-- The result window's block at point t sits at rows 1024·t … of the array. -/
theorem emb0_2 (t : Fin cfg0.N) (b : Fin 8) (r : Fin 1024) (j : Fin 128) :
    ((cfg0.win 2).blk t).view.emb (ix3 b r j : S8x1024x128.Idx) = (ix3 b (arow0 t r) j : S8x4096x128.Idx) := by
  obtain ⟨-, -, -, -, -, e0, e1, e2⟩ := idx_facts0 t
  funext a
  apply Fin.ext
  match a with
  | ⟨0, _⟩ => show win0_2.index t (0 : Fin 3) * 8 + 1 * b.val = b.val; rw [e0]; omega
  | ⟨1, _⟩ => show win0_2.index t (1 : Fin 3) * 1024 + 1 * r.val = t.val * 1024 + r.val; rw [e1]; omega
  | ⟨2, _⟩ => show win0_2.index t (2 : Fin 3) * 128 + 1 * j.val = j.val; rw [e2]; omega

/-- What point t writes back is block t of `G0` of the two arrays as the region finds them. -/
theorem flushed0_eq (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [Hand.after0_2]
  unfold out0_2
  rw [View.canon_unit_zero hz3_0]
  simp only [View.ld_unit_zero (S := S8x1024x64) hz3_0, View.ld_unit_zero (S := S128x64) hz2_0]
  refine blk_ext0 fun b r j => ?_
  rw [View.read_apply, emb0_2]
  show k0_pay1 (F := Ideal) (iblk0 V c 0 t) (iblk0 V c 1 t) (ix3 b r j) = _
  rw [k0_pay1_apply]
  unfold G0
  refine Finset.sum_congr rfl fun d _ => ?_
  rw [iblk0_0_apply, iblk0_1_apply]

/-- An index of the array is in point t's block iff each coordinate is in the block's range on its axis. -/
theorem mem_blk0 (t : Fin cfg0.N) (i : S8x4096x128.Idx) :
    i ∈ ((cfg0.win 2).blk t).view.set ↔ ∀ a : Fin 3, win0_2.index t a * S8x1024x128.size a ≤ (i a).val ∧ (i a).val < win0_2.index t a * S8x1024x128.size a + S8x1024x128.size a := by
  show i ∈ ((View.whole main_v0).slice (win0_2.rect t)).set ↔ _
  rw [View.set_slice_whole, Rect.mem_set_unit]
  exact Iff.rfl

/-- Every index of the array is in the block of the point its row falls in. -/
theorem covered0 (i : S8x4096x128.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 128 := (i 2).isLt
  let t : Fin cfg0.N := ⟨(i 1).val / 1024, by rw [show cfg0.N = 4 from N_0]; omega⟩
  obtain ⟨-, -, -, -, -, e0, e1, e2⟩ := idx_facts0 t
  have ht : t.val = (i 1).val / 1024 := rfl
  refine ⟨t, flush0_2 t, ?_⟩
  rw [mem_blk0]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

/-- The result array after the region: `G0` of the two arrays the region reads. -/
theorem final0 (c : Dev nD) : (dat0 V c).arrAt 2 cfg0.N = G0 (V c main_arg0) (V c main_arg2) :=
  (dat0 V c).arrAt_eq_of_cover 2 (G0 (V c main_arg0) (V c main_arg2)) (fun t _ => flushed0_eq V c t) (covered0)

/-- The result array after the region, read at (b, n, j): the specification's linear projection. -/
theorem lin0 (c : Dev nD) (b : Fin 8) (n : Fin 4096) (j : Fin 128) :
    (Cert.KernelIdeal.Hand.dat0 (F := Ideal) V c).arrAt 2 cfg0.N (ix3 b n j)
      = Cert.Spec.lin (fun b n d => V c main_arg0 (ix3 b n d)) (fun j d => V c main_arg2 (ix2 j d)) b n j := by
  rw [final0]
  rfl

end Cert.KernelIdeal.HandValue

end
-- ==== Proof.IValueLin2.lean ====
/-
  Region 2 as a whole-array function, on the extended reals: after the four row blocks are written back the result
  array holds, at every index, the linear projection of the first layer's activations by the second weights — each
  point's stored block is the payload of the point's input blocks, the input blocks are the arrays read through the
  point's rectangle, and the four result blocks tile the array.
-/
import proofs.«144140_j35399120453979_2_alg».proof.Proof.IRegion2
import proofs.«144140_j35399120453979_2_alg».proof.Proof.IValueLinPay
import proofs.«144140_j35399120453979_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz3_2 : (![0, 0, 0] : Fin 3 → Nat) = fun _ => 0 := funext fun a => by fin_cases a <;> rfl
theorem hz2_2 : (![0, 0] : Fin 2 → Nat) = fun _ => 0 := funext fun a => by fin_cases a <;> rfl

/-- Row r of the grid's block t is row 1024·t + r of the array. -/
abbrev arow2 (t : Fin cfg2.N) (r : Fin 1024) : Fin 4096 :=
  ⟨t.val * 1024 + r.val, by have := Nat.lt_of_lt_of_eq t.isLt (N_2 : cfg2.N = 4); have := r.isLt; omega⟩

/-- What the result array ends holding: the projection of the two arrays the region reads, index by index. -/
def G2 (a0 : S8x4096x128.Idx → EReal) (a1 : S64x128.Idx → EReal) : S8x4096x64.Idx → EReal :=
  fun i => ∑ d : Fin 128, a0 (ix3 ⟨(i 0).val, (i 0).isLt⟩ ⟨(i 1).val, (i 1).isLt⟩ d) * a1 (ix2 ⟨(i 2).val, (i 2).isLt⟩ d)

/-- The printed index maps, decided over the grid: the activations' and the result's blocks move down the rows with the
    point, the weights' block is the whole matrix. -/
theorem idx_facts2 : ∀ t : Fin cfg2.N,
    win2_0.index t (0 : Fin 3) = 0 ∧ win2_0.index t (1 : Fin 3) = t.val ∧ win2_0.index t (2 : Fin 3) = 0
    ∧ win2_1.index t (0 : Fin 2) = 0 ∧ win2_1.index t (1 : Fin 2) = 0
    ∧ win2_2.index t (0 : Fin 3) = 0 ∧ win2_2.index t (1 : Fin 3) = t.val ∧ win2_2.index t (2 : Fin 3) = 0 :=
  (by decide +kernel : ∀ t : Fin grid2.N, _)

/-- The activations' block at point t, read at (b, r, d), is the array at (b, 1024·t + r, d). -/
theorem iblk2_0_apply (c : Dev nD) (t : Fin cfg2.N) (b : Fin 8) (r : Fin 1024) (d : Fin 128) :
    (iblk2 V c 0 t : Vec Ideal S8x1024x128 .bf16) (ix3 b r d) = (V c main_v2 : S8x4096x128.Idx → EReal) (ix3 b (arow2 t r) d) := by
  obtain ⟨e0, e1, e2, -⟩ := idx_facts2 t
  unfold iblk2
  rw [View.read_apply]
  show V c main_v2 _ = V c main_v2 _
  congr 1
  funext a
  apply Fin.ext
  match a with
  | ⟨0, _⟩ => show win2_0.index t (0 : Fin 3) * 8 + 1 * b.val = b.val; rw [e0]; omega
  | ⟨1, _⟩ => show win2_0.index t (1 : Fin 3) * 1024 + 1 * r.val = t.val * 1024 + r.val; rw [e1]; omega
  | ⟨2, _⟩ => show win2_0.index t (2 : Fin 3) * 128 + 1 * d.val = d.val; rw [e2]; omega

/-- The weights' block at every point is the whole matrix. -/
theorem iblk2_1_apply (c : Dev nD) (t : Fin cfg2.N) (j : Fin 64) (d : Fin 128) :
    (iblk2 V c 1 t : Vec Ideal S64x128 .f32) (ix2 j d) = (V c main_arg4 : S64x128.Idx → EReal) (ix2 j d) := by
  obtain ⟨-, -, -, e0, e1, -⟩ := idx_facts2 t
  unfold iblk2
  rw [View.read_apply]
  show V c main_arg4 _ = V c main_arg4 _
  congr 1
  funext a
  apply Fin.ext
  match a with
  | ⟨0, _⟩ => show win2_1.index t (0 : Fin 2) * 64 + 1 * j.val = j.val; rw [e0]; omega
  | ⟨1, _⟩ => show win2_1.index t (1 : Fin 2) * 128 + 1 * d.val = d.val; rw [e1]; omega

/-- Two functions on a result block agree when they agree coordinate by coordinate. -/
theorem blk_ext2 {f g : S8x1024x64.Idx → EReal} (h : ∀ (b : Fin 8) (r : Fin 1024) (j : Fin 64), f (ix3 b r j) = g (ix3 b r j)) : f = g :=
  funext fun i => by rw [eq_ix3 i]; exact h _ _ _

/-- The result window's block at point t sits at rows 1024·t … of the array. -/
theorem emb2_2 (t : Fin cfg2.N) (b : Fin 8) (r : Fin 1024) (j : Fin 64) :
    ((cfg2.win 2).blk t).view.emb (ix3 b r j : S8x1024x64.Idx) = (ix3 b (arow2 t r) j : S8x4096x64.Idx) := by
  obtain ⟨-, -, -, -, -, e0, e1, e2⟩ := idx_facts2 t
  funext a
  apply Fin.ext
  match a with
  | ⟨0, _⟩ => show win2_2.index t (0 : Fin 3) * 8 + 1 * b.val = b.val; rw [e0]; omega
  | ⟨1, _⟩ => show win2_2.index t (1 : Fin 3) * 1024 + 1 * r.val = t.val * 1024 + r.val; rw [e1]; omega
  | ⟨2, _⟩ => show win2_2.index t (2 : Fin 3) * 64 + 1 * j.val = j.val; rw [e2]; omega

/-- What point t writes back is block t of `G2` of the two arrays as the region finds them. -/
theorem flushed2_eq (c : Dev nD) (t : Fin cfg2.N) :
    (dat2 V c).flushed 2 t = ((cfg2.win 2).blk t).view.read (Elt Ideal) (G2 (V c main_v2) (V c main_arg4)) := by
  show (cfg2.win 2).cut (grid2.coords t) ((dat2 V c).after 2 t) = _
  rw [Hand.after2_2]
  unfold out2_2
  rw [View.canon_unit_zero hz3_2]
  simp only [View.ld_unit_zero (S := S8x1024x128) hz3_2, View.ld_unit_zero (S := S64x128) hz2_2]
  refine blk_ext2 fun b r j => ?_
  rw [View.read_apply, emb2_2]
  show k2_pay1 (F := Ideal) (iblk2 V c 0 t) (iblk2 V c 1 t) (ix3 b r j) = _
  rw [k2_pay1_apply]
  unfold G2
  refine Finset.sum_congr rfl fun d _ => ?_
  rw [iblk2_0_apply, iblk2_1_apply]

/-- An index of the array is in point t's block iff each coordinate is in the block's range on its axis. -/
theorem mem_blk2 (t : Fin cfg2.N) (i : S8x4096x64.Idx) :
    i ∈ ((cfg2.win 2).blk t).view.set ↔ ∀ a : Fin 3, win2_2.index t a * S8x1024x64.size a ≤ (i a).val ∧ (i a).val < win2_2.index t a * S8x1024x64.size a + S8x1024x64.size a := by
  show i ∈ ((View.whole main_v3).slice (win2_2.rect t)).set ↔ _
  rw [View.set_slice_whole, Rect.mem_set_unit]
  exact Iff.rfl

/-- Every index of the array is in the block of the point its row falls in. -/
theorem covered2 (i : S8x4096x64.Idx) : ∃ t : Fin cfg2.N, (cfg2.win 2).flush t = true ∧ i ∈ ((cfg2.win 2).blk t).view.set := by
  have hi0 : (i 0).val < 8 := (i 0).isLt
  have hi1 : (i 1).val < 4096 := (i 1).isLt
  have hi2 : (i 2).val < 64 := (i 2).isLt
  let t : Fin cfg2.N := ⟨(i 1).val / 1024, by rw [show cfg2.N = 4 from N_2]; omega⟩
  obtain ⟨-, -, -, -, -, e0, e1, e2⟩ := idx_facts2 t
  have ht : t.val = (i 1).val / 1024 := rfl
  refine ⟨t, flush2_2 t, ?_⟩
  rw [mem_blk2]
  intro a
  match a with
  | ⟨0, _⟩ => show win2_2.index t (0 : Fin 3) * 8 ≤ (i 0).val ∧ (i 0).val < win2_2.index t (0 : Fin 3) * 8 + 8; omega
  | ⟨1, _⟩ => show win2_2.index t (1 : Fin 3) * 1024 ≤ (i 1).val ∧ (i 1).val < win2_2.index t (1 : Fin 3) * 1024 + 1024; omega
  | ⟨2, _⟩ => show win2_2.index t (2 : Fin 3) * 64 ≤ (i 2).val ∧ (i 2).val < win2_2.index t (2 : Fin 3) * 64 + 64; omega

/-- The result array after the region: `G2` of the two arrays the region reads. -/
theorem final2 (c : Dev nD) : (dat2 V c).arrAt 2 cfg2.N = G2 (V c main_v2) (V c main_arg4) :=
  (dat2 V c).arrAt_eq_of_cover 2 (G2 (V c main_v2) (V c main_arg4)) (fun t _ => flushed2_eq V c t) (covered2)

/-- The result array after the region, read at (b, n, j): the specification's linear projection. -/
theorem lin2 (c : Dev nD) (b : Fin 8) (n : Fin 4096) (j : Fin 64) :
    (Cert.KernelIdeal.Hand.dat2 (F := Ideal) V c).arrAt 2 cfg2.N (ix3 b n j)
      = Cert.Spec.lin (fun b n d => V c main_v2 (ix3 b n d)) (fun j d => V c main_arg4 (ix2 j d)) b n j := by
  rw [final2]
  rfl

end Cert.KernelIdeal.HandValue

end
-- ==== Proof.IStep1.lean ====
/-
  Attention region 1: what each kind of point leaves, in closed form. Each buffer a run stores into ends with one
  whole store on top, so it holds that store's payload. The payloads are the kernel's own named values (the skeleton's
  k1_pay·), here applied to the point's input blocks — the query tile, the rows of the key array that the step's
  offsets k1_off1 select, the mask tile, the bias — and to what the carried buffers held when the step began: at a
  first key step the reset payloads, else what the point before left.
-/
import proofs.«144140_j35399120453979_2_alg».proof.Proof.IRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets, as a constant function. -/
theorem zero3_1 : (![0, 0, 0] : Fin 3 → ℕ) = fun _ => 0 := by funext a; fin_cases a <;> rfl
theorem zero2_1 : (![0, 0] : Fin 2 → ℕ) = fun _ => 0 := by funext a; fin_cases a <;> rfl

/-- The rows of the whole key array that the key step of point `i` loads: a block of `S8x256x128` at the offsets the
    kernel computes from the key coordinate (`k1_off1 i`). -/
abbrev keys1 (i : grid1.Coords) (x1 : Vec F S8x4096x128 .bf16) : Vec F S8x256x128 .bf16 :=
  View.ld x1 (Rect.unit (s := S8x4096x128) (k1_off1 i) S8x256x128.size (k1_off1_inb i))

/-! ## A first key step -/

/-- After a first key step the running maximum holds the kernel's new maximum, of the reset value and the step's scores. -/
theorem step1_A_m (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) :
    (step1_A c i arg2 harg2 arg3 harg3 arg4 harg4 arg5 harg5 arg6 harg6 arg7 harg7 arg8 harg8 arg9 harg9 hc0 hc1 x0 x1 x2 x3).2.1 = k1_pay3 (k1_pay10 x0 (keys1 i x1) x2 (k1_pay5 (F := F))) := by
  unfold step1_A; dsimp only
  unfold left1_m
  rw [View.read_writes_eq_canon _ _ _ (cover1_A_m c i arg2 harg2 arg3 harg3 arg4 harg4 arg5 harg5 arg6 harg6 arg7 harg7 arg8 harg8 arg9 harg9 hc0 hc1 x0 x1 x2 x3)]
  unfold kernelRun1_A; dsimp only
  rw [View.canon_cons_unit_zero zero3_1]
  simp only [kernelRun1_A.sl.r_1, kernelRun1_A.sl.v19, kernelRun1_A.sl.HS0_1, View.readAt_eq_ld, Memref.IsWhole.read_unread, View.ld_unit_zero (S := S8x512x128) zero3_1, View.ld_unit_zero (S := S512x256) zero2_1, View.ld_unit_zero (S := S1x1x128) zero3_1, View.ld_unit_zero (S := S8x512x1) zero3_1, View.readCov_unit_zero (S := S8x512x1) _ zero3_1, View.readCov_unit_zero (S := S8x512x128) _ zero3_1]

/-- After a first key step the running denominator holds the kernel's new denominator: the reset value, rescaled to the new
    maximum, plus the step's exponentials summed. -/
theorem step1_A_l (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) :
    (step1_A c i arg2 harg2 arg3 harg3 arg4 harg4 arg5 harg5 arg6 harg6 arg7 harg7 arg8 harg8 arg9 harg9 hc0 hc1 x0 x1 x2 x3).2.2.1 = k1_pay1 (k1_pay13 x0 (keys1 i x1) x2 (k1_pay5 (F := F)) (k1_pay5 (F := F)) (k1_pay6 (F := F))) (k1_pay14 x0 (keys1 i x1) x2 (k1_pay5 (F := F))) := by
  unfold step1_A; dsimp only
  unfold left1_l
  rw [View.read_writes_eq_canon _ _ _ (cover1_A_l c i arg2 harg2 arg3 harg3 arg4 harg4 arg5 harg5 arg6 harg6 arg7 harg7 arg8 harg8 arg9 harg9 hc0 hc1 x0 x1 x2 x3)]
  unfold kernelRun1_A; dsimp only
  rw [View.canon_cons_unit_zero zero3_1]
  simp only [kernelRun1_A.sl.r_4, kernelRun1_A.sl.r_5, kernelRun1_A.sl.v19, kernelRun1_A.sl.v29, kernelRun1_A.sl.HS0_1, kernelRun1_A.sl.HS1_1, View.readAt_eq_ld, Memref.IsWhole.read_unread, View.ld_unit_zero (S := S8x512x128) zero3_1, View.ld_unit_zero (S := S512x256) zero2_1, View.ld_unit_zero (S := S1x1x128) zero3_1, View.ld_unit_zero (S := S8x512x1) zero3_1, View.readCov_unit_zero (S := S8x512x1) _ zero3_1, View.readCov_unit_zero (S := S8x512x128) _ zero3_1]

/-- After a first key step the accumulator holds the kernel's new accumulator: the reset value, rescaled to the new maximum, plus
    the step's exponentials applied to the key rows. -/
theorem step1_A_acc (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond1_0 i) (hc1 : ¬cond1_1 i)
    (x0 : Vec F S8x512x128 .bf16) (x1 : Vec F S8x4096x128 .bf16) (x2 : Vec F S512x256 .f32) (x3 : Vec F S1x1x128 .f32) :
    (step1_A c i arg2 harg2 arg3 harg3 arg4 harg4 arg5 harg5 arg6 harg6 arg7 harg7 arg8 harg8 arg9 harg9 hc0 hc1 x0 x1 x2 x3).2.2.2 = k1_pay2 (k1_pay8 (keys1 i x1)) (k1_pay11 x0 (keys1 i x1) x2 (k1_pay5 (F := F)) (k1_pay5 (F := F))) (k1_pay12 x0 (keys1 i x1) x2 (k1_pay5 (F := F))) (k1_pay7 (F := F)) := by
  unfold step1_A; dsimp only
  unfold left1_acc
  rw [View.read_writes_eq_canon _ _ _ (cover1_A_acc c i arg2 harg2 arg3 harg3 arg4 harg4 arg5 harg5 arg6 harg6 arg7 harg7 arg8 harg8 arg9 harg9 hc0 hc1 x0 x1 x2 x3)]
  unfold kernelRun1_A; dsimp only
  rw [View.canon_cons_unit_zero zero3_1]
  simp only [kernelRun1_A.sl.r, kernelRun1_A.sl.r_2, kernelRun1_A.sl.r_3, kernelRun1_A.sl.v37, kernelRun1_A.sl.v19, kernelRun1_A.sl.HS0_1, kernelRun1_A.sl.HS2_1, View.readAt_eq_ld, Memref.IsWhole.read_unread, View.ld_unit_zero (S := S8x512x128) zero3_1, View.ld_unit_zero (S := S512x256) zero2_1, View.ld_unit_zero (S := S1x1x128) zero3_1, View.ld_unit_zero (S := S8x512x1) zero3_1, View.readCov_unit_zero (S := S8x512x1) _ zero3_1, View.readCov_unit_zero (S := S8x512x128) _ zero3_1]

/-! ## A middle key step -/

/-- After a middle key step the running maximum holds the kernel's new maximum, of what the step found and the step's scores. -/
theorem step1_B_m (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    (step1_B c i arg2 harg2 arg3 harg3 arg4 harg4 arg5 harg5 arg6 harg6 arg7 harg7 arg8 harg8 arg9 harg9 hc0 hc1 x0 x1 x2 x3 xs0 xs1 xs2).2.1 = k1_pay3 (k1_pay10 x0 (keys1 i x1) x2 xs0) := by
  unfold step1_B; dsimp only
  unfold left1_m
  rw [View.read_writes_eq_canon _ _ _ (cover1_B_m c i arg2 harg2 arg3 harg3 arg4 harg4 arg5 harg5 arg6 harg6 arg7 harg7 arg8 harg8 arg9 harg9 hc0 hc1 x0 x1 x2 x3 xs0 xs1 xs2)]
  unfold kernelRun1_B; dsimp only
  rw [View.canon_cons_unit_zero zero3_1]
  simp only [kernelRun1_B.sl.r_1, View.readAt_eq_ld, Memref.IsWhole.read_unread, View.ld_unit_zero (S := S8x512x128) zero3_1, View.ld_unit_zero (S := S512x256) zero2_1, View.ld_unit_zero (S := S1x1x128) zero3_1, View.ld_unit_zero (S := S8x512x1) zero3_1, View.readCov_unit_zero (S := S8x512x1) _ zero3_1, View.readCov_unit_zero (S := S8x512x128) _ zero3_1]

/-- After a middle key step the running denominator holds the kernel's new denominator: what the step found, rescaled to the new
    maximum, plus the step's exponentials summed. -/
theorem step1_B_l (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    (step1_B c i arg2 harg2 arg3 harg3 arg4 harg4 arg5 harg5 arg6 harg6 arg7 harg7 arg8 harg8 arg9 harg9 hc0 hc1 x0 x1 x2 x3 xs0 xs1 xs2).2.2.1 = k1_pay1 (k1_pay13 x0 (keys1 i x1) x2 xs0 xs0 xs1) (k1_pay14 x0 (keys1 i x1) x2 xs0) := by
  unfold step1_B; dsimp only
  unfold left1_l
  rw [View.read_writes_eq_canon _ _ _ (cover1_B_l c i arg2 harg2 arg3 harg3 arg4 harg4 arg5 harg5 arg6 harg6 arg7 harg7 arg8 harg8 arg9 harg9 hc0 hc1 x0 x1 x2 x3 xs0 xs1 xs2)]
  unfold kernelRun1_B; dsimp only
  rw [View.canon_cons_unit_zero zero3_1]
  simp only [kernelRun1_B.sl.r_4, kernelRun1_B.sl.r_5, View.readAt_eq_ld, Memref.IsWhole.read_unread, View.ld_unit_zero (S := S8x512x128) zero3_1, View.ld_unit_zero (S := S512x256) zero2_1, View.ld_unit_zero (S := S1x1x128) zero3_1, View.ld_unit_zero (S := S8x512x1) zero3_1, View.readCov_unit_zero (S := S8x512x1) _ zero3_1, View.readCov_unit_zero (S := S8x512x128) _ zero3_1]

/-- After a middle key step the accumulator holds the kernel's new accumulator: what the step found, rescaled to the new maximum, plus
    the step's exponentials applied to the key rows. -/
theorem step1_B_acc (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : ¬cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    (step1_B c i arg2 harg2 arg3 harg3 arg4 harg4 arg5 harg5 arg6 harg6 arg7 harg7 arg8 harg8 arg9 harg9 hc0 hc1 x0 x1 x2 x3 xs0 xs1 xs2).2.2.2 = k1_pay2 (k1_pay8 (keys1 i x1)) (k1_pay11 x0 (keys1 i x1) x2 xs0 xs0) (k1_pay12 x0 (keys1 i x1) x2 xs0) xs2 := by
  unfold step1_B; dsimp only
  unfold left1_acc
  rw [View.read_writes_eq_canon _ _ _ (cover1_B_acc c i arg2 harg2 arg3 harg3 arg4 harg4 arg5 harg5 arg6 harg6 arg7 harg7 arg8 harg8 arg9 harg9 hc0 hc1 x0 x1 x2 x3 xs0 xs1 xs2)]
  unfold kernelRun1_B; dsimp only
  rw [View.canon_cons_unit_zero zero3_1]
  simp only [kernelRun1_B.sl.r, kernelRun1_B.sl.r_2, kernelRun1_B.sl.r_3, View.readAt_eq_ld, Memref.IsWhole.read_unread, View.ld_unit_zero (S := S8x512x128) zero3_1, View.ld_unit_zero (S := S512x256) zero2_1, View.ld_unit_zero (S := S1x1x128) zero3_1, View.ld_unit_zero (S := S8x512x1) zero3_1, View.readCov_unit_zero (S := S8x512x1) _ zero3_1, View.readCov_unit_zero (S := S8x512x128) _ zero3_1]

/-! ## A last key step -/

/-- After a last key step the running maximum holds the kernel's new maximum, of what the step found and the step's scores. -/
theorem step1_C_m (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    (step1_C c i arg2 harg2 arg3 harg3 arg4 harg4 arg5 harg5 arg6 harg6 arg7 harg7 arg8 harg8 arg9 harg9 hc0 hc1 x0 x1 x2 x3 xs0 xs1 xs2).2.1 = k1_pay3 (k1_pay10 x0 (keys1 i x1) x2 xs0) := by
  unfold step1_C; dsimp only
  unfold left1_m
  rw [View.read_writes_eq_canon _ _ _ (cover1_C_m c i arg2 harg2 arg3 harg3 arg4 harg4 arg5 harg5 arg6 harg6 arg7 harg7 arg8 harg8 arg9 harg9 hc0 hc1 x0 x1 x2 x3 xs0 xs1 xs2)]
  unfold kernelRun1_C; dsimp only
  rw [View.canon_cons_unit_zero zero3_1]
  simp only [kernelRun1_C.sl.r_1, View.readAt_eq_ld, Memref.IsWhole.read_unread, View.ld_unit_zero (S := S8x512x128) zero3_1, View.ld_unit_zero (S := S512x256) zero2_1, View.ld_unit_zero (S := S1x1x128) zero3_1, View.ld_unit_zero (S := S8x512x1) zero3_1, View.readCov_unit_zero (S := S8x512x1) _ zero3_1, View.readCov_unit_zero (S := S8x512x128) _ zero3_1]

/-- After a last key step the running denominator holds the kernel's new denominator: what the step found, rescaled to the new
    maximum, plus the step's exponentials summed. -/
theorem step1_C_l (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    (step1_C c i arg2 harg2 arg3 harg3 arg4 harg4 arg5 harg5 arg6 harg6 arg7 harg7 arg8 harg8 arg9 harg9 hc0 hc1 x0 x1 x2 x3 xs0 xs1 xs2).2.2.1 = k1_pay1 (k1_pay13 x0 (keys1 i x1) x2 xs0 xs0 xs1) (k1_pay14 x0 (keys1 i x1) x2 xs0) := by
  unfold step1_C; dsimp only
  unfold left1_l
  rw [View.read_writes_eq_canon _ _ _ (cover1_C_l c i arg2 harg2 arg3 harg3 arg4 harg4 arg5 harg5 arg6 harg6 arg7 harg7 arg8 harg8 arg9 harg9 hc0 hc1 x0 x1 x2 x3 xs0 xs1 xs2)]
  unfold kernelRun1_C; dsimp only
  simp only [kernelRun1_C.sl.HS1_1]
  rw [View.canon_cons_unit_zero zero3_1]
  simp only [kernelRun1_C.sl.r_4, kernelRun1_C.sl.r_5, View.readAt_eq_ld, Memref.IsWhole.read_unread, View.ld_unit_zero (S := S8x512x128) zero3_1, View.ld_unit_zero (S := S512x256) zero2_1, View.ld_unit_zero (S := S1x1x128) zero3_1, View.ld_unit_zero (S := S8x512x1) zero3_1, View.readCov_unit_zero (S := S8x512x1) _ zero3_1, View.readCov_unit_zero (S := S8x512x128) _ zero3_1]

/-- After a last key step the accumulator holds the kernel's new accumulator: what the step found, rescaled to the new maximum, plus
    the step's exponentials applied to the key rows. -/
theorem step1_C_acc (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    (step1_C c i arg2 harg2 arg3 harg3 arg4 harg4 arg5 harg5 arg6 harg6 arg7 harg7 arg8 harg8 arg9 harg9 hc0 hc1 x0 x1 x2 x3 xs0 xs1 xs2).2.2.2 = k1_pay2 (k1_pay8 (keys1 i x1)) (k1_pay11 x0 (keys1 i x1) x2 xs0 xs0) (k1_pay12 x0 (keys1 i x1) x2 xs0) xs2 := by
  unfold step1_C; dsimp only
  unfold left1_acc
  rw [View.read_writes_eq_canon _ _ _ (cover1_C_acc c i arg2 harg2 arg3 harg3 arg4 harg4 arg5 harg5 arg6 harg6 arg7 harg7 arg8 harg8 arg9 harg9 hc0 hc1 x0 x1 x2 x3 xs0 xs1 xs2)]
  unfold kernelRun1_C; dsimp only
  simp only [kernelRun1_C.sl.HS2_1]
  rw [View.canon_cons_unit_zero zero3_1]
  simp only [kernelRun1_C.sl.r, kernelRun1_C.sl.r_2, kernelRun1_C.sl.r_3, View.readAt_eq_ld, Memref.IsWhole.read_unread, View.ld_unit_zero (S := S8x512x128) zero3_1, View.ld_unit_zero (S := S512x256) zero2_1, View.ld_unit_zero (S := S1x1x128) zero3_1, View.ld_unit_zero (S := S8x512x1) zero3_1, View.readCov_unit_zero (S := S8x512x1) _ zero3_1, View.readCov_unit_zero (S := S8x512x128) _ zero3_1]

/-- After a last key step the output window's buffer holds the kernel's output payload of the new accumulator, the new
    denominator and the bias block. -/
theorem step1_C_out (c : Dev nD) (i : grid1.Coords) (arg2 : Memref sig .tc .vmem S8x512x128 .bf16) (harg2 : arg2.IsWhole) (arg3 : Memref sig .tc .vmem S8x4096x128 .bf16) (harg3 : arg3.IsWhole) (arg4 : Memref sig .tc .vmem S512x256 .f32) (harg4 : arg4.IsWhole) (arg5 : Memref sig .tc .vmem S1x1x128 .f32) (harg5 : arg5.IsWhole) (arg6 : Memref sig .tc .vmem S8x512x128 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond1_0 i) (hc1 : cond1_1 i)
    (x0 : Vec F S8x512x128 .bf16) (x1 : Vec F S8x4096x128 .bf16) (x2 : Vec F S512x256 .f32) (x3 : Vec F S1x1x128 .f32) (xs0 : Vec F S8x512x1 .f32) (xs1 : Vec F S8x512x1 .f32) (xs2 : Vec F S8x512x128 .f32) :
    (step1_C c i arg2 harg2 arg3 harg3 arg4 harg4 arg5 harg5 arg6 harg6 arg7 harg7 arg8 harg8 arg9 harg9 hc0 hc1 x0 x1 x2 x3 xs0 xs1 xs2).1 = k1_pay4 (k1_pay2 (k1_pay8 (keys1 i x1)) (k1_pay11 x0 (keys1 i x1) x2 xs0 xs0) (k1_pay12 x0 (keys1 i x1) x2 xs0) xs2) (k1_pay1 (k1_pay13 x0 (keys1 i x1) x2 xs0 xs0 xs1) (k1_pay14 x0 (keys1 i x1) x2 xs0)) x3 := by
  unfold step1_C; dsimp only
  unfold left1_out
  rw [View.read_writes_eq_canon _ _ _ (cover1_C_out c i arg2 harg2 arg3 harg3 arg4 harg4 arg5 harg5 arg6 harg6 arg7 harg7 arg8 harg8 arg9 harg9 hc0 hc1 x0 x1 x2 x3 xs0 xs1 xs2)]
  unfold kernelRun1_C; dsimp only
  rw [View.canon_cons_unit_zero zero3_1]
  simp only [kernelRun1_C.sl.v52, kernelRun1_C.sl.v53, kernelRun1_C.sl.HS1_1, kernelRun1_C.sl.HS2_1, kernelRun1_C.sl.r, kernelRun1_C.sl.r_2, kernelRun1_C.sl.r_3, kernelRun1_C.sl.r_4, kernelRun1_C.sl.r_5, View.readAt_eq_ld, Memref.IsWhole.read_unread, View.ld_unit_zero (S := S8x512x128) zero3_1, View.ld_unit_zero (S := S512x256) zero2_1, View.ld_unit_zero (S := S1x1x128) zero3_1, View.ld_unit_zero (S := S8x512x1) zero3_1, View.readCov_unit_zero (S := S8x512x1) _ zero3_1, View.readCov_unit_zero (S := S8x512x128) _ zero3_1]

end Cert.KernelIdeal.Hand

end
-- ==== Proof.LibOnlineSoftmax.lean ====
/-
  Online (blockwise) softmax on the extended reals.

  A row of finite scores `s i` over a finite set of keys, with a finite value `v i` per key, is consumed block by
  block. The carried state is a running maximum `m`, a running normaliser `l` and a running weighted sum `a`, started at
  `m = -∞`, `l = 0`, `a = 0`. A block `B` with largest score `Mb` updates it to

      m' = max m Mb,   l' = exp (m - m') · l + ∑_{i ∈ B} exp (s i - m'),   a' = exp (m - m') · a + ∑_{i ∈ B} exp (s i - m') · v i.

  Because exp (M - M') · exp (s i - M) = exp (s i - M') on the reals, after any number of pairwise disjoint non-empty
  blocks the state is the closed form over their union `S`:

      m = M = the largest score over S,   l = ∑_{i ∈ S} exp (s i - M),   a = ∑_{i ∈ S} exp (s i - M) · v i

  (`IsState`; `IsState.first` for the first block, `IsState.step` for every later one, `run_isState` for a whole
  sequence of blocks). The normaliser is a positive real, so the quotient `a / l` is the softmax-weighted sum with the
  division taken inside the sum, which is how a plain softmax followed by a contraction states it
  (`IsState.div_eq`). The last section cuts `T · W` keys into `T` consecutive blocks of width `W` and writes each block's
  maximum and sums over the places `k : Fin W` of the block (`next_block`, `run_blocks_div_eq`). All operations are the exact ones of the extended reals (`Ideal.exp`, `Ideal.div`, EReal's
  `+`, `·`, `-`, `max`), the first step's `-∞ - M = -∞`, `exp (-∞) = 0` included.
-/
import Idealize.ShloMosaic.PureOps.Ideal

noncomputable section

namespace Cert.Lib.OnlineSoftmax

open Idealize.ShloMosaic

variable {ι : Type*} [DecidableEq ι]

/-! ## Coercions -/

/-- The coercion of a finite sum of reals is the sum of the coercions. -/
theorem coe_sum (S : Finset ι) (f : ι → ℝ) : ((∑ i ∈ S, f i : ℝ) : EReal) = ∑ i ∈ S, (f i : EReal) := by
  induction S using Finset.induction_on with
  | empty => simp
  | insert a S ha ih => rw [Finset.sum_insert ha, Finset.sum_insert ha, EReal.coe_add, ih]

/-- The exponential of a real, on the extended reals, is the real exponential. -/
theorem exp_coe (r : ℝ) : Ideal.exp (r : EReal) = ((Real.exp r : ℝ) : EReal) := rfl

/-- `exp (-∞) = 0`. -/
theorem exp_bot : Ideal.exp ⊥ = 0 := rfl

/-- The exponential of a difference of two reals. -/
theorem exp_coe_sub (x y : ℝ) : Ideal.exp ((x : EReal) - (y : EReal)) = ((Real.exp (x - y) : ℝ) : EReal) := by
  rw [← EReal.coe_sub, exp_coe]

/-- The maximum of two reals, taken on the extended reals. -/
theorem max_coe (x y : ℝ) : max (x : EReal) (y : EReal) = ((max x y : ℝ) : EReal) :=
  (EReal.coe_strictMono.monotone.map_max).symm

/-! ## The largest score of a set -/

/-- `M` bounds the scores over `S` and is one of them. -/
def IsMax (S : Finset ι) (s : ι → ℝ) (M : ℝ) : Prop := (∀ i ∈ S, s i ≤ M) ∧ ∃ i ∈ S, s i = M

theorem exists_isMax {S : Finset ι} (s : ι → ℝ) (hS : S.Nonempty) : ∃ M, IsMax S s M :=
  ⟨S.sup' hS s, fun _ hi => Finset.le_sup' s hi,
    (Finset.exists_mem_eq_sup' hS s).imp fun _ h => ⟨h.1, h.2.symm⟩⟩

theorem IsMax.nonempty {S : Finset ι} {s : ι → ℝ} {M : ℝ} (h : IsMax S s M) : S.Nonempty :=
  let ⟨i, hi, _⟩ := h.2; ⟨i, hi⟩

theorem IsMax.unique {S : Finset ι} {s : ι → ℝ} {M M' : ℝ} (h : IsMax S s M) (h' : IsMax S s M') : M = M' := by
  obtain ⟨i, hi, rfl⟩ := h.2
  obtain ⟨j, hj, rfl⟩ := h'.2
  exact le_antisymm (h'.1 i hi) (h.1 j hj)

theorem IsMax.union {S B : Finset ι} {s : ι → ℝ} {M Mb : ℝ} (h : IsMax S s M) (hB : IsMax B s Mb) :
    IsMax (S ∪ B) s (max M Mb) := by
  refine ⟨fun i hi => ?_, ?_⟩
  · rcases Finset.mem_union.1 hi with hi | hi
    · exact (h.1 i hi).trans (le_max_left _ _)
    · exact (hB.1 i hi).trans (le_max_right _ _)
  · rcases le_total Mb M with hle | hle
    · obtain ⟨i, hi, e⟩ := h.2
      exact ⟨i, Finset.mem_union_left _ hi, by rw [e, max_eq_left hle]⟩
    · obtain ⟨i, hi, e⟩ := hB.2
      exact ⟨i, Finset.mem_union_right _ hi, by rw [e, max_eq_right hle]⟩

/-- A block's maximum taken as a fold of `max` from `-∞` over the coerced scores is the block's largest score. -/
theorem fold_max_bot_eq {B : Finset ι} {s : ι → ℝ} {Mb : ℝ} (h : IsMax B s Mb) :
    B.fold max (⊥ : EReal) (fun i => ((s i : ℝ) : EReal)) = (Mb : EReal) := by
  refine le_antisymm ((Finset.fold_max_le _).2 ⟨bot_le, fun i hi => EReal.coe_le_coe_iff.2 (h.1 i hi)⟩) ?_
  obtain ⟨i, hi, e⟩ := h.2
  exact (Finset.le_fold_max _).2 (Or.inr ⟨i, hi, by rw [e]⟩)

/-! ## The carried state in closed form -/

/-- The state `(m, l, a)` is the closed form over the keys `S`: `m` their largest score `M`, `l` the sum of
    `exp (s i - M)`, `a` the sum of `exp (s i - M) · v i`, all three real. -/
def IsState (S : Finset ι) (s v : ι → ℝ) (m l a : EReal) : Prop :=
  ∃ M : ℝ, IsMax S s M ∧ m = (M : EReal)
    ∧ l = ((∑ i ∈ S, Real.exp (s i - M) : ℝ) : EReal)
    ∧ a = ((∑ i ∈ S, Real.exp (s i - M) * v i : ℝ) : EReal)

/-- The block sums of the update, read as reals. -/
theorem block_den (B : Finset ι) (s : ι → ℝ) (M' : ℝ) :
    ∑ i ∈ B, Ideal.exp ((s i : EReal) - (M' : EReal)) = ((∑ i ∈ B, Real.exp (s i - M') : ℝ) : EReal) := by
  rw [coe_sum]; exact Finset.sum_congr rfl fun i _ => exp_coe_sub _ _

theorem block_num (B : Finset ι) (s v : ι → ℝ) (M' : ℝ) :
    ∑ i ∈ B, Ideal.exp ((s i : EReal) - (M' : EReal)) * (v i : EReal)
      = ((∑ i ∈ B, Real.exp (s i - M') * v i : ℝ) : EReal) := by
  rw [coe_sum]; exact Finset.sum_congr rfl fun i _ => by rw [exp_coe_sub, EReal.coe_mul]

/-- THE FIRST BLOCK: from `m = -∞`, `l = 0`, `a = 0` the update leaves the closed form over the block. -/
theorem IsState.first {B : Finset ι} {s v : ι → ℝ} {Mb : ℝ} (hB : IsMax B s Mb) :
    IsState B s v (max ⊥ (Mb : EReal))
      (Ideal.exp (⊥ - max ⊥ (Mb : EReal)) * 0 + ∑ i ∈ B, Ideal.exp ((s i : EReal) - max ⊥ (Mb : EReal)))
      (Ideal.exp (⊥ - max ⊥ (Mb : EReal)) * 0
        + ∑ i ∈ B, Ideal.exp ((s i : EReal) - max ⊥ (Mb : EReal)) * (v i : EReal)) := by
  rw [max_eq_right (bot_le : (⊥ : EReal) ≤ Mb), mul_zero, zero_add, zero_add, block_den, block_num]
  exact ⟨Mb, hB, rfl, rfl, rfl⟩

/-- A LATER BLOCK: from the closed form over `S`, a block disjoint from `S` leaves the closed form over `S ∪ B`. -/
theorem IsState.step {S B : Finset ι} {s v : ι → ℝ} {m l a : EReal} (hS : IsState S s v m l a)
    (hdisj : Disjoint S B) {Mb : ℝ} (hB : IsMax B s Mb) :
    IsState (S ∪ B) s v (max m (Mb : EReal))
      (Ideal.exp (m - max m (Mb : EReal)) * l + ∑ i ∈ B, Ideal.exp ((s i : EReal) - max m (Mb : EReal)))
      (Ideal.exp (m - max m (Mb : EReal)) * a
        + ∑ i ∈ B, Ideal.exp ((s i : EReal) - max m (Mb : EReal)) * (v i : EReal)) := by
  obtain ⟨M, hM, rfl, rfl, rfl⟩ := hS
  rw [max_coe, exp_coe_sub, block_den, block_num, ← EReal.coe_mul, ← EReal.coe_mul, ← EReal.coe_add,
    ← EReal.coe_add]
  refine ⟨max M Mb, hM.union hB, rfl, ?_, ?_⟩
  · rw [Finset.sum_union hdisj, Finset.mul_sum]
    refine congrArg (fun t : ℝ => (((t + ∑ i ∈ B, Real.exp (s i - max M Mb)) : ℝ) : EReal)) ?_
    exact Finset.sum_congr rfl fun i _ => by rw [← Real.exp_add]; congr 1; ring
  · rw [Finset.sum_union hdisj, Finset.mul_sum]
    refine congrArg (fun t : ℝ => (((t + ∑ i ∈ B, Real.exp (s i - max M Mb) * v i) : ℝ) : EReal)) ?_
    exact Finset.sum_congr rfl fun i _ => by rw [← mul_assoc, ← Real.exp_add]; congr 2; ring

/-! ## The quotient -/

/-- The normaliser of a closed form is a positive real. -/
theorem den_pos {S : Finset ι} {s : ι → ℝ} {M : ℝ} (hM : IsMax S s M) : 0 < ∑ i ∈ S, Real.exp (s i - M) :=
  Finset.sum_pos (fun _ _ => Real.exp_pos _) hM.nonempty

/-- The quotient of a closed form is the real quotient of its two sums. -/
theorem IsState.div_eq_coe {S : Finset ι} {s v : ι → ℝ} {m l a : EReal} (hS : IsState S s v m l a) {M : ℝ}
    (hM : IsMax S s M) :
    Ideal.div a l = (((∑ i ∈ S, Real.exp (s i - M) * v i) * (1 / ∑ i ∈ S, Real.exp (s i - M)) : ℝ) : EReal) := by
  obtain ⟨M0, hM0, -, rfl, rfl⟩ := hS
  obtain rfl := hM0.unique hM
  rw [Ideal.div_coe (den_pos hM).ne', ← EReal.coe_mul]

/-- THE QUOTIENT IS THE SOFTMAX-WEIGHTED SUM: `a / l` equals the sum over the keys of
    `(exp (s i - M) / ∑_j exp (s j - M)) · v i`, each division taken inside the sum. -/
theorem IsState.div_eq {S : Finset ι} {s v : ι → ℝ} {m l a : EReal} (hS : IsState S s v m l a) {M : ℝ}
    (hM : IsMax S s M) :
    Ideal.div a l
      = ∑ i ∈ S, Ideal.div (Ideal.exp ((s i : EReal) - (M : EReal)))
          (∑ j ∈ S, Ideal.exp ((s j : EReal) - (M : EReal))) * (v i : EReal) := by
  rw [hS.div_eq_coe hM, block_den]
  have hterm : ∀ i ∈ S, Ideal.div (Ideal.exp ((s i : EReal) - (M : EReal)))
        ((∑ j ∈ S, Real.exp (s j - M) : ℝ) : EReal) * (v i : EReal)
      = ((Real.exp (s i - M) * (1 / ∑ j ∈ S, Real.exp (s j - M)) * v i : ℝ) : EReal) := fun i _ => by
    rw [exp_coe_sub, Ideal.div_coe (den_pos hM).ne', ← EReal.coe_mul, ← EReal.coe_mul]
  rw [Finset.sum_congr rfl hterm, ← coe_sum]
  refine congrArg (fun t : ℝ => (t : EReal)) ?_
  rw [Finset.sum_mul]
  exact Finset.sum_congr rfl fun i _ => by ring

/-! ## A whole sequence of blocks -/

/-- One update of the carried state by the block `B`, with the block's maximum taken as the fold of `max` from `-∞`. -/
def next (s v : ι → ℝ) (B : Finset ι) (st : EReal × EReal × EReal) : EReal × EReal × EReal :=
  (max st.1 (B.fold max (⊥ : EReal) fun i => ((s i : ℝ) : EReal)),
   Ideal.exp (st.1 - max st.1 (B.fold max (⊥ : EReal) fun i => ((s i : ℝ) : EReal))) * st.2.1
     + ∑ i ∈ B, Ideal.exp ((s i : EReal) - max st.1 (B.fold max (⊥ : EReal) fun i => ((s i : ℝ) : EReal))),
   Ideal.exp (st.1 - max st.1 (B.fold max (⊥ : EReal) fun i => ((s i : ℝ) : EReal))) * st.2.2
     + ∑ i ∈ B, Ideal.exp ((s i : EReal) - max st.1 (B.fold max (⊥ : EReal) fun i => ((s i : ℝ) : EReal)))
         * (v i : EReal))

/-- The state after the first `n` blocks of the sequence `B`, from `(-∞, 0, 0)`. -/
def run (s v : ι → ℝ) (B : ℕ → Finset ι) : ℕ → EReal × EReal × EReal
  | 0 => (⊥, 0, 0)
  | n + 1 => next s v (B n) (run s v B n)

/-- After `n + 1` non-empty, pairwise disjoint blocks the state is the closed form over their union. -/
theorem run_isState (s v : ι → ℝ) (B : ℕ → Finset ι) (n : ℕ) (hne : ∀ k ≤ n, (B k).Nonempty)
    (hdisj : ∀ j ≤ n, ∀ k ≤ n, j ≠ k → Disjoint (B j) (B k)) :
    IsState ((Finset.range (n + 1)).biUnion B) s v (run s v B (n + 1)).1 (run s v B (n + 1)).2.1
      (run s v B (n + 1)).2.2 := by
  induction n with
  | zero =>
    obtain ⟨Mb, hMb⟩ := exists_isMax s (hne 0 le_rfl)
    have h := IsState.first (v := v) hMb
    rw [← fold_max_bot_eq hMb] at h
    simpa [run, next] using h
  | succ n ih =>
    obtain ⟨Mb, hMb⟩ := exists_isMax s (hne (n + 1) le_rfl)
    have hS := ih (fun k hk => hne k (Nat.le_succ_of_le hk))
      (fun j hj k hk hjk => hdisj j (Nat.le_succ_of_le hj) k (Nat.le_succ_of_le hk) hjk)
    have hd : Disjoint ((Finset.range (n + 1)).biUnion B) (B (n + 1)) := by
      rw [Finset.disjoint_biUnion_left]
      intro j hj
      have hj' : j ≤ n := Nat.lt_succ_iff.1 (Finset.mem_range.1 hj)
      exact hdisj j (Nat.le_succ_of_le hj') (n + 1) le_rfl (by omega)
    have h := hS.step hd hMb
    rw [← fold_max_bot_eq hMb] at h
    rw [Finset.range_add_one, Finset.biUnion_insert, Finset.union_comm]
    exact h

/-! ## Keys cut into consecutive blocks of equal width

    `T · W` keys in row-major order: block `j` holds the keys `j · W + k`, `k < W` — the column tiles a kernel walks
    along its innermost grid axis. A sum or a maximum over a block is the one over `k : Fin W` that a tile's lane reduction
    or matrix product states. -/

section Tiles

variable {T W : ℕ}

/-- Key `k` of block `j`. -/
def key (j : Fin T) (k : Fin W) : Fin (T * W) :=
  ⟨j.val * W + k.val, by
    have h2 : (j.val + 1) * W ≤ T * W := Nat.mul_le_mul_right W j.isLt
    have h3 : (j.val + 1) * W = j.val * W + W := Nat.succ_mul _ _
    have := k.isLt
    omega⟩

theorem key_val (j : Fin T) (k : Fin W) : (key j k).val = j.val * W + k.val := rfl

/-- Two keys agree only in the same block at the same place. -/
theorem key_eq_key {j j' : Fin T} {k k' : Fin W} (h : key j k = key j' k') : j = j' ∧ k = k' := by
  have hv : j.val * W + k.val = j'.val * W + k'.val := congrArg Fin.val h
  have hk := k.isLt
  have hk' := k'.isLt
  have hj : j.val = j'.val := by
    rcases Nat.lt_trichotomy j.val j'.val with hlt | heq | hgt
    · have h2 : (j.val + 1) * W ≤ j'.val * W := Nat.mul_le_mul_right W hlt
      have h3 : (j.val + 1) * W = j.val * W + W := Nat.succ_mul _ _
      omega
    · exact heq
    · have h2 : (j'.val + 1) * W ≤ j.val * W := Nat.mul_le_mul_right W hgt
      have h3 : (j'.val + 1) * W = j'.val * W + W := Nat.succ_mul _ _
      omega
  refine ⟨Fin.ext hj, Fin.ext ?_⟩
  rw [hj] at hv
  omega

/-- Block `j`: its `W` keys. -/
def block (j : Fin T) : Finset (Fin (T * W)) :=
  Finset.univ.map ⟨key j, fun _ _ h => (key_eq_key h).2⟩

theorem mem_block {j : Fin T} {i : Fin (T * W)} : i ∈ block (W := W) j ↔ ∃ k : Fin W, key j k = i := by
  unfold block
  simp only [Finset.mem_map, Finset.mem_univ, true_and]
  exact Iff.rfl

/-- A sum over a block is the sum over its places. -/
theorem sum_block {A : Type*} [AddCommMonoid A] (j : Fin T) (f : Fin (T * W) → A) :
    ∑ i ∈ block j, f i = ∑ k : Fin W, f (key j k) := by
  unfold block; rw [Finset.sum_map]; rfl

/-- A fold of `max` over a block is the fold over its places. -/
theorem fold_max_block (j : Fin T) (b : EReal) (f : Fin (T * W) → EReal) :
    (block j).fold max b f = (Finset.univ : Finset (Fin W)).fold max b fun k => f (key j k) := by
  unfold block; rw [Finset.fold_map]; rfl

theorem block_nonempty (hW : 0 < W) (j : Fin T) : (block (W := W) j).Nonempty :=
  ⟨key j ⟨0, hW⟩, mem_block.2 ⟨_, rfl⟩⟩

theorem block_disjoint {j j' : Fin T} (h : j ≠ j') : Disjoint (block (W := W) j) (block j') := by
  rw [Finset.disjoint_left]
  intro i hi hi'
  obtain ⟨k, rfl⟩ := mem_block.1 hi
  obtain ⟨k', e⟩ := mem_block.1 hi'
  exact h (key_eq_key e).1.symm

/-- Every key lies in the block its quotient by `W` names. -/
theorem exists_key (hW : 0 < W) (i : Fin (T * W)) : ∃ (j : Fin T) (k : Fin W), key j k = i :=
  ⟨⟨i.val / W, Nat.div_lt_of_lt_mul (lt_of_lt_of_eq i.isLt (Nat.mul_comm T W))⟩, ⟨i.val % W, Nat.mod_lt _ hW⟩,
    Fin.ext (Nat.div_add_mod' _ _)⟩

/-- The blocks as a sequence (empty past the last one). -/
def blocks (n : ℕ) : Finset (Fin (T * W)) := if h : n < T then block ⟨n, h⟩ else ∅

theorem blocks_of_lt {n : ℕ} (h : n < T) : blocks (W := W) n = block ⟨n, h⟩ := dif_pos h

theorem biUnion_blocks (hW : 0 < W) : (Finset.range T).biUnion (blocks (T := T) (W := W)) = Finset.univ := by
  ext i
  simp only [Finset.mem_biUnion, Finset.mem_range, Finset.mem_univ, iff_true]
  obtain ⟨j, k, e⟩ := exists_key hW i
  exact ⟨j.val, j.isLt, by rw [blocks_of_lt j.isLt]; exact mem_block.2 ⟨k, e⟩⟩

/-- One update by block `j`, with the block's maximum and sums written over its places `k : Fin W`. -/
theorem next_block (s v : Fin (T * W) → ℝ) (j : Fin T) (st : EReal × EReal × EReal) :
    next s v (block j) st
      = (max st.1 ((Finset.univ : Finset (Fin W)).fold max (⊥ : EReal) fun k => ((s (key j k) : ℝ) : EReal)),
         Ideal.exp (st.1 - max st.1
              ((Finset.univ : Finset (Fin W)).fold max (⊥ : EReal) fun k => ((s (key j k) : ℝ) : EReal))) * st.2.1
           + ∑ k : Fin W, Ideal.exp ((s (key j k) : EReal) - max st.1
              ((Finset.univ : Finset (Fin W)).fold max (⊥ : EReal) fun k => ((s (key j k) : ℝ) : EReal))),
         Ideal.exp (st.1 - max st.1
              ((Finset.univ : Finset (Fin W)).fold max (⊥ : EReal) fun k => ((s (key j k) : ℝ) : EReal))) * st.2.2
           + ∑ k : Fin W, Ideal.exp ((s (key j k) : EReal) - max st.1
              ((Finset.univ : Finset (Fin W)).fold max (⊥ : EReal) fun k => ((s (key j k) : ℝ) : EReal)))
               * (v (key j k) : EReal)) := by
  unfold next
  rw [fold_max_block, sum_block, sum_block]

/-- ALL THE BLOCKS: after the `T` blocks of `T · W` keys the carried state is the closed form over every key. -/
theorem run_blocks_isState (hT : 0 < T) (hW : 0 < W) (s v : Fin (T * W) → ℝ) :
    IsState Finset.univ s v (run s v (blocks (T := T) (W := W)) T).1 (run s v (blocks (T := T) (W := W)) T).2.1
      (run s v (blocks (T := T) (W := W)) T).2.2 := by
  obtain ⟨n, rfl⟩ : ∃ n, T = n + 1 := ⟨T - 1, by omega⟩
  rw [← biUnion_blocks (T := n + 1) hW]
  refine run_isState s v blocks n (fun k hk => ?_) (fun j hj k hk hjk => ?_)
  · rw [blocks_of_lt (Nat.lt_succ_of_le hk)]; exact block_nonempty hW _
  · rw [blocks_of_lt (Nat.lt_succ_of_le hj), blocks_of_lt (Nat.lt_succ_of_le hk)]
    exact block_disjoint fun e => hjk (congrArg Fin.val e)

/-- So the final quotient is the softmax-weighted sum over all `T · W` keys, each division inside the sum. -/
theorem run_blocks_div_eq (hT : 0 < T) (hW : 0 < W) (s v : Fin (T * W) → ℝ) {M : ℝ}
    (hM : IsMax Finset.univ s M) :
    Ideal.div (run s v (blocks (T := T) (W := W)) T).2.2 (run s v (blocks (T := T) (W := W)) T).2.1
      = ∑ i : Fin (T * W), Ideal.div (Ideal.exp ((s i : EReal) - (M : EReal)))
          (∑ j : Fin (T * W), Ideal.exp ((s j : EReal) - (M : EReal))) * (v i : EReal) :=
  (run_blocks_isState hT hW s v).div_eq hM

end Tiles

end Cert.Lib.OnlineSoftmax

end
-- ==== Proof.LibAttnRow.lean ====
/-
  One query row of blockwise attention over 4096 keys cut into 16 tiles of 256, on the extended reals.

  For real scores sc i and real values val i, the carried state (maximum, normaliser, weighted sum) started at (−∞, 0, 0)
  and updated tile by tile — the new maximum is the old one against the tile's largest score, the two sums are rescaled
  by exp (old maximum − new maximum) and the tile's terms exp (score − new maximum) are added — ends, after the sixteenth
  tile, with weighted sum over normaliser equal to the softmax-weighted sum of the values over all 4096 keys, each
  division taken inside the sum and the maximum being the fold of max from −∞ over all the scores.
-/
import proofs.«144140_j35399120453979_2_alg».proof.Proof.LibOnlineSoftmax
import proofs.«144140_j35399120453979_2_alg».proof.Proof.LibRealValued
import proofs.«144140_j35399120453979_2_alg».proof.Proof.Spec

noncomputable section

namespace Cert.Lib.AttnRow

open Idealize.ShloMosaic Cert.Lib.OnlineSoftmax Cert.Lib.RealValued

/-- Key k of tile kv among the 4096 keys: 256·kv + k. -/
def kidx (kv : Fin 16) (k : Fin 256) : Fin 4096 :=
  ⟨kv.val * 256 + k.val, by have := kv.isLt; have := k.isLt; omega⟩

theorem kidx_val (kv : Fin 16) (k : Fin 256) : (kidx kv k).val = kv.val * 256 + k.val := rfl

/-- One tile's update of the carried state (maximum, normaliser, weighted sum). -/
def tileStep (sc val : Fin 4096 → EReal) (kv : Fin 16) (st : EReal × EReal × EReal) : EReal × EReal × EReal :=
  (max st.1 ((Finset.univ : Finset (Fin 256)).fold max (⊥ : EReal) fun k => sc (kidx kv k)),
   Ideal.exp (st.1 - max st.1 ((Finset.univ : Finset (Fin 256)).fold max (⊥ : EReal) fun k => sc (kidx kv k))) * st.2.1
     + ∑ k : Fin 256, Ideal.exp (sc (kidx kv k) - max st.1 ((Finset.univ : Finset (Fin 256)).fold max (⊥ : EReal) fun k => sc (kidx kv k))),
   Ideal.exp (st.1 - max st.1 ((Finset.univ : Finset (Fin 256)).fold max (⊥ : EReal) fun k => sc (kidx kv k))) * st.2.2
     + ∑ k : Fin 256, Ideal.exp (sc (kidx kv k) - max st.1 ((Finset.univ : Finset (Fin 256)).fold max (⊥ : EReal) fun k => sc (kidx kv k)))
         * val (kidx kv k))

/-- On coerced reals a tile's update is the online-softmax update by the tile's block of keys. -/
theorem tileStep_coe (s v : Fin 4096 → ℝ) (kv : Fin 16) (st : EReal × EReal × EReal) :
    tileStep (fun i => ((s i : ℝ) : EReal)) (fun i => ((v i : ℝ) : EReal)) kv st
      = next (ι := Fin (16 * 256)) s v (block (T := 16) (W := 256) kv) st := by
  exact (next_block (T := 16) (W := 256) s v kv st).symm

/-- The state after tile n, for a sequence of states each the update of the one before, is the online-softmax run. -/
theorem tiles_eq_run (s v : Fin 4096 → ℝ) (st : Fin 16 → EReal × EReal × EReal)
    (h0 : st 0 = tileStep (fun i => ((s i : ℝ) : EReal)) (fun i => ((v i : ℝ) : EReal)) 0 (⊥, 0, 0))
    (hstep : ∀ (kv : Fin 16) (h : kv.val + 1 < 16),
      st ⟨kv.val + 1, h⟩ = tileStep (fun i => ((s i : ℝ) : EReal)) (fun i => ((v i : ℝ) : EReal)) ⟨kv.val + 1, h⟩ (st kv))
    (n : ℕ) (hn : n < 16) :
    st ⟨n, hn⟩ = run (ι := Fin (16 * 256)) s v (blocks (T := 16) (W := 256)) (n + 1) := by
  induction n with
  | zero =>
    show st 0 = next _ _ (blocks 0) (⊥, 0, 0)
    rw [h0, tileStep_coe, blocks_of_lt (by decide : 0 < 16)]
    rfl
  | succ n ih =>
    have hn' : n < 16 := Nat.lt_of_succ_lt hn
    show _ = next _ _ (blocks (n + 1)) (run _ _ _ (n + 1))
    rw [hstep ⟨n, hn'⟩ hn, tileStep_coe, blocks_of_lt hn, ih hn']

/-- THE ROW: after the sixteen tiles, weighted sum over normaliser is the softmax-weighted sum over all the keys. -/
theorem tiles_div_eq (sc val : Fin 4096 → EReal) (hs : ∀ i, IsReal (sc i)) (hv : ∀ i, IsReal (val i))
    (st : Fin 16 → EReal × EReal × EReal)
    (h0 : st 0 = tileStep sc val 0 (⊥, 0, 0))
    (hstep : ∀ (kv : Fin 16) (h : kv.val + 1 < 16), st ⟨kv.val + 1, h⟩ = tileStep sc val ⟨kv.val + 1, h⟩ (st kv)) :
    Ideal.div (st 15).2.2 (st 15).2.1
      = ∑ i : Fin 4096, Ideal.div (Ideal.exp (sc i - (Finset.univ : Finset (Fin 4096)).fold max (⊥ : EReal) sc))
          (∑ i' : Fin 4096, Ideal.exp (sc i' - (Finset.univ : Finset (Fin 4096)).fold max (⊥ : EReal) sc)) * val i := by
  obtain ⟨s, hs'⟩ := exists_real_fun hs
  obtain ⟨v, hv'⟩ := exists_real_fun hv
  obtain rfl : sc = fun i => ((s i : ℝ) : EReal) := funext hs'
  obtain rfl : val = fun i => ((v i : ℝ) : EReal) := funext hv'
  obtain ⟨M, hM⟩ := exists_isMax (ι := Fin (16 * 256)) (S := Finset.univ) s ⟨⟨0, by decide⟩, Finset.mem_univ _⟩
  have hfold : (Finset.univ : Finset (Fin 4096)).fold max (⊥ : EReal) (fun i => ((s i : ℝ) : EReal)) = (M : EReal) :=
    fold_max_bot_eq (ι := Fin (16 * 256)) hM
  rw [hfold, show st 15 = st ⟨15, by decide⟩ from rfl, tiles_eq_run s v st h0 hstep 15 (by decide)]
  exact run_blocks_div_eq (T := 16) (W := 256) (by decide) (by decide) s v hM

end Cert.Lib.AttnRow

end
-- ==== Proof.IAttnValue1Idx.lean ====
/-
  Attention region 1: where each window's block sits in its array, decided over the 128 grid points, and the input
  blocks read at explicit coordinates. Point t is key step t % 16 of query tile t / 16: the query window's and the
  result window's blocks are rows 512·(t/16) … of their arrays, the key window is the whole projected array (the body
  loads rows 256·(t%16) … of it), the mask window's block is rows 512·(t/16) …, columns 256·(t%16) … of the mask, and
  the bias window is the whole bias.
-/
import proofs.«144140_j35399120453979_2_alg».proof.Proof.IRuns1
import proofs.«144140_j35399120453979_2_alg».proof.Proof.LibAttnRow
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Lib.AttnRow

variable (V : (c : Dev nD) → (b : Ref sig .tc) → Buf (Elt Ideal) ((c : Thread nD τ).loc b))

/-- The printed index maps and the key coordinate, decided over the grid. -/
theorem idx_facts1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val / 16 ∧ win1_2.index t (1 : Fin 2) = t.val % 16
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = t.val / 16 ∧ win1_4.index t (2 : Fin 3) = 0
    ∧ (grid1.coords t (1 : Fin 2)).val = t.val % 16 :=
  (by decide +kernel : ∀ t : Fin grid1.N, _)

/-- Row r of point t's query tile is row 512·(t/16) + r of the array. -/
abbrev qrow1 (t : Fin cfg1.N) (r : Fin 512) : Fin 4096 :=
  ⟨t.val / 16 * 512 + r.val, by have := Nat.lt_of_lt_of_eq t.isLt (N_1 : cfg1.N = 128); have := r.isLt; omega⟩

/-- The key step of point t. -/
abbrev kstep1 (t : Fin cfg1.N) : Fin 16 := ⟨t.val % 16, Nat.mod_lt _ (by decide)⟩

/-- The query block at point t, read at (b, r, d), is the projected array at (b, 512·(t/16) + r, d). -/
theorem iblk1_0_apply (c : Dev nD) (t : Fin cfg1.N) (b : Fin 8) (r : Fin 512) (d : Fin 128) :
    (iblk1 V c 0 t : Vec Ideal S8x512x128 .bf16) (ix3 b r d) = (V c main_v0 : S8x4096x128.Idx → EReal) (ix3 b (qrow1 t r) d) := by
  obtain ⟨e0, e1, e2, -⟩ := idx_facts1 t
  unfold iblk1
  rw [View.read_apply]
  show V c main_v0 _ = V c main_v0 _
  congr 1
  funext a
  apply Fin.ext
  match a with
  | ⟨0, _⟩ => show win1_0.index t (0 : Fin 3) * 8 + 1 * b.val = b.val; rw [e0]; omega
  | ⟨1, _⟩ => show win1_0.index t (1 : Fin 3) * 512 + 1 * r.val = t.val / 16 * 512 + r.val; rw [e1]; omega
  | ⟨2, _⟩ => show win1_0.index t (2 : Fin 3) * 128 + 1 * d.val = d.val; rw [e2]; omega

/-- The key window's block at every point is the whole projected array. -/
theorem iblk1_1_apply (c : Dev nD) (t : Fin cfg1.N) (b : Fin 8) (m : Fin 4096) (d : Fin 128) :
    (iblk1 V c 1 t : Vec Ideal S8x4096x128 .bf16) (ix3 b m d) = (V c main_v0 : S8x4096x128.Idx → EReal) (ix3 b m d) := by
  obtain ⟨-, -, -, e0, e1, e2, -⟩ := idx_facts1 t
  unfold iblk1
  rw [View.read_apply]
  show V c main_v0 _ = V c main_v0 _
  congr 1
  funext a
  apply Fin.ext
  match a with
  | ⟨0, _⟩ => show win1_1.index t (0 : Fin 3) * 8 + 1 * b.val = b.val; rw [e0]; omega
  | ⟨1, _⟩ => show win1_1.index t (1 : Fin 3) * 4096 + 1 * m.val = m.val; rw [e1]; omega
  | ⟨2, _⟩ => show win1_1.index t (2 : Fin 3) * 128 + 1 * d.val = d.val; rw [e2]; omega

/-- The key tile the body loads at point t, read at (b, k, d): the projected array at (b, 256·(t%16) + k, d). -/
theorem ktile1_apply (c : Dev nD) (t : Fin cfg1.N) (b : Fin 8) (k : Fin 256) (d : Fin 128) :
    (View.ld (iblk1 V c 1 t : Vec Ideal S8x4096x128 .bf16) (Rect.unit (s := S8x4096x128) (k1_off1 (grid1.coords t)) S8x256x128.size (k1_off1_inb (grid1.coords t))) : Vec Ideal S8x256x128 .bf16) (ix3 b k d)
      = (V c main_v0 : S8x4096x128.Idx → EReal) (ix3 b (kidx (kstep1 t) k) d) := by
  obtain ⟨-, -, -, -, -, -, -, -, -, -, -, -, -, -, ek⟩ := idx_facts1 t
  have hb := b.isLt; have hk := k.isLt; have hd := d.isLt
  have hmod : t.val % 16 < 16 := Nat.mod_lt _ (by decide)
  have e : (Rect.unit (s := S8x4096x128) (k1_off1 (grid1.coords t)) S8x256x128.size (k1_off1_inb (grid1.coords t))).idx (ix3 b k d : S8x256x128.Idx)
      = (ix3 b (⟨256 * (t.val % 16) + k.val, by omega⟩ : Fin 4096) d : S8x4096x128.Idx) := by
    funext a
    apply Fin.ext
    have ho := k1_off1_eq (grid1.coords t)
    match a with
    | ⟨0, _⟩ => show k1_off1 (grid1.coords t) (0 : Fin 3) + 1 * b.val = b.val; rw [ho]; show 0 + 1 * b.val = b.val; omega
    | ⟨1, _⟩ => show k1_off1 (grid1.coords t) (1 : Fin 3) + 1 * k.val = 256 * (t.val % 16) + k.val; rw [ho]; show 256 * (grid1.coords t (1 : Fin 2)).val + 1 * k.val = _; rw [ek]; omega
    | ⟨2, _⟩ => show k1_off1 (grid1.coords t) (2 : Fin 3) + 1 * d.val = d.val; rw [ho]; show 0 + 1 * d.val = d.val; omega
  show (iblk1 V c 1 t : Vec Ideal S8x4096x128 .bf16) _ = _
  rw [e, iblk1_1_apply]
  congr 2
  apply Fin.ext
  show 256 * (t.val % 16) + k.val = t.val % 16 * 256 + k.val
  omega

/-- The mask block at point t, read at (r, k), is the mask at (512·(t/16) + r, 256·(t%16) + k). -/
theorem iblk1_2_apply (c : Dev nD) (t : Fin cfg1.N) (r : Fin 512) (k : Fin 256) :
    (iblk1 V c 2 t : Vec Ideal S512x256 .f32) (ix2 r k) = (V c main_arg1 : S4096x4096.Idx → EReal) (ix2 (qrow1 t r) (kidx (kstep1 t) k)) := by
  obtain ⟨-, -, -, -, -, -, e0, e1, -⟩ := idx_facts1 t
  unfold iblk1
  rw [View.read_apply]
  show V c main_arg1 _ = V c main_arg1 _
  congr 1
  funext a
  apply Fin.ext
  match a with
  | ⟨0, _⟩ => show win1_2.index t (0 : Fin 2) * 512 + 1 * r.val = t.val / 16 * 512 + r.val; rw [e0]; omega
  | ⟨1, _⟩ => show win1_2.index t (1 : Fin 2) * 256 + 1 * k.val = t.val % 16 * 256 + k.val; rw [e1]; omega

/-- The bias window's block at every point is the whole bias. -/
theorem iblk1_3_apply (c : Dev nD) (t : Fin cfg1.N) (j : Fin 128) :
    (iblk1 V c 3 t : Vec Ideal S1x1x128 .f32) (ix3 (0 : Fin 1) (0 : Fin 1) j) = (V c main_v1 : S1x1x128.Idx → EReal) (ix3 (0 : Fin 1) (0 : Fin 1) j) := by
  obtain ⟨-, -, -, -, -, -, -, -, e0, e1, e2, -⟩ := idx_facts1 t
  unfold iblk1
  rw [View.read_apply]
  show V c main_v1 _ = V c main_v1 _
  congr 1
  funext a
  apply Fin.ext
  match a with
  | ⟨0, _⟩ => show win1_3.index t (0 : Fin 3) * 1 + 1 * 0 = 0; rw [e0]
  | ⟨1, _⟩ => show win1_3.index t (1 : Fin 3) * 1 + 1 * 0 = 0; rw [e1]
  | ⟨2, _⟩ => show win1_3.index t (2 : Fin 3) * 128 + 1 * j.val = j.val; rw [e2]; omega

end Cert.KernelIdeal.HandValue

end
-- ==== Proof.LibKeepdimsLayout.lean ====
/-
  Layout operations, lane sums and a plain two-axis matrix product read at an index given by coordinates, for the
  keepdims shapes a pairwise network meets: a trailing or middle unit axis added by a shape cast, two leading unit axes
  added or dropped, two leading axes merged into one and a trailing axis split in two (both row-major), a broadcast
  along one or two unit axes of a rank-3 array, a sum over the first axis of a matrix and over the last axis of a
  rank-3 array, and a matrix product into a zero accumulator as the sum over the contracted coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLayout

open Idealize.ShloMosaic Idealize.ShloMosaic.ValueIdx

variable {α : Type}

/-! ## Shape casts that add or drop unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, d)`, the operand at `(i, d)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (d : Fin c) :
    shapeCast ⟨3, ![a, 1, c]⟩ x h (ix3 i u d) = x (ix2 i d) :=
  shapeCast_apply x h _ _ (by
    have hu : u.val = 0 := by omega
    rw [Shape.rowMajor_val_three, Shape.rowMajor_val_two]
    show i.val * c + d.val = (i.val * 1 + u.val) * c + d.val
    rw [hu, Nat.mul_one, Nat.add_zero])

/-- A vector `[c]` cast to `[1, 1, c]` reads, at `(u, v, d)`, the operand at `d`. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

/-! ## Row-major merges and splits -/

/-- An `[a, b, c]` array cast to `[n, c]` with the two leading axes merged reads, at `(r, d)` with `r = i * b + j`,
    the operand at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- An `[n, c]` array cast to `[a, m]` with `n = a * b` rows regrouped `b` to a row, so `m = b * c`, reads, at
    `(i, q)` with `q = j * c + o`, the operand at `(r, o)` with `r = i * b + j`. -/
theorem shapeCast_nc_am_apply {a b c n m : ℕ} (x : (⟨2, ![n, c]⟩ : Shape).Idx → α)
    (h : (⟨2, ![n, c]⟩ : Shape).ShapeCasts ⟨2, ![a, m]⟩) (hm : m = b * c) (i : Fin a) (j : Fin b) (o : Fin c)
    (r : Fin n) (q : Fin m) (hr : r.val = i.val * b + j.val) (hq : q.val = j.val * c + o.val) :
    shapeCast ⟨2, ![a, m]⟩ x h (ix2 i q) = x (ix2 r o) :=
  shapeCast_apply x h _ _ (by
    rw [Shape.rowMajor_val_two, Shape.rowMajor_val_two]
    show r.val * c + o.val = i.val * m + q.val
    rw [hr, hq, hm]
    ring)

/-! ## Broadcasts of a rank-3 array along its unit axes -/

/-- An `[a, 1, c]` array broadcast to `[a, b, c]` reads, at `(i, j, d)`, the operand at `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(i, j, d)`, the operand at `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- A `[1, 1, c]` array broadcast to `[a, b, c]` reads, at `(i, j, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (d : Fin c) :
    broadcastTo ⟨3, ![a, b, c]⟩ v h (ix3 i j d) = v (ix3 (0 : Fin 1) (0 : Fin 1) d) := by
  refine broadcastTo_apply v h (ix3 i j d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- An `[a, b, 1]` array broadcast to `[a, b, c]` reads, at `(i, j, d)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Sums over one axis -/

/-- The sum of an `[a, c]` matrix over its rows reads, at `f`, the sum over `r` of the matrix at `(r, f)`. -/
theorem rowSum_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = 0x00000000#32) (f : Fin c) :
    multiReduction .add [0] ⟨1, ![c]⟩ src 0x00000000#32 h hφ hacc (ix1 f) = ∑ r : Fin a, src (ix2 r f) := by
  refine (Ideal.multiReduction_add_single src 0x00000000#32 h hφ hacc (ix1 f)).trans ?_
  refine Finset.sum_congr rfl fun r _ => congrArg src (funext fun ax => Fin.ext ?_)
  match ax with
  | ⟨0, _⟩ => rfl
  | ⟨1, _⟩ => rfl

/-- The sum of an `[a, b, c]` array over its last axis reads, at `(i, j)`, the sum over `d` of the array at
    `(i, j, d)`. -/
theorem laneSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ d : Fin c, src (ix3 i j d) := by
  refine (Ideal.multiReduction_add_single src 0x00000000#32 h hφ hacc (ix2 i j)).trans ?_
  refine Finset.sum_congr rfl fun d _ => congrArg src (funext fun ax => Fin.ext ?_)
  match ax with
  | ⟨0, _⟩ => rfl
  | ⟨1, _⟩ => rfl
  | ⟨2, _⟩ => rfl

/-! ## A plain matrix product into a zero accumulator -/

/-- For dimension numbers that contract the left operand's columns with the right operand's rows (`hl0` … `hr1`: the
    operand indices at an output index and a contraction position, read off the numbers), an `[m, k] · [k, n]`
    product into the zero splat reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (lhs : FVec Ideal ⟨2, ![m, k]⟩ φ₁) (rhs : FVec Ideal ⟨2, ![k, n]⟩ φ₂)
    (r : Fin m) (c : Fin n) :
    matmul D prec lhs rhs (constant (F := Ideal) ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.KernelIdeal.PayLayout

end
-- ==== Proof.IValueAttnCommon.lean ====
/-
  Two small readings shared by the two attention kernels' values, on the extended reals: the f32 word of −∞, and a
  maximum over the last axis of a rank-3 array as a fold of max from −∞.
-/
import Idealize.ShloMosaic.PureOps.Ideal
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.TcCoe Idealize.ShloMosaic.ValueIdx

/-- The f32 word of −∞ is the bottom of the extended reals. -/
theorem ofBits_ninf : Ideal.ofBits .f32 0xFF800000#32 = ⊥ := by simp [Ideal.ofBits, Ideal.ieee]

/-- The maximum of an [a, b, c] array over its last axis reads, at (i, j), the fold of max from −∞ over d of the array
    at (i, j, d). -/
theorem laneMax_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = FKind.maximumf.neutral .f32 hφ) (i : Fin a) (j : Fin b) :
    multiReduction .maximumf [2] ⟨2, ![a, b]⟩ src 0xFF800000#32 h hφ hacc (ix2 i j)
      = (Finset.univ : Finset (Fin c)).fold max (⊥ : EReal) (fun d => src (ix3 i j d)) := by
  refine (Ideal.multiReduction_maximumf_single src 0xFF800000#32 h hφ hacc (ix2 i j)).trans ?_
  show (Finset.univ : Finset (Fin c)).fold max (Ideal.ofBits .f32 0xFF800000#32) (fun d => src (h.lift (ix2 i j) d)) = _
  rw [ofBits_ninf]
  refine congrArg (fun f => (Finset.univ : Finset (Fin c)).fold max (⊥ : EReal) f) (funext fun d => congrArg src (funext fun ax => Fin.ext ?_))
  match ax with
  | ⟨0, _⟩ => rfl
  | ⟨1, _⟩ => rfl
  | ⟨2, _⟩ => rfl

end Cert.KernelIdeal.HandValue

end
-- ==== Proof.IValueAttn1.lean ====
/-
  The first attention kernel's pure values read at an index, on the extended reals: the masked scores of a key tile,
  the new running maximum, the rescaling factor and the tile's weights, the updated normaliser and weighted sum, the
  epilogue, the initial values — and one key tile's update of the carried state in the online-softmax form.
-/
import proofs.«144140_j35399120453979_2_alg».proof.Proof.Gen.KernelIdeal.Skeleton
import proofs.«144140_j35399120453979_2_alg».proof.Proof.Spec
import proofs.«144140_j35399120453979_2_alg».proof.Proof.LibKeepdimsLayout
import proofs.«144140_j35399120453979_2_alg».proof.Proof.IValueAttnCommon
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Pipeline (Dat)

/-! ## The score matmul's operand indices -/

theorem k1_qk_lhs_0 (i : S8x512x256.Idx) (q : dot_S8x512x128_S8x256x128_S8x512x256_2_2_1_1_0_0.contr.Idx) : (dot_S8x512x128_S8x256x128_S8x512x256_2_2_1_1_0_0.lhsIdx i q 0).val = (i 0).val := by
  unfold DotDims.lhsIdx
  rw [dif_pos (show (0 : Fin S8x512x128.rank) ∈ dot_S8x512x128_S8x256x128_S8x512x256_2_2_1_1_0_0.lhsBatch by decide)]
  rfl
theorem k1_qk_lhs_1 (i : S8x512x256.Idx) (q : dot_S8x512x128_S8x256x128_S8x512x256_2_2_1_1_0_0.contr.Idx) : (dot_S8x512x128_S8x256x128_S8x512x256_2_2_1_1_0_0.lhsIdx i q 1).val = (i 1).val := by
  unfold DotDims.lhsIdx
  rw [dif_neg (show ¬(1 : Fin S8x512x128.rank) ∈ dot_S8x512x128_S8x256x128_S8x512x256_2_2_1_1_0_0.lhsBatch by decide), dif_pos (show (1 : Fin S8x512x128.rank) ∈ dot_S8x512x128_S8x256x128_S8x512x256_2_2_1_1_0_0.lhsNonContracting by decide)]
  rfl
theorem k1_qk_lhs_2 (i : S8x512x256.Idx) (q : dot_S8x512x128_S8x256x128_S8x512x256_2_2_1_1_0_0.contr.Idx) : (dot_S8x512x128_S8x256x128_S8x512x256_2_2_1_1_0_0.lhsIdx i q 2).val = (q ⟨0, by decide⟩).val :=
  dot_S8x512x128_S8x256x128_S8x512x256_2_2_1_1_0_0.lhsIdx_val_of_single rfl i q
theorem k1_qk_rhs_0 (i : S8x512x256.Idx) (q : dot_S8x512x128_S8x256x128_S8x512x256_2_2_1_1_0_0.contr.Idx) : (dot_S8x512x128_S8x256x128_S8x512x256_2_2_1_1_0_0.rhsIdx i q 0).val = (i 0).val := by
  unfold DotDims.rhsIdx
  rw [dif_pos (show (0 : Fin S8x256x128.rank) ∈ dot_S8x512x128_S8x256x128_S8x512x256_2_2_1_1_0_0.rhsBatch by decide)]
  rfl
theorem k1_qk_rhs_1 (i : S8x512x256.Idx) (q : dot_S8x512x128_S8x256x128_S8x512x256_2_2_1_1_0_0.contr.Idx) : (dot_S8x512x128_S8x256x128_S8x512x256_2_2_1_1_0_0.rhsIdx i q 1).val = (i 2).val := by
  unfold DotDims.rhsIdx
  rw [dif_neg (show ¬(1 : Fin S8x256x128.rank) ∈ dot_S8x512x128_S8x256x128_S8x512x256_2_2_1_1_0_0.rhsBatch by decide), dif_pos (show (1 : Fin S8x256x128.rank) ∈ dot_S8x512x128_S8x256x128_S8x512x256_2_2_1_1_0_0.rhsNonContracting by decide)]
  rfl
theorem k1_qk_rhs_2 (i : S8x512x256.Idx) (q : dot_S8x512x128_S8x256x128_S8x512x256_2_2_1_1_0_0.contr.Idx) : (dot_S8x512x128_S8x256x128_S8x512x256_2_2_1_1_0_0.rhsIdx i q 2).val = (q ⟨0, by decide⟩).val :=
  dot_S8x512x128_S8x256x128_S8x512x256_2_2_1_1_0_0.rhsIdx_val_of_single rfl i q

/-- The unmasked score of query q against key k of the tile: the contraction of the two projected rows. -/
theorem k1_qk_apply (hq : FVec Ideal S8x512x128 .bf16) (hk : FVec Ideal S8x256x128 .bf16) (b : Fin 8) (q : Fin 512) (k : Fin 256) :
    (FloatOps.matmul (φ₁ := .bf16) (φ₂ := .bf16) dot_S8x512x128_S8x256x128_S8x512x256_2_2_1_1_0_0 none hq hk (constant S8x512x256 .f32 0x00000000#32) : FVec Ideal S8x512x256 .f32) (ix3 b q k)
      = ∑ d : Fin 128, hq (ix3 b q d) * hk (ix3 b k d) := by
  rw [Ideal.matmul_constant_zero_apply, ← Equiv.sum_comp (contrEquiv1 dot_S8x512x128_S8x256x128_S8x512x256_2_2_1_1_0_0 128 rfl rfl).symm]
  refine Finset.sum_congr rfl fun d _ => ?_
  have hd := contrEquiv1_symm_val dot_S8x512x128_S8x256x128_S8x512x256_2_2_1_1_0_0 128 rfl rfl d
  have el : dot_S8x512x128_S8x256x128_S8x512x256_2_2_1_1_0_0.lhsIdx (ix3 b q k) ((contrEquiv1 dot_S8x512x128_S8x256x128_S8x512x256_2_2_1_1_0_0 128 rfl rfl).symm d) = ix3 b q d := funext fun a => Fin.ext (by
    match a with
    | ⟨0, _⟩ => exact k1_qk_lhs_0 _ _
    | ⟨1, _⟩ => exact k1_qk_lhs_1 _ _
    | ⟨2, _⟩ => exact (k1_qk_lhs_2 _ _).trans hd)
  have er : dot_S8x512x128_S8x256x128_S8x512x256_2_2_1_1_0_0.rhsIdx (ix3 b q k) ((contrEquiv1 dot_S8x512x128_S8x256x128_S8x512x256_2_2_1_1_0_0 128 rfl rfl).symm d) = ix3 b k d := funext fun a => Fin.ext (by
    match a with
    | ⟨0, _⟩ => exact k1_qk_rhs_0 _ _
    | ⟨1, _⟩ => exact k1_qk_rhs_1 _ _
    | ⟨2, _⟩ => exact (k1_qk_rhs_2 _ _).trans hd)
  rw [el, er]

/-! ## The weights-times-values matmul's operand indices -/

theorem k1_pv_lhs_0 (i : S8x512x128.Idx) (q : dot_S8x512x256_S8x256x128_S8x512x128_2_1_1_2_0_0.contr.Idx) : (dot_S8x512x256_S8x256x128_S8x512x128_2_1_1_2_0_0.lhsIdx i q 0).val = (i 0).val := by
  unfold DotDims.lhsIdx
  rw [dif_pos (show (0 : Fin S8x512x256.rank) ∈ dot_S8x512x256_S8x256x128_S8x512x128_2_1_1_2_0_0.lhsBatch by decide)]
  rfl
theorem k1_pv_lhs_1 (i : S8x512x128.Idx) (q : dot_S8x512x256_S8x256x128_S8x512x128_2_1_1_2_0_0.contr.Idx) : (dot_S8x512x256_S8x256x128_S8x512x128_2_1_1_2_0_0.lhsIdx i q 1).val = (i 1).val := by
  unfold DotDims.lhsIdx
  rw [dif_neg (show ¬(1 : Fin S8x512x256.rank) ∈ dot_S8x512x256_S8x256x128_S8x512x128_2_1_1_2_0_0.lhsBatch by decide), dif_pos (show (1 : Fin S8x512x256.rank) ∈ dot_S8x512x256_S8x256x128_S8x512x128_2_1_1_2_0_0.lhsNonContracting by decide)]
  rfl
theorem k1_pv_lhs_2 (i : S8x512x128.Idx) (q : dot_S8x512x256_S8x256x128_S8x512x128_2_1_1_2_0_0.contr.Idx) : (dot_S8x512x256_S8x256x128_S8x512x128_2_1_1_2_0_0.lhsIdx i q 2).val = (q ⟨0, by decide⟩).val :=
  dot_S8x512x256_S8x256x128_S8x512x128_2_1_1_2_0_0.lhsIdx_val_of_single rfl i q
theorem k1_pv_rhs_0 (i : S8x512x128.Idx) (q : dot_S8x512x256_S8x256x128_S8x512x128_2_1_1_2_0_0.contr.Idx) : (dot_S8x512x256_S8x256x128_S8x512x128_2_1_1_2_0_0.rhsIdx i q 0).val = (i 0).val := by
  unfold DotDims.rhsIdx
  rw [dif_pos (show (0 : Fin S8x256x128.rank) ∈ dot_S8x512x256_S8x256x128_S8x512x128_2_1_1_2_0_0.rhsBatch by decide)]
  rfl
theorem k1_pv_rhs_1 (i : S8x512x128.Idx) (q : dot_S8x512x256_S8x256x128_S8x512x128_2_1_1_2_0_0.contr.Idx) : (dot_S8x512x256_S8x256x128_S8x512x128_2_1_1_2_0_0.rhsIdx i q 1).val = (q ⟨0, by decide⟩).val :=
  dot_S8x512x256_S8x256x128_S8x512x128_2_1_1_2_0_0.rhsIdx_val_of_single rfl i q
theorem k1_pv_rhs_2 (i : S8x512x128.Idx) (q : dot_S8x512x256_S8x256x128_S8x512x128_2_1_1_2_0_0.contr.Idx) : (dot_S8x512x256_S8x256x128_S8x512x128_2_1_1_2_0_0.rhsIdx i q 2).val = (i 2).val := by
  unfold DotDims.rhsIdx
  rw [dif_neg (show ¬(2 : Fin S8x256x128.rank) ∈ dot_S8x512x256_S8x256x128_S8x512x128_2_1_1_2_0_0.rhsBatch by decide), dif_pos (show (2 : Fin S8x256x128.rank) ∈ dot_S8x512x256_S8x256x128_S8x512x128_2_1_1_2_0_0.rhsNonContracting by decide)]
  rfl

/-- The tile's weights times its projected rows, at (b, q, j): the sum over the 256 keys of the tile. -/
theorem k1_pv_apply (p : FVec Ideal S8x512x256 .bf16) (v : FVec Ideal S8x256x128 .bf16) (b : Fin 8) (q : Fin 512) (j : Fin 128) :
    (FloatOps.matmul (φ₁ := .bf16) (φ₂ := .bf16) dot_S8x512x256_S8x256x128_S8x512x128_2_1_1_2_0_0 none p v (constant S8x512x128 .f32 0x00000000#32) : FVec Ideal S8x512x128 .f32) (ix3 b q j)
      = ∑ k : Fin 256, p (ix3 b q k) * v (ix3 b k j) := by
  rw [Ideal.matmul_constant_zero_apply, ← Equiv.sum_comp (contrEquiv1 dot_S8x512x256_S8x256x128_S8x512x128_2_1_1_2_0_0 256 rfl rfl).symm]
  refine Finset.sum_congr rfl fun k _ => ?_
  have hk' := contrEquiv1_symm_val dot_S8x512x256_S8x256x128_S8x512x128_2_1_1_2_0_0 256 rfl rfl k
  have el : dot_S8x512x256_S8x256x128_S8x512x128_2_1_1_2_0_0.lhsIdx (ix3 b q j) ((contrEquiv1 dot_S8x512x256_S8x256x128_S8x512x128_2_1_1_2_0_0 256 rfl rfl).symm k) = ix3 b q k := funext fun a => Fin.ext (by
    match a with
    | ⟨0, _⟩ => exact k1_pv_lhs_0 _ _
    | ⟨1, _⟩ => exact k1_pv_lhs_1 _ _
    | ⟨2, _⟩ => exact (k1_pv_lhs_2 _ _).trans hk')
  have er : dot_S8x512x256_S8x256x128_S8x512x128_2_1_1_2_0_0.rhsIdx (ix3 b q j) ((contrEquiv1 dot_S8x512x256_S8x256x128_S8x512x128_2_1_1_2_0_0 256 rfl rfl).symm k) = ix3 b k j := funext fun a => Fin.ext (by
    match a with
    | ⟨0, _⟩ => exact k1_pv_rhs_0 _ _
    | ⟨1, _⟩ => exact (k1_pv_rhs_1 _ _).trans hk'
    | ⟨2, _⟩ => exact k1_pv_rhs_2 _ _)
  rw [el, er]

/-! ## The payloads at an index -/

/-- The key tile passes through its identity cast. -/
theorem k1_pay8_eq (hk : Vec Ideal S8x256x128 .bf16) : k1_pay8 (F := Ideal) hk = hk := by
  unfold k1_pay8
  exact shapeCast_self _ _

/-- The masked score: the contraction times the mask entry, an exact zero replaced by the fill. -/
theorem k1_pay9_apply (hq : Vec Ideal S8x512x128 .bf16) (hk : Vec Ideal S8x256x128 .bf16) (g : Vec Ideal S512x256 .f32)
    (b : Fin 8) (q : Fin 512) (k : Fin 256) :
    k1_pay9 (F := Ideal) hq hk g (ix3 b q k)
      = if (∑ d : Fin 128, hq (ix3 b q d) * hk (ix3 b k d)) * g (ix2 q k) = 0 then Cert.Spec.fill
        else (∑ d : Fin 128, hq (ix3 b q d) * hk (ix3 b k d)) * g (ix2 q k) := by
  unfold k1_pay9
  try dsimp only
  rw [k1_pay8_eq, shapeCast_self]
  simp only [matmul]
  rw [select_apply, cmpf_apply, mulf_apply, k1_qk_apply, PayLayout.broadcastTo_1bc_abc_apply, shapeCast_ab_1ab_apply]
  generalize (∑ d : Fin 128, hq (ix3 b q d) * hk (ix3 b k d)) * g (ix2 q k) = Y
  show Scalar.select (Ideal.cmp .oeq Y (Ideal.ofBits .f32 0x00000000#32)) Cert.Spec.fill Y = _
  rw [Ideal.ofBits_zero_f32]
  by_cases hY : Y = 0
  · rw [if_pos hY, show Ideal.cmp .oeq Y 0 = 1#1 from by simp [Ideal.cmp, hY], select_one]
  · rw [if_neg hY, show Ideal.cmp .oeq Y 0 = 0#1 from by simp [Ideal.cmp, hY], select_zero]

/-- The new running maximum: the old one against the largest masked score of the tile, a fold of max from −∞. -/
theorem k1_pay10_apply (hq : Vec Ideal S8x512x128 .bf16) (hk : Vec Ideal S8x256x128 .bf16) (g : Vec Ideal S512x256 .f32)
    (m : Vec Ideal S8x512x1 .f32) (b : Fin 8) (q : Fin 512) :
    k1_pay10 (F := Ideal) hq hk g m (ix3 b q (0 : Fin 1)) = max (m (ix3 b q (0 : Fin 1))) ((Finset.univ : Finset (Fin 256)).fold max (⊥ : EReal) fun k => k1_pay9 (F := Ideal) hq hk g (ix3 b q k)) := by
  unfold k1_pay10
  try dsimp only
  rw [maximumf_apply, PayLayout.shapeCast_ab_ab1_apply]
  exact congrArg (max _) (laneMax_apply _ _ _ _ b q)

/-- The rescaling factor of the carried sums: exp (old maximum − new maximum). -/
theorem k1_pay11_apply (hq : Vec Ideal S8x512x128 .bf16) (hk : Vec Ideal S8x256x128 .bf16) (g : Vec Ideal S512x256 .f32)
    (m m' : Vec Ideal S8x512x1 .f32) (i : S8x512x1.Idx) :
    k1_pay11 (F := Ideal) hq hk g m m' i = Ideal.exp (m' i - k1_pay10 (F := Ideal) hq hk g m i) := rfl

/-- The tile's unnormalised weights: exp (score − new maximum). -/
theorem k1_pay12_apply (hq : Vec Ideal S8x512x128 .bf16) (hk : Vec Ideal S8x256x128 .bf16) (g : Vec Ideal S512x256 .f32)
    (m : Vec Ideal S8x512x1 .f32) (b : Fin 8) (q : Fin 512) (k : Fin 256) :
    k1_pay12 (F := Ideal) hq hk g m (ix3 b q k)
      = Ideal.exp (k1_pay9 (F := Ideal) hq hk g (ix3 b q k) - k1_pay10 (F := Ideal) hq hk g m (ix3 b q (0 : Fin 1))) := by
  unfold k1_pay12
  try dsimp only
  show Ideal.exp (_ - broadcastTo S8x512x256 _ _ (ix3 b q k)) = _
  rw [PayLayout.broadcastTo_ab1_abc_apply]

/-- The rescaled old normaliser. -/
theorem k1_pay13_apply (hq : Vec Ideal S8x512x128 .bf16) (hk : Vec Ideal S8x256x128 .bf16) (g : Vec Ideal S512x256 .f32)
    (m m' l : Vec Ideal S8x512x1 .f32) (i : S8x512x1.Idx) :
    k1_pay13 (F := Ideal) hq hk g m m' l i = k1_pay11 (F := Ideal) hq hk g m m' i * l i := rfl

/-- The tile's sum of weights. -/
theorem k1_pay14_apply (hq : Vec Ideal S8x512x128 .bf16) (hk : Vec Ideal S8x256x128 .bf16) (g : Vec Ideal S512x256 .f32)
    (m : Vec Ideal S8x512x1 .f32) (b : Fin 8) (q : Fin 512) :
    k1_pay14 (F := Ideal) hq hk g m (ix3 b q (0 : Fin 1)) = ∑ k : Fin 256, k1_pay12 (F := Ideal) hq hk g m (ix3 b q k) := by
  unfold k1_pay14
  try dsimp only
  rw [PayLayout.shapeCast_ab_ab1_apply]
  exact PayLayout.laneSum_apply _ _ _ _ b q

/-- The stored normaliser: the two summands added. -/
theorem k1_pay1_apply (x y : FVec Ideal S8x512x1 .f32) (i : S8x512x1.Idx) : k1_pay1 (F := Ideal) x y i = x i + y i := by
  unfold k1_pay1
  try dsimp only
  rw [shapeCast_self]
  rfl

/-- The stored weighted sum: the rescaled old one plus the tile's weights times its projected rows. -/
theorem k1_pay2_apply (v : FVec Ideal S8x256x128 .bf16) (a : FVec Ideal S8x512x1 .f32) (p : FVec Ideal S8x512x256 .f32)
    (acc : Vec Ideal S8x512x128 .f32) (b : Fin 8) (q : Fin 512) (j : Fin 128) :
    k1_pay2 (F := Ideal) v a p acc (ix3 b q j)
      = a (ix3 b q (0 : Fin 1)) * acc (ix3 b q j) + ∑ k : Fin 256, p (ix3 b q k) * v (ix3 b k j) := by
  unfold k1_pay2
  try dsimp only
  rw [shapeCast_self]
  simp only [matmul]
  rw [addf_apply, mulf_apply, PayLayout.broadcastTo_ab1_abc_apply, k1_pv_apply]
  rfl

/-- The stored maximum passes through its identity cast. -/
theorem k1_pay3_eq (x : FVec Ideal S8x512x1 .f32) : k1_pay3 (F := Ideal) x = x := by
  unfold k1_pay3
  exact shapeCast_self _ _

/-- The epilogue at (b, q, j): the weighted sum over the normaliser, plus the bias, cut at zero from below. -/
theorem k1_pay4_apply (acc : Vec Ideal S8x512x128 .f32) (l : Vec Ideal S8x512x1 .f32) (β : Vec Ideal S1x1x128 .f32)
    (b : Fin 8) (q : Fin 512) (j : Fin 128) :
    k1_pay4 (F := Ideal) acc l β (ix3 b q j)
      = max (Ideal.div (acc (ix3 b q j)) (l (ix3 b q (0 : Fin 1))) + β (ix3 (0 : Fin 1) (0 : Fin 1) j)) 0 := by
  unfold k1_pay4
  try dsimp only
  rw [shapeCast_self]
  rw [truncf_apply, maximumf_apply, addf_apply, divf_apply, PayLayout.broadcastTo_ab1_abc_apply, PayLayout.broadcastTo_11c_abc_apply]
  show max _ (Ideal.ofBits .f32 0x00000000#32) = _
  rw [Ideal.ofBits_zero_f32]

/-- The first key step's initial values: −∞ for the maximum, zero for the two sums. -/
theorem k1_pay5_apply (i : S8x512x1.Idx) : k1_pay5 (F := Ideal) i = ⊥ := by
  unfold k1_pay5
  try dsimp only
  rw [shapeCast_self]
  exact ofBits_ninf
theorem k1_pay6_apply (i : S8x512x1.Idx) : k1_pay6 (F := Ideal) i = 0 := by
  unfold k1_pay6
  try dsimp only
  rw [shapeCast_self]
  exact Ideal.ofBits_zero_f32
theorem k1_pay7_apply (i : S8x512x128.Idx) : k1_pay7 (F := Ideal) i = 0 := by
  unfold k1_pay7
  try dsimp only
  rw [shapeCast_self]
  exact Ideal.ofBits_zero_f32

/-! ## One key tile's update of the carried state, in the online-softmax form

    With m, l, acc the carried maximum, normaliser and weighted sum, s k the tile's masked scores and
    M' = max m (the fold of max from −∞ over the s k):
    m ↦ M',  l ↦ exp (m − M') · l + Σ_k exp (s k − M'),  acc ↦ exp (m − M') · acc + Σ_k exp (s k − M') · (key k's row). -/

theorem k1_step_m (hq : Vec Ideal S8x512x128 .bf16) (hk : Vec Ideal S8x256x128 .bf16) (g : Vec Ideal S512x256 .f32)
    (m : Vec Ideal S8x512x1 .f32) (b : Fin 8) (q : Fin 512) :
    k1_pay3 (F := Ideal) (k1_pay10 (F := Ideal) hq hk g m) (ix3 b q (0 : Fin 1)) = max (m (ix3 b q (0 : Fin 1))) ((Finset.univ : Finset (Fin 256)).fold max (⊥ : EReal) fun k => k1_pay9 (F := Ideal) hq hk g (ix3 b q k)) := by
  rw [k1_pay3_eq, k1_pay10_apply]

theorem k1_step_l (hq : Vec Ideal S8x512x128 .bf16) (hk : Vec Ideal S8x256x128 .bf16) (g : Vec Ideal S512x256 .f32)
    (m l : Vec Ideal S8x512x1 .f32) (b : Fin 8) (q : Fin 512) :
    k1_pay1 (F := Ideal) (k1_pay13 (F := Ideal) hq hk g m m l) (k1_pay14 (F := Ideal) hq hk g m) (ix3 b q (0 : Fin 1))
      = Ideal.exp (m (ix3 b q (0 : Fin 1)) - max (m (ix3 b q (0 : Fin 1))) ((Finset.univ : Finset (Fin 256)).fold max (⊥ : EReal) fun k => k1_pay9 (F := Ideal) hq hk g (ix3 b q k))) * l (ix3 b q (0 : Fin 1))
        + ∑ k : Fin 256, Ideal.exp (k1_pay9 (F := Ideal) hq hk g (ix3 b q k) - max (m (ix3 b q (0 : Fin 1))) ((Finset.univ : Finset (Fin 256)).fold max (⊥ : EReal) fun k => k1_pay9 (F := Ideal) hq hk g (ix3 b q k))) := by
  rw [k1_pay1_apply, k1_pay13_apply, k1_pay11_apply, k1_pay14_apply, k1_pay10_apply]
  refine congrArg (_ + ·) (Finset.sum_congr rfl fun k _ => ?_)
  rw [k1_pay12_apply, k1_pay10_apply]

theorem k1_step_acc (hq : Vec Ideal S8x512x128 .bf16) (hk : Vec Ideal S8x256x128 .bf16) (g : Vec Ideal S512x256 .f32)
    (m : Vec Ideal S8x512x1 .f32) (acc : Vec Ideal S8x512x128 .f32) (b : Fin 8) (q : Fin 512) (j : Fin 128) :
    k1_pay2 (F := Ideal) (k1_pay8 (F := Ideal) hk) (k1_pay11 (F := Ideal) hq hk g m m) (k1_pay12 (F := Ideal) hq hk g m) acc (ix3 b q j)
      = Ideal.exp (m (ix3 b q (0 : Fin 1)) - max (m (ix3 b q (0 : Fin 1))) ((Finset.univ : Finset (Fin 256)).fold max (⊥ : EReal) fun k => k1_pay9 (F := Ideal) hq hk g (ix3 b q k))) * acc (ix3 b q j)
        + ∑ k : Fin 256, Ideal.exp (k1_pay9 (F := Ideal) hq hk g (ix3 b q k) - max (m (ix3 b q (0 : Fin 1))) ((Finset.univ : Finset (Fin 256)).fold max (⊥ : EReal) fun k => k1_pay9 (F := Ideal) hq hk g (ix3 b q k))) * hk (ix3 b k j) := by
  rw [k1_pay2_apply, k1_pay8_eq, k1_pay11_apply, k1_pay10_apply]
  refine congrArg (_ + ·) (Finset.sum_congr rfl fun k _ => ?_)
  rw [k1_pay12_apply, k1_pay10_apply]

end Cert.KernelIdeal.HandValue

end
-- ==== Proof.IAttnValue1Tile.lean ====
/-
  One key tile of the first attention kernel as one update of a query row's carried state, on the extended reals.

  When the query block holds row n of the projected array at its row r, the key tile holds the projected rows of the
  tile's 256 keys and the mask block holds the mask entries of row n against those keys, the tile's masked scores at
  row r are the specification's scores of row n against those keys, and the three stored values at row r — the
  maximum, the normaliser, the weighted sum's entry j — are the row update of the carried values found there.
-/
import proofs.«144140_j35399120453979_2_alg».proof.Proof.IValueAttn1
import proofs.«144140_j35399120453979_2_alg».proof.Proof.LibAttnRow

set_option maxRecDepth 16384

noncomputable section

namespace Cert.KernelIdeal.HandValue

open Cert.KernelIdeal Cert.KernelIdeal.Gen
open Idealize.ShloMosaic Idealize.ShloMosaic.TcCoe Idealize.ShloMosaic.ValueIdx
open Cert.Lib.AttnRow

/-- The tile's masked score at (b, r, k) is the specification's score of row n against key 256·kv + k. -/
theorem k1_tile_score (H : Fin 8 → Fin 4096 → Fin 128 → EReal) (G : Fin 4096 → Fin 4096 → EReal)
    (hq : Vec Ideal S8x512x128 .bf16) (hk : Vec Ideal S8x256x128 .bf16) (g : Vec Ideal S512x256 .f32)
    (b : Fin 8) (r : Fin 512) (n : Fin 4096) (kv : Fin 16)
    (ehq : ∀ d, hq (ix3 b r d) = H b n d) (ehk : ∀ k d, hk (ix3 b k d) = H b (kidx kv k) d)
    (eg : ∀ k, g (ix2 r k) = G n (kidx kv k)) (k : Fin 256) :
    k1_pay9 (F := Ideal) hq hk g (ix3 b r k) = Cert.Spec.score H G b n (kidx kv k) := by
  rw [k1_pay9_apply]
  unfold Cert.Spec.score
  rw [eg k, show (∑ d : Fin 128, hq (ix3 b r d) * hk (ix3 b k d)) = ∑ d : Fin 128, H b n d * H b (kidx kv k) d from
    Finset.sum_congr rfl fun d _ => by rw [ehq d, ehk k d]]

/-- The three values the tile stores at row r (maximum, normaliser, entry j of the weighted sum) are the row update of
    the carried values at row r. -/
theorem k1_tile_step (H : Fin 8 → Fin 4096 → Fin 128 → EReal) (G : Fin 4096 → Fin 4096 → EReal)
    (hq : Vec Ideal S8x512x128 .bf16) (hk : Vec Ideal S8x256x128 .bf16) (g : Vec Ideal S512x256 .f32)
    (m l : Vec Ideal S8x512x1 .f32) (acc : Vec Ideal S8x512x128 .f32)
    (b : Fin 8) (r : Fin 512) (n : Fin 4096) (kv : Fin 16) (j : Fin 128)
    (ehq : ∀ d, hq (ix3 b r d) = H b n d) (ehk : ∀ k d, hk (ix3 b k d) = H b (kidx kv k) d)
    (eg : ∀ k, g (ix2 r k) = G n (kidx kv k)) :
    (k1_pay3 (F := Ideal) (k1_pay10 (F := Ideal) hq hk g m) (ix3 b r (0 : Fin 1)),
     k1_pay1 (F := Ideal) (k1_pay13 (F := Ideal) hq hk g m m l) (k1_pay14 (F := Ideal) hq hk g m) (ix3 b r (0 : Fin 1)),
     k1_pay2 (F := Ideal) (k1_pay8 (F := Ideal) hk) (k1_pay11 (F := Ideal) hq hk g m m) (k1_pay12 (F := Ideal) hq hk g m) acc (ix3 b r j))
      = tileStep (fun m' => Cert.Spec.score H G b n m') (fun m' => H b m' j) kv
          (m (ix3 b r (0 : Fin 1)), l (ix3 b r (0 : Fin 1)), acc (ix3 b r j)) := by
  have hs : (fun k : Fin 256 => k1_pay9 (F := Ideal) hq hk g (ix3 b r k)) = fun k => Cert.Spec.score H G b n (kidx kv k) :=
    funext fun k => k1_tile_score H G hq hk g b r n kv ehq ehk eg k
  rw [k1_step_m, k1_step_l, k1_step_acc]
  unfold tileStep
  simp only [hs]
  refine Prod.ext rfl (Prod.ext ?_ ?_)
  · refine congrArg (_ + ·) (Finset.sum_congr rfl fun k _ => ?_)
    rw [congrFun hs k]
  · refine congrArg (_ + ·) (Finset.sum_congr rfl fun k _ => ?_)
    rw [congrFun hs k, ehk k j]

end Cert.KernelIdeal.HandValue

end
-- ==== Proof.ISpecReal.lean ====
/-
  The specification is real-valued on real inputs: a linear projection of real arrays is real; a masked score is a
  real product or the finite fill; a row's largest score is a real maximum; each softmax weight is the exponential
  of a real difference over a positive real sum; so an attention layer of real arrays is real, and so is its positive
  part.
-/
import proofs.«144140_j35399120453979_2_alg».proof.Proof.Spec
import proofs.«144140_j35399120453979_2_alg».proof.Proof.LibRealValued
import proofs.«144140_j35399120453979_2_alg».proof.Proof.LibOnlineSoftmax

noncomputable section

namespace Cert.Spec

open Idealize.ShloMosaic Cert.Lib.RealValued Cert.Lib.OnlineSoftmax

/-- The fill is a finite real: its word has a biased exponent below the all-ones one. -/
theorem fill_isReal : IsReal fill := by
  unfold fill Ideal.ofBits Ideal.ieee
  simp only []
  rw [if_neg (by decide), if_neg (by decide)]
  exact isReal_coe _

/-- The quotient of a real by a nonzero real is real. -/
theorem isReal_div {x : EReal} {y : ℝ} (hx : IsReal x) (hy : y ≠ 0) : IsReal (Ideal.div x (y : EReal)) := by
  rw [Ideal.div_coe hy]
  exact hx.mul (isReal_coe _)

/-- The positive part of a real is real. -/
theorem isReal_max_zero {x : EReal} (hx : IsReal x) : IsReal (max x 0) := hx.max isReal_zero

/-- A linear projection of real arrays is real. -/
theorem lin_isReal {D H : ℕ} (x : Fin 8 → Fin 4096 → Fin D → EReal) (W : Fin H → Fin D → EReal)
    (hx : ∀ b n d, IsReal (x b n d)) (hW : ∀ j d, IsReal (W j d)) (b : Fin 8) (n : Fin 4096) (j : Fin H) :
    IsReal (lin x W b n j) := by
  unfold lin
  exact IsReal.sum _ fun d _ => (hx b n d).mul (hW j d)

/-- A masked score of real arrays is real. -/
theorem score_isReal {H : ℕ} (h : Fin 8 → Fin 4096 → Fin H → EReal) (g : Fin 4096 → Fin 4096 → EReal)
    (hh : ∀ b n k, IsReal (h b n k)) (hg : ∀ n m, IsReal (g n m)) (b : Fin 8) (n m : Fin 4096) :
    IsReal (score h g b n m) := by
  unfold score
  split_ifs
  · exact fill_isReal
  · exact (IsReal.sum _ fun k _ => (hh b n k).mul (hh b m k)).mul (hg n m)

/-- A row's largest score is real: the scores' real maximum. -/
theorem rowMax_eq_coe {H : ℕ} (h : Fin 8 → Fin 4096 → Fin H → EReal) (g : Fin 4096 → Fin 4096 → EReal)
    (b : Fin 8) (n : Fin 4096) (sr : Fin 4096 → ℝ) (hsr : ∀ m, score h g b n m = ((sr m : ℝ) : EReal)) {M : ℝ}
    (hM : IsMax Finset.univ sr M) : rowMax h g b n = (M : EReal) := by
  unfold rowMax
  rw [show (fun m : Fin 4096 => score h g b n m) = fun m => ((sr m : ℝ) : EReal) from funext hsr]
  exact fold_max_bot_eq hM

theorem rowMax_isReal {H : ℕ} (h : Fin 8 → Fin 4096 → Fin H → EReal) (g : Fin 4096 → Fin 4096 → EReal)
    (hh : ∀ b n k, IsReal (h b n k)) (hg : ∀ n m, IsReal (g n m)) (b : Fin 8) (n : Fin 4096) :
    IsReal (rowMax h g b n) := by
  obtain ⟨sr, hsr⟩ := exists_real_fun fun m => score_isReal h g hh hg b n m
  obtain ⟨M, hM⟩ := exists_isMax sr (Finset.univ_nonempty (α := Fin 4096))
  rw [rowMax_eq_coe h g b n sr hsr hM]
  exact isReal_coe M

/-- An attention layer of real arrays is real. -/
theorem attn_isReal {H : ℕ} (h : Fin 8 → Fin 4096 → Fin H → EReal) (g : Fin 4096 → Fin 4096 → EReal) (β : Fin H → EReal)
    (hh : ∀ b n k, IsReal (h b n k)) (hg : ∀ n m, IsReal (g n m)) (hβ : ∀ j, IsReal (β j))
    (b : Fin 8) (n : Fin 4096) (j : Fin H) : IsReal (attn h g β b n j) := by
  obtain ⟨sr, hsr⟩ := exists_real_fun fun m => score_isReal h g hh hg b n m
  obtain ⟨M, hM⟩ := exists_isMax sr (Finset.univ_nonempty (α := Fin 4096))
  unfold attn
  rw [rowMax_eq_coe h g b n sr hsr hM]
  have hden : (∑ m' : Fin 4096, Ideal.exp (score h g b n m' - (M : EReal)))
      = ((∑ i : Fin 4096, Real.exp (sr i - M) : ℝ) : EReal) := by
    rw [← block_den]
    exact Finset.sum_congr rfl fun i _ => by rw [hsr]
  rw [hden]
  refine (IsReal.sum _ fun m _ => ?_).add (hβ j)
  refine (isReal_div ?_ (den_pos hM).ne').mul (hh b m j)
  rw [hsr]
  exact ((isReal_coe _).sub (isReal_coe _)).exp

/-- One layer of real arrays is real. -/
theorem layer_isReal {D H : ℕ} (x : Fin 8 → Fin 4096 → Fin D → EReal) (g : Fin 4096 → Fin 4096 → EReal)
    (W : Fin H → Fin D → EReal) (β : Fin H → EReal)
    (hx : ∀ b n d, IsReal (x b n d)) (hg : ∀ n m, IsReal (g n m)) (hW : ∀ j d, IsReal (W j d)) (hβ : ∀ j, IsReal (β j))
    (b : Fin 8) (n : Fin 4096) (j : Fin H) : IsReal (layer x g W β b n j) :=
  attn_isReal (lin x W) g β (fun b n k => lin_isReal x W hx hW b n k) hg hβ b n j

end Cert.Spec

end
-- ==== Proof.IAttnValue1Inv.lean ====
/-
  Attention region 1: the carried state of a query row along the key steps, and what the last key step stores.

  Fix a batch entry b, a row r of the query tile and a feature j. After the point t the three carried buffers hold, at
  (b, r, 0), (b, r, 0) and (b, r, j), the row update by key tile t % 16 of what they held before — of (−∞, 0, 0) at a first
  key step — for the scores of array row 512·(t/16) + r and the values column j of the projected array. So after the
  sixteen key steps of a query tile weighted sum over normaliser is the softmax-weighted sum of the specification, and the
  block the last key step stores is the positive part of the specification's attention.
-/
import proofs.«144140_j35399120453979_2_alg».proof.Proof.IStep1
import proofs.«144140_j35399120453979_2_alg».proof.Proof.IAttnValue1Idx
import proofs.«144140_j35399120453979_2_alg».proof.Proof.IAttnValue1Tile
import proofs.«144140_j35399120453979_2_alg».proof.Proof.ISpecReal

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Lib.AttnRow Cert.Lib.RealValued

variable (V : (c : Dev nD) → (b : Ref sig .tc) → Buf (Elt Ideal) ((c : Thread nD τ).loc b))

/-- The projected array as a function of (batch, row, feature). -/
abbrev HK1 (c : Dev nD) : Fin 8 → Fin 4096 → Fin 128 → EReal := fun b n k => V c main_v0 (ix3 b n k)
/-- The mask as a function of (query, key). -/
abbrev GK1 (c : Dev nD) : Fin 4096 → Fin 4096 → EReal := fun n m => V c main_arg1 (ix2 n m)

/-- The carried values of row r, feature j after point t: maximum, normaliser, weighted sum. -/
def stOf1 (c : Dev nD) (b : Fin 8) (r : Fin 512) (j : Fin 128) (t : Fin cfg1.N) : EReal × EReal × EReal :=
  ((outsAt1 V c t.val t.isLt).2.1 (ix3 b r (0 : Fin 1)), (outsAt1 V c t.val t.isLt).2.2.1 (ix3 b r (0 : Fin 1)),
   (outsAt1 V c t.val t.isLt).2.2.2 (ix3 b r j))

/-- A first key step: the row update of (−∞, 0, 0). -/
theorem stOf1_A (c : Dev nD) (b : Fin 8) (r : Fin 512) (j : Fin 128) (t : Fin cfg1.N) (h0 : t.val % 16 = 0) :
    stOf1 V c b r j t
      = tileStep (fun m' => Cert.Spec.score (HK1 V c) (GK1 V c) b (qrow1 t r) m') (fun m' => HK1 V c b m' j) (kstep1 t) (⊥, 0, 0) := by
  unfold stOf1
  rw [outsAt1_A V c t h0, step1_A_m, step1_A_l, step1_A_acc]
  have h := k1_tile_step (HK1 V c) (GK1 V c) (iblk1 V c 0 t) (keys1 (grid1.coords t) (iblk1 V c 1 t)) (iblk1 V c 2 t)
    (k1_pay5 (F := Ideal)) (k1_pay6 (F := Ideal)) (k1_pay7 (F := Ideal)) b r (qrow1 t r) (kstep1 t) j
    (fun d => iblk1_0_apply V c t b r d) (fun k d => ktile1_apply V c t b k d) (fun k => iblk1_2_apply V c t r k)
  rw [k1_pay5_apply, k1_pay6_apply, k1_pay7_apply] at h
  exact h

/-- A later key step: the row update of what the point before left. -/
theorem stOf1_BC (c : Dev nD) (b : Fin 8) (r : Fin 512) (j : Fin 128) (t : Fin cfg1.N) (h0 : ¬t.val % 16 = 0) :
    stOf1 V c b r j t
      = tileStep (fun m' => Cert.Spec.score (HK1 V c) (GK1 V c) b (qrow1 t r) m') (fun m' => HK1 V c b m' j) (kstep1 t)
          (stOf1 V c b r j ⟨t.val - 1, Nat.lt_of_le_of_lt (Nat.sub_le _ _) t.isLt⟩) := by
  unfold stOf1
  by_cases h1 : t.val % 16 = 15
  · rw [outsAt1_C V c t h0 h1, step1_C_m, step1_C_l, step1_C_acc]
    exact k1_tile_step (HK1 V c) (GK1 V c) (iblk1 V c 0 t) (keys1 (grid1.coords t) (iblk1 V c 1 t)) (iblk1 V c 2 t)
      _ _ _ b r (qrow1 t r) (kstep1 t) j
      (fun d => iblk1_0_apply V c t b r d) (fun k d => ktile1_apply V c t b k d) (fun k => iblk1_2_apply V c t r k)
  · rw [outsAt1_B V c t h0 h1, step1_B_m, step1_B_l, step1_B_acc]
    exact k1_tile_step (HK1 V c) (GK1 V c) (iblk1 V c 0 t) (keys1 (grid1.coords t) (iblk1 V c 1 t)) (iblk1 V c 2 t)
      _ _ _ b r (qrow1 t r) (kstep1 t) j
      (fun d => iblk1_0_apply V c t b r d) (fun k d => ktile1_apply V c t b k d) (fun k => iblk1_2_apply V c t r k)

/-- What the last key step stores at (b, r, j): weighted sum over normaliser, plus the bias, cut at zero from below. -/
theorem out1_C (c : Dev nD) (b : Fin 8) (r : Fin 512) (j : Fin 128) (t : Fin cfg1.N) (h1 : t.val % 16 = 15) :
    (outsAt1 V c t.val t.isLt).1 (ix3 b r j)
      = max (Ideal.div (stOf1 V c b r j t).2.2 (stOf1 V c b r j t).2.1 + V c main_v1 (ix3 (0 : Fin 1) (0 : Fin 1) j)) 0 := by
  have h0 : ¬t.val % 16 = 0 := by omega
  unfold stOf1
  rw [outsAt1_C V c t h0 h1, step1_C_out, step1_C_l, step1_C_acc, k1_pay4_apply, iblk1_3_apply]

end Cert.KernelIdeal.HandValue

end
-- ==== Proof.IAttnValue1Blk.lean ====
/-
  Attention region 1: every block the region writes back is the positive part of the specification's attention.

  A query tile's sixteen key steps are sixteen chained row updates from (−∞, 0, 0) of the same row's scores, so at the last
  one weighted sum over normaliser is the softmax-weighted sum over all 4096 keys (the projected array and the mask
  being real-valued), and the stored block adds the bias and cuts at zero.
-/
import proofs.«144140_j35399120453979_2_alg».proof.Proof.IAttnValue1Inv

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Lib.AttnRow Cert.Lib.RealValued

variable (V : (c : Dev nD) → (b : Ref sig .tc) → Buf (Elt Ideal) ((c : Thread nD τ).loc b))

/-- The bias as a function of the feature. -/
abbrev BK1 (c : Dev nD) : Fin 128 → EReal := fun j => V c main_v1 (ix3 (0 : Fin 1) (0 : Fin 1) j)

/-- What the result array ends holding: the positive part of the specification's attention, index by index. -/
def GA1 (c : Dev nD) : S8x4096x128.Idx → EReal :=
  fun i => max (Cert.Spec.attn (HK1 V c) (GK1 V c) (BK1 V c) ⟨(i 0).val, (i 0).isLt⟩ ⟨(i 1).val, (i 1).isLt⟩ ⟨(i 2).val, (i 2).isLt⟩) 0

/-- Point kv of the query tile that point t belongs to. -/
abbrev tileAt1 (t : Fin cfg1.N) (kv : Fin 16) : Fin cfg1.N :=
  ⟨t.val / 16 * 16 + kv.val, Nat.lt_of_lt_of_eq (by
    have := Nat.lt_of_lt_of_eq t.isLt (N_1 : cfg1.N = 128); have := kv.isLt; omega) (N_1 : cfg1.N = 128).symm⟩

/-- After the last key step of a query tile, weighted sum over normaliser at row r is the specification's
    softmax-weighted sum for array row 512·(t/16) + r. -/
theorem quot1 (c : Dev nD) (hH : ∀ i, IsReal (V c main_v0 i)) (hG : ∀ i, IsReal (V c main_arg1 i))
    (b : Fin 8) (r : Fin 512) (j : Fin 128) (t : Fin cfg1.N) (h1 : t.val % 16 = 15) :
    Ideal.div (stOf1 V c b r j t).2.2 (stOf1 V c b r j t).2.1
      = ∑ m : Fin 4096,
          Ideal.div (Ideal.exp (Cert.Spec.score (HK1 V c) (GK1 V c) b (qrow1 t r) m - Cert.Spec.rowMax (HK1 V c) (GK1 V c) b (qrow1 t r)))
            (∑ m' : Fin 4096, Ideal.exp (Cert.Spec.score (HK1 V c) (GK1 V c) b (qrow1 t r) m' - Cert.Spec.rowMax (HK1 V c) (GK1 V c) b (qrow1 t r)))
          * HK1 V c b m j := by
  have ht := Nat.lt_of_lt_of_eq t.isLt (N_1 : cfg1.N = 128)
  have hrow : ∀ kv : Fin 16, qrow1 (tileAt1 t kv) r = qrow1 t r := fun kv => Fin.ext (by
    have := kv.isLt
    show (t.val / 16 * 16 + kv.val) / 16 * 512 + r.val = t.val / 16 * 512 + r.val
    omega)
  have hks : ∀ kv : Fin 16, kstep1 (tileAt1 t kv) = kv := fun kv => Fin.ext (by
    have := kv.isLt
    show (t.val / 16 * 16 + kv.val) % 16 = kv.val
    omega)
  have hlast : tileAt1 t 15 = t := Fin.ext (by
    show t.val / 16 * 16 + 15 = t.val
    omega)
  have hs : ∀ i, IsReal (Cert.Spec.score (HK1 V c) (GK1 V c) b (qrow1 t r) i) := fun i =>
    Cert.Spec.score_isReal (HK1 V c) (GK1 V c) (fun b n k => hH _) (fun n m => hG _) b (qrow1 t r) i
  have hv : ∀ i, IsReal (HK1 V c b i j) := fun i => hH _
  have h := tiles_div_eq (fun m' => Cert.Spec.score (HK1 V c) (GK1 V c) b (qrow1 t r) m') (fun m' => HK1 V c b m' j) hs hv
    (fun kv => stOf1 V c b r j (tileAt1 t kv))
    (by
      have e := stOf1_A V c b r j (tileAt1 t 0) (by show (t.val / 16 * 16 + 0) % 16 = 0; omega)
      rw [hrow 0, hks 0] at e
      exact e)
    (fun kv hlt => by
      have e := stOf1_BC V c b r j (tileAt1 t ⟨kv.val + 1, hlt⟩) (by show ¬(t.val / 16 * 16 + (kv.val + 1)) % 16 = 0; omega)
      rw [hrow ⟨kv.val + 1, hlt⟩, hks ⟨kv.val + 1, hlt⟩] at e
      have ep : (⟨(tileAt1 t ⟨kv.val + 1, hlt⟩).val - 1, Nat.lt_of_le_of_lt (Nat.sub_le _ _) (tileAt1 t ⟨kv.val + 1, hlt⟩).isLt⟩ : Fin cfg1.N)
          = tileAt1 t kv := Fin.ext (by
        show t.val / 16 * 16 + (kv.val + 1) - 1 = t.val / 16 * 16 + kv.val
        omega)
      rw [ep] at e
      exact e)
  rw [hlast] at h
  exact h

/-- THE BLOCKS: what the last key step of a query tile stores is the result function on the tile's rows. -/
theorem blocks1 (c : Dev nD) (hH : ∀ i, IsReal (V c main_v0 i)) (hG : ∀ i, IsReal (V c main_arg1 i))
    (t : Fin cfg1.N) (h1 : t.val % 16 = 15) (b : Fin 8) (r : Fin 512) (j : Fin 128) :
    (outsAt1 V c t.val t.isLt).1 (ix3 b r j) = GA1 V c (ix3 b (qrow1 t r) j) := by
  rw [out1_C V c b r j t h1, quot1 V c hH hG b r j t h1]
  rfl

end Cert.KernelIdeal.HandValue

end
-- ==== Proof.IAttnBlocks1.lean ====
/-
  Attention region 1, the result window: where each grid point's block sits in the result array, which point writes
  a row back (the last key step of the row's query tile), that those blocks cover the array, and the array after the
  region from the body's output blocks at the flushing points.
-/
import proofs.«144140_j35399120453979_2_alg».proof.Proof.IRegion1
import proofs.«144140_j35399120453979_2_alg».proof.Proof.IAttnValue1Idx
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.RA Idealize.SL.Sem
open Idealize.ShloMosaic.Pipeline (Dat)

/-- The printed index map of the result window, decided over the 128 grid points: point t works on row block t / 16. -/
theorem out_facts1 : ∀ t : Fin cfg1.N,
    win1_4.index t (0 : Fin 3) = 0 ∧ win1_4.index t (1 : Fin 3) = t.val / 16 ∧ win1_4.index t (2 : Fin 3) = 0 :=
  (by decide +kernel : ∀ t : Fin grid1.N, _)

/-- Row r of point t's result block is row 512·(t/16) + r of the array. -/
abbrev orow1 (t : Fin cfg1.N) (r : Fin 512) : Fin 4096 :=
  ⟨t.val / 16 * 512 + r.val, by have := Nat.lt_of_lt_of_eq t.isLt (N_1 : cfg1.N = 128); have := r.isLt; omega⟩

/-- The point that writes row n back: the last key step of the row's query tile. -/
abbrev fpt1 (n : Fin 4096) : Fin cfg1.N :=
  ⟨16 * (n.val / 512) + 15, by rw [show cfg1.N = 128 from N_1]; have := n.isLt; omega⟩

theorem fpt1_flush (n : Fin 4096) : (cfg1.win 4).flush (fpt1 n) = true :=
  (flush1_4 (fpt1 n)).mpr (by show (16 * (n.val / 512) + 15) % 16 = 15; omega)

/-- Row n is row n % 512 of the block its flushing point works on. -/
theorem orow1_fpt (n : Fin 4096) : orow1 (fpt1 n) ⟨n.val % 512, Nat.mod_lt _ (by decide)⟩ = n := by
  apply Fin.ext
  show (16 * (n.val / 512) + 15) / 16 * 512 + n.val % 512 = n.val
  omega

/-- Two functions on a result block agree when they agree coordinate by coordinate. -/
theorem blk_ext1_4 {f g : S8x512x128.Idx → EReal} (h : ∀ (b : Fin 8) (r : Fin 512) (j : Fin 128), f (ix3 b r j) = g (ix3 b r j)) : f = g :=
  funext fun i => by rw [eq_ix3 i]; exact h _ _ _

/-- The result window's block at point t sits at rows 512·(t/16) … of the array. -/
theorem emb1_4 (t : Fin cfg1.N) (b : Fin 8) (r : Fin 512) (j : Fin 128) :
    ((cfg1.win 4).blk t).view.emb (ix3 b r j : S8x512x128.Idx) = (ix3 b (orow1 t r) j : S8x4096x128.Idx) := by
  obtain ⟨e0, e1, e2⟩ := out_facts1 t
  funext a
  apply Fin.ext
  match a with
  | ⟨0, _⟩ => show win1_4.index t (0 : Fin 3) * 8 + 1 * b.val = b.val; rw [e0]; omega
  | ⟨1, _⟩ => show win1_4.index t (1 : Fin 3) * 512 + 1 * r.val = t.val / 16 * 512 + r.val; rw [e1]; omega
  | ⟨2, _⟩ => show win1_4.index t (2 : Fin 3) * 128 + 1 * j.val = j.val; rw [e2]; omega

/-- A whole-array function read through point t's result block, at (b, r, j): the function at (b, 512·(t/16) + r, j). -/
theorem read_blk1_4 (G : S8x4096x128.Idx → EReal) (t : Fin cfg1.N) (b : Fin 8) (r : Fin 512) (j : Fin 128) :
    (((cfg1.win 4).blk t).view.read (Elt Ideal) G : S8x512x128.Idx → EReal) (ix3 b r j) = G (ix3 b (orow1 t r) j) := by
  rw [View.read_apply, emb1_4]
  rfl

/-- An index of the array is in point t's block iff each coordinate is in the block's range on its axis. -/
theorem mem_blk1_4 (t : Fin cfg1.N) (i : S8x4096x128.Idx) :
    i ∈ ((cfg1.win 4).blk t).view.set ↔ ∀ a : Fin 3, win1_4.index t a * S8x512x128.size a ≤ (i a).val ∧ (i a).val < win1_4.index t a * S8x512x128.size a + S8x512x128.size a := by
  show i ∈ ((View.whole main_v2).slice (win1_4.rect t)).set ↔ _
  rw [View.set_slice_whole, Rect.mem_set_unit]
  exact Iff.rfl

/-- Index (b, n, j) of the array is in the block of row n's flushing point. -/
theorem mem_fpt1 (b : Fin 8) (n : Fin 4096) (j : Fin 128) :
    (ix3 b n j : S8x4096x128.Idx) ∈ ((cfg1.win 4).blk (fpt1 n)).view.set := by
  obtain ⟨e0, e1, e2⟩ := out_facts1 (fpt1 n)
  have ht : (fpt1 n).val = 16 * (n.val / 512) + 15 := rfl
  have hb := b.isLt; have hn := n.isLt; have hj := j.isLt
  rw [mem_blk1_4]
  intro a
  match a with
  | ⟨0, _⟩ => show win1_4.index (fpt1 n) (0 : Fin 3) * 8 ≤ b.val ∧ b.val < win1_4.index (fpt1 n) (0 : Fin 3) * 8 + 8; omega
  | ⟨1, _⟩ => show win1_4.index (fpt1 n) (1 : Fin 3) * 512 ≤ n.val ∧ n.val < win1_4.index (fpt1 n) (1 : Fin 3) * 512 + 512; omega
  | ⟨2, _⟩ => show win1_4.index (fpt1 n) (2 : Fin 3) * 128 ≤ j.val ∧ j.val < win1_4.index (fpt1 n) (2 : Fin 3) * 128 + 128; omega

/-- Every index of the result array is in a flushing point's block. -/
theorem covered1_4 (i : S8x4096x128.Idx) : ∃ t : Fin cfg1.N, (cfg1.win 4).flush t = true ∧ i ∈ ((cfg1.win 4).blk t).view.set := by
  rw [eq_ix3 i]
  exact ⟨fpt1 ⟨(i 1).val, (i 1).isLt⟩, fpt1_flush _, mem_fpt1 ⟨(i 0).val, (i 0).isLt⟩ ⟨(i 1).val, (i 1).isLt⟩ ⟨(i 2).val, (i 2).isLt⟩⟩

variable (V : (c : Dev nD) → (b : Ref sig .tc) → Buf (Elt Ideal) ((c : Thread nD τ).loc b))

/-- THE RESULT ARRAY AFTER THE REGION: when at every flushing point (the last key step of a query tile) the body's
    output block is the function G read at rows 512·(t/16) …, the array ends holding G — each flushed block is G read
    through the point's block, and the flushing points' blocks cover the array. -/
theorem arr1_of_blocks (q : Fin cfg1.W → PosShare TreeShare) (c : Dev nD) (G1 : S8x4096x128.Idx → EReal)
    (h : ∀ (t : Fin cfg1.N), t.val % 16 = 15 → ∀ (b : Fin 8) (r : Fin 512) (j : Fin 128),
      (outsAt1 V c t.val t.isLt).1 (ix3 b r j) = G1 (ix3 b (qrow1 t r) j)) :
    (dat1 (F := Ideal) V q c).arrAt 4 cfg1.N = G1 := by
  refine (dat1 (F := Ideal) V q c).arrAt_eq_of_cover 4 G1 (fun t hf => ?_) covered1_4
  show (cfg1.win 4).cut (grid1.coords t) ((dat1 (F := Ideal) V q c).after 4 t) = _
  rw [Hand.after1_4]
  refine blk_ext1_4 fun b r j => ?_
  rw [read_blk1_4]
  exact h t ((flush1_4 t).mp hf) b r j

end Cert.KernelIdeal.HandValue

end
-- ==== Proof.IAttnValue1.lean ====
/-
  Attention region 1 as a whole-array function, on the extended reals: when the projected array and the mask are
  real-valued, the result array after the region holds, at every index, the positive part of the specification's
  attention of the projected array, the mask and the bias — the blocks the last key steps store tile the array.
-/
import proofs.«144140_j35399120453979_2_alg».proof.Proof.IAttnValue1Blk
import proofs.«144140_j35399120453979_2_alg».proof.Proof.IAttnBlocks1
import proofs.«144140_j35399120453979_2_alg».proof.Proof.IShare1

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Lib.RealValued

/-- The result array after the region, read at (b, n, j): the positive part of the specification's attention. -/
theorem attn1 (V : (c : Dev nD) → (b : Ref sig .tc) → Buf (Elt Ideal) ((c : Thread nD τ).loc b)) (c : Dev nD)
    (hH : ∀ i, Cert.Lib.RealValued.IsReal (V c main_v0 i)) (hG : ∀ i, Cert.Lib.RealValued.IsReal (V c main_arg1 i))
    (b : Fin 8) (n : Fin 4096) (j : Fin 128) :
    (Cert.KernelIdeal.Hand.dat1 (F := Ideal) V Cert.KernelIdeal.Hand.q1 c).arrAt 4 cfg1.N (ix3 b n j)
      = max (Cert.Spec.attn (fun b n k => V c main_v0 (ix3 b n k)) (fun n m => V c main_arg1 (ix2 n m)) (fun j => V c main_v1 (ix3 0 0 j)) b n j) 0 := by
  rw [arr1_of_blocks V Cert.KernelIdeal.Hand.q1 c (GA1 V c) (fun t h1 b r j => blocks1 V c hH hG t h1 b r j)]
  rfl

end Cert.KernelIdeal.HandValue

end
-- ==== Proof.IStep3.lean ====
/-
  Attention region 3: what each kind of point leaves, in closed form. Each buffer a run stores into ends with one
  whole store on top, so it holds that store's payload. The payloads are the kernel's own named values (the skeleton's
  k3_pay·), here applied to the point's input blocks — the query tile, the rows of the key array that the step's
  offsets k3_off1 select, the mask tile, the bias — and to what the carried buffers held when the step began: at a
  first key step the reset payloads, else what the point before left.
-/
import proofs.«144140_j35399120453979_2_alg».proof.Proof.IRegion3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets, as a constant function. -/
theorem zero3_3 : (![0, 0, 0] : Fin 3 → ℕ) = fun _ => 0 := by funext a; fin_cases a <;> rfl
theorem zero2_3 : (![0, 0] : Fin 2 → ℕ) = fun _ => 0 := by funext a; fin_cases a <;> rfl

/-- The rows of the whole key array that the key step of point `i` loads: a block of `S8x256x64` at the offsets the
    kernel computes from the key coordinate (`k3_off1 i`). -/
abbrev keys3 (i : grid3.Coords) (x1 : Vec F S8x4096x64 .bf16) : Vec F S8x256x64 .bf16 :=
  View.ld x1 (Rect.unit (s := S8x4096x64) (k3_off1 i) S8x256x64.size (k3_off1_inb i))

/-! ## A first key step -/

/-- After a first key step the running maximum holds the kernel's new maximum, of the reset value and the step's scores. -/
theorem step3_A_m (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) :
    (step3_A c i arg2 harg2 arg3 harg3 arg4 harg4 arg5 harg5 arg6 harg6 arg7 harg7 arg8 harg8 arg9 harg9 hc0 hc1 x0 x1 x2 x3).2.1 = k3_pay3 (k3_pay10 x0 (keys3 i x1) x2 (k3_pay5 (F := F))) := by
  unfold step3_A; dsimp only
  unfold left3_m
  rw [View.read_writes_eq_canon _ _ _ (cover3_A_m c i arg2 harg2 arg3 harg3 arg4 harg4 arg5 harg5 arg6 harg6 arg7 harg7 arg8 harg8 arg9 harg9 hc0 hc1 x0 x1 x2 x3)]
  unfold kernelRun3_A; dsimp only
  rw [View.canon_cons_unit_zero zero3_3]
  simp only [kernelRun3_A.sl.r_1, kernelRun3_A.sl.v19, kernelRun3_A.sl.HS0_1, View.readAt_eq_ld, Memref.IsWhole.read_unread, View.ld_unit_zero (S := S8x512x64) zero3_3, View.ld_unit_zero (S := S512x256) zero2_3, View.ld_unit_zero (S := S1x1x64) zero3_3, View.ld_unit_zero (S := S8x512x1) zero3_3, View.readCov_unit_zero (S := S8x512x1) _ zero3_3, View.readCov_unit_zero (S := S8x512x64) _ zero3_3]

/-- After a first key step the running denominator holds the kernel's new denominator: the reset value, rescaled to the new
    maximum, plus the step's exponentials summed. -/
theorem step3_A_l (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) :
    (step3_A c i arg2 harg2 arg3 harg3 arg4 harg4 arg5 harg5 arg6 harg6 arg7 harg7 arg8 harg8 arg9 harg9 hc0 hc1 x0 x1 x2 x3).2.2.1 = k3_pay1 (k3_pay13 x0 (keys3 i x1) x2 (k3_pay5 (F := F)) (k3_pay5 (F := F)) (k3_pay6 (F := F))) (k3_pay14 x0 (keys3 i x1) x2 (k3_pay5 (F := F))) := by
  unfold step3_A; dsimp only
  unfold left3_l
  rw [View.read_writes_eq_canon _ _ _ (cover3_A_l c i arg2 harg2 arg3 harg3 arg4 harg4 arg5 harg5 arg6 harg6 arg7 harg7 arg8 harg8 arg9 harg9 hc0 hc1 x0 x1 x2 x3)]
  unfold kernelRun3_A; dsimp only
  rw [View.canon_cons_unit_zero zero3_3]
  simp only [kernelRun3_A.sl.r_4, kernelRun3_A.sl.r_5, kernelRun3_A.sl.v19, kernelRun3_A.sl.v29, kernelRun3_A.sl.HS0_1, kernelRun3_A.sl.HS1_1, View.readAt_eq_ld, Memref.IsWhole.read_unread, View.ld_unit_zero (S := S8x512x64) zero3_3, View.ld_unit_zero (S := S512x256) zero2_3, View.ld_unit_zero (S := S1x1x64) zero3_3, View.ld_unit_zero (S := S8x512x1) zero3_3, View.readCov_unit_zero (S := S8x512x1) _ zero3_3, View.readCov_unit_zero (S := S8x512x64) _ zero3_3]

/-- After a first key step the accumulator holds the kernel's new accumulator: the reset value, rescaled to the new maximum, plus
    the step's exponentials applied to the key rows. -/
theorem step3_A_acc (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : cond3_0 i) (hc1 : ¬cond3_1 i)
    (x0 : Vec F S8x512x64 .bf16) (x1 : Vec F S8x4096x64 .bf16) (x2 : Vec F S512x256 .f32) (x3 : Vec F S1x1x64 .f32) :
    (step3_A c i arg2 harg2 arg3 harg3 arg4 harg4 arg5 harg5 arg6 harg6 arg7 harg7 arg8 harg8 arg9 harg9 hc0 hc1 x0 x1 x2 x3).2.2.2 = k3_pay2 (k3_pay8 (keys3 i x1)) (k3_pay11 x0 (keys3 i x1) x2 (k3_pay5 (F := F)) (k3_pay5 (F := F))) (k3_pay12 x0 (keys3 i x1) x2 (k3_pay5 (F := F))) (k3_pay7 (F := F)) := by
  unfold step3_A; dsimp only
  unfold left3_acc
  rw [View.read_writes_eq_canon _ _ _ (cover3_A_acc c i arg2 harg2 arg3 harg3 arg4 harg4 arg5 harg5 arg6 harg6 arg7 harg7 arg8 harg8 arg9 harg9 hc0 hc1 x0 x1 x2 x3)]
  unfold kernelRun3_A; dsimp only
  rw [View.canon_cons_unit_zero zero3_3]
  simp only [kernelRun3_A.sl.r, kernelRun3_A.sl.r_2, kernelRun3_A.sl.r_3, kernelRun3_A.sl.v37, kernelRun3_A.sl.v19, kernelRun3_A.sl.HS0_1, kernelRun3_A.sl.HS2_1, View.readAt_eq_ld, Memref.IsWhole.read_unread, View.ld_unit_zero (S := S8x512x64) zero3_3, View.ld_unit_zero (S := S512x256) zero2_3, View.ld_unit_zero (S := S1x1x64) zero3_3, View.ld_unit_zero (S := S8x512x1) zero3_3, View.readCov_unit_zero (S := S8x512x1) _ zero3_3, View.readCov_unit_zero (S := S8x512x64) _ zero3_3]

/-! ## A middle key step -/

/-- After a middle key step the running maximum holds the kernel's new maximum, of what the step found and the step's scores. -/
theorem step3_B_m (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    (step3_B c i arg2 harg2 arg3 harg3 arg4 harg4 arg5 harg5 arg6 harg6 arg7 harg7 arg8 harg8 arg9 harg9 hc0 hc1 x0 x1 x2 x3 xs0 xs1 xs2).2.1 = k3_pay3 (k3_pay10 x0 (keys3 i x1) x2 xs0) := by
  unfold step3_B; dsimp only
  unfold left3_m
  rw [View.read_writes_eq_canon _ _ _ (cover3_B_m c i arg2 harg2 arg3 harg3 arg4 harg4 arg5 harg5 arg6 harg6 arg7 harg7 arg8 harg8 arg9 harg9 hc0 hc1 x0 x1 x2 x3 xs0 xs1 xs2)]
  unfold kernelRun3_B; dsimp only
  rw [View.canon_cons_unit_zero zero3_3]
  simp only [kernelRun3_B.sl.r_1, View.readAt_eq_ld, Memref.IsWhole.read_unread, View.ld_unit_zero (S := S8x512x64) zero3_3, View.ld_unit_zero (S := S512x256) zero2_3, View.ld_unit_zero (S := S1x1x64) zero3_3, View.ld_unit_zero (S := S8x512x1) zero3_3, View.readCov_unit_zero (S := S8x512x1) _ zero3_3, View.readCov_unit_zero (S := S8x512x64) _ zero3_3]

/-- After a middle key step the running denominator holds the kernel's new denominator: what the step found, rescaled to the new
    maximum, plus the step's exponentials summed. -/
theorem step3_B_l (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    (step3_B c i arg2 harg2 arg3 harg3 arg4 harg4 arg5 harg5 arg6 harg6 arg7 harg7 arg8 harg8 arg9 harg9 hc0 hc1 x0 x1 x2 x3 xs0 xs1 xs2).2.2.1 = k3_pay1 (k3_pay13 x0 (keys3 i x1) x2 xs0 xs0 xs1) (k3_pay14 x0 (keys3 i x1) x2 xs0) := by
  unfold step3_B; dsimp only
  unfold left3_l
  rw [View.read_writes_eq_canon _ _ _ (cover3_B_l c i arg2 harg2 arg3 harg3 arg4 harg4 arg5 harg5 arg6 harg6 arg7 harg7 arg8 harg8 arg9 harg9 hc0 hc1 x0 x1 x2 x3 xs0 xs1 xs2)]
  unfold kernelRun3_B; dsimp only
  rw [View.canon_cons_unit_zero zero3_3]
  simp only [kernelRun3_B.sl.r_4, kernelRun3_B.sl.r_5, View.readAt_eq_ld, Memref.IsWhole.read_unread, View.ld_unit_zero (S := S8x512x64) zero3_3, View.ld_unit_zero (S := S512x256) zero2_3, View.ld_unit_zero (S := S1x1x64) zero3_3, View.ld_unit_zero (S := S8x512x1) zero3_3, View.readCov_unit_zero (S := S8x512x1) _ zero3_3, View.readCov_unit_zero (S := S8x512x64) _ zero3_3]

/-- After a middle key step the accumulator holds the kernel's new accumulator: what the step found, rescaled to the new maximum, plus
    the step's exponentials applied to the key rows. -/
theorem step3_B_acc (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : ¬cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    (step3_B c i arg2 harg2 arg3 harg3 arg4 harg4 arg5 harg5 arg6 harg6 arg7 harg7 arg8 harg8 arg9 harg9 hc0 hc1 x0 x1 x2 x3 xs0 xs1 xs2).2.2.2 = k3_pay2 (k3_pay8 (keys3 i x1)) (k3_pay11 x0 (keys3 i x1) x2 xs0 xs0) (k3_pay12 x0 (keys3 i x1) x2 xs0) xs2 := by
  unfold step3_B; dsimp only
  unfold left3_acc
  rw [View.read_writes_eq_canon _ _ _ (cover3_B_acc c i arg2 harg2 arg3 harg3 arg4 harg4 arg5 harg5 arg6 harg6 arg7 harg7 arg8 harg8 arg9 harg9 hc0 hc1 x0 x1 x2 x3 xs0 xs1 xs2)]
  unfold kernelRun3_B; dsimp only
  rw [View.canon_cons_unit_zero zero3_3]
  simp only [kernelRun3_B.sl.r, kernelRun3_B.sl.r_2, kernelRun3_B.sl.r_3, View.readAt_eq_ld, Memref.IsWhole.read_unread, View.ld_unit_zero (S := S8x512x64) zero3_3, View.ld_unit_zero (S := S512x256) zero2_3, View.ld_unit_zero (S := S1x1x64) zero3_3, View.ld_unit_zero (S := S8x512x1) zero3_3, View.readCov_unit_zero (S := S8x512x1) _ zero3_3, View.readCov_unit_zero (S := S8x512x64) _ zero3_3]

/-! ## A last key step -/

/-- After a last key step the running maximum holds the kernel's new maximum, of what the step found and the step's scores. -/
theorem step3_C_m (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    (step3_C c i arg2 harg2 arg3 harg3 arg4 harg4 arg5 harg5 arg6 harg6 arg7 harg7 arg8 harg8 arg9 harg9 hc0 hc1 x0 x1 x2 x3 xs0 xs1 xs2).2.1 = k3_pay3 (k3_pay10 x0 (keys3 i x1) x2 xs0) := by
  unfold step3_C; dsimp only
  unfold left3_m
  rw [View.read_writes_eq_canon _ _ _ (cover3_C_m c i arg2 harg2 arg3 harg3 arg4 harg4 arg5 harg5 arg6 harg6 arg7 harg7 arg8 harg8 arg9 harg9 hc0 hc1 x0 x1 x2 x3 xs0 xs1 xs2)]
  unfold kernelRun3_C; dsimp only
  rw [View.canon_cons_unit_zero zero3_3]
  simp only [kernelRun3_C.sl.r_1, View.readAt_eq_ld, Memref.IsWhole.read_unread, View.ld_unit_zero (S := S8x512x64) zero3_3, View.ld_unit_zero (S := S512x256) zero2_3, View.ld_unit_zero (S := S1x1x64) zero3_3, View.ld_unit_zero (S := S8x512x1) zero3_3, View.readCov_unit_zero (S := S8x512x1) _ zero3_3, View.readCov_unit_zero (S := S8x512x64) _ zero3_3]

/-- After a last key step the running denominator holds the kernel's new denominator: what the step found, rescaled to the new
    maximum, plus the step's exponentials summed. -/
theorem step3_C_l (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    (step3_C c i arg2 harg2 arg3 harg3 arg4 harg4 arg5 harg5 arg6 harg6 arg7 harg7 arg8 harg8 arg9 harg9 hc0 hc1 x0 x1 x2 x3 xs0 xs1 xs2).2.2.1 = k3_pay1 (k3_pay13 x0 (keys3 i x1) x2 xs0 xs0 xs1) (k3_pay14 x0 (keys3 i x1) x2 xs0) := by
  unfold step3_C; dsimp only
  unfold left3_l
  rw [View.read_writes_eq_canon _ _ _ (cover3_C_l c i arg2 harg2 arg3 harg3 arg4 harg4 arg5 harg5 arg6 harg6 arg7 harg7 arg8 harg8 arg9 harg9 hc0 hc1 x0 x1 x2 x3 xs0 xs1 xs2)]
  unfold kernelRun3_C; dsimp only
  simp only [kernelRun3_C.sl.HS1_1]
  rw [View.canon_cons_unit_zero zero3_3]
  simp only [kernelRun3_C.sl.r_4, kernelRun3_C.sl.r_5, View.readAt_eq_ld, Memref.IsWhole.read_unread, View.ld_unit_zero (S := S8x512x64) zero3_3, View.ld_unit_zero (S := S512x256) zero2_3, View.ld_unit_zero (S := S1x1x64) zero3_3, View.ld_unit_zero (S := S8x512x1) zero3_3, View.readCov_unit_zero (S := S8x512x1) _ zero3_3, View.readCov_unit_zero (S := S8x512x64) _ zero3_3]

/-- After a last key step the accumulator holds the kernel's new accumulator: what the step found, rescaled to the new maximum, plus
    the step's exponentials applied to the key rows. -/
theorem step3_C_acc (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    (step3_C c i arg2 harg2 arg3 harg3 arg4 harg4 arg5 harg5 arg6 harg6 arg7 harg7 arg8 harg8 arg9 harg9 hc0 hc1 x0 x1 x2 x3 xs0 xs1 xs2).2.2.2 = k3_pay2 (k3_pay8 (keys3 i x1)) (k3_pay11 x0 (keys3 i x1) x2 xs0 xs0) (k3_pay12 x0 (keys3 i x1) x2 xs0) xs2 := by
  unfold step3_C; dsimp only
  unfold left3_acc
  rw [View.read_writes_eq_canon _ _ _ (cover3_C_acc c i arg2 harg2 arg3 harg3 arg4 harg4 arg5 harg5 arg6 harg6 arg7 harg7 arg8 harg8 arg9 harg9 hc0 hc1 x0 x1 x2 x3 xs0 xs1 xs2)]
  unfold kernelRun3_C; dsimp only
  simp only [kernelRun3_C.sl.HS2_1]
  rw [View.canon_cons_unit_zero zero3_3]
  simp only [kernelRun3_C.sl.r, kernelRun3_C.sl.r_2, kernelRun3_C.sl.r_3, View.readAt_eq_ld, Memref.IsWhole.read_unread, View.ld_unit_zero (S := S8x512x64) zero3_3, View.ld_unit_zero (S := S512x256) zero2_3, View.ld_unit_zero (S := S1x1x64) zero3_3, View.ld_unit_zero (S := S8x512x1) zero3_3, View.readCov_unit_zero (S := S8x512x1) _ zero3_3, View.readCov_unit_zero (S := S8x512x64) _ zero3_3]

/-- After a last key step the output window's buffer holds the kernel's output payload of the new accumulator, the new
    denominator and the bias block. -/
theorem step3_C_out (c : Dev nD) (i : grid3.Coords) (arg2 : Memref sig .tc .vmem S8x512x64 .bf16) (harg2 : arg2.IsWhole) (arg3 : Memref sig .tc .vmem S8x4096x64 .bf16) (harg3 : arg3.IsWhole) (arg4 : Memref sig .tc .vmem S512x256 .f32) (harg4 : arg4.IsWhole) (arg5 : Memref sig .tc .vmem S1x1x64 .f32) (harg5 : arg5.IsWhole) (arg6 : Memref sig .tc .vmem S8x512x64 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x64 .f32) (harg9 : arg9.IsWhole) (hc0 : ¬cond3_0 i) (hc1 : cond3_1 i)
    (x0 : Vec F S8x512x64 .bf16) (x1 : Vec F S8x4096x64 .bf16) (x2 : Vec F S512x256 .f32) (x3 : Vec F S1x1x64 .f32) (xs0 : Vec F S8x512x1 .f32) (xs1 : Vec F S8x512x1 .f32) (xs2 : Vec F S8x512x64 .f32) :
    (step3_C c i arg2 harg2 arg3 harg3 arg4 harg4 arg5 harg5 arg6 harg6 arg7 harg7 arg8 harg8 arg9 harg9 hc0 hc1 x0 x1 x2 x3 xs0 xs1 xs2).1 = k3_pay4 (k3_pay2 (k3_pay8 (keys3 i x1)) (k3_pay11 x0 (keys3 i x1) x2 xs0 xs0) (k3_pay12 x0 (keys3 i x1) x2 xs0) xs2) (k3_pay1 (k3_pay13 x0 (keys3 i x1) x2 xs0 xs0 xs1) (k3_pay14 x0 (keys3 i x1) x2 xs0)) x3 := by
  unfold step3_C; dsimp only
  unfold left3_out
  rw [View.read_writes_eq_canon _ _ _ (cover3_C_out c i arg2 harg2 arg3 harg3 arg4 harg4 arg5 harg5 arg6 harg6 arg7 harg7 arg8 harg8 arg9 harg9 hc0 hc1 x0 x1 x2 x3 xs0 xs1 xs2)]
  unfold kernelRun3_C; dsimp only
  rw [View.canon_cons_unit_zero zero3_3]
  simp only [kernelRun3_C.sl.v52, kernelRun3_C.sl.v53, kernelRun3_C.sl.HS1_1, kernelRun3_C.sl.HS2_1, kernelRun3_C.sl.r, kernelRun3_C.sl.r_2, kernelRun3_C.sl.r_3, kernelRun3_C.sl.r_4, kernelRun3_C.sl.r_5, View.readAt_eq_ld, Memref.IsWhole.read_unread, View.ld_unit_zero (S := S8x512x64) zero3_3, View.ld_unit_zero (S := S512x256) zero2_3, View.ld_unit_zero (S := S1x1x64) zero3_3, View.ld_unit_zero (S := S8x512x1) zero3_3, View.readCov_unit_zero (S := S8x512x1) _ zero3_3, View.readCov_unit_zero (S := S8x512x64) _ zero3_3]

end Cert.KernelIdeal.Hand

end
-- ==== Proof.IAttnValue3Idx.lean ====
/-
  Attention region 3: where each window's block sits in its array, decided over the 128 grid points, and the input
  blocks read at explicit coordinates. Point t is key step t % 16 of query tile t / 16: the query window's and the
  result window's blocks are rows 512·(t/16) … of their arrays, the key window is the whole projected array (the body
  loads rows 256·(t%16) … of it), the mask window's block is rows 512·(t/16) …, columns 256·(t%16) … of the mask, and
  the bias window is the whole bias.
-/
import proofs.«144140_j35399120453979_2_alg».proof.Proof.IRuns3
import proofs.«144140_j35399120453979_2_alg».proof.Proof.LibAttnRow
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Lib.AttnRow

variable (V : (c : Dev nD) → (b : Ref sig .tc) → Buf (Elt Ideal) ((c : Thread nD τ).loc b))

/-- The printed index maps and the key coordinate, decided over the grid. -/
theorem idx_facts3 : ∀ t : Fin cfg3.N,
    win3_0.index t (0 : Fin 3) = 0 ∧ win3_0.index t (1 : Fin 3) = t.val / 16 ∧ win3_0.index t (2 : Fin 3) = 0
    ∧ win3_1.index t (0 : Fin 3) = 0 ∧ win3_1.index t (1 : Fin 3) = 0 ∧ win3_1.index t (2 : Fin 3) = 0
    ∧ win3_2.index t (0 : Fin 2) = t.val / 16 ∧ win3_2.index t (1 : Fin 2) = t.val % 16
    ∧ win3_3.index t (0 : Fin 3) = 0 ∧ win3_3.index t (1 : Fin 3) = 0 ∧ win3_3.index t (2 : Fin 3) = 0
    ∧ win3_4.index t (0 : Fin 3) = 0 ∧ win3_4.index t (1 : Fin 3) = t.val / 16 ∧ win3_4.index t (2 : Fin 3) = 0
    ∧ (grid3.coords t (1 : Fin 2)).val = t.val % 16 :=
  (by decide +kernel : ∀ t : Fin grid3.N, _)

/-- Row r of point t's query tile is row 512·(t/16) + r of the array. -/
abbrev qrow3 (t : Fin cfg3.N) (r : Fin 512) : Fin 4096 :=
  ⟨t.val / 16 * 512 + r.val, by have := Nat.lt_of_lt_of_eq t.isLt (N_3 : cfg3.N = 128); have := r.isLt; omega⟩

/-- The key step of point t. -/
abbrev kstep3 (t : Fin cfg3.N) : Fin 16 := ⟨t.val % 16, Nat.mod_lt _ (by decide)⟩

/-- The query block at point t, read at (b, r, d), is the projected array at (b, 512·(t/16) + r, d). -/
theorem iblk3_0_apply (c : Dev nD) (t : Fin cfg3.N) (b : Fin 8) (r : Fin 512) (d : Fin 64) :
    (iblk3 V c 0 t : Vec Ideal S8x512x64 .bf16) (ix3 b r d) = (V c main_v3 : S8x4096x64.Idx → EReal) (ix3 b (qrow3 t r) d) := by
  obtain ⟨e0, e1, e2, -⟩ := idx_facts3 t
  unfold iblk3
  rw [View.read_apply]
  show V c main_v3 _ = V c main_v3 _
  congr 1
  funext a
  apply Fin.ext
  match a with
  | ⟨0, _⟩ => show win3_0.index t (0 : Fin 3) * 8 + 1 * b.val = b.val; rw [e0]; omega
  | ⟨1, _⟩ => show win3_0.index t (1 : Fin 3) * 512 + 1 * r.val = t.val / 16 * 512 + r.val; rw [e1]; omega
  | ⟨2, _⟩ => show win3_0.index t (2 : Fin 3) * 64 + 1 * d.val = d.val; rw [e2]; omega

/-- The key window's block at every point is the whole projected array. -/
theorem iblk3_1_apply (c : Dev nD) (t : Fin cfg3.N) (b : Fin 8) (m : Fin 4096) (d : Fin 64) :
    (iblk3 V c 1 t : Vec Ideal S8x4096x64 .bf16) (ix3 b m d) = (V c main_v3 : S8x4096x64.Idx → EReal) (ix3 b m d) := by
  obtain ⟨-, -, -, e0, e1, e2, -⟩ := idx_facts3 t
  unfold iblk3
  rw [View.read_apply]
  show V c main_v3 _ = V c main_v3 _
  congr 1
  funext a
  apply Fin.ext
  match a with
  | ⟨0, _⟩ => show win3_1.index t (0 : Fin 3) * 8 + 1 * b.val = b.val; rw [e0]; omega
  | ⟨1, _⟩ => show win3_1.index t (1 : Fin 3) * 4096 + 1 * m.val = m.val; rw [e1]; omega
  | ⟨2, _⟩ => show win3_1.index t (2 : Fin 3) * 64 + 1 * d.val = d.val; rw [e2]; omega

/-- The key tile the body loads at point t, read at (b, k, d): the projected array at (b, 256·(t%16) + k, d). -/
theorem ktile3_apply (c : Dev nD) (t : Fin cfg3.N) (b : Fin 8) (k : Fin 256) (d : Fin 64) :
    (View.ld (iblk3 V c 1 t : Vec Ideal S8x4096x64 .bf16) (Rect.unit (s := S8x4096x64) (k3_off1 (grid3.coords t)) S8x256x64.size (k3_off1_inb (grid3.coords t))) : Vec Ideal S8x256x64 .bf16) (ix3 b k d)
      = (V c main_v3 : S8x4096x64.Idx → EReal) (ix3 b (kidx (kstep3 t) k) d) := by
  obtain ⟨-, -, -, -, -, -, -, -, -, -, -, -, -, -, ek⟩ := idx_facts3 t
  have hb := b.isLt; have hk := k.isLt; have hd := d.isLt
  have hmod : t.val % 16 < 16 := Nat.mod_lt _ (by decide)
  have e : (Rect.unit (s := S8x4096x64) (k3_off1 (grid3.coords t)) S8x256x64.size (k3_off1_inb (grid3.coords t))).idx (ix3 b k d : S8x256x64.Idx)
      = (ix3 b (⟨256 * (t.val % 16) + k.val, by omega⟩ : Fin 4096) d : S8x4096x64.Idx) := by
    funext a
    apply Fin.ext
    have ho := k3_off1_eq (grid3.coords t)
    match a with
    | ⟨0, _⟩ => show k3_off1 (grid3.coords t) (0 : Fin 3) + 1 * b.val = b.val; rw [ho]; show 0 + 1 * b.val = b.val; omega
    | ⟨1, _⟩ => show k3_off1 (grid3.coords t) (1 : Fin 3) + 1 * k.val = 256 * (t.val % 16) + k.val; rw [ho]; show 256 * (grid3.coords t (1 : Fin 2)).val + 1 * k.val = _; rw [ek]; omega
    | ⟨2, _⟩ => show k3_off1 (grid3.coords t) (2 : Fin 3) + 1 * d.val = d.val; rw [ho]; show 0 + 1 * d.val = d.val; omega
  show (iblk3 V c 1 t : Vec Ideal S8x4096x64 .bf16) _ = _
  rw [e, iblk3_1_apply]
  congr 2
  apply Fin.ext
  show 256 * (t.val % 16) + k.val = t.val % 16 * 256 + k.val
  omega

/-- The mask block at point t, read at (r, k), is the mask at (512·(t/16) + r, 256·(t%16) + k). -/
theorem iblk3_2_apply (c : Dev nD) (t : Fin cfg3.N) (r : Fin 512) (k : Fin 256) :
    (iblk3 V c 2 t : Vec Ideal S512x256 .f32) (ix2 r k) = (V c main_arg1 : S4096x4096.Idx → EReal) (ix2 (qrow3 t r) (kidx (kstep3 t) k)) := by
  obtain ⟨-, -, -, -, -, -, e0, e1, -⟩ := idx_facts3 t
  unfold iblk3
  rw [View.read_apply]
  show V c main_arg1 _ = V c main_arg1 _
  congr 1
  funext a
  apply Fin.ext
  match a with
  | ⟨0, _⟩ => show win3_2.index t (0 : Fin 2) * 512 + 1 * r.val = t.val / 16 * 512 + r.val; rw [e0]; omega
  | ⟨1, _⟩ => show win3_2.index t (1 : Fin 2) * 256 + 1 * k.val = t.val % 16 * 256 + k.val; rw [e1]; omega

/-- The bias window's block at every point is the whole bias. -/
theorem iblk3_3_apply (c : Dev nD) (t : Fin cfg3.N) (j : Fin 64) :
    (iblk3 V c 3 t : Vec Ideal S1x1x64 .f32) (ix3 (0 : Fin 1) (0 : Fin 1) j) = (V c main_v4 : S1x1x64.Idx → EReal) (ix3 (0 : Fin 1) (0 : Fin 1) j) := by
  obtain ⟨-, -, -, -, -, -, -, -, e0, e1, e2, -⟩ := idx_facts3 t
  unfold iblk3
  rw [View.read_apply]
  show V c main_v4 _ = V c main_v4 _
  congr 1
  funext a
  apply Fin.ext
  match a with
  | ⟨0, _⟩ => show win3_3.index t (0 : Fin 3) * 1 + 1 * 0 = 0; rw [e0]
  | ⟨1, _⟩ => show win3_3.index t (1 : Fin 3) * 1 + 1 * 0 = 0; rw [e1]
  | ⟨2, _⟩ => show win3_3.index t (2 : Fin 3) * 64 + 1 * j.val = j.val; rw [e2]; omega

end Cert.KernelIdeal.HandValue

end
-- ==== Proof.IValueAttn3.lean ====
/-
  The second attention kernel's pure values read at an index, on the extended reals: the masked scores of a key tile,
  the new running maximum, the rescaling factor and the tile's weights, the updated normaliser and weighted sum, the
  epilogue, the initial values — and one key tile's update of the carried state in the online-softmax form.
-/
import proofs.«144140_j35399120453979_2_alg».proof.Proof.Gen.KernelIdeal.Skeleton
import proofs.«144140_j35399120453979_2_alg».proof.Proof.Spec
import proofs.«144140_j35399120453979_2_alg».proof.Proof.LibKeepdimsLayout
import proofs.«144140_j35399120453979_2_alg».proof.Proof.IValueAttnCommon
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Pipeline (Dat)

/-! ## The score matmul's operand indices -/

theorem k3_qk_lhs_0 (i : S8x512x256.Idx) (q : dot_S8x512x64_S8x256x64_S8x512x256_2_2_1_1_0_0.contr.Idx) : (dot_S8x512x64_S8x256x64_S8x512x256_2_2_1_1_0_0.lhsIdx i q 0).val = (i 0).val := by
  unfold DotDims.lhsIdx
  rw [dif_pos (show (0 : Fin S8x512x64.rank) ∈ dot_S8x512x64_S8x256x64_S8x512x256_2_2_1_1_0_0.lhsBatch by decide)]
  rfl
theorem k3_qk_lhs_1 (i : S8x512x256.Idx) (q : dot_S8x512x64_S8x256x64_S8x512x256_2_2_1_1_0_0.contr.Idx) : (dot_S8x512x64_S8x256x64_S8x512x256_2_2_1_1_0_0.lhsIdx i q 1).val = (i 1).val := by
  unfold DotDims.lhsIdx
  rw [dif_neg (show ¬(1 : Fin S8x512x64.rank) ∈ dot_S8x512x64_S8x256x64_S8x512x256_2_2_1_1_0_0.lhsBatch by decide), dif_pos (show (1 : Fin S8x512x64.rank) ∈ dot_S8x512x64_S8x256x64_S8x512x256_2_2_1_1_0_0.lhsNonContracting by decide)]
  rfl
theorem k3_qk_lhs_2 (i : S8x512x256.Idx) (q : dot_S8x512x64_S8x256x64_S8x512x256_2_2_1_1_0_0.contr.Idx) : (dot_S8x512x64_S8x256x64_S8x512x256_2_2_1_1_0_0.lhsIdx i q 2).val = (q ⟨0, by decide⟩).val :=
  dot_S8x512x64_S8x256x64_S8x512x256_2_2_1_1_0_0.lhsIdx_val_of_single rfl i q
theorem k3_qk_rhs_0 (i : S8x512x256.Idx) (q : dot_S8x512x64_S8x256x64_S8x512x256_2_2_1_1_0_0.contr.Idx) : (dot_S8x512x64_S8x256x64_S8x512x256_2_2_1_1_0_0.rhsIdx i q 0).val = (i 0).val := by
  unfold DotDims.rhsIdx
  rw [dif_pos (show (0 : Fin S8x256x64.rank) ∈ dot_S8x512x64_S8x256x64_S8x512x256_2_2_1_1_0_0.rhsBatch by decide)]
  rfl
theorem k3_qk_rhs_1 (i : S8x512x256.Idx) (q : dot_S8x512x64_S8x256x64_S8x512x256_2_2_1_1_0_0.contr.Idx) : (dot_S8x512x64_S8x256x64_S8x512x256_2_2_1_1_0_0.rhsIdx i q 1).val = (i 2).val := by
  unfold DotDims.rhsIdx
  rw [dif_neg (show ¬(1 : Fin S8x256x64.rank) ∈ dot_S8x512x64_S8x256x64_S8x512x256_2_2_1_1_0_0.rhsBatch by decide), dif_pos (show (1 : Fin S8x256x64.rank) ∈ dot_S8x512x64_S8x256x64_S8x512x256_2_2_1_1_0_0.rhsNonContracting by decide)]
  rfl
theorem k3_qk_rhs_2 (i : S8x512x256.Idx) (q : dot_S8x512x64_S8x256x64_S8x512x256_2_2_1_1_0_0.contr.Idx) : (dot_S8x512x64_S8x256x64_S8x512x256_2_2_1_1_0_0.rhsIdx i q 2).val = (q ⟨0, by decide⟩).val :=
  dot_S8x512x64_S8x256x64_S8x512x256_2_2_1_1_0_0.rhsIdx_val_of_single rfl i q

/-- The unmasked score of query q against key k of the tile: the contraction of the two projected rows. -/
theorem k3_qk_apply (hq : FVec Ideal S8x512x64 .bf16) (hk : FVec Ideal S8x256x64 .bf16) (b : Fin 8) (q : Fin 512) (k : Fin 256) :
    (FloatOps.matmul (φ₁ := .bf16) (φ₂ := .bf16) dot_S8x512x64_S8x256x64_S8x512x256_2_2_1_1_0_0 none hq hk (constant S8x512x256 .f32 0x00000000#32) : FVec Ideal S8x512x256 .f32) (ix3 b q k)
      = ∑ d : Fin 64, hq (ix3 b q d) * hk (ix3 b k d) := by
  rw [Ideal.matmul_constant_zero_apply, ← Equiv.sum_comp (contrEquiv1 dot_S8x512x64_S8x256x64_S8x512x256_2_2_1_1_0_0 64 rfl rfl).symm]
  refine Finset.sum_congr rfl fun d _ => ?_
  have hd := contrEquiv1_symm_val dot_S8x512x64_S8x256x64_S8x512x256_2_2_1_1_0_0 64 rfl rfl d
  have el : dot_S8x512x64_S8x256x64_S8x512x256_2_2_1_1_0_0.lhsIdx (ix3 b q k) ((contrEquiv1 dot_S8x512x64_S8x256x64_S8x512x256_2_2_1_1_0_0 64 rfl rfl).symm d) = ix3 b q d := funext fun a => Fin.ext (by
    match a with
    | ⟨0, _⟩ => exact k3_qk_lhs_0 _ _
    | ⟨1, _⟩ => exact k3_qk_lhs_1 _ _
    | ⟨2, _⟩ => exact (k3_qk_lhs_2 _ _).trans hd)
  have er : dot_S8x512x64_S8x256x64_S8x512x256_2_2_1_1_0_0.rhsIdx (ix3 b q k) ((contrEquiv1 dot_S8x512x64_S8x256x64_S8x512x256_2_2_1_1_0_0 64 rfl rfl).symm d) = ix3 b k d := funext fun a => Fin.ext (by
    match a with
    | ⟨0, _⟩ => exact k3_qk_rhs_0 _ _
    | ⟨1, _⟩ => exact k3_qk_rhs_1 _ _
    | ⟨2, _⟩ => exact (k3_qk_rhs_2 _ _).trans hd)
  rw [el, er]

/-! ## The weights-times-values matmul's operand indices -/

theorem k3_pv_lhs_0 (i : S8x512x64.Idx) (q : dot_S8x512x256_S8x256x64_S8x512x64_2_1_1_2_0_0.contr.Idx) : (dot_S8x512x256_S8x256x64_S8x512x64_2_1_1_2_0_0.lhsIdx i q 0).val = (i 0).val := by
  unfold DotDims.lhsIdx
  rw [dif_pos (show (0 : Fin S8x512x256.rank) ∈ dot_S8x512x256_S8x256x64_S8x512x64_2_1_1_2_0_0.lhsBatch by decide)]
  rfl
theorem k3_pv_lhs_1 (i : S8x512x64.Idx) (q : dot_S8x512x256_S8x256x64_S8x512x64_2_1_1_2_0_0.contr.Idx) : (dot_S8x512x256_S8x256x64_S8x512x64_2_1_1_2_0_0.lhsIdx i q 1).val = (i 1).val := by
  unfold DotDims.lhsIdx
  rw [dif_neg (show ¬(1 : Fin S8x512x256.rank) ∈ dot_S8x512x256_S8x256x64_S8x512x64_2_1_1_2_0_0.lhsBatch by decide), dif_pos (show (1 : Fin S8x512x256.rank) ∈ dot_S8x512x256_S8x256x64_S8x512x64_2_1_1_2_0_0.lhsNonContracting by decide)]
  rfl
theorem k3_pv_lhs_2 (i : S8x512x64.Idx) (q : dot_S8x512x256_S8x256x64_S8x512x64_2_1_1_2_0_0.contr.Idx) : (dot_S8x512x256_S8x256x64_S8x512x64_2_1_1_2_0_0.lhsIdx i q 2).val = (q ⟨0, by decide⟩).val :=
  dot_S8x512x256_S8x256x64_S8x512x64_2_1_1_2_0_0.lhsIdx_val_of_single rfl i q
theorem k3_pv_rhs_0 (i : S8x512x64.Idx) (q : dot_S8x512x256_S8x256x64_S8x512x64_2_1_1_2_0_0.contr.Idx) : (dot_S8x512x256_S8x256x64_S8x512x64_2_1_1_2_0_0.rhsIdx i q 0).val = (i 0).val := by
  unfold DotDims.rhsIdx
  rw [dif_pos (show (0 : Fin S8x256x64.rank) ∈ dot_S8x512x256_S8x256x64_S8x512x64_2_1_1_2_0_0.rhsBatch by decide)]
  rfl
theorem k3_pv_rhs_1 (i : S8x512x64.Idx) (q : dot_S8x512x256_S8x256x64_S8x512x64_2_1_1_2_0_0.contr.Idx) : (dot_S8x512x256_S8x256x64_S8x512x64_2_1_1_2_0_0.rhsIdx i q 1).val = (q ⟨0, by decide⟩).val :=
  dot_S8x512x256_S8x256x64_S8x512x64_2_1_1_2_0_0.rhsIdx_val_of_single rfl i q
theorem k3_pv_rhs_2 (i : S8x512x64.Idx) (q : dot_S8x512x256_S8x256x64_S8x512x64_2_1_1_2_0_0.contr.Idx) : (dot_S8x512x256_S8x256x64_S8x512x64_2_1_1_2_0_0.rhsIdx i q 2).val = (i 2).val := by
  unfold DotDims.rhsIdx
  rw [dif_neg (show ¬(2 : Fin S8x256x64.rank) ∈ dot_S8x512x256_S8x256x64_S8x512x64_2_1_1_2_0_0.rhsBatch by decide), dif_pos (show (2 : Fin S8x256x64.rank) ∈ dot_S8x512x256_S8x256x64_S8x512x64_2_1_1_2_0_0.rhsNonContracting by decide)]
  rfl

/-- The tile's weights times its projected rows, at (b, q, j): the sum over the 256 keys of the tile. -/
theorem k3_pv_apply (p : FVec Ideal S8x512x256 .bf16) (v : FVec Ideal S8x256x64 .bf16) (b : Fin 8) (q : Fin 512) (j : Fin 64) :
    (FloatOps.matmul (φ₁ := .bf16) (φ₂ := .bf16) dot_S8x512x256_S8x256x64_S8x512x64_2_1_1_2_0_0 none p v (constant S8x512x64 .f32 0x00000000#32) : FVec Ideal S8x512x64 .f32) (ix3 b q j)
      = ∑ k : Fin 256, p (ix3 b q k) * v (ix3 b k j) := by
  rw [Ideal.matmul_constant_zero_apply, ← Equiv.sum_comp (contrEquiv1 dot_S8x512x256_S8x256x64_S8x512x64_2_1_1_2_0_0 256 rfl rfl).symm]
  refine Finset.sum_congr rfl fun k _ => ?_
  have hk' := contrEquiv1_symm_val dot_S8x512x256_S8x256x64_S8x512x64_2_1_1_2_0_0 256 rfl rfl k
  have el : dot_S8x512x256_S8x256x64_S8x512x64_2_1_1_2_0_0.lhsIdx (ix3 b q j) ((contrEquiv1 dot_S8x512x256_S8x256x64_S8x512x64_2_1_1_2_0_0 256 rfl rfl).symm k) = ix3 b q k := funext fun a => Fin.ext (by
    match a with
    | ⟨0, _⟩ => exact k3_pv_lhs_0 _ _
    | ⟨1, _⟩ => exact k3_pv_lhs_1 _ _
    | ⟨2, _⟩ => exact (k3_pv_lhs_2 _ _).trans hk')
  have er : dot_S8x512x256_S8x256x64_S8x512x64_2_1_1_2_0_0.rhsIdx (ix3 b q j) ((contrEquiv1 dot_S8x512x256_S8x256x64_S8x512x64_2_1_1_2_0_0 256 rfl rfl).symm k) = ix3 b k j := funext fun a => Fin.ext (by
    match a with
    | ⟨0, _⟩ => exact k3_pv_rhs_0 _ _
    | ⟨1, _⟩ => exact (k3_pv_rhs_1 _ _).trans hk'
    | ⟨2, _⟩ => exact k3_pv_rhs_2 _ _)
  rw [el, er]

/-! ## The payloads at an index -/

/-- The key tile passes through its identity cast. -/
theorem k3_pay8_eq (hk : Vec Ideal S8x256x64 .bf16) : k3_pay8 (F := Ideal) hk = hk := by
  unfold k3_pay8
  exact shapeCast_self _ _

/-- The masked score: the contraction times the mask entry, an exact zero replaced by the fill. -/
theorem k3_pay9_apply (hq : Vec Ideal S8x512x64 .bf16) (hk : Vec Ideal S8x256x64 .bf16) (g : Vec Ideal S512x256 .f32)
    (b : Fin 8) (q : Fin 512) (k : Fin 256) :
    k3_pay9 (F := Ideal) hq hk g (ix3 b q k)
      = if (∑ d : Fin 64, hq (ix3 b q d) * hk (ix3 b k d)) * g (ix2 q k) = 0 then Cert.Spec.fill
        else (∑ d : Fin 64, hq (ix3 b q d) * hk (ix3 b k d)) * g (ix2 q k) := by
  unfold k3_pay9
  try dsimp only
  rw [k3_pay8_eq, shapeCast_self]
  simp only [matmul]
  rw [select_apply, cmpf_apply, mulf_apply, k3_qk_apply, PayLayout.broadcastTo_1bc_abc_apply, shapeCast_ab_1ab_apply]
  generalize (∑ d : Fin 64, hq (ix3 b q d) * hk (ix3 b k d)) * g (ix2 q k) = Y
  show Scalar.select (Ideal.cmp .oeq Y (Ideal.ofBits .f32 0x00000000#32)) Cert.Spec.fill Y = _
  rw [Ideal.ofBits_zero_f32]
  by_cases hY : Y = 0
  · rw [if_pos hY, show Ideal.cmp .oeq Y 0 = 1#1 from by simp [Ideal.cmp, hY], select_one]
  · rw [if_neg hY, show Ideal.cmp .oeq Y 0 = 0#1 from by simp [Ideal.cmp, hY], select_zero]

/-- The new running maximum: the old one against the largest masked score of the tile, a fold of max from −∞. -/
theorem k3_pay10_apply (hq : Vec Ideal S8x512x64 .bf16) (hk : Vec Ideal S8x256x64 .bf16) (g : Vec Ideal S512x256 .f32)
    (m : Vec Ideal S8x512x1 .f32) (b : Fin 8) (q : Fin 512) :
    k3_pay10 (F := Ideal) hq hk g m (ix3 b q (0 : Fin 1)) = max (m (ix3 b q (0 : Fin 1))) ((Finset.univ : Finset (Fin 256)).fold max (⊥ : EReal) fun k => k3_pay9 (F := Ideal) hq hk g (ix3 b q k)) := by
  unfold k3_pay10
  try dsimp only
  rw [maximumf_apply, PayLayout.shapeCast_ab_ab1_apply]
  exact congrArg (max _) (laneMax_apply _ _ _ _ b q)

/-- The rescaling factor of the carried sums: exp (old maximum − new maximum). -/
theorem k3_pay11_apply (hq : Vec Ideal S8x512x64 .bf16) (hk : Vec Ideal S8x256x64 .bf16) (g : Vec Ideal S512x256 .f32)
    (m m' : Vec Ideal S8x512x1 .f32) (i : S8x512x1.Idx) :
    k3_pay11 (F := Ideal) hq hk g m m' i = Ideal.exp (m' i - k3_pay10 (F := Ideal) hq hk g m i) := rfl

/-- The tile's unnormalised weights: exp (score − new maximum). -/
theorem k3_pay12_apply (hq : Vec Ideal S8x512x64 .bf16) (hk : Vec Ideal S8x256x64 .bf16) (g : Vec Ideal S512x256 .f32)
    (m : Vec Ideal S8x512x1 .f32) (b : Fin 8) (q : Fin 512) (k : Fin 256) :
    k3_pay12 (F := Ideal) hq hk g m (ix3 b q k)
      = Ideal.exp (k3_pay9 (F := Ideal) hq hk g (ix3 b q k) - k3_pay10 (F := Ideal) hq hk g m (ix3 b q (0 : Fin 1))) := by
  unfold k3_pay12
  try dsimp only
  show Ideal.exp (_ - broadcastTo S8x512x256 _ _ (ix3 b q k)) = _
  rw [PayLayout.broadcastTo_ab1_abc_apply]

/-- The rescaled old normaliser. -/
theorem k3_pay13_apply (hq : Vec Ideal S8x512x64 .bf16) (hk : Vec Ideal S8x256x64 .bf16) (g : Vec Ideal S512x256 .f32)
    (m m' l : Vec Ideal S8x512x1 .f32) (i : S8x512x1.Idx) :
    k3_pay13 (F := Ideal) hq hk g m m' l i = k3_pay11 (F := Ideal) hq hk g m m' i * l i := rfl

/-- The tile's sum of weights. -/
theorem k3_pay14_apply (hq : Vec Ideal S8x512x64 .bf16) (hk : Vec Ideal S8x256x64 .bf16) (g : Vec Ideal S512x256 .f32)
    (m : Vec Ideal S8x512x1 .f32) (b : Fin 8) (q : Fin 512) :
    k3_pay14 (F := Ideal) hq hk g m (ix3 b q (0 : Fin 1)) = ∑ k : Fin 256, k3_pay12 (F := Ideal) hq hk g m (ix3 b q k) := by
  unfold k3_pay14
  try dsimp only
  rw [PayLayout.shapeCast_ab_ab1_apply]
  exact PayLayout.laneSum_apply _ _ _ _ b q

/-- The stored normaliser: the two summands added. -/
theorem k3_pay1_apply (x y : FVec Ideal S8x512x1 .f32) (i : S8x512x1.Idx) : k3_pay1 (F := Ideal) x y i = x i + y i := by
  unfold k3_pay1
  try dsimp only
  rw [shapeCast_self]
  rfl

/-- The stored weighted sum: the rescaled old one plus the tile's weights times its projected rows. -/
theorem k3_pay2_apply (v : FVec Ideal S8x256x64 .bf16) (a : FVec Ideal S8x512x1 .f32) (p : FVec Ideal S8x512x256 .f32)
    (acc : Vec Ideal S8x512x64 .f32) (b : Fin 8) (q : Fin 512) (j : Fin 64) :
    k3_pay2 (F := Ideal) v a p acc (ix3 b q j)
      = a (ix3 b q (0 : Fin 1)) * acc (ix3 b q j) + ∑ k : Fin 256, p (ix3 b q k) * v (ix3 b k j) := by
  unfold k3_pay2
  try dsimp only
  rw [shapeCast_self]
  simp only [matmul]
  rw [addf_apply, mulf_apply, PayLayout.broadcastTo_ab1_abc_apply, k3_pv_apply]
  rfl

/-- The stored maximum passes through its identity cast. -/
theorem k3_pay3_eq (x : FVec Ideal S8x512x1 .f32) : k3_pay3 (F := Ideal) x = x := by
  unfold k3_pay3
  exact shapeCast_self _ _

/-- The epilogue at (b, q, j): the weighted sum over the normaliser, plus the bias. -/
theorem k3_pay4_apply (acc : Vec Ideal S8x512x64 .f32) (l : Vec Ideal S8x512x1 .f32) (β : Vec Ideal S1x1x64 .f32)
    (b : Fin 8) (q : Fin 512) (j : Fin 64) :
    k3_pay4 (F := Ideal) acc l β (ix3 b q j)
      = Ideal.div (acc (ix3 b q j)) (l (ix3 b q (0 : Fin 1))) + β (ix3 (0 : Fin 1) (0 : Fin 1) j) := by
  unfold k3_pay4
  try dsimp only
  rw [shapeCast_self]
  rw [addf_apply, divf_apply, PayLayout.broadcastTo_ab1_abc_apply, PayLayout.broadcastTo_11c_abc_apply]

/-- The first key step's initial values: −∞ for the maximum, zero for the two sums. -/
theorem k3_pay5_apply (i : S8x512x1.Idx) : k3_pay5 (F := Ideal) i = ⊥ := by
  unfold k3_pay5
  try dsimp only
  rw [shapeCast_self]
  exact ofBits_ninf
theorem k3_pay6_apply (i : S8x512x1.Idx) : k3_pay6 (F := Ideal) i = 0 := by
  unfold k3_pay6
  try dsimp only
  rw [shapeCast_self]
  exact Ideal.ofBits_zero_f32
theorem k3_pay7_apply (i : S8x512x64.Idx) : k3_pay7 (F := Ideal) i = 0 := by
  unfold k3_pay7
  try dsimp only
  rw [shapeCast_self]
  exact Ideal.ofBits_zero_f32

/-! ## One key tile's update of the carried state, in the online-softmax form

    With m, l, acc the carried maximum, normaliser and weighted sum, s k the tile's masked scores and
    M' = max m (the fold of max from −∞ over the s k):
    m ↦ M',  l ↦ exp (m − M') · l + Σ_k exp (s k − M'),  acc ↦ exp (m − M') · acc + Σ_k exp (s k − M') · (key k's row). -/

theorem k3_step_m (hq : Vec Ideal S8x512x64 .bf16) (hk : Vec Ideal S8x256x64 .bf16) (g : Vec Ideal S512x256 .f32)
    (m : Vec Ideal S8x512x1 .f32) (b : Fin 8) (q : Fin 512) :
    k3_pay3 (F := Ideal) (k3_pay10 (F := Ideal) hq hk g m) (ix3 b q (0 : Fin 1)) = max (m (ix3 b q (0 : Fin 1))) ((Finset.univ : Finset (Fin 256)).fold max (⊥ : EReal) fun k => k3_pay9 (F := Ideal) hq hk g (ix3 b q k)) := by
  rw [k3_pay3_eq, k3_pay10_apply]

theorem k3_step_l (hq : Vec Ideal S8x512x64 .bf16) (hk : Vec Ideal S8x256x64 .bf16) (g : Vec Ideal S512x256 .f32)
    (m l : Vec Ideal S8x512x1 .f32) (b : Fin 8) (q : Fin 512) :
    k3_pay1 (F := Ideal) (k3_pay13 (F := Ideal) hq hk g m m l) (k3_pay14 (F := Ideal) hq hk g m) (ix3 b q (0 : Fin 1))
      = Ideal.exp (m (ix3 b q (0 : Fin 1)) - max (m (ix3 b q (0 : Fin 1))) ((Finset.univ : Finset (Fin 256)).fold max (⊥ : EReal) fun k => k3_pay9 (F := Ideal) hq hk g (ix3 b q k))) * l (ix3 b q (0 : Fin 1))
        + ∑ k : Fin 256, Ideal.exp (k3_pay9 (F := Ideal) hq hk g (ix3 b q k) - max (m (ix3 b q (0 : Fin 1))) ((Finset.univ : Finset (Fin 256)).fold max (⊥ : EReal) fun k => k3_pay9 (F := Ideal) hq hk g (ix3 b q k))) := by
  rw [k3_pay1_apply, k3_pay13_apply, k3_pay11_apply, k3_pay14_apply, k3_pay10_apply]
  refine congrArg (_ + ·) (Finset.sum_congr rfl fun k _ => ?_)
  rw [k3_pay12_apply, k3_pay10_apply]

theorem k3_step_acc (hq : Vec Ideal S8x512x64 .bf16) (hk : Vec Ideal S8x256x64 .bf16) (g : Vec Ideal S512x256 .f32)
    (m : Vec Ideal S8x512x1 .f32) (acc : Vec Ideal S8x512x64 .f32) (b : Fin 8) (q : Fin 512) (j : Fin 64) :
    k3_pay2 (F := Ideal) (k3_pay8 (F := Ideal) hk) (k3_pay11 (F := Ideal) hq hk g m m) (k3_pay12 (F := Ideal) hq hk g m) acc (ix3 b q j)
      = Ideal.exp (m (ix3 b q (0 : Fin 1)) - max (m (ix3 b q (0 : Fin 1))) ((Finset.univ : Finset (Fin 256)).fold max (⊥ : EReal) fun k => k3_pay9 (F := Ideal) hq hk g (ix3 b q k))) * acc (ix3 b q j)
        + ∑ k : Fin 256, Ideal.exp (k3_pay9 (F := Ideal) hq hk g (ix3 b q k) - max (m (ix3 b q (0 : Fin 1))) ((Finset.univ : Finset (Fin 256)).fold max (⊥ : EReal) fun k => k3_pay9 (F := Ideal) hq hk g (ix3 b q k))) * hk (ix3 b k j) := by
  rw [k3_pay2_apply, k3_pay8_eq, k3_pay11_apply, k3_pay10_apply]
  refine congrArg (_ + ·) (Finset.sum_congr rfl fun k _ => ?_)
  rw [k3_pay12_apply, k3_pay10_apply]

end Cert.KernelIdeal.HandValue

end
-- ==== Proof.IAttnValue3Tile.lean ====
/-
  One key tile of the second attention kernel as one update of a query row's carried state, on the extended reals.

  When the query block holds row n of the projected array at its row r, the key tile holds the projected rows of the
  tile's 256 keys and the mask block holds the mask entries of row n against those keys, the tile's masked scores at
  row r are the specification's scores of row n against those keys, and the three stored values at row r — the
  maximum, the normaliser, the weighted sum's entry j — are the row update of the carried values found there.
-/
import proofs.«144140_j35399120453979_2_alg».proof.Proof.IValueAttn3
import proofs.«144140_j35399120453979_2_alg».proof.Proof.LibAttnRow

set_option maxRecDepth 16384

noncomputable section

namespace Cert.KernelIdeal.HandValue

open Cert.KernelIdeal Cert.KernelIdeal.Gen
open Idealize.ShloMosaic Idealize.ShloMosaic.TcCoe Idealize.ShloMosaic.ValueIdx
open Cert.Lib.AttnRow

/-- The tile's masked score at (b, r, k) is the specification's score of row n against key 256·kv + k. -/
theorem k3_tile_score (H : Fin 8 → Fin 4096 → Fin 64 → EReal) (G : Fin 4096 → Fin 4096 → EReal)
    (hq : Vec Ideal S8x512x64 .bf16) (hk : Vec Ideal S8x256x64 .bf16) (g : Vec Ideal S512x256 .f32)
    (b : Fin 8) (r : Fin 512) (n : Fin 4096) (kv : Fin 16)
    (ehq : ∀ d, hq (ix3 b r d) = H b n d) (ehk : ∀ k d, hk (ix3 b k d) = H b (kidx kv k) d)
    (eg : ∀ k, g (ix2 r k) = G n (kidx kv k)) (k : Fin 256) :
    k3_pay9 (F := Ideal) hq hk g (ix3 b r k) = Cert.Spec.score H G b n (kidx kv k) := by
  rw [k3_pay9_apply]
  unfold Cert.Spec.score
  rw [eg k, show (∑ d : Fin 64, hq (ix3 b r d) * hk (ix3 b k d)) = ∑ d : Fin 64, H b n d * H b (kidx kv k) d from
    Finset.sum_congr rfl fun d _ => by rw [ehq d, ehk k d]]

/-- The three values the tile stores at row r (maximum, normaliser, entry j of the weighted sum) are the row update of
    the carried values at row r. -/
theorem k3_tile_step (H : Fin 8 → Fin 4096 → Fin 64 → EReal) (G : Fin 4096 → Fin 4096 → EReal)
    (hq : Vec Ideal S8x512x64 .bf16) (hk : Vec Ideal S8x256x64 .bf16) (g : Vec Ideal S512x256 .f32)
    (m l : Vec Ideal S8x512x1 .f32) (acc : Vec Ideal S8x512x64 .f32)
    (b : Fin 8) (r : Fin 512) (n : Fin 4096) (kv : Fin 16) (j : Fin 64)
    (ehq : ∀ d, hq (ix3 b r d) = H b n d) (ehk : ∀ k d, hk (ix3 b k d) = H b (kidx kv k) d)
    (eg : ∀ k, g (ix2 r k) = G n (kidx kv k)) :
    (k3_pay3 (F := Ideal) (k3_pay10 (F := Ideal) hq hk g m) (ix3 b r (0 : Fin 1)),
     k3_pay1 (F := Ideal) (k3_pay13 (F := Ideal) hq hk g m m l) (k3_pay14 (F := Ideal) hq hk g m) (ix3 b r (0 : Fin 1)),
     k3_pay2 (F := Ideal) (k3_pay8 (F := Ideal) hk) (k3_pay11 (F := Ideal) hq hk g m m) (k3_pay12 (F := Ideal) hq hk g m) acc (ix3 b r j))
      = tileStep (fun m' => Cert.Spec.score H G b n m') (fun m' => H b m' j) kv
          (m (ix3 b r (0 : Fin 1)), l (ix3 b r (0 : Fin 1)), acc (ix3 b r j)) := by
  have hs : (fun k : Fin 256 => k3_pay9 (F := Ideal) hq hk g (ix3 b r k)) = fun k => Cert.Spec.score H G b n (kidx kv k) :=
    funext fun k => k3_tile_score H G hq hk g b r n kv ehq ehk eg k
  rw [k3_step_m, k3_step_l, k3_step_acc]
  unfold tileStep
  simp only [hs]
  refine Prod.ext rfl (Prod.ext ?_ ?_)
  · refine congrArg (_ + ·) (Finset.sum_congr rfl fun k _ => ?_)
    rw [congrFun hs k]
  · refine congrArg (_ + ·) (Finset.sum_congr rfl fun k _ => ?_)
    rw [congrFun hs k, ehk k j]

end Cert.KernelIdeal.HandValue

end
-- ==== Proof.IAttnValue3Inv.lean ====
/-
  Attention region 3: the carried state of a query row along the key steps, and what the last key step stores.

  Fix a batch entry b, a row r of the query tile and a feature j. After the point t the three carried buffers hold, at
  (b, r, 0), (b, r, 0) and (b, r, j), the row update by key tile t % 16 of what they held before — of (−∞, 0, 0) at a first
  key step — for the scores of array row 512·(t/16) + r and the values column j of the projected array. So after the
  sixteen key steps of a query tile weighted sum over normaliser is the softmax-weighted sum of the specification, and the
  block the last key step stores is the specification's attention.
-/
import proofs.«144140_j35399120453979_2_alg».proof.Proof.IStep3
import proofs.«144140_j35399120453979_2_alg».proof.Proof.IAttnValue3Idx
import proofs.«144140_j35399120453979_2_alg».proof.Proof.IAttnValue3Tile
import proofs.«144140_j35399120453979_2_alg».proof.Proof.ISpecReal

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Lib.AttnRow Cert.Lib.RealValued

variable (V : (c : Dev nD) → (b : Ref sig .tc) → Buf (Elt Ideal) ((c : Thread nD τ).loc b))

/-- The projected array as a function of (batch, row, feature). -/
abbrev HK3 (c : Dev nD) : Fin 8 → Fin 4096 → Fin 64 → EReal := fun b n k => V c main_v3 (ix3 b n k)
/-- The mask as a function of (query, key). -/
abbrev GK3 (c : Dev nD) : Fin 4096 → Fin 4096 → EReal := fun n m => V c main_arg1 (ix2 n m)

/-- The carried values of row r, feature j after point t: maximum, normaliser, weighted sum. -/
def stOf3 (c : Dev nD) (b : Fin 8) (r : Fin 512) (j : Fin 64) (t : Fin cfg3.N) : EReal × EReal × EReal :=
  ((outsAt3 V c t.val t.isLt).2.1 (ix3 b r (0 : Fin 1)), (outsAt3 V c t.val t.isLt).2.2.1 (ix3 b r (0 : Fin 1)),
   (outsAt3 V c t.val t.isLt).2.2.2 (ix3 b r j))

/-- A first key step: the row update of (−∞, 0, 0). -/
theorem stOf3_A (c : Dev nD) (b : Fin 8) (r : Fin 512) (j : Fin 64) (t : Fin cfg3.N) (h0 : t.val % 16 = 0) :
    stOf3 V c b r j t
      = tileStep (fun m' => Cert.Spec.score (HK3 V c) (GK3 V c) b (qrow3 t r) m') (fun m' => HK3 V c b m' j) (kstep3 t) (⊥, 0, 0) := by
  unfold stOf3
  rw [outsAt3_A V c t h0, step3_A_m, step3_A_l, step3_A_acc]
  have h := k3_tile_step (HK3 V c) (GK3 V c) (iblk3 V c 0 t) (keys3 (grid3.coords t) (iblk3 V c 1 t)) (iblk3 V c 2 t)
    (k3_pay5 (F := Ideal)) (k3_pay6 (F := Ideal)) (k3_pay7 (F := Ideal)) b r (qrow3 t r) (kstep3 t) j
    (fun d => iblk3_0_apply V c t b r d) (fun k d => ktile3_apply V c t b k d) (fun k => iblk3_2_apply V c t r k)
  rw [k3_pay5_apply, k3_pay6_apply, k3_pay7_apply] at h
  exact h

/-- A later key step: the row update of what the point before left. -/
theorem stOf3_BC (c : Dev nD) (b : Fin 8) (r : Fin 512) (j : Fin 64) (t : Fin cfg3.N) (h0 : ¬t.val % 16 = 0) :
    stOf3 V c b r j t
      = tileStep (fun m' => Cert.Spec.score (HK3 V c) (GK3 V c) b (qrow3 t r) m') (fun m' => HK3 V c b m' j) (kstep3 t)
          (stOf3 V c b r j ⟨t.val - 1, Nat.lt_of_le_of_lt (Nat.sub_le _ _) t.isLt⟩) := by
  unfold stOf3
  by_cases h1 : t.val % 16 = 15
  · rw [outsAt3_C V c t h0 h1, step3_C_m, step3_C_l, step3_C_acc]
    exact k3_tile_step (HK3 V c) (GK3 V c) (iblk3 V c 0 t) (keys3 (grid3.coords t) (iblk3 V c 1 t)) (iblk3 V c 2 t)
      _ _ _ b r (qrow3 t r) (kstep3 t) j
      (fun d => iblk3_0_apply V c t b r d) (fun k d => ktile3_apply V c t b k d) (fun k => iblk3_2_apply V c t r k)
  · rw [outsAt3_B V c t h0 h1, step3_B_m, step3_B_l, step3_B_acc]
    exact k3_tile_step (HK3 V c) (GK3 V c) (iblk3 V c 0 t) (keys3 (grid3.coords t) (iblk3 V c 1 t)) (iblk3 V c 2 t)
      _ _ _ b r (qrow3 t r) (kstep3 t) j
      (fun d => iblk3_0_apply V c t b r d) (fun k d => ktile3_apply V c t b k d) (fun k => iblk3_2_apply V c t r k)

/-- What the last key step stores at (b, r, j): weighted sum over normaliser, plus the bias. -/
theorem out3_C (c : Dev nD) (b : Fin 8) (r : Fin 512) (j : Fin 64) (t : Fin cfg3.N) (h1 : t.val % 16 = 15) :
    (outsAt3 V c t.val t.isLt).1 (ix3 b r j)
      = Ideal.div (stOf3 V c b r j t).2.2 (stOf3 V c b r j t).2.1 + V c main_v4 (ix3 (0 : Fin 1) (0 : Fin 1) j) := by
  have h0 : ¬t.val % 16 = 0 := by omega
  unfold stOf3
  rw [outsAt3_C V c t h0 h1, step3_C_out, step3_C_l, step3_C_acc, k3_pay4_apply, iblk3_3_apply]

end Cert.KernelIdeal.HandValue

end
-- ==== Proof.IAttnValue3Blk.lean ====
/-
  Attention region 3: every block the region writes back is the specification's attention.

  A query tile's sixteen key steps are sixteen chained row updates from (−∞, 0, 0) of the same row's scores, so at the last
  one weighted sum over normaliser is the softmax-weighted sum over all 4096 keys (the projected array and the mask
  being real-valued), and the stored block adds the bias.
-/
import proofs.«144140_j35399120453979_2_alg».proof.Proof.IAttnValue3Inv

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Lib.AttnRow Cert.Lib.RealValued

variable (V : (c : Dev nD) → (b : Ref sig .tc) → Buf (Elt Ideal) ((c : Thread nD τ).loc b))

/-- The bias as a function of the feature. -/
abbrev BK3 (c : Dev nD) : Fin 64 → EReal := fun j => V c main_v4 (ix3 (0 : Fin 1) (0 : Fin 1) j)

/-- What the result array ends holding: the specification's attention, index by index. -/
def GA3 (c : Dev nD) : S8x4096x64.Idx → EReal :=
  fun i => Cert.Spec.attn (HK3 V c) (GK3 V c) (BK3 V c) ⟨(i 0).val, (i 0).isLt⟩ ⟨(i 1).val, (i 1).isLt⟩ ⟨(i 2).val, (i 2).isLt⟩

/-- Point kv of the query tile that point t belongs to. -/
abbrev tileAt3 (t : Fin cfg3.N) (kv : Fin 16) : Fin cfg3.N :=
  ⟨t.val / 16 * 16 + kv.val, Nat.lt_of_lt_of_eq (by
    have := Nat.lt_of_lt_of_eq t.isLt (N_3 : cfg3.N = 128); have := kv.isLt; omega) (N_3 : cfg3.N = 128).symm⟩

/-- After the last key step of a query tile, weighted sum over normaliser at row r is the specification's
    softmax-weighted sum for array row 512·(t/16) + r. -/
theorem quot3 (c : Dev nD) (hH : ∀ i, IsReal (V c main_v3 i)) (hG : ∀ i, IsReal (V c main_arg1 i))
    (b : Fin 8) (r : Fin 512) (j : Fin 64) (t : Fin cfg3.N) (h1 : t.val % 16 = 15) :
    Ideal.div (stOf3 V c b r j t).2.2 (stOf3 V c b r j t).2.1
      = ∑ m : Fin 4096,
          Ideal.div (Ideal.exp (Cert.Spec.score (HK3 V c) (GK3 V c) b (qrow3 t r) m - Cert.Spec.rowMax (HK3 V c) (GK3 V c) b (qrow3 t r)))
            (∑ m' : Fin 4096, Ideal.exp (Cert.Spec.score (HK3 V c) (GK3 V c) b (qrow3 t r) m' - Cert.Spec.rowMax (HK3 V c) (GK3 V c) b (qrow3 t r)))
          * HK3 V c b m j := by
  have ht := Nat.lt_of_lt_of_eq t.isLt (N_3 : cfg3.N = 128)
  have hrow : ∀ kv : Fin 16, qrow3 (tileAt3 t kv) r = qrow3 t r := fun kv => Fin.ext (by
    have := kv.isLt
    show (t.val / 16 * 16 + kv.val) / 16 * 512 + r.val = t.val / 16 * 512 + r.val
    omega)
  have hks : ∀ kv : Fin 16, kstep3 (tileAt3 t kv) = kv := fun kv => Fin.ext (by
    have := kv.isLt
    show (t.val / 16 * 16 + kv.val) % 16 = kv.val
    omega)
  have hlast : tileAt3 t 15 = t := Fin.ext (by
    show t.val / 16 * 16 + 15 = t.val
    omega)
  have hs : ∀ i, IsReal (Cert.Spec.score (HK3 V c) (GK3 V c) b (qrow3 t r) i) := fun i =>
    Cert.Spec.score_isReal (HK3 V c) (GK3 V c) (fun b n k => hH _) (fun n m => hG _) b (qrow3 t r) i
  have hv : ∀ i, IsReal (HK3 V c b i j) := fun i => hH _
  have h := tiles_div_eq (fun m' => Cert.Spec.score (HK3 V c) (GK3 V c) b (qrow3 t r) m') (fun m' => HK3 V c b m' j) hs hv
    (fun kv => stOf3 V c b r j (tileAt3 t kv))
    (by
      have e := stOf3_A V c b r j (tileAt3 t 0) (by show (t.val / 16 * 16 + 0) % 16 = 0; omega)
      rw [hrow 0, hks 0] at e
      exact e)
    (fun kv hlt => by
      have e := stOf3_BC V c b r j (tileAt3 t ⟨kv.val + 1, hlt⟩) (by show ¬(t.val / 16 * 16 + (kv.val + 1)) % 16 = 0; omega)
      rw [hrow ⟨kv.val + 1, hlt⟩, hks ⟨kv.val + 1, hlt⟩] at e
      have ep : (⟨(tileAt3 t ⟨kv.val + 1, hlt⟩).val - 1, Nat.lt_of_le_of_lt (Nat.sub_le _ _) (tileAt3 t ⟨kv.val + 1, hlt⟩).isLt⟩ : Fin cfg3.N)
          = tileAt3 t kv := Fin.ext (by
        show t.val / 16 * 16 + (kv.val + 1) - 1 = t.val / 16 * 16 + kv.val
        omega)
      rw [ep] at e
      exact e)
  rw [hlast] at h
  exact h

/-- THE BLOCKS: what the last key step of a query tile stores is the result function on the tile's rows. -/
theorem blocks3 (c : Dev nD) (hH : ∀ i, IsReal (V c main_v3 i)) (hG : ∀ i, IsReal (V c main_arg1 i))
    (t : Fin cfg3.N) (h1 : t.val % 16 = 15) (b : Fin 8) (r : Fin 512) (j : Fin 64) :
    (outsAt3 V c t.val t.isLt).1 (ix3 b r j) = GA3 V c (ix3 b (qrow3 t r) j) := by
  rw [out3_C V c b r j t h1, quot3 V c hH hG b r j t h1]
  rfl

end Cert.KernelIdeal.HandValue

end
-- ==== Proof.IAttnBlocks3.lean ====
/-
  Attention region 3, the result window: where each grid point's block sits in the result array, which point writes
  a row back (the last key step of the row's query tile), that those blocks cover the array, and the array after the
  region from the body's output blocks at the flushing points.
-/
import proofs.«144140_j35399120453979_2_alg».proof.Proof.IRegion3
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.RA Idealize.SL.Sem
open Idealize.ShloMosaic.Pipeline (Dat)

/-- The printed index map of the result window, decided over the 128 grid points: point t works on row block t / 16. -/
theorem out_facts3 : ∀ t : Fin cfg3.N,
    win3_4.index t (0 : Fin 3) = 0 ∧ win3_4.index t (1 : Fin 3) = t.val / 16 ∧ win3_4.index t (2 : Fin 3) = 0 :=
  (by decide +kernel : ∀ t : Fin grid3.N, _)

/-- Row r of point t's result block is row 512·(t/16) + r of the array. -/
abbrev orow3 (t : Fin cfg3.N) (r : Fin 512) : Fin 4096 :=
  ⟨t.val / 16 * 512 + r.val, by have := Nat.lt_of_lt_of_eq t.isLt (N_3 : cfg3.N = 128); have := r.isLt; omega⟩

/-- The point that writes row n back: the last key step of the row's query tile. -/
abbrev fpt3 (n : Fin 4096) : Fin cfg3.N :=
  ⟨16 * (n.val / 512) + 15, by rw [show cfg3.N = 128 from N_3]; have := n.isLt; omega⟩

theorem fpt3_flush (n : Fin 4096) : (cfg3.win 4).flush (fpt3 n) = true :=
  (flush3_4 (fpt3 n)).mpr (by show (16 * (n.val / 512) + 15) % 16 = 15; omega)

/-- Row n is row n % 512 of the block its flushing point works on. -/
theorem orow3_fpt (n : Fin 4096) : orow3 (fpt3 n) ⟨n.val % 512, Nat.mod_lt _ (by decide)⟩ = n := by
  apply Fin.ext
  show (16 * (n.val / 512) + 15) / 16 * 512 + n.val % 512 = n.val
  omega

/-- Two functions on a result block agree when they agree coordinate by coordinate. -/
theorem blk_ext3_4 {f g : S8x512x64.Idx → EReal} (h : ∀ (b : Fin 8) (r : Fin 512) (j : Fin 64), f (ix3 b r j) = g (ix3 b r j)) : f = g :=
  funext fun i => by rw [eq_ix3 i]; exact h _ _ _

/-- The result window's block at point t sits at rows 512·(t/16) … of the array. -/
theorem emb3_4 (t : Fin cfg3.N) (b : Fin 8) (r : Fin 512) (j : Fin 64) :
    ((cfg3.win 4).blk t).view.emb (ix3 b r j : S8x512x64.Idx) = (ix3 b (orow3 t r) j : S8x4096x64.Idx) := by
  obtain ⟨e0, e1, e2⟩ := out_facts3 t
  funext a
  apply Fin.ext
  match a with
  | ⟨0, _⟩ => show win3_4.index t (0 : Fin 3) * 8 + 1 * b.val = b.val; rw [e0]; omega
  | ⟨1, _⟩ => show win3_4.index t (1 : Fin 3) * 512 + 1 * r.val = t.val / 16 * 512 + r.val; rw [e1]; omega
  | ⟨2, _⟩ => show win3_4.index t (2 : Fin 3) * 64 + 1 * j.val = j.val; rw [e2]; omega

/-- A whole-array function read through point t's result block, at (b, r, j): the function at (b, 512·(t/16) + r, j). -/
theorem read_blk3_4 (G : S8x4096x64.Idx → EReal) (t : Fin cfg3.N) (b : Fin 8) (r : Fin 512) (j : Fin 64) :
    (((cfg3.win 4).blk t).view.read (Elt Ideal) G : S8x512x64.Idx → EReal) (ix3 b r j) = G (ix3 b (orow3 t r) j) := by
  rw [View.read_apply, emb3_4]
  rfl

/-- An index of the array is in point t's block iff each coordinate is in the block's range on its axis. -/
theorem mem_blk3_4 (t : Fin cfg3.N) (i : S8x4096x64.Idx) :
    i ∈ ((cfg3.win 4).blk t).view.set ↔ ∀ a : Fin 3, win3_4.index t a * S8x512x64.size a ≤ (i a).val ∧ (i a).val < win3_4.index t a * S8x512x64.size a + S8x512x64.size a := by
  show i ∈ ((View.whole main_v5).slice (win3_4.rect t)).set ↔ _
  rw [View.set_slice_whole, Rect.mem_set_unit]
  exact Iff.rfl

/-- Index (b, n, j) of the array is in the block of row n's flushing point. -/
theorem mem_fpt3 (b : Fin 8) (n : Fin 4096) (j : Fin 64) :
    (ix3 b n j : S8x4096x64.Idx) ∈ ((cfg3.win 4).blk (fpt3 n)).view.set := by
  obtain ⟨e0, e1, e2⟩ := out_facts3 (fpt3 n)
  have ht : (fpt3 n).val = 16 * (n.val / 512) + 15 := rfl
  have hb := b.isLt; have hn := n.isLt; have hj := j.isLt
  rw [mem_blk3_4]
  intro a
  match a with
  | ⟨0, _⟩ => show win3_4.index (fpt3 n) (0 : Fin 3) * 8 ≤ b.val ∧ b.val < win3_4.index (fpt3 n) (0 : Fin 3) * 8 + 8; omega
  | ⟨1, _⟩ => show win3_4.index (fpt3 n) (1 : Fin 3) * 512 ≤ n.val ∧ n.val < win3_4.index (fpt3 n) (1 : Fin 3) * 512 + 512; omega
  | ⟨2, _⟩ => show win3_4.index (fpt3 n) (2 : Fin 3) * 64 ≤ j.val ∧ j.val < win3_4.index (fpt3 n) (2 : Fin 3) * 64 + 64; omega

/-- Every index of the result array is in a flushing point's block. -/
theorem covered3_4 (i : S8x4096x64.Idx) : ∃ t : Fin cfg3.N, (cfg3.win 4).flush t = true ∧ i ∈ ((cfg3.win 4).blk t).view.set := by
  rw [eq_ix3 i]
  exact ⟨fpt3 ⟨(i 1).val, (i 1).isLt⟩, fpt3_flush _, mem_fpt3 ⟨(i 0).val, (i 0).isLt⟩ ⟨(i 1).val, (i 1).isLt⟩ ⟨(i 2).val, (i 2).isLt⟩⟩

variable (V : (c : Dev nD) → (b : Ref sig .tc) → Buf (Elt Ideal) ((c : Thread nD τ).loc b))

/-- THE RESULT ARRAY AFTER THE REGION: when at every flushing point (the last key step of a query tile) the body's
    output block is the function G read at rows 512·(t/16) …, the array ends holding G — each flushed block is G read
    through the point's block, and the flushing points' blocks cover the array. -/
theorem arr3_of_blocks (q : Fin cfg3.W → PosShare TreeShare) (c : Dev nD) (G3 : S8x4096x64.Idx → EReal)
    (h : ∀ (t : Fin cfg3.N), t.val % 16 = 15 → ∀ (b : Fin 8) (r : Fin 512) (j : Fin 64),
      (outsAt3 V c t.val t.isLt).1 (ix3 b r j) = G3 (ix3 b (orow3 t r) j)) :
    (dat3 (F := Ideal) V q c).arrAt 4 cfg3.N = G3 := by
  refine (dat3 (F := Ideal) V q c).arrAt_eq_of_cover 4 G3 (fun t hf => ?_) covered3_4
  show (cfg3.win 4).cut (grid3.coords t) ((dat3 (F := Ideal) V q c).after 4 t) = _
  rw [Hand.after3_4]
  refine blk_ext3_4 fun b r j => ?_
  rw [read_blk3_4]
  exact h t ((flush3_4 t).mp hf) b r j

end Cert.KernelIdeal.HandValue

end
-- ==== Proof.IAttnValue3.lean ====
/-
  Attention region 3 as a whole-array function, on the extended reals: when the projected array and the mask are
  real-valued, the result array after the region holds, at every index, the specification's attention of the projected array, the mask and the bias — the blocks the last key steps store tile the array.
-/
import proofs.«144140_j35399120453979_2_alg».proof.Proof.IAttnValue3Blk
import proofs.«144140_j35399120453979_2_alg».proof.Proof.IAttnBlocks3
import proofs.«144140_j35399120453979_2_alg».proof.Proof.IShare3

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Lib.RealValued

/-- The result array after the region, read at (b, n, j): the specification's attention. -/
theorem attn3 (V : (c : Dev nD) → (b : Ref sig .tc) → Buf (Elt Ideal) ((c : Thread nD τ).loc b)) (c : Dev nD)
    (hH : ∀ i, Cert.Lib.RealValued.IsReal (V c main_v3 i)) (hG : ∀ i, Cert.Lib.RealValued.IsReal (V c main_arg1 i))
    (b : Fin 8) (n : Fin 4096) (j : Fin 64) :
    (Cert.KernelIdeal.Hand.dat3 (F := Ideal) V Cert.KernelIdeal.Hand.q3 c).arrAt 4 cfg3.N (ix3 b n j)
      = Cert.Spec.attn (fun b n k => V c main_v3 (ix3 b n k)) (fun n m => V c main_arg1 (ix2 n m)) (fun j => V c main_v4 (ix3 0 0 j)) b n j := by
  rw [arr3_of_blocks V Cert.KernelIdeal.Hand.q3 c (GA3 V c) (fun t h1 b r j => blocks3 V c hH hG t h1 b r j)]
  rfl

end Cert.KernelIdeal.HandValue

end
-- ==== Proof.IValueFold.lean ====
/-
  The result buffer's final contents as the specification's network of the six argument arrays: the last valuation is
  unwound item by item — the closing broadcast, the second attention over the second projection and the bias row, the
  second projection over the first layer's positive part, the first attention over the first projection — each region's
  result array read by its value theorem, each buffer a later item does not write followed back to where it was written.
-/
import proofs.«144140_j35399120453979_2_alg».proof.Proof.IRun
import proofs.«144140_j35399120453979_2_alg».proof.Proof.IValueLin0
import proofs.«144140_j35399120453979_2_alg».proof.Proof.IValueLin2
import proofs.«144140_j35399120453979_2_alg».proof.Proof.IAttnValue1
import proofs.«144140_j35399120453979_2_alg».proof.Proof.IAttnValue3
import proofs.«144140_j35399120453979_2_alg».proof.Proof.ISpecReal
import proofs.«144140_j35399120453979_2_alg».proof.Proof.LibKeepdimsLayout
import proofs.«144140_j35399120453979_2_alg».proof.Proof.LibRealValued
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Cert.Lib.RealValued

variable (m : (ℓ : Loc nD τ sig) → Buf (Elt Ideal) ℓ)

/-! ## Buffers no later item writes -/

theorem U2_of (c : Dev nD) (r : Ref sig .tc) (h1 : r ∉ hostOps1_W) (h0 : r ∉ ([main_v0] : List (Ref sig .tc))) : U2 m c r = U0 m c r := by
  rw [← V2_eq, V2_of m (outs m) c r h1, V1_of m (outs m) c r h0]
theorem U5_of (c : Dev nD) (r : Ref sig .tc) (h3 : r ∉ hostOps3_W) (h4 : r ∉ ([main_v3] : List (Ref sig .tc))) (h2 : r ∉ ([main_v2] : List (Ref sig .tc)))
    (h1 : r ∉ hostOps1_W) (h0 : r ∉ ([main_v0] : List (Ref sig .tc))) : U5 m c r = U0 m c r := by
  rw [← V5_eq, V5_of m (outs m) c r h3, V4_of m (outs m) c r h4, V3_of m (outs m) c r h2, V2_of m (outs m) c r h1, V1_of m (outs m) c r h0]
theorem U3_of (c : Dev nD) (r : Ref sig .tc) (h2 : r ∉ ([main_v2] : List (Ref sig .tc)))
    (h1 : r ∉ hostOps1_W) (h0 : r ∉ ([main_v0] : List (Ref sig .tc))) : U3 m c r = U0 m c r := by
  rw [← V3_eq, V3_of m (outs m) c r h2, V2_of m (outs m) c r h1, V1_of m (outs m) c r h0]

/-- The first projection's result reaches the first attention as written. -/
theorem U2_v0 (c : Dev nD) : U2 m c main_v0 = o1 m c := by
  rw [← V2_eq, V2_of m (outs m) c main_v0 (by decide), V1_eq]; unfold U1
  exact Function.update_self (Proc.devRef .tc main_v0 : DevRef τ sig) (o1 m c) (U0 m c)
/-- The first attention's result reaches the second projection as written. -/
theorem U3_v2 (c : Dev nD) : U3 m c main_v2 = o3 m c := by
  unfold U3; exact Function.update_self (Proc.devRef .tc main_v2 : DevRef τ sig) (o3 m c) (U2 m c)
/-- The second projection's result reaches the second attention as written. -/
theorem U5_v3 (c : Dev nD) : U5 m c main_v3 = o4 m c := by
  rw [← V5_eq, V5_of m (outs m) c main_v3 (by decide), V4_eq]; unfold U4
  exact Function.update_self (Proc.devRef .tc main_v3 : DevRef τ sig) (o4 m c) (U3 m c)
theorem U6_v5 (c : Dev nD) : U6 m c main_v5 = o6 m c := by
  unfold U6; exact Function.update_self (Proc.devRef .tc main_v5 : DevRef τ sig) (o6 m c) (U5 m c)

/-! ## The host stretches' results -/

/-- The first bias row as the first attention finds it: the bias vector recast to [1, 1, 128]. -/
theorem U2_v1 (c : Dev nD) (j : Fin 128) : U2 m c main_v1 (ix3 (0 : Fin 1) (0 : Fin 1) j) = m ((c.tc : Thread nD τ).loc main_arg3) (ix1 j) := by
  have e : (U2 m c main_v1 : S1x1x128.Idx → EReal) = shapeCast S1x1x128 (U1 m c main_arg3) shapeCasts_S128_S1x1x128 := by
    unfold U2; show StableHlo.after hostOps1 (U1 m c) (Proc.devRef .tc main_v1) = _; after_results <;> rfl
  rw [e, Cert.KernelIdeal.PayLayout.shapeCast_c_11c_apply]
  unfold U1
  exact congrFun (Function.update_of_ne (StableHlo.devRef_ne_of_ne (by decide) : (Proc.devRef .tc main_arg3 : DevRef τ sig) ≠ Proc.devRef .tc main_v0) _ _) _
/-- The second bias row as the second attention finds it. -/
theorem U5_v4 (c : Dev nD) (j : Fin 64) : U5 m c main_v4 (ix3 (0 : Fin 1) (0 : Fin 1) j) = m ((c.tc : Thread nD τ).loc main_arg5) (ix1 j) := by
  have e : (U5 m c main_v4 : S1x1x64.Idx → EReal) = shapeCast S1x1x64 (U4 m c main_arg5) shapeCasts_S64_S1x1x64 := by
    unfold U5; show StableHlo.after hostOps3 (U4 m c) (Proc.devRef .tc main_v4) = _; after_results <;> rfl
  rw [e, Cert.KernelIdeal.PayLayout.shapeCast_c_11c_apply]
  have h4 : U4 m c main_arg5 = U0 m c main_arg5 := by
    rw [← V4_eq, V4_of m (outs m) c main_arg5 (by decide), V3_of m (outs m) c main_arg5 (by decide), V2_of m (outs m) c main_arg5 (by decide), V1_of m (outs m) c main_arg5 (by decide)]
  rw [h4]
/-- The result buffer: the second attention's result with a unit axis inserted. -/
theorem U7_v6 (c : Dev nD) (b : Fin 8) (n : Fin 4096) (j : Fin 64) : U7 m c main_v6 (ix4 b n (0 : Fin 1) j) = o6 m c (ix3 b n j) := by
  have e : (U7 m c main_v6 : S8x4096x1x64.Idx → EReal) = broadcastInDim S8x4096x1x64 ![0, 1, 3] bcast_S8x4096x64_S8x4096x1x64_0_1_3 (U6 m c main_v5) := by
    unfold U7; show StableHlo.after hostOps4 (U6 m c) (Proc.devRef .tc main_v6) = _; after_results <;> rfl
  rw [e, U6_v5]
  exact broadcastInDim_apply _ bcast_S8x4096x64_S8x4096x1x64_0_1_3 (o6 m c) _ (ix3 b n j) (fun a => match a with
    | ⟨0, _⟩ => by show b.val = if (8 : Nat) = 1 then 0 else b.val; rw [if_neg (by decide)]
    | ⟨1, _⟩ => by show n.val = if (4096 : Nat) = 1 then 0 else n.val; rw [if_neg (by decide)]
    | ⟨2, _⟩ => by show j.val = if (64 : Nat) = 1 then 0 else j.val; rw [if_neg (by decide)])

/-! ## The network -/

section Network

variable (c : Dev nD)
  (hx0 : ∀ i, IsReal (m ((c.tc : Thread nD τ).loc main_arg0) i)) (hx1 : ∀ i, IsReal (m ((c.tc : Thread nD τ).loc main_arg1) i))
  (hx2 : ∀ i, IsReal (m ((c.tc : Thread nD τ).loc main_arg2) i)) (hx3 : ∀ i, IsReal (m ((c.tc : Thread nD τ).loc main_arg3) i))
  (hx4 : ∀ i, IsReal (m ((c.tc : Thread nD τ).loc main_arg4) i)) (hx5 : ∀ i, IsReal (m ((c.tc : Thread nD τ).loc main_arg5) i))

/-- The six argument arrays, curried. -/
abbrev aX : Fin 8 → Fin 4096 → Fin 64 → EReal := fun b n d => m ((c.tc : Thread nD τ).loc main_arg0) (ix3 b n d)
abbrev aG : Fin 4096 → Fin 4096 → EReal := fun n k => m ((c.tc : Thread nD τ).loc main_arg1) (ix2 n k)
abbrev aW1 : Fin 128 → Fin 64 → EReal := fun j d => m ((c.tc : Thread nD τ).loc main_arg2) (ix2 j d)
abbrev aB1 : Fin 128 → EReal := fun j => m ((c.tc : Thread nD τ).loc main_arg3) (ix1 j)
abbrev aW2 : Fin 64 → Fin 128 → EReal := fun j d => m ((c.tc : Thread nD τ).loc main_arg4) (ix2 j d)
abbrev aB2 : Fin 64 → EReal := fun j => m ((c.tc : Thread nD τ).loc main_arg5) (ix1 j)

/-- The first projection as the first attention finds it. -/
theorem proj1_eq (b : Fin 8) (n : Fin 4096) (k : Fin 128) :
    U2 m c main_v0 (ix3 b n k) = Cert.Spec.lin (aX m c) (aW1 m c) b n k := by
  rw [U2_v0]; unfold o1; exact lin0 (atRefs (U0 m)) c b n k

theorem mask1_eq (n k : Fin 4096) : U2 m c main_arg1 (ix2 n k) = aG m c n k := by
  rw [U2_of m c main_arg1 (by decide) (by decide)]
theorem mask2_eq (n k : Fin 4096) : U5 m c main_arg1 (ix2 n k) = aG m c n k := by
  rw [U5_of m c main_arg1 (by decide) (by decide) (by decide) (by decide) (by decide)]
theorem w2_eq (j : Fin 64) (d : Fin 128) : U3 m c main_arg4 (ix2 j d) = aW2 m c j d := by
  rw [U3_of m c main_arg4 (by decide) (by decide) (by decide)]

include hx0 hx1 hx2 hx3 in
/-- The first attention's result: the first layer's positive part. -/
theorem layer1_eq (b : Fin 8) (n : Fin 4096) (j : Fin 128) :
    U3 m c main_v2 (ix3 b n j) = max (Cert.Spec.layer (aX m c) (aG m c) (aW1 m c) (aB1 m c) b n j) 0 := by
  have hH : ∀ i : S8x4096x128.Idx, IsReal (atRefs (U2 m) c main_v0 i) := fun i => by
    obtain ⟨b', n', k', rfl⟩ : ∃ (b' : Fin 8) (n' : Fin 4096) (k' : Fin 128), i = ix3 b' n' k' := ⟨i 0, i 1, i 2, eq_ix3 i⟩
    show IsReal (U2 m c main_v0 (ix3 b' n' k')); rw [proj1_eq]
    exact Cert.Spec.lin_isReal _ _ (fun b n d => hx0 _) (fun j d => hx2 _) _ _ _
  have hG : ∀ i : S4096x4096.Idx, IsReal (atRefs (U2 m) c main_arg1 i) := fun i => by
    obtain ⟨n', k', rfl⟩ : ∃ (n' k' : Fin 4096), i = ix2 n' k' := ⟨i 0, i 1, eq_ix2 i⟩
    show IsReal (U2 m c main_arg1 (ix2 n' k')); rw [mask1_eq]; exact hx1 _
  rw [U3_v2]; unfold o3
  rw [attn1 (atRefs (U2 m)) c hH hG b n j]
  have e1 : (fun (b : Fin 8) (n : Fin 4096) (k : Fin 128) => atRefs (U2 m) c main_v0 (ix3 b n k)) = Cert.Spec.lin (aX m c) (aW1 m c) := by
    funext b n k; exact proj1_eq m c b n k
  have e2 : (fun (n k : Fin 4096) => atRefs (U2 m) c main_arg1 (ix2 n k)) = aG m c := by funext n k; exact mask1_eq m c n k
  have e3 : (fun (j : Fin 128) => atRefs (U2 m) c main_v1 (ix3 (0 : Fin 1) (0 : Fin 1) j)) = aB1 m c := by funext j; exact U2_v1 m c j
  rw [e1, e2, e3]; rfl

include hx0 hx1 hx2 hx3 in
/-- The second projection as the second attention finds it. -/
theorem proj2_eq (b : Fin 8) (n : Fin 4096) (k : Fin 64) :
    U5 m c main_v3 (ix3 b n k) = Cert.Spec.lin (fun b n j => max (Cert.Spec.layer (aX m c) (aG m c) (aW1 m c) (aB1 m c) b n j) 0) (aW2 m c) b n k := by
  rw [U5_v3]; unfold o4
  rw [lin2 (atRefs (U3 m)) c b n k]
  have e1 : (fun (b : Fin 8) (n : Fin 4096) (d : Fin 128) => atRefs (U3 m) c main_v2 (ix3 b n d))
      = fun b n j => max (Cert.Spec.layer (aX m c) (aG m c) (aW1 m c) (aB1 m c) b n j) 0 := by
    funext b n j; exact layer1_eq m c hx0 hx1 hx2 hx3 b n j
  have e2 : (fun (j : Fin 64) (d : Fin 128) => atRefs (U3 m) c main_arg4 (ix2 j d)) = aW2 m c := by funext j d; exact w2_eq m c j d
  rw [e1, e2]

include hx0 hx1 hx2 hx3 hx4 hx5 in
/-- THE RESULT: the result buffer, read at (b, n, 0, j), is the specification's network of the six argument arrays. -/
theorem result_value (b : Fin 8) (n : Fin 4096) (j : Fin 64) :
    U7 m c main_v6 (ix4 b n (0 : Fin 1) j) = Cert.Spec.net (aX m c) (aG m c) (aW1 m c) (aB1 m c) (aW2 m c) (aB2 m c) b n j := by
  have hl1 : ∀ b n j, IsReal (max (Cert.Spec.layer (aX m c) (aG m c) (aW1 m c) (aB1 m c) b n j) 0) := fun b n j =>
    IsReal.max (Cert.Spec.layer_isReal _ _ _ _ (fun b n d => hx0 _) (fun n k => hx1 _) (fun j d => hx2 _) (fun j => hx3 _) b n j) isReal_zero
  have hH : ∀ i : S8x4096x64.Idx, IsReal (atRefs (U5 m) c main_v3 i) := fun i => by
    obtain ⟨b', n', k', rfl⟩ : ∃ (b' : Fin 8) (n' : Fin 4096) (k' : Fin 64), i = ix3 b' n' k' := ⟨i 0, i 1, i 2, eq_ix3 i⟩
    show IsReal (U5 m c main_v3 (ix3 b' n' k')); rw [proj2_eq m c hx0 hx1 hx2 hx3]
    exact Cert.Spec.lin_isReal _ _ hl1 (fun j d => hx4 _) _ _ _
  have hG : ∀ i : S4096x4096.Idx, IsReal (atRefs (U5 m) c main_arg1 i) := fun i => by
    obtain ⟨n', k', rfl⟩ : ∃ (n' k' : Fin 4096), i = ix2 n' k' := ⟨i 0, i 1, eq_ix2 i⟩
    show IsReal (U5 m c main_arg1 (ix2 n' k')); rw [mask2_eq]; exact hx1 _
  rw [U7_v6]; unfold o6
  rw [attn3 (atRefs (U5 m)) c hH hG b n j]
  have e1 : (fun (b : Fin 8) (n : Fin 4096) (k : Fin 64) => atRefs (U5 m) c main_v3 (ix3 b n k))
      = Cert.Spec.lin (fun b n j => max (Cert.Spec.layer (aX m c) (aG m c) (aW1 m c) (aB1 m c) b n j) 0) (aW2 m c) := by
    funext b n k; exact proj2_eq m c hx0 hx1 hx2 hx3 b n k
  have e2 : (fun (n k : Fin 4096) => atRefs (U5 m) c main_arg1 (ix2 n k)) = aG m c := by funext n k; exact mask2_eq m c n k
  have e3 : (fun (j : Fin 64) => atRefs (U5 m) c main_v4 (ix3 (0 : Fin 1) (0 : Fin 1) j)) = aB2 m c := by funext j; exact U5_v4 m c j
  rw [e1, e2, e3]; rfl

end Network

end Cert.KernelIdeal.HandValue

end
-- ==== Proof.lean ====
/-
  The certificate of a two-layer dense masked-attention network: a Pallas program of four kernel regions (a row-tiled
  linear projection and a key-tiled attention with an online softmax, twice) against plain jnp.

  At the exact extended reals, for finite inputs, both programs compute the network of Proof/Spec.lean. The reference
  does so operation by operation. The kernel's projections are the same matrix products; its attention carries, per
  query row, a running maximum, a running normaliser and a running weighted sum over sixteen key tiles, from −∞, 0, 0,
  and divides at the end — and the running state after any number of tiles is the closed form over the keys seen, so the
  final quotient is the softmax-weighted sum with each division inside the sum, which is what the reference computes.
  Finiteness is used: the rescaling factor exp(m − m') cancels only on the reals. The masking constant −1e16 is the same
  finite word on both sides and is never evaluated.

  The three frame claims are the programs' runs with the results dropped; the ideal pass rewrote nothing.
-/
import proofs.«144140_j35399120453979_2_alg».proof.Defs
import proofs.«144140_j35399120453979_2_alg».proof.Proof.Gen.Kernel
import proofs.«144140_j35399120453979_2_alg».proof.Proof.Gen.KernelIdeal
import proofs.«144140_j35399120453979_2_alg».proof.Proof.Gen.ReferenceIdeal
import proofs.«144140_j35399120453979_2_alg».proof.Proof.Gen.Pre_finite_inputs
import proofs.«144140_j35399120453979_2_alg».proof.Proof.IFinite
import proofs.«144140_j35399120453979_2_alg».proof.Proof.RefSpec
import proofs.«144140_j35399120453979_2_alg».proof.Proof.RefRead
import proofs.«144140_j35399120453979_2_alg».proof.Proof.KRun
import proofs.«144140_j35399120453979_2_alg».proof.Proof.IValueFold

noncomputable section

namespace Cert.Proof

open Idealize.ShloMosaic Idealize.ShloMosaic.TcCoe Idealize.ShloMosaic.ValueIdx Idealize.SL.Sem

/-- The word-level kernel runs to the end with its arguments as launched. -/
theorem frame_k : Cert.frame_Kernel := fun m ρ _ =>
  (θ_run Cert.Kernel.defs _ _).mono (fun _ h c => (h c).2) (Cert.Kernel.Hand.run_main (F := Bits) m ρ)

/-- The idealized kernel runs to the end with its arguments as launched. -/
theorem frame_ki : Cert.frame_KernelIdeal := fun m ρ _ =>
  (θ_run Cert.KernelIdeal.defs _ _).mono (fun _ h c => (h c).2) (Cert.KernelIdeal.Hand.run_main (F := Ideal) m ρ)

/-- The idealized reference runs to the end with its arguments as launched. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the six arguments, both idealized programs end with the specification's network in their
    result buffers: the kernel's by its regions' values unwound through the run, the reference's operation by operation. -/
theorem algebraic : Cert.algebraic_KernelIdeal_ReferenceIdeal := by
  intro m ρ m' ρ' hpre hagree
  refine ⟨fun c => Cert.KernelIdeal.Hand.U7 m c Cert.KernelIdeal.main_v6, Cert.KernelIdeal.Hand.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := Cert.KernelIdeal.HandValue.finite_args m hpre c
  obtain ⟨a0, a1, a2, a3, a4, a5⟩ := hagree c
  rw [Cert.ReferenceIdeal.ReadP.val_main_v47_eq, a0, a1, a2, a3, a4, a5]
  funext i
  obtain ⟨b, n, u, j, rfl⟩ : ∃ (b : Fin 8) (n : Fin 4096) (u : Fin 1) (j : Fin 64), i = ix4 b n u j := ⟨i 0, i 1, i 2, i 3, eq_ix4 i⟩
  obtain rfl : u = 0 := Subsingleton.elim _ _
  exact (Cert.RefSpec.result_eq _ _ _ _ _ _ b n j).trans (Cert.KernelIdeal.HandValue.result_value m c h0 h1 h2 h3 h4 h5 b n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
